-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v289)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v289) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S3x24 : S_.BroadcastsInDim S3x24 (![] : Fin 0 → Fin S3x24.rank)
  reducesTo_S3x24_S_d0_1 : S3x24.ReducesTo [0, 1] S_
  bcast_S_S3x3 : S_.BroadcastsInDim S3x3 (![] : Fin 0 → Fin S3x3.rank)
  reducesTo_S3x3_S_d0_1 : S3x3.ReducesTo [0, 1] S_
  bcast_S_S3x8 : S_.BroadcastsInDim S3x8 (![] : Fin 0 → Fin S3x8.rank)
  reducesTo_S3x8_S_d0_1 : S3x8.ReducesTo [0, 1] S_
  bcast_S_S8 : S_.BroadcastsInDim S8 (![] : Fin 0 → Fin S8.rank)
  reducesTo_S8_S_d0 : S8.ReducesTo [0] S_
  bcast_S_S8x48 : S_.BroadcastsInDim S8x48 (![] : Fin 0 → Fin S8x48.rank)
  reducesTo_S8x48_S_d0_1 : S8x48.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x24 : S_.BroadcastsInDim S16x24 (![] : Fin 0 → Fin S16x24.rank)
  reducesTo_S16x24_S_d0_1 : S16x24.ReducesTo [0, 1] S_
  bcast_S_S16x8 : S_.BroadcastsInDim S16x8 (![] : Fin 0 → Fin S16x8.rank)
  reducesTo_S16x8_S_d0_1 : S16x8.ReducesTo [0, 1] S_
  bcast_S_S8x12 : S_.BroadcastsInDim S8x12 (![] : Fin 0 → Fin S8x12.rank)
  reducesTo_S8x12_S_d0_1 : S8x12.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg22 : FVec F S4 .f32) (main_v98 : IVec S_ 1) (main_v101 : IVec S8x4 1) (main_c_39 : IVec S_ 1) : IVec S_ 1 :=
  let main_v102 : IVec S_ 1 := (fun x v => Host.reduce IntOp.andi x v reducesTo_S8x4_S_d0_1 h_S_) main_v101 main_c_39
  let main_v103 : IVec S_ 1 := andi main_v98 main_v102
  let main_v104 : FVec F S4 .f32 := Host.absf main_arg22
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  main_v108

def fn_part5 {F : FTy → Type} [FloatOps F] (main_arg19 : FVec F S3x3 .f32) (main_arg20 : FVec F S3x3 .f32) (main_arg21 : FVec F S8x4 .f32) (main_arg22 : FVec F S4 .f32) (main_v83 : IVec S_ 1) (main_v84 : FVec F S8x12 .f32) (main_cst_32 : FVec F S_ .f32) : IVec S_ 1 :=
  let main_v85 : FVec F S8x12 .f32 := broadcastInDim S8x12 ![] bcast_S_S8x12 main_cst_32
  let main_v86 : IVec S8x12 1 := cmpf .olt main_v84 main_v85
  let main_c_33 : IVec S_ 1 := constantI S_ 1 1#1
  let main_v87 : IVec S_ 1 := (fun x v => Host.reduce IntOp.andi x v reducesTo_S8x12_S_d0_1 h_S_) main_v86 main_c_33
  let main_v88 : IVec S_ 1 := andi main_v83 main_v87
  let main_v89 : FVec F S3x3 .f32 := Host.absf main_arg19
  let main_cst_34 : FVec F S_ .f32 := constant S_ .f32 0x7F800000#32
  let main_v90 : FVec F S3x3 .f32 := broadcastInDim S3x3 ![] bcast_S_S3x3 main_cst_34
  let main_v91 : IVec S3x3 1 := cmpf .olt main_v89 main_v90
  let main_c_35 : IVec S_ 1 := constantI S_ 1 1#1
  let main_v92 : IVec S_ 1 := (fun x v => Host.reduce IntOp.andi x v reducesTo_S3x3_S_d0_1 h_S_) main_v91 main_c_35
  let main_v93 : IVec S_ 1 := andi main_v88 main_v92
  let main_v94 : FVec F S3x3 .f32 := Host.absf main_arg20
  let main_cst_36 : FVec F S_ .f32 := constant S_ .f32 0x7F800000#32
  let main_v95 : FVec F S3x3 .f32 := broadcastInDim S3x3 ![] bcast_S_S3x3 main_cst_36
  let main_v96 : IVec S3x3 1 := cmpf .olt main_v94 main_v95
  let main_c_37 : IVec S_ 1 := constantI S_ 1 1#1
  let main_v97 : IVec S_ 1 := (fun x v => Host.reduce IntOp.andi x v reducesTo_S3x3_S_d0_1 h_S_) main_v96 main_c_37
  let main_v98 : IVec S_ 1 := andi main_v93 main_v97
  let main_v99 : FVec F S8x4 .f32 := Host.absf main_arg21
  let main_cst_38 : FVec F S_ .f32 := constant S_ .f32 0x7F800000#32
  let main_v100 : FVec F S8x4 .f32 := broadcastInDim S8x4 ![] bcast_S_S8x4 main_cst_38
  let main_v101 : IVec S8x4 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v63 : IVec S_ 1) (main_v67 : IVec S_ 1) : IVec S_ 1 :=
  let main_v68 : IVec S_ 1 := andi main_v63 main_v67
  let main_v69 : FVec F S3x3 .f32 := Host.absf main_arg15
  let main_cst_26 : FVec F S_ .f32 := constant S_ .f32 0x7F800000#32
  let main_v70 : FVec F S3x3 .f32 := broadcastInDim S3x3 ![] bcast_S_S3x3 main_cst_26
  let main_v71 : IVec S3x3 1 := cmpf .olt main_v69 main_v70
  let main_c_27 : IVec S_ 1 := constantI S_ 1 1#1
  let main_v72 : IVec S_ 1 := (fun x v => Host.reduce IntOp.andi x v reducesTo_S3x3_S_d0_1 h_S_) main_v71 main_c_27
  let main_v73 : IVec S_ 1 := andi main_v68 main_v72
  let main_v74 : FVec F S16x8 .f32 := Host.absf main_arg16
  let main_cst_28 : FVec F S_ .f32 := constant S_ .f32 0x7F800000#32
  let main_v75 : FVec F S16x8 .f32 := broadcastInDim S16x8 ![] bcast_S_S16x8 main_cst_28
  let main_v76 : IVec S16x8 1 := cmpf .olt main_v74 main_v75
  let main_c_29 : IVec S_ 1 := constantI S_ 1 1#1
  let main_v77 : IVec S_ 1 := (fun x v => Host.reduce IntOp.andi x v reducesTo_S16x8_S_d0_1 h_S_) main_v76 main_c_29
  let main_v78 : IVec S_ 1 := andi main_v73 main_v77
  let main_v79 : FVec F S8 .f32 := Host.absf main_arg17
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x12 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v48 : IVec S_ 1) (main_v49 : FVec F S8x16 .f32) (main_v50 : FVec F S8x16 .f32) : IVec S_ 1 :=
  let main_v51 : IVec S8x16 1 := cmpf .olt main_v49 main_v50
  let main_c_19 : IVec S_ 1 := constantI S_ 1 1#1
  let main_v52 : IVec S_ 1 := (fun x v => Host.reduce IntOp.andi x v reducesTo_S8x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x24 .f32 := Host.absf main_arg13
  let main_cst_22 : FVec F S_ .f32 := constant S_ .f32 0x7F800000#32
  let main_v60 : FVec F S16x24 .f32 := broadcastInDim S16x24 ![] bcast_S_S16x24 main_cst_22
  let main_v61 : IVec S16x24 1 := cmpf .olt main_v59 main_v60
  let main_c_23 : IVec S_ 1 := constantI S_ 1 1#1
  let main_v62 : IVec S_ 1 := (fun x v => Host.reduce IntOp.andi x v reducesTo_S16x24_S_d0_1 h_S_) main_v61 main_c_23
  let main_v63 : IVec S_ 1 := andi main_v58 main_v62
  let main_v64 : FVec F S3x3 .f32 := Host.absf main_arg14
  let main_cst_24 : FVec F S_ .f32 := constant S_ .f32 0x7F800000#32
  let main_v65 : FVec F S3x3 .f32 := broadcastInDim S3x3 ![] bcast_S_S3x3 main_cst_24
  let main_v66 : IVec S3x3 1 := cmpf .olt main_v64 main_v65
  let main_c_25 : IVec S_ 1 := constantI S_ 1 1#1
  let main_v67 : IVec S_ 1 := (fun x v => Host.reduce IntOp.andi x v reducesTo_S3x3_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v33 : IVec S_ 1) : IVec S_ 1 :=
  let main_v34 : FVec F S8x48 .f32 := Host.absf main_arg8
  let main_cst_12 : FVec F S_ .f32 := constant S_ .f32 0x7F800000#32
  let main_v35 : FVec F S8x48 .f32 := broadcastInDim S8x48 ![] bcast_S_S8x48 main_cst_12
  let main_v36 : IVec S8x48 1 := cmpf .olt main_v34 main_v35
  let main_c_13 : IVec S_ 1 := constantI S_ 1 1#1
  let main_v37 : IVec S_ 1 := (fun x v => Host.reduce IntOp.andi x v reducesTo_S8x48_S_d0_1 h_S_) main_v36 main_c_13
  let main_v38 : IVec S_ 1 := andi main_v33 main_v37
  let main_v39 : FVec F S3x3 .f32 := Host.absf main_arg9
  let main_cst_14 : FVec F S_ .f32 := constant S_ .f32 0x7F800000#32
  let main_v40 : FVec F S3x3 .f32 := broadcastInDim S3x3 ![] bcast_S_S3x3 main_cst_14
  let main_v41 : IVec S3x3 1 := cmpf .olt main_v39 main_v40
  let main_c_15 : IVec S_ 1 := constantI S_ 1 1#1
  let main_v42 : IVec S_ 1 := (fun x v => Host.reduce IntOp.andi x v reducesTo_S3x3_S_d0_1 h_S_) main_v41 main_c_15
  let main_v43 : IVec S_ 1 := andi main_v38 main_v42
  let main_v44 : FVec F S3x3 .f32 := Host.absf main_arg10
  let main_cst_16 : FVec F S_ .f32 := constant S_ .f32 0x7F800000#32
  let main_v45 : FVec F S3x3 .f32 := broadcastInDim S3x3 ![] bcast_S_S3x3 main_cst_16
  let main_v46 : IVec S3x3 1 := cmpf .olt main_v44 main_v45
  let main_c_17 : IVec S_ 1 := constantI S_ 1 1#1
  let main_v47 : IVec S_ 1 := (fun x v => Host.reduce IntOp.andi x v reducesTo_S3x3_S_d0_1 h_S_) main_v46 main_c_17
  let main_v48 : IVec S_ 1 := andi main_v43 main_v47
  let main_v49 : FVec F S8x16 .f32 := Host.absf main_arg11
  let main_cst_18 : FVec F S_ .f32 := constant S_ .f32 0x7F800000#32
  let main_v50 : FVec F S8x16 .f32 := broadcastInDim S8x16 ![] bcast_S_S8x16 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S3x3 .f32) (main_arg6 : FVec F S3x8 .f32) (main_arg7 : FVec F S8 .f32) (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3x3 .f32 := Host.absf main_arg5
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3x8 .f32 := Host.absf main_arg6
  let main_cst_8 : FVec F S_ .f32 := constant S_ .f32 0x7F800000#32
  let main_v25 : FVec F S3x8 .f32 := broadcastInDim S3x8 ![] bcast_S_S3x8 main_cst_8
  let main_v26 : IVec S3x8 1 := cmpf .olt main_v24 main_v25
  let main_c_9 : IVec S_ 1 := constantI S_ 1 1#1
  let main_v27 : IVec S_ 1 := (fun x v => Host.reduce IntOp.andi x v reducesTo_S3x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x3 .f32) (main_arg1 : IVec S2x3200000 32) (main_arg2 : FVec F S3200000x3 .f32) (main_arg3 : FVec F S3x24 .f32) (main_arg4 : FVec F S3x3 .f32) (main_arg5 : FVec F S3x3 .f32) (main_arg6 : FVec F S3x8 .f32) (main_arg7 : FVec F S8 .f32) (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S3x24 .f32 := Host.absf main_arg3
  let main_cst_2 : FVec F S_ .f32 := constant S_ .f32 0x7F800000#32
  let main_v10 : FVec F S3x24 .f32 := broadcastInDim S3x24 ![] bcast_S_S3x24 main_cst_2
  let main_v11 : IVec S3x24 1 := cmpf .olt main_v9 main_v10
  let main_c_3 : IVec S_ 1 := constantI S_ 1 1#1
  let main_v12 : IVec S_ 1 := (fun x v => Host.reduce IntOp.andi x v reducesTo_S3x24_S_d0_1 h_S_) main_v11 main_c_3
  let main_v13 : IVec S_ 1 := andi main_v8 main_v12
  let main_v14 : FVec F S3x3 .f32 := Host.absf main_arg4
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3x3200000 : Shape := ⟨2, ![3, 3200000]⟩
abbrev S3x100000 : Shape := ⟨2, ![3, 100000]⟩
abbrev S24x3 : Shape := ⟨2, ![24, 3]⟩
abbrev S8x3200000 : Shape := ⟨2, ![8, 3200000]⟩
abbrev S3x25600 : Shape := ⟨2, ![3, 25600]⟩
abbrev S8x25600 : Shape := ⟨2, ![8, 25600]⟩
abbrev S24x25600 : Shape := ⟨2, ![24, 25600]⟩
abbrev S1x3 : Shape := ⟨2, ![1, 3]⟩
abbrev S3 : Shape := ⟨1, ![3]⟩
abbrev S3x1 : Shape := ⟨2, ![3, 1]⟩
abbrev S25600 : Shape := ⟨1, ![25600]⟩
abbrev S1x25600 : Shape := ⟨2, ![1, 25600]⟩
abbrev S100000x8 : Shape := ⟨2, ![100000, 8]⟩
abbrev S1x8 : Shape := ⟨2, ![1, 8]⟩
abbrev S4000x3 : Shape := ⟨2, ![4000, 3]⟩
abbrev S4000x8 : Shape := ⟨2, ![4000, 8]⟩
abbrev S4000x1 : Shape := ⟨2, ![4000, 1]⟩
abbrev S8x100000 : Shape := ⟨2, ![8, 100000]⟩
abbrev S48x8 : Shape := ⟨2, ![48, 8]⟩
abbrev S16x3200000 : Shape := ⟨2, ![16, 3200000]⟩
abbrev S16x25600 : Shape := ⟨2, ![16, 25600]⟩
abbrev S48x25600 : Shape := ⟨2, ![48, 25600]⟩
abbrev S100000x16 : Shape := ⟨2, ![100000, 16]⟩
abbrev S1x16 : Shape := ⟨2, ![1, 16]⟩
abbrev S4000x16 : Shape := ⟨2, ![4000, 16]⟩
abbrev S16x100000 : Shape := ⟨2, ![16, 100000]⟩
abbrev S24x16 : Shape := ⟨2, ![24, 16]⟩
abbrev S12x8 : Shape := ⟨2, ![12, 8]⟩
abbrev S4x3200000 : Shape := ⟨2, ![4, 3200000]⟩
abbrev S4x25600 : Shape := ⟨2, ![4, 25600]⟩
abbrev S12x25600 : Shape := ⟨2, ![12, 25600]⟩
abbrev S100000x4 : Shape := ⟨2, ![100000, 4]⟩
abbrev S1x4 : Shape := ⟨2, ![1, 4]⟩
abbrev S4000x4 : Shape := ⟨2, ![4000, 4]⟩

abbrev nBuf : Space → Nat
  | .hbm => 361
  | .vmem => 76
  | .smem => 0
  | _ => 0

abbrev hbmTy0_0 (i : Nat) : BufTy := match i % 128 with
  | 0 => ⟨S100000x3, .f32⟩
  | 1 => ⟨S2x3200000, .i32⟩
  | 2 => ⟨S3200000x3, .f32⟩
  | 3 => ⟨S3x24, .f32⟩
  | 4 => ⟨S3x3, .f32⟩
  | 5 => ⟨S3x3, .f32⟩
  | 6 => ⟨S3x8, .f32⟩
  | 7 => ⟨S8, .f32⟩
  | 8 => ⟨S8x48, .f32⟩
  | 9 => ⟨S3x3, .f32⟩
  | 10 => ⟨S3x3, .f32⟩
  | 11 => ⟨S8x16, .f32⟩
  | 12 => ⟨S16, .f32⟩
  | 13 => ⟨S16x24, .f32⟩
  | 14 => ⟨S3x3, .f32⟩
  | 15 => ⟨S3x3, .f32⟩
  | 16 => ⟨S16x8, .f32⟩
  | 17 => ⟨S8, .f32⟩
  | 18 => ⟨S8x12, .f32⟩
  | 19 => ⟨S3x3, .f32⟩
  | 20 => ⟨S3x3, .f32⟩
  | 21 => ⟨S8x4, .f32⟩
  | 22 => ⟨S4, .f32⟩
  | 23 => ⟨S1x3200000, .i32⟩
  | 24 => ⟨S3200000, .i32⟩
  | 25 => ⟨S1x3200000, .i32⟩
  | 26 => ⟨S3200000, .i32⟩
  | 27 => ⟨S_, .f32⟩
  | 28 => ⟨S3200000, .f32⟩
  | 29 => ⟨S_, .f32⟩
  | 30 => ⟨S100000, .f32⟩
  | 31 => ⟨S3200000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S3x3200000, .f32⟩
  | 41 => ⟨S100000x3, .bf16⟩
  | 42 => ⟨S3x100000, .bf16⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3x3200000, .bf16⟩
  | 52 => ⟨S24x3, .f32⟩
  | 53 => ⟨S24x3, .bf16⟩
  | 54 => ⟨S8x3200000, .f32⟩
  | 55 => ⟨S1x3200000, .f32⟩
  | 56 => ⟨S3200000, .f32⟩
  | 57 => ⟨S_, .f32⟩
  | 58 => ⟨S100000, .f32⟩
  | 59 => ⟨S3200000x1, .i32⟩
  | 60 => ⟨S100000, .f32⟩
  | 61 => ⟨S1x3200000, .f32⟩
  | 62 => ⟨S3200000, .f32⟩
  | 63 => ⟨S_, .f32⟩
  | 64 => ⟨S100000, .f32⟩
  | 65 => ⟨S3200000x1, .i32⟩
  | 66 => ⟨S100000, .f32⟩
  | 67 => ⟨S1x3200000, .f32⟩
  | 68 => ⟨S3200000, .f32⟩
  | 69 => ⟨S_, .f32⟩
  | 70 => ⟨S100000, .f32⟩
  | 71 => ⟨S3200000x1, .i32⟩
  | 72 => ⟨S100000, .f32⟩
  | 73 => ⟨S1x3200000, .f32⟩
  | 74 => ⟨S3200000, .f32⟩
  | 75 => ⟨S_, .f32⟩
  | 76 => ⟨S100000, .f32⟩
  | 77 => ⟨S3200000x1, .i32⟩
  | 78 => ⟨S100000, .f32⟩
  | 79 => ⟨S1x3200000, .f32⟩
  | 80 => ⟨S3200000, .f32⟩
  | 81 => ⟨S_, .f32⟩
  | 82 => ⟨S100000, .f32⟩
  | 83 => ⟨S3200000x1, .i32⟩
  | 84 => ⟨S100000, .f32⟩
  | 85 => ⟨S1x3200000, .f32⟩
  | 86 => ⟨S3200000, .f32⟩
  | 87 => ⟨S_, .f32⟩
  | 88 => ⟨S100000, .f32⟩
  | 89 => ⟨S3200000x1, .i32⟩
  | 90 => ⟨S100000, .f32⟩
  | 91 => ⟨S1x3200000, .f32⟩
  | 92 => ⟨S3200000, .f32⟩
  | 93 => ⟨S_, .f32⟩
  | 94 => ⟨S100000, .f32⟩
  | 95 => ⟨S3200000x1, .i32⟩
  | 96 => ⟨S100000, .f32⟩
  | 97 => ⟨S1x3200000, .f32⟩
  | 98 => ⟨S3200000, .f32⟩
  | 99 => ⟨S_, .f32⟩
  | 100 => ⟨S100000, .f32⟩
  | 101 => ⟨S3200000x1, .i32⟩
  | 102 => ⟨S100000, .f32⟩
  | 103 => ⟨S100000x1, .f32⟩
  | 104 => ⟨S100000x1, .f32⟩
  | 105 => ⟨S100000x1, .f32⟩
  | 106 => ⟨S100000x1, .f32⟩
  | 107 => ⟨S100000x1, .f32⟩
  | 108 => ⟨S100000x1, .f32⟩
  | 109 => ⟨S100000x1, .f32⟩
  | 110 => ⟨S100000x1, .f32⟩
  | 111 => ⟨S100000x8, .f32⟩
  | 112 => ⟨S1x8, .f32⟩
  | 113 => ⟨S100000x8, .f32⟩
  | 114 => ⟨S100000x8, .bf16⟩
  | 115 => ⟨S8x100000, .bf16⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S8x3200000, .bf16⟩
  | 125 => ⟨S48x8, .f32⟩
  | 126 => ⟨S48x8, .bf16⟩
  | 127 => ⟨S16x3200000, .f32⟩
  | _ => ⟨S100000x3, .f32⟩

abbrev hbmTy0_1 (i : Nat) : BufTy := match i % 128 with
  | 0 => ⟨S1x3200000, .f32⟩
  | 1 => ⟨S3200000, .f32⟩
  | 2 => ⟨S_, .f32⟩
  | 3 => ⟨S100000, .f32⟩
  | 4 => ⟨S3200000x1, .i32⟩
  | 5 => ⟨S100000, .f32⟩
  | 6 => ⟨S1x3200000, .f32⟩
  | 7 => ⟨S3200000, .f32⟩
  | 8 => ⟨S_, .f32⟩
  | 9 => ⟨S100000, .f32⟩
  | 10 => ⟨S3200000x1, .i32⟩
  | 11 => ⟨S100000, .f32⟩
  | 12 => ⟨S1x3200000, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S1x3200000, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S1x3200000, .f32⟩
  | 25 => ⟨S3200000, .f32⟩
  | 26 => ⟨S_, .f32⟩
  | 27 => ⟨S100000, .f32⟩
  | 28 => ⟨S3200000x1, .i32⟩
  | 29 => ⟨S100000, .f32⟩
  | 30 => ⟨S1x3200000, .f32⟩
  | 31 => ⟨S3200000, .f32⟩
  | 32 => ⟨S_, .f32⟩
  | 33 => ⟨S100000, .f32⟩
  | 34 => ⟨S3200000x1, .i32⟩
  | 35 => ⟨S100000, .f32⟩
  | 36 => ⟨S1x3200000, .f32⟩
  | 37 => ⟨S3200000, .f32⟩
  | 38 => ⟨S_, .f32⟩
  | 39 => ⟨S100000, .f32⟩
  | 40 => ⟨S3200000x1, .i32⟩
  | 41 => ⟨S100000, .f32⟩
  | 42 => ⟨S1x3200000, .f32⟩
  | 43 => ⟨S3200000, .f32⟩
  | 44 => ⟨S_, .f32⟩
  | 45 => ⟨S100000, .f32⟩
  | 46 => ⟨S3200000x1, .i32⟩
  | 47 => ⟨S100000, .f32⟩
  | 48 => ⟨S1x3200000, .f32⟩
  | 49 => ⟨S3200000, .f32⟩
  | 50 => ⟨S_, .f32⟩
  | 51 => ⟨S100000, .f32⟩
  | 52 => ⟨S3200000x1, .i32⟩
  | 53 => ⟨S100000, .f32⟩
  | 54 => ⟨S1x3200000, .f32⟩
  | 55 => ⟨S3200000, .f32⟩
  | 56 => ⟨S_, .f32⟩
  | 57 => ⟨S100000, .f32⟩
  | 58 => ⟨S3200000x1, .i32⟩
  | 59 => ⟨S100000, .f32⟩
  | 60 => ⟨S1x3200000, .f32⟩
  | 61 => ⟨S3200000, .f32⟩
  | 62 => ⟨S_, .f32⟩
  | 63 => ⟨S100000, .f32⟩
  | 64 => ⟨S3200000x1, .i32⟩
  | 65 => ⟨S100000, .f32⟩
  | 66 => ⟨S1x3200000, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S1x3200000, .f32⟩
  | 73 => ⟨S3200000, .f32⟩
  | 74 => ⟨S_, .f32⟩
  | 75 => ⟨S100000, .f32⟩
  | 76 => ⟨S3200000x1, .i32⟩
  | 77 => ⟨S100000, .f32⟩
  | 78 => ⟨S1x3200000, .f32⟩
  | 79 => ⟨S3200000, .f32⟩
  | 80 => ⟨S_, .f32⟩
  | 81 => ⟨S100000, .f32⟩
  | 82 => ⟨S3200000x1, .i32⟩
  | 83 => ⟨S100000, .f32⟩
  | 84 => ⟨S1x3200000, .f32⟩
  | 85 => ⟨S3200000, .f32⟩
  | 86 => ⟨S_, .f32⟩
  | 87 => ⟨S100000, .f32⟩
  | 88 => ⟨S3200000x1, .i32⟩
  | 89 => ⟨S100000, .f32⟩
  | 90 => ⟨S1x3200000, .f32⟩
  | 91 => ⟨S3200000, .f32⟩
  | 92 => ⟨S_, .f32⟩
  | 93 => ⟨S100000, .f32⟩
  | 94 => ⟨S3200000x1, .i32⟩
  | 95 => ⟨S100000, .f32⟩
  | 96 => ⟨S100000x1, .f32⟩
  | 97 => ⟨S100000x1, .f32⟩
  | 98 => ⟨S100000x1, .f32⟩
  | 99 => ⟨S100000x1, .f32⟩
  | 100 => ⟨S100000x1, .f32⟩
  | 101 => ⟨S100000x1, .f32⟩
  | 102 => ⟨S100000x1, .f32⟩
  | 103 => ⟨S100000x1, .f32⟩
  | 104 => ⟨S100000x1, .f32⟩
  | 105 => ⟨S100000x1, .f32⟩
  | 106 => ⟨S100000x1, .f32⟩
  | 107 => ⟨S100000x1, .f32⟩
  | 108 => ⟨S100000x1, .f32⟩
  | 109 => ⟨S100000x1, .f32⟩
  | 110 => ⟨S100000x1, .f32⟩
  | 111 => ⟨S100000x1, .f32⟩
  | 112 => ⟨S100000x16, .f32⟩
  | 113 => ⟨S1x16, .f32⟩
  | 114 => ⟨S100000x16, .f32⟩
  | 115 => ⟨S100000x16, .bf16⟩
  | 116 => ⟨S16x100000, .bf16⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S16x3200000, .bf16⟩
  | 126 => ⟨S24x16, .f32⟩
  | 127 => ⟨S24x16, .bf16⟩
  | _ => ⟨S100000x3, .f32⟩

abbrev hbmTy0_2 (i : Nat) : BufTy := match i % 128 with
  | 0 => ⟨S8x3200000, .f32⟩
  | 1 => ⟨S1x3200000, .f32⟩
  | 2 => ⟨S3200000, .f32⟩
  | 3 => ⟨S_, .f32⟩
  | 4 => ⟨S100000, .f32⟩
  | 5 => ⟨S3200000x1, .i32⟩
  | 6 => ⟨S100000, .f32⟩
  | 7 => ⟨S1x3200000, .f32⟩
  | 8 => ⟨S3200000, .f32⟩
  | 9 => ⟨S_, .f32⟩
  | 10 => ⟨S100000, .f32⟩
  | 11 => ⟨S3200000x1, .i32⟩
  | 12 => ⟨S100000, .f32⟩
  | 13 => ⟨S1x3200000, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S1x3200000, .f32⟩
  | 20 => ⟨S3200000, .f32⟩
  | 21 => ⟨S_, .f32⟩
  | 22 => ⟨S100000, .f32⟩
  | 23 => ⟨S3200000x1, .i32⟩
  | 24 => ⟨S100000, .f32⟩
  | 25 => ⟨S1x3200000, .f32⟩
  | 26 => ⟨S3200000, .f32⟩
  | 27 => ⟨S_, .f32⟩
  | 28 => ⟨S100000, .f32⟩
  | 29 => ⟨S3200000x1, .i32⟩
  | 30 => ⟨S100000, .f32⟩
  | 31 => ⟨S1x3200000, .f32⟩
  | 32 => ⟨S3200000, .f32⟩
  | 33 => ⟨S_, .f32⟩
  | 34 => ⟨S100000, .f32⟩
  | 35 => ⟨S3200000x1, .i32⟩
  | 36 => ⟨S100000, .f32⟩
  | 37 => ⟨S1x3200000, .f32⟩
  | 38 => ⟨S3200000, .f32⟩
  | 39 => ⟨S_, .f32⟩
  | 40 => ⟨S100000, .f32⟩
  | 41 => ⟨S3200000x1, .i32⟩
  | 42 => ⟨S100000, .f32⟩
  | 43 => ⟨S1x3200000, .f32⟩
  | 44 => ⟨S3200000, .f32⟩
  | 45 => ⟨S_, .f32⟩
  | 46 => ⟨S100000, .f32⟩
  | 47 => ⟨S3200000x1, .i32⟩
  | 48 => ⟨S100000, .f32⟩
  | 49 => ⟨S100000x1, .f32⟩
  | 50 => ⟨S100000x1, .f32⟩
  | 51 => ⟨S100000x1, .f32⟩
  | 52 => ⟨S100000x1, .f32⟩
  | 53 => ⟨S100000x1, .f32⟩
  | 54 => ⟨S100000x1, .f32⟩
  | 55 => ⟨S100000x1, .f32⟩
  | 56 => ⟨S100000x1, .f32⟩
  | 57 => ⟨S100000x8, .f32⟩
  | 58 => ⟨S1x8, .f32⟩
  | 59 => ⟨S100000x8, .f32⟩
  | 60 => ⟨S100000x8, .bf16⟩
  | 61 => ⟨S8x100000, .bf16⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S8x3200000, .bf16⟩
  | 71 => ⟨S12x8, .f32⟩
  | 72 => ⟨S12x8, .bf16⟩
  | 73 => ⟨S4x3200000, .f32⟩
  | 74 => ⟨S1x3200000, .f32⟩
  | 75 => ⟨S3200000, .f32⟩
  | 76 => ⟨S_, .f32⟩
  | 77 => ⟨S100000, .f32⟩
  | 78 => ⟨S3200000x1, .i32⟩
  | 79 => ⟨S100000, .f32⟩
  | 80 => ⟨S1x3200000, .f32⟩
  | 81 => ⟨S3200000, .f32⟩
  | 82 => ⟨S_, .f32⟩
  | 83 => ⟨S100000, .f32⟩
  | 84 => ⟨S3200000x1, .i32⟩
  | 85 => ⟨S100000, .f32⟩
  | 86 => ⟨S1x3200000, .f32⟩
  | 87 => ⟨S3200000, .f32⟩
  | 88 => ⟨S_, .f32⟩
  | 89 => ⟨S100000, .f32⟩
  | 90 => ⟨S3200000x1, .i32⟩
  | 91 => ⟨S100000, .f32⟩
  | 92 => ⟨S1x3200000, .f32⟩
  | 93 => ⟨S3200000, .f32⟩
  | 94 => ⟨S_, .f32⟩
  | 95 => ⟨S100000, .f32⟩
  | 96 => ⟨S3200000x1, .i32⟩
  | 97 => ⟨S100000, .f32⟩
  | 98 => ⟨S100000x1, .f32⟩
  | 99 => ⟨S100000x1, .f32⟩
  | 100 => ⟨S100000x1, .f32⟩
  | 101 => ⟨S100000x1, .f32⟩
  | 102 => ⟨S100000x4, .f32⟩
  | 103 => ⟨S1x4, .f32⟩
  | 104 => ⟨S100000x4, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | .local _ .vmem, ⟨0, _⟩ => ⟨S3x25600, .bf16⟩
  | .local _ .vmem, ⟨1, _⟩ => ⟨S3x25600, .bf16⟩
  | .local _ .vmem, ⟨2, _⟩ => ⟨S3x25600, .f32⟩
  | .local _ .vmem, ⟨3, _⟩ => ⟨S3x25600, .f32⟩
  | .local _ .vmem, ⟨4, _⟩ => ⟨S24x3, .bf16⟩
  | .local _ .vmem, ⟨5, _⟩ => ⟨S3x3, .f32⟩
  | .local _ .vmem, ⟨6, _⟩ => ⟨S3x3, .f32⟩
  | .local _ .vmem, ⟨7, _⟩ => ⟨S8x25600, .f32⟩
  | .local _ .vmem, ⟨8, _⟩ => ⟨S8x25600, .f32⟩
  | .local _ .vmem, ⟨9, _⟩ => ⟨S4000x3, .bf16⟩
  | .local _ .vmem, ⟨10, _⟩ => ⟨S4000x3, .bf16⟩
  | .local _ .vmem, ⟨11, _⟩ => ⟨S3x8, .f32⟩
  | .local _ .vmem, ⟨12, _⟩ => ⟨S1x8, .f32⟩
  | .local _ .vmem, ⟨13, _⟩ => ⟨S4000x8, .f32⟩
  | .local _ .vmem, ⟨14, _⟩ => ⟨S4000x8, .f32⟩
  | .local _ .vmem, ⟨15, _⟩ => ⟨S4000x1, .f32⟩
  | .local _ .vmem, ⟨16, _⟩ => ⟨S4000x1, .f32⟩
  | .local _ .vmem, ⟨17, _⟩ => ⟨S4000x8, .f32⟩
  | .local _ .vmem, ⟨18, _⟩ => ⟨S4000x8, .f32⟩
  | .local _ .vmem, ⟨19, _⟩ => ⟨S8x25600, .bf16⟩
  | .local _ .vmem, ⟨20, _⟩ => ⟨S8x25600, .bf16⟩
  | .local _ .vmem, ⟨21, _⟩ => ⟨S3x25600, .f32⟩
  | .local _ .vmem, ⟨22, _⟩ => ⟨S3x25600, .f32⟩
  | .local _ .vmem, ⟨23, _⟩ => ⟨S48x8, .bf16⟩
  | .local _ .vmem, ⟨24, _⟩ => ⟨S3x3, .f32⟩
  | .local _ .vmem, ⟨25, _⟩ => ⟨S3x3, .f32⟩
  | .local _ .vmem, ⟨26, _⟩ => ⟨S16x25600, .f32⟩
  | .local _ .vmem, ⟨27, _⟩ => ⟨S16x25600, .f32⟩
  | .local _ .vmem, ⟨28, _⟩ => ⟨S4000x8, .bf16⟩
  | .local _ .vmem, ⟨29, _⟩ => ⟨S4000x8, .bf16⟩
  | .local _ .vmem, ⟨30, _⟩ => ⟨S8x16, .f32⟩
  | .local _ .vmem, ⟨31, _⟩ => ⟨S1x16, .f32⟩
  | .local _ .vmem, ⟨32, _⟩ => ⟨S4000x16, .f32⟩
  | .local _ .vmem, ⟨33, _⟩ => ⟨S4000x16, .f32⟩
  | .local _ .vmem, ⟨34, _⟩ => ⟨S4000x1, .f32⟩
  | .local _ .vmem, ⟨35, _⟩ => ⟨S4000x1, .f32⟩
  | .local _ .vmem, ⟨36, _⟩ => ⟨S4000x16, .f32⟩
  | .local _ .vmem, ⟨37, _⟩ => ⟨S4000x16, .f32⟩
  | .local _ .vmem, ⟨38, _⟩ => ⟨S16x25600, .bf16⟩
  | .local _ .vmem, ⟨39, _⟩ => ⟨S16x25600, .bf16⟩
  | .local _ .vmem, ⟨40, _⟩ => ⟨S3x25600, .f32⟩
  | .local _ .vmem, ⟨41, _⟩ => ⟨S3x25600, .f32⟩
  | .local _ .vmem, ⟨42, _⟩ => ⟨S24x16, .bf16⟩
  | .local _ .vmem, ⟨43, _⟩ => ⟨S3x3, .f32⟩
  | .local _ .vmem, ⟨44, _⟩ => ⟨S3x3, .f32⟩
  | .local _ .vmem, ⟨45, _⟩ => ⟨S8x25600, .f32⟩
  | .local _ .vmem, ⟨46, _⟩ => ⟨S8x25600, .f32⟩
  | .local _ .vmem, ⟨47, _⟩ => ⟨S4000x16, .bf16⟩
  | .local _ .vmem, ⟨48, _⟩ => ⟨S4000x16, .bf16⟩
  | .local _ .vmem, ⟨49, _⟩ => ⟨S16x8, .f32⟩
  | .local _ .vmem, ⟨50, _⟩ => ⟨S1x8, .f32⟩
  | .local _ .vmem, ⟨51, _⟩ => ⟨S4000x8, .f32⟩
  | .local _ .vmem, ⟨52, _⟩ => ⟨S4000x8, .f32⟩
  | .local _ .vmem, ⟨53, _⟩ => ⟨S4000x1, .f32⟩
  | .local _ .vmem, ⟨54, _⟩ => ⟨S4000x1, .f32⟩
  | .local _ .vmem, ⟨55, _⟩ => ⟨S4000x8, .f32⟩
  | .local _ .vmem, ⟨56, _⟩ => ⟨S4000x8, .f32⟩
  | .local _ .vmem, ⟨57, _⟩ => ⟨S8x25600, .bf16⟩
  | .local _ .vmem, ⟨58, _⟩ => ⟨S8x25600, .bf16⟩
  | .local _ .vmem, ⟨59, _⟩ => ⟨S3x25600, .f32⟩
  | .local _ .vmem, ⟨60, _⟩ => ⟨S3x25600, .f32⟩
  | .local _ .vmem, ⟨61, _⟩ => ⟨S12x8, .bf16⟩
  | .local _ .vmem, ⟨62, _⟩ => ⟨S3x3, .f32⟩
  | .local _ .vmem, ⟨63, _⟩ => ⟨S3x3, .f32⟩
  | .local _ .vmem, ⟨64, _⟩ => ⟨S4x25600, .f32⟩
  | .local _ .vmem, ⟨65, _⟩ => ⟨S4x25600, .f32⟩
  | .local _ .vmem, ⟨66, _⟩ => ⟨S4000x8, .bf16⟩
  | .local _ .vmem, ⟨67, _⟩ => ⟨S4000x8, .bf16⟩
  | .local _ .vmem, ⟨68, _⟩ => ⟨S8x4, .f32⟩
  | .local _ .vmem, ⟨69, _⟩ => ⟨S1x4, .f32⟩
  | .local _ .vmem, ⟨70, _⟩ => ⟨S4000x4, .f32⟩
  | .local _ .vmem, ⟨71, _⟩ => ⟨S4000x4, .f32⟩
  | .local _ .vmem, ⟨72, _⟩ => ⟨S4000x1, .f32⟩
  | .local _ .vmem, ⟨73, _⟩ => ⟨S4000x1, .f32⟩
  | .local _ .vmem, ⟨74, _⟩ => ⟨S4000x4, .f32⟩
  | .local _ .vmem, ⟨75, _⟩ => ⟨S4000x4, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_12 : Ref sig .tc := ⟨.hbm, 116, rfl⟩
abbrev main_v79 : Ref sig .tc := ⟨.hbm, 117, rfl⟩
abbrev main_v80 : Ref sig .tc := ⟨.hbm, 118, rfl⟩
abbrev main_c_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_14 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_16 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_17 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_18 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_19 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_21 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_22 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_23 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_24 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_25 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_26 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_27 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_28 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_29 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_c_30 : Ref sig .tc := ⟨.hbm, 245, rfl⟩
abbrev main_v190 : Ref sig .tc := ⟨.hbm, 246, rfl⟩
abbrev main_v191 : Ref sig .tc := ⟨.hbm, 247, rfl⟩
abbrev main_c_31 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_32 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_cst_33 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_cst_34 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_cst_35 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_36 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_37 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_38 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_39 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_c_40 : Ref sig .tc := ⟨.hbm, 318, rfl⟩
abbrev main_v253 : Ref sig .tc := ⟨.hbm, 319, rfl⟩
abbrev main_v254 : Ref sig .tc := ⟨.hbm, 320, rfl⟩
abbrev main_c_41 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_cst_42 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_cst_43 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_cst_44 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_cst_45 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg5_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc7_sem4_0 : DmaSem sig := 72
abbrev cc7_sem4_1 : DmaSem sig := 73
abbrev cc7_sem5_0 : DmaSem sig := 74
abbrev cc7_sem5_1 : DmaSem sig := 75

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x25600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x25600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S8x25600 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x25600 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S48x8 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16x25600 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x8 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S16x25600 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3x25600 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S24x16 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S3x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8x25600 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x16 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4000x8 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S8x25600 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3x25600 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S12x8 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S3x3 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4x25600 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x8 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x4 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4000x4 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  transposes_S3200000x3_S3x3200000_1_0 : S3200000x3.Transposes [1, 0] S3x3200000
  bitsLt_bf16_f32 : FTy.bits .bf16 < FTy.bits .f32
  transposes_S100000x3_S3x100000_1_0 : S100000x3.Transposes [1, 0] S3x100000
  transposes_S3x24_S24x3_1_0 : S3x24.Transposes [1, 0] S24x3
  inb_S3x25600_S3x25600_0_0 : ∀ a, (![0, 0] : Fin 2 → Nat) a + S3x25600.size a ≤ S3x25600.size a
  h_S3x25600 : 0 < S3x25600.numel
  shapeCasts_S3x25600_S3x25600 : S3x25600.ShapeCasts S3x25600
  inb_S24x3_S24x3_0_0 : ∀ a, (![0, 0] : Fin 2 → Nat) a + S24x3.size a ≤ S24x3.size a
  h_S24x3 : 0 < S24x3.numel
  shapeCasts_S24x3_S24x3 : S24x3.ShapeCasts S24x3
  inb_S3x3_S1x3_0_0 : ∀ a, (![0, 0] : Fin 2 → Nat) a + S1x3.size a ≤ S3x3.size a
  h_S1x3 : 0 < S1x3.numel
  shapeCasts_S1x3_S3 : S1x3.ShapeCasts S3
  shapeCasts_S3_S3x1 : S3.ShapeCasts S3x1
  broadcasts_S3x1_S3x25600 : S3x1.Broadcasts S3x25600
  reduces_S3x25600_S25600 : S3x25600.Reduces [0] S25600
  shapeCasts_S25600_S1x25600 : S25600.ShapeCasts S1x25600
  slices_S24x25600_o0_0_S8x25600 : S24x25600.Slices ![0, 0] S8x25600
  broadcasts_S1x25600_S8x25600 : S1x25600.Broadcasts S8x25600
  inb_S3x3_S1x3_1_0 : ∀ a, (![1, 0] : Fin 2 → Nat) a + S1x3.size a ≤ S3x3.size a
  slices_S24x25600_o8_0_S8x25600 : S24x25600.Slices ![8, 0] S8x25600
  inb_S3x3_S1x3_2_0 : ∀ a, (![2, 0] : Fin 2 → Nat) a + S1x3.size a ≤ S3x3.size a
  slices_S24x25600_o16_0_S8x25600 : S24x25600.Slices ![16, 0] S8x25600
  inb_S8x25600_S8x25600_0_0 : ∀ a, (![0, 0] : Fin 2 → Nat) a + S8x25600.size a ≤ S8x25600.size a
  h_S8x25600 : 0 < S8x25600.numel
  slices_S8x3200000_S1x3200000_0_0 : S8x3200000.Slices ![0, 0] S1x3200000
  slices_S8x3200000_S1x3200000_1_0 : S8x3200000.Slices ![1, 0] S1x3200000
  slices_S8x3200000_S1x3200000_2_0 : S8x3200000.Slices ![2, 0] S1x3200000
  slices_S8x3200000_S1x3200000_3_0 : S8x3200000.Slices ![3, 0] S1x3200000
  slices_S8x3200000_S1x3200000_4_0 : S8x3200000.Slices ![4, 0] S1x3200000
  slices_S8x3200000_S1x3200000_5_0 : S8x3200000.Slices ![5, 0] S1x3200000
  slices_S8x3200000_S1x3200000_6_0 : S8x3200000.Slices ![6, 0] S1x3200000
  slices_S8x3200000_S1x3200000_7_0 : S8x3200000.Slices ![7, 0] S1x3200000
  bcast_S100000_S100000x1_0 : S100000.BroadcastsInDim S100000x1 (![0] : Fin 1 → Fin S100000x1.rank)
  concatenates_S100000x1_S100000x1_S100000x1_S100000x1_S100000x1_S100000x1_S100000x1_S100000x1_S100000x8_d1 : Shape.Concatenates [S100000x1, S100000x1, S100000x1, S100000x1, S100000x1, S100000x1, S100000x1, S100000x1] S100000x8 1
  shapeCasts_S8_S1x8 : S8.ShapeCasts S1x8
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S3x8_S3x8_0_0 : ∀ a, (![0, 0] : Fin 2 → Nat) a + S3x8.size a ≤ S3x8.size a
  h_S3x8 : 0 < S3x8.numel
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x8 : S4000x1.Broadcasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  transposes_S100000x8_S8x100000_1_0 : S100000x8.Transposes [1, 0] S8x100000
  transposes_S8x48_S48x8_1_0 : S8x48.Transposes [1, 0] S48x8
  shapeCasts_S8x25600_S8x25600 : S8x25600.ShapeCasts S8x25600
  inb_S48x8_S48x8_0_0 : ∀ a, (![0, 0] : Fin 2 → Nat) a + S48x8.size a ≤ S48x8.size a
  h_S48x8 : 0 < S48x8.numel
  shapeCasts_S48x8_S48x8 : S48x8.ShapeCasts S48x8
  slices_S48x25600_o0_0_S16x25600 : S48x25600.Slices ![0, 0] S16x25600
  broadcasts_S1x25600_S16x25600 : S1x25600.Broadcasts S16x25600
  slices_S48x25600_o16_0_S16x25600 : S48x25600.Slices ![16, 0] S16x25600
  slices_S48x25600_o32_0_S16x25600 : S48x25600.Slices ![32, 0] S16x25600
  inb_S16x25600_S16x25600_0_0 : ∀ a, (![0, 0] : Fin 2 → Nat) a + S16x25600.size a ≤ S16x25600.size a
  h_S16x25600 : 0 < S16x25600.numel
  slices_S16x3200000_S1x3200000_0_0 : S16x3200000.Slices ![0, 0] S1x3200000
  slices_S16x3200000_S1x3200000_1_0 : S16x3200000.Slices ![1, 0] S1x3200000
  slices_S16x3200000_S1x3200000_2_0 : S16x3200000.Slices ![2, 0] S1x3200000
  slices_S16x3200000_S1x3200000_3_0 : S16x3200000.Slices ![3, 0] S1x3200000
  slices_S16x3200000_S1x3200000_4_0 : S16x3200000.Slices ![4, 0] S1x3200000
  slices_S16x3200000_S1x3200000_5_0 : S16x3200000.Slices ![5, 0] S1x3200000
  slices_S16x3200000_S1x3200000_6_0 : S16x3200000.Slices ![6, 0] S1x3200000
  slices_S16x3200000_S1x3200000_7_0 : S16x3200000.Slices ![7, 0] S1x3200000
  slices_S16x3200000_S1x3200000_8_0 : S16x3200000.Slices ![8, 0] S1x3200000
  slices_S16x3200000_S1x3200000_9_0 : S16x3200000.Slices ![9, 0] S1x3200000
  slices_S16x3200000_S1x3200000_10_0 : S16x3200000.Slices ![10, 0] S1x3200000
  slices_S16x3200000_S1x3200000_11_0 : S16x3200000.Slices ![11, 0] S1x3200000
  slices_S16x3200000_S1x3200000_12_0 : S16x3200000.Slices ![12, 0] S1x3200000
  slices_S16x3200000_S1x3200000_13_0 : S16x3200000.Slices ![13, 0] S1x3200000
  slices_S16x3200000_S1x3200000_14_0 : S16x3200000.Slices ![14, 0] S1x3200000
  slices_S16x3200000_S1x3200000_15_0 : S16x3200000.Slices ![15, 0] S1x3200000
  concatenates_S100000x1_S100000x1_S100000x1_S100000x1_S100000x1_S100000x1_S100000x1_S100000x1_S100000x1_S100000x1_S100000x1_S100000x1_S100000x1_S100000x1_S100000x1_S100000x1_S100000x16_d1 : Shape.Concatenates [S100000x1, S100000x1, S100000x1, S100000x1, S100000x1, S100000x1, S100000x1, S100000x1, S100000x1, S100000x1, S100000x1, S100000x1, S100000x1, S100000x1, S100000x1, S100000x1] S100000x16 1
  shapeCasts_S16_S1x16 : S16.ShapeCasts S1x16
  inb_S8x16_S8x16_0_0 : ∀ a, (![0, 0] : Fin 2 → Nat) a + S8x16.size a ≤ S8x16.size a
  h_S8x16 : 0 < S8x16.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  transposes_S100000x16_S16x100000_1_0 : S100000x16.Transposes [1, 0] S16x100000
  transposes_S16x24_S24x16_1_0 : S16x24.Transposes [1, 0] S24x16
  shapeCasts_S16x25600_S16x25600 : S16x25600.ShapeCasts S16x25600
  inb_S24x16_S24x16_0_0 : ∀ a, (![0, 0] : Fin 2 → Nat) a + S24x16.size a ≤ S24x16.size a
  h_S24x16 : 0 < S24x16.numel
  shapeCasts_S24x16_S24x16 : S24x16.ShapeCasts S24x16
  inb_S16x8_S16x8_0_0 : ∀ a, (![0, 0] : Fin 2 → Nat) a + S16x8.size a ≤ S16x8.size a
  h_S16x8 : 0 < S16x8.numel
  transposes_S8x12_S12x8_1_0 : S8x12.Transposes [1, 0] S12x8
  inb_S12x8_S12x8_0_0 : ∀ a, (![0, 0] : Fin 2 → Nat) a + S12x8.size a ≤ S12x8.size a
  h_S12x8 : 0 < S12x8.numel
  shapeCasts_S12x8_S12x8 : S12x8.ShapeCasts S12x8
  slices_S12x25600_o0_0_S4x25600 : S12x25600.Slices ![0, 0] S4x25600
  broadcasts_S1x25600_S4x25600 : S1x25600.Broadcasts S4x25600
  slices_S12x25600_o4_0_S4x25600 : S12x25600.Slices ![4, 0] S4x25600
  slices_S12x25600_o8_0_S4x25600 : S12x25600.Slices ![8, 0] S4x25600
  inb_S4x25600_S4x25600_0_0 : ∀ a, (![0, 0] : Fin 2 → Nat) a + S4x25600.size a ≤ S4x25600.size a
  h_S4x25600 : 0 < S4x25600.numel
  slices_S4x3200000_S1x3200000_0_0 : S4x3200000.Slices ![0, 0] S1x3200000
  slices_S4x3200000_S1x3200000_1_0 : S4x3200000.Slices ![1, 0] S1x3200000
  slices_S4x3200000_S1x3200000_2_0 : S4x3200000.Slices ![2, 0] S1x3200000
  slices_S4x3200000_S1x3200000_3_0 : S4x3200000.Slices ![3, 0] S1x3200000
  concatenates_S100000x1_S100000x1_S100000x1_S100000x1_S100000x4_d1 : Shape.Concatenates [S100000x1, S100000x1, S100000x1, S100000x1] S100000x4 1
  shapeCasts_S4_S1x4 : S4.ShapeCasts S1x4
  inb_S8x4_S8x4_0_0 : ∀ a, (![0, 0] : Fin 2 → Nat) a + S8x4.size a ≤ S8x4.size a
  h_S8x4 : 0 < S8x4.numel
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  broadcasts_S4000x1_S4000x4 : S4000x1.Broadcasts S4000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  scatter_S100000_S3200000x1_S3200000_n_0_0_1_wf : ScatterDims.WF S100000 S3200000x1 S3200000 [] [0] [0] 1
  gather_S3x100000_S3200000x1_S3x3200000_0_1_n_n_1_1_31_wf : GatherDims.WF S3x100000 S3200000x1 S3x3200000 [0] [1] [] [1] [] 1 ![3, 1]
  dot_S24x3_S3x25600_S24x25600_1_0_0_1_n_n_wf : DotDims.WF S24x3 S3x25600 S24x25600 [1] [0] [0] [1] [] []
  dot_S4000x3_S3x8_S4000x8_1_0_0_1_n_n_wf : DotDims.WF S4000x3 S3x8 S4000x8 [1] [0] [0] [1] [] []
  gather_S8x100000_S3200000x1_S8x3200000_0_1_n_n_1_1_81_wf : GatherDims.WF S8x100000 S3200000x1 S8x3200000 [0] [1] [] [1] [] 1 ![8, 1]
  dot_S48x8_S8x25600_S48x25600_1_0_0_1_n_n_wf : DotDims.WF S48x8 S8x25600 S48x25600 [1] [0] [0] [1] [] []
  dot_S4000x8_S8x16_S4000x16_1_0_0_1_n_n_wf : DotDims.WF S4000x8 S8x16 S4000x16 [1] [0] [0] [1] [] []
  gather_S16x100000_S3200000x1_S16x3200000_0_1_n_n_1_1_161_wf : GatherDims.WF S16x100000 S3200000x1 S16x3200000 [0] [1] [] [1] [] 1 ![16, 1]
  dot_S24x16_S16x25600_S24x25600_1_0_0_1_n_n_wf : DotDims.WF S24x16 S16x25600 S24x25600 [1] [0] [0] [1] [] []
  dot_S4000x16_S16x8_S4000x8_1_0_0_1_n_n_wf : DotDims.WF S4000x16 S16x8 S4000x8 [1] [0] [0] [1] [] []
  dot_S12x8_S8x25600_S12x25600_1_0_0_1_n_n_wf : DotDims.WF S12x8 S8x25600 S12x25600 [1] [0] [0] [1] [] []
  dot_S4000x8_S8x4_S4000x4_1_0_0_1_n_n_wf : DotDims.WF S4000x8 S8x4 S4000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x25600.size a ≤ S3x3200000.size a
  hwx0_0 : ∀ i : grid0.Coords, EltTy.bits .bf16 = 32 ∨ (Rect.block (s := S3x3200000) S3x25600.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x25600.size a ≤ S3x3200000.size a
  hwx0_1 : ∀ i : grid0.Coords, EltTy.bits .f32 = 32 ∨ (Rect.block (s := S3x3200000) S3x25600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x3.size a ≤ S24x3.size a
  hwx0_2 : ∀ i : grid0.Coords, EltTy.bits .bf16 = 32 ∨ (Rect.block (s := S24x3) S24x3.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .f32 = 32 ∨ (Rect.block (s := S3x3) S3x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x25600.size a ≤ S8x3200000.size a
  hwx0_5 : ∀ i : grid0.Coords, EltTy.bits .f32 = 32 ∨ (Rect.block (s := S8x3200000) S8x25600.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x3.size a ≤ S100000x3.size a
  hwx1_0 : ∀ i : grid1.Coords, EltTy.bits .bf16 = 32 ∨ (Rect.block (s := S100000x3) S4000x3.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x8.size a ≤ S3x8.size a
  hwx1_1 : ∀ i : grid1.Coords, EltTy.bits .f32 = 32 ∨ (Rect.block (s := S3x8) S3x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x8.size a ≤ S100000x8.size a
  hwx1_3 : ∀ i : grid1.Coords, EltTy.bits .f32 = 32 ∨ (Rect.block (s := S100000x8) S4000x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x8.size a ≤ S100000x8.size a
  hwx1_5 : ∀ i : grid1.Coords, EltTy.bits .f32 = 32 ∨ (Rect.block (s := S100000x8) S4000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x25600.size a ≤ S8x3200000.size a
  hwx2_0 : ∀ i : grid2.Coords, EltTy.bits .bf16 = 32 ∨ (Rect.block (s := S8x3200000) S8x25600.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3x25600.size a ≤ S3x3200000.size a
  hwx2_1 : ∀ i : grid2.Coords, EltTy.bits .f32 = 32 ∨ (Rect.block (s := S3x3200000) S3x25600.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S48x8.size a ≤ S48x8.size a
  hwx2_2 : ∀ i : grid2.Coords, EltTy.bits .bf16 = 32 ∨ (Rect.block (s := S48x8) S48x8.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x3.size a ≤ S3x3.size a
  hwx2_3 : ∀ i : grid2.Coords, EltTy.bits .f32 = 32 ∨ (Rect.block (s := S3x3) S3x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x3.size a ≤ S3x3.size a
  hwx2_4 : ∀ i : grid2.Coords, EltTy.bits .f32 = 32 ∨ (Rect.block (s := S3x3) S3x3.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16x25600.size a ≤ S16x3200000.size a
  hwx2_5 : ∀ i : grid2.Coords, EltTy.bits .f32 = 32 ∨ (Rect.block (s := S16x3200000) S16x25600.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x8.size a ≤ S100000x8.size a
  hwx3_0 : ∀ i : grid3.Coords, EltTy.bits .bf16 = 32 ∨ (Rect.block (s := S100000x8) S4000x8.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x16.size a ≤ S8x16.size a
  hwx3_1 : ∀ i : grid3.Coords, EltTy.bits .f32 = 32 ∨ (Rect.block (s := S8x16) S8x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x16.size a ≤ S100000x16.size a
  hwx3_3 : ∀ i : grid3.Coords, EltTy.bits .f32 = 32 ∨ (Rect.block (s := S100000x16) S4000x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x16.size a ≤ S100000x16.size a
  hwx3_5 : ∀ i : grid3.Coords, EltTy.bits .f32 = 32 ∨ (Rect.block (s := S100000x16) S4000x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16x25600.size a ≤ S16x3200000.size a
  hwx4_0 : ∀ i : grid4.Coords, EltTy.bits .bf16 = 32 ∨ (Rect.block (s := S16x3200000) S16x25600.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3x25600.size a ≤ S3x3200000.size a
  hwx4_1 : ∀ i : grid4.Coords, EltTy.bits .f32 = 32 ∨ (Rect.block (s := S3x3200000) S3x25600.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S24x16.size a ≤ S24x16.size a
  hwx4_2 : ∀ i : grid4.Coords, EltTy.bits .bf16 = 32 ∨ (Rect.block (s := S24x16) S24x16.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x3.size a ≤ S3x3.size a
  hwx4_3 : ∀ i : grid4.Coords, EltTy.bits .f32 = 32 ∨ (Rect.block (s := S3x3) S3x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x3.size a ≤ S3x3.size a
  hwx4_4 : ∀ i : grid4.Coords, EltTy.bits .f32 = 32 ∨ (Rect.block (s := S3x3) S3x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x25600.size a ≤ S8x3200000.size a
  hwx4_5 : ∀ i : grid4.Coords, EltTy.bits .f32 = 32 ∨ (Rect.block (s := S8x3200000) S8x25600.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x16.size a ≤ S100000x16.size a
  hwx5_0 : ∀ i : grid5.Coords, EltTy.bits .bf16 = 32 ∨ (Rect.block (s := S100000x16) S4000x16.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x8.size a ≤ S16x8.size a
  hwx5_1 : ∀ i : grid5.Coords, EltTy.bits .f32 = 32 ∨ (Rect.block (s := S16x8) S16x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x8.size a ≤ S100000x8.size a
  hwx5_3 : ∀ i : grid5.Coords, EltTy.bits .f32 = 32 ∨ (Rect.block (s := S100000x8) S4000x8.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S100000x1.size a
  hwx5_4 : ∀ i : grid5.Coords, EltTy.bits .f32 = 32 ∨ (Rect.block (s := S100000x1) S4000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x8.size a ≤ S100000x8.size a
  hwx5_5 : ∀ i : grid5.Coords, EltTy.bits .f32 = 32 ∨ (Rect.block (s := S100000x8) S4000x8.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x25600.size a ≤ S8x3200000.size a
  hwx6_0 : ∀ i : grid6.Coords, EltTy.bits .bf16 = 32 ∨ (Rect.block (s := S8x3200000) S8x25600.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3x25600.size a ≤ S3x3200000.size a
  hwx6_1 : ∀ i : grid6.Coords, EltTy.bits .f32 = 32 ∨ (Rect.block (s := S3x3200000) S3x25600.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S12x8.size a ≤ S12x8.size a
  hwx6_2 : ∀ i : grid6.Coords, EltTy.bits .bf16 = 32 ∨ (Rect.block (s := S12x8) S12x8.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x3.size a ≤ S3x3.size a
  hwx6_3 : ∀ i : grid6.Coords, EltTy.bits .f32 = 32 ∨ (Rect.block (s := S3x3) S3x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S3x3.size a ≤ S3x3.size a
  hwx6_4 : ∀ i : grid6.Coords, EltTy.bits .f32 = 32 ∨ (Rect.block (s := S3x3) S3x3.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4x25600.size a ≤ S4x3200000.size a
  hwx6_5 : ∀ i : grid6.Coords, EltTy.bits .f32 = 32 ∨ (Rect.block (s := S4x3200000) S4x25600.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x8.size a ≤ S100000x8.size a
  hwx7_0 : ∀ i : grid7.Coords, EltTy.bits .bf16 = 32 ∨ (Rect.block (s := S100000x8) S4000x8.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8x4.size a ≤ S8x4.size a
  hwx7_1 : ∀ i : grid7.Coords, EltTy.bits .f32 = 32 ∨ (Rect.block (s := S8x4) S8x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4.size a ≤ S1x4.size a
  hwx7_2 : ∀ i : grid7.Coords, EltTy.bits .f32 = 32 ∨ (Rect.block (s := S1x4) S1x4.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x4.size a ≤ S100000x4.size a
  hwx7_3 : ∀ i : grid7.Coords, EltTy.bits .f32 = 32 ∨ (Rect.block (s := S100000x4) S4000x4.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x1.size a ≤ S100000x1.size a
  hwx7_4 : ∀ i : grid7.Coords, EltTy.bits .f32 = 32 ∨ (Rect.block (s := S100000x1) S4000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x4.size a ≤ S100000x4.size a
  hwx7_5 : ∀ i : grid7.Coords, EltTy.bits .f32 = 32 ∨ (Rect.block (s := S100000x4) S4000x4.size (cc7_transform_5 i) (hinb7_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def dot_S24x3_S3x25600_S24x25600_1_0_0_1_n_n : DotDims S24x3 S3x25600 S24x25600 where
  lhsContracting := [1]
  rhsContracting := [0]
  lhsNonContracting := [0]
  rhsNonContracting := [1]
  lhsBatch := []
  rhsBatch := []
  wf := dot_S24x3_S3x25600_S24x25600_1_0_0_1_n_n_wf
def dot_S4000x3_S3x8_S4000x8_1_0_0_1_n_n : DotDims S4000x3 S3x8 S4000x8 where
  lhsContracting := [1]
  rhsContracting := [0]
  lhsNonContracting := [0]
  rhsNonContracting := [1]
  lhsBatch := []
  rhsBatch := []
  wf := dot_S4000x3_S3x8_S4000x8_1_0_0_1_n_n_wf
def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def dot_S48x8_S8x25600_S48x25600_1_0_0_1_n_n : DotDims S48x8 S8x25600 S48x25600 where
  lhsContracting := [1]
  rhsContracting := [0]
  lhsNonContracting := [0]
  rhsNonContracting := [1]
  lhsBatch := []
  rhsBatch := []
  wf := dot_S48x8_S8x25600_S48x25600_1_0_0_1_n_n_wf
def dot_S4000x8_S8x16_S4000x16_1_0_0_1_n_n : DotDims S4000x8 S8x16 S4000x16 where
  lhsContracting := [1]
  rhsContracting := [0]
  lhsNonContracting := [0]
  rhsNonContracting := [1]
  lhsBatch := []
  rhsBatch := []
  wf := dot_S4000x8_S8x16_S4000x16_1_0_0_1_n_n_wf
def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def dot_S24x16_S16x25600_S24x25600_1_0_0_1_n_n : DotDims S24x16 S16x25600 S24x25600 where
  lhsContracting := [1]
  rhsContracting := [0]
  lhsNonContracting := [0]
  rhsNonContracting := [1]
  lhsBatch := []
  rhsBatch := []
  wf := dot_S24x16_S16x25600_S24x25600_1_0_0_1_n_n_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def dot_S12x8_S8x25600_S12x25600_1_0_0_1_n_n : DotDims S12x8 S8x25600 S12x25600 where
  lhsContracting := [1]
  rhsContracting := [0]
  lhsNonContracting := [0]
  rhsNonContracting := [1]
  lhsBatch := []
  rhsBatch := []
  wf := dot_S12x8_S8x25600_S12x25600_1_0_0_1_n_n_wf
def dot_S4000x8_S8x4_S4000x4_1_0_0_1_n_n : DotDims S4000x8 S8x4 S4000x4 where
  lhsContracting := [1]
  rhsContracting := [0]
  lhsNonContracting := [0]
  rhsNonContracting := [1]
  lhsBatch := []
  rhsBatch := []
  wf := dot_S4000x8_S8x4_S4000x4_1_0_0_1_n_n_wf

abbrev win0_0 : Pipeline.Window sig grid0 :=
  Pipeline.Window.ofSpec (Memref.whole main_v22) S3x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S24x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S8x25600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S4000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S4000x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v76) S4000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v85) S8x25600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S3x25600.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S48x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S3x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S3x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S16x25600.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S4000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S8x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v186) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v185) S4000x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v187) S4000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v196) S16x25600.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S3x25600.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v198) S24x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S3x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S3x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v199) S8x25600.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v188) S4000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S16x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v249) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v248) S4000x8.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v12) S4000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v250) S4000x8.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v259) S8x25600.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S3x25600.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v261) S12x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S3x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg20) S3x3.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v262) S4x25600.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v251) S4000x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg21) S8x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v288) S1x4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v287) S4000x4.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v12) S4000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v289) S4000x4.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x24 : Shape := ⟨2, ![3200000, 24]⟩
abbrev S3200000x1x3 : Shape := ⟨3, ![3200000, 1, 3]⟩
abbrev S1x3x3 : Shape := ⟨3, ![1, 3, 3]⟩
abbrev S3200000x3x3 : Shape := ⟨3, ![3200000, 3, 3]⟩
abbrev S3200000x3x8 : Shape := ⟨3, ![3200000, 3, 8]⟩
abbrev S3200000x3x1 : Shape := ⟨3, ![3200000, 3, 1]⟩
abbrev S3200000x8 : Shape := ⟨2, ![3200000, 8]⟩
abbrev S100000x8 : Shape := ⟨2, ![100000, 8]⟩
abbrev S100000 : Shape := ⟨1, ![100000]⟩
abbrev S100000x1 : Shape := ⟨2, ![100000, 1]⟩
abbrev S1x8 : Shape := ⟨2, ![1, 8]⟩
abbrev S3200000x48 : Shape := ⟨2, ![3200000, 48]⟩
abbrev S3200000x3x16 : Shape := ⟨3, ![3200000, 3, 16]⟩
abbrev S3200000x16 : Shape := ⟨2, ![3200000, 16]⟩
abbrev S100000x16 : Shape := ⟨2, ![100000, 16]⟩
abbrev S1x16 : Shape := ⟨2, ![1, 16]⟩
abbrev S3200000x12 : Shape := ⟨2, ![3200000, 12]⟩
abbrev S3200000x3x4 : Shape := ⟨3, ![3200000, 3, 4]⟩
abbrev S3200000x4 : Shape := ⟨2, ![3200000, 4]⟩
abbrev S100000x4 : Shape := ⟨2, ![100000, 4]⟩
abbrev S1x4 : Shape := ⟨2, ![1, 4]⟩

abbrev nBuf : Space → Nat
  | .hbm => 296
  | .vmem => 0
  | .smem => 0
  | _ => 0

abbrev hbmTy0_0 (i : Nat) : BufTy := match i % 128 with
  | 0 => ⟨S100000x3, .f32⟩
  | 1 => ⟨S2x3200000, .i32⟩
  | 2 => ⟨S3200000x3, .f32⟩
  | 3 => ⟨S3x24, .f32⟩
  | 4 => ⟨S3x3, .f32⟩
  | 5 => ⟨S3x3, .f32⟩
  | 6 => ⟨S3x8, .f32⟩
  | 7 => ⟨S8, .f32⟩
  | 8 => ⟨S8x48, .f32⟩
  | 9 => ⟨S3x3, .f32⟩
  | 10 => ⟨S3x3, .f32⟩
  | 11 => ⟨S8x16, .f32⟩
  | 12 => ⟨S16, .f32⟩
  | 13 => ⟨S16x24, .f32⟩
  | 14 => ⟨S3x3, .f32⟩
  | 15 => ⟨S3x3, .f32⟩
  | 16 => ⟨S16x8, .f32⟩
  | 17 => ⟨S8, .f32⟩
  | 18 => ⟨S8x12, .f32⟩
  | 19 => ⟨S3x3, .f32⟩
  | 20 => ⟨S3x3, .f32⟩
  | 21 => ⟨S8x4, .f32⟩
  | 22 => ⟨S4, .f32⟩
  | 23 => ⟨S1x3200000, .i32⟩
  | 24 => ⟨S3200000, .i32⟩
  | 25 => ⟨S1x3200000, .i32⟩
  | 26 => ⟨S3200000, .i32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x3, .f32⟩
  | 36 => ⟨S3200000x24, .f32⟩
  | 37 => ⟨S3200000x1x3, .f32⟩
  | 38 => ⟨S1x3x3, .f32⟩
  | 39 => ⟨S3200000x3x3, .f32⟩
  | 40 => ⟨S3200000x3x3, .f32⟩
  | 41 => ⟨S3200000x3x3, .f32⟩
  | 42 => ⟨S3200000x3x3, .f32⟩
  | 43 => ⟨S1x3x3, .f32⟩
  | 44 => ⟨S1x3x3, .f32⟩
  | 45 => ⟨S_, .f32⟩
  | 46 => ⟨S1x3x3, .f32⟩
  | 47 => ⟨S1x3x3, .f32⟩
  | 48 => ⟨S3200000x3x3, .f32⟩
  | 49 => ⟨S3200000x3x3, .f32⟩
  | 50 => ⟨S_, .f32⟩
  | 51 => ⟨S3200000x3, .f32⟩
  | 52 => ⟨S_, .f32⟩
  | 53 => ⟨S3200000x3, .f32⟩
  | 54 => ⟨S3200000x3, .f32⟩
  | 55 => ⟨S3200000x3, .f32⟩
  | 56 => ⟨S3200000x3x8, .f32⟩
  | 57 => ⟨S3200000x3x1, .f32⟩
  | 58 => ⟨S3200000x3x8, .f32⟩
  | 59 => ⟨S3200000x3x8, .f32⟩
  | 60 => ⟨S_, .f32⟩
  | 61 => ⟨S3200000x8, .f32⟩
  | 62 => ⟨S_, .f32⟩
  | 63 => ⟨S100000x8, .f32⟩
  | 64 => ⟨S3200000x1, .i32⟩
  | 65 => ⟨S100000x8, .f32⟩
  | 66 => ⟨S_, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x8, .f32⟩
  | 77 => ⟨S100000x8, .f32⟩
  | 78 => ⟨S100000x8, .f32⟩
  | 79 => ⟨S100000x8, .f32⟩
  | 80 => ⟨S1x8, .f32⟩
  | 81 => ⟨S100000x8, .f32⟩
  | 82 => ⟨S100000x8, .f32⟩
  | 83 => ⟨S_, .f32⟩
  | 84 => ⟨S100000x8, .f32⟩
  | 85 => ⟨S100000x8, .i1⟩
  | 86 => ⟨S_, .f32⟩
  | 87 => ⟨S100000x8, .f32⟩
  | 88 => ⟨S100000x8, .i1⟩
  | 89 => ⟨S_, .f32⟩
  | 90 => ⟨S_, .f32⟩
  | 91 => ⟨S100000x8, .f32⟩
  | 92 => ⟨S100000x8, .f32⟩
  | 93 => ⟨S100000x8, .f32⟩
  | 94 => ⟨S_, .f32⟩
  | 95 => ⟨S100000x8, .f32⟩
  | 96 => ⟨S100000x8, .f32⟩
  | 97 => ⟨S100000x8, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x8, .f32⟩
  | 107 => ⟨S3200000x48, .f32⟩
  | 108 => ⟨S3200000x1x3, .f32⟩
  | 109 => ⟨S1x3x3, .f32⟩
  | 110 => ⟨S3200000x3x3, .f32⟩
  | 111 => ⟨S3200000x3x3, .f32⟩
  | 112 => ⟨S3200000x3x3, .f32⟩
  | 113 => ⟨S3200000x3x3, .f32⟩
  | 114 => ⟨S1x3x3, .f32⟩
  | 115 => ⟨S1x3x3, .f32⟩
  | 116 => ⟨S_, .f32⟩
  | 117 => ⟨S1x3x3, .f32⟩
  | 118 => ⟨S1x3x3, .f32⟩
  | 119 => ⟨S3200000x3x3, .f32⟩
  | 120 => ⟨S3200000x3x3, .f32⟩
  | 121 => ⟨S_, .f32⟩
  | 122 => ⟨S3200000x3, .f32⟩
  | 123 => ⟨S_, .f32⟩
  | 124 => ⟨S3200000x3, .f32⟩
  | 125 => ⟨S3200000x3, .f32⟩
  | 126 => ⟨S3200000x3, .f32⟩
  | 127 => ⟨S3200000x3x16, .f32⟩
  | _ => ⟨S100000x3, .f32⟩

abbrev hbmTy0_1 (i : Nat) : BufTy := match i % 128 with
  | 0 => ⟨S3200000x3x1, .f32⟩
  | 1 => ⟨S3200000x3x16, .f32⟩
  | 2 => ⟨S3200000x3x16, .f32⟩
  | 3 => ⟨S_, .f32⟩
  | 4 => ⟨S3200000x16, .f32⟩
  | 5 => ⟨S_, .f32⟩
  | 6 => ⟨S100000x16, .f32⟩
  | 7 => ⟨S3200000x1, .i32⟩
  | 8 => ⟨S100000x16, .f32⟩
  | 9 => ⟨S_, .f32⟩
  | 10 => ⟨S3200000, .f32⟩
  | 11 => ⟨S_, .f32⟩
  | 12 => ⟨S100000, .f32⟩
  | 13 => ⟨S3200000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x16, .f32⟩
  | 20 => ⟨S100000x16, .f32⟩
  | 21 => ⟨S100000x16, .f32⟩
  | 22 => ⟨S100000x16, .f32⟩
  | 23 => ⟨S1x16, .f32⟩
  | 24 => ⟨S100000x16, .f32⟩
  | 25 => ⟨S100000x16, .f32⟩
  | 26 => ⟨S_, .f32⟩
  | 27 => ⟨S100000x16, .f32⟩
  | 28 => ⟨S100000x16, .i1⟩
  | 29 => ⟨S_, .f32⟩
  | 30 => ⟨S100000x16, .f32⟩
  | 31 => ⟨S100000x16, .i1⟩
  | 32 => ⟨S_, .f32⟩
  | 33 => ⟨S_, .f32⟩
  | 34 => ⟨S100000x16, .f32⟩
  | 35 => ⟨S100000x16, .f32⟩
  | 36 => ⟨S100000x16, .f32⟩
  | 37 => ⟨S_, .f32⟩
  | 38 => ⟨S100000x16, .f32⟩
  | 39 => ⟨S100000x16, .f32⟩
  | 40 => ⟨S100000x16, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x16, .f32⟩
  | 50 => ⟨S3200000x24, .f32⟩
  | 51 => ⟨S3200000x1x3, .f32⟩
  | 52 => ⟨S1x3x3, .f32⟩
  | 53 => ⟨S3200000x3x3, .f32⟩
  | 54 => ⟨S3200000x3x3, .f32⟩
  | 55 => ⟨S3200000x3x3, .f32⟩
  | 56 => ⟨S3200000x3x3, .f32⟩
  | 57 => ⟨S1x3x3, .f32⟩
  | 58 => ⟨S1x3x3, .f32⟩
  | 59 => ⟨S_, .f32⟩
  | 60 => ⟨S1x3x3, .f32⟩
  | 61 => ⟨S1x3x3, .f32⟩
  | 62 => ⟨S3200000x3x3, .f32⟩
  | 63 => ⟨S3200000x3x3, .f32⟩
  | 64 => ⟨S_, .f32⟩
  | 65 => ⟨S3200000x3, .f32⟩
  | 66 => ⟨S_, .f32⟩
  | 67 => ⟨S3200000x3, .f32⟩
  | 68 => ⟨S3200000x3, .f32⟩
  | 69 => ⟨S3200000x3, .f32⟩
  | 70 => ⟨S3200000x3x8, .f32⟩
  | 71 => ⟨S3200000x3x1, .f32⟩
  | 72 => ⟨S3200000x3x8, .f32⟩
  | 73 => ⟨S3200000x3x8, .f32⟩
  | 74 => ⟨S_, .f32⟩
  | 75 => ⟨S3200000x8, .f32⟩
  | 76 => ⟨S_, .f32⟩
  | 77 => ⟨S100000x8, .f32⟩
  | 78 => ⟨S3200000x1, .i32⟩
  | 79 => ⟨S100000x8, .f32⟩
  | 80 => ⟨S_, .f32⟩
  | 81 => ⟨S3200000, .f32⟩
  | 82 => ⟨S_, .f32⟩
  | 83 => ⟨S100000, .f32⟩
  | 84 => ⟨S3200000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x8, .f32⟩
  | 91 => ⟨S100000x8, .f32⟩
  | 92 => ⟨S100000x8, .f32⟩
  | 93 => ⟨S100000x8, .f32⟩
  | 94 => ⟨S1x8, .f32⟩
  | 95 => ⟨S100000x8, .f32⟩
  | 96 => ⟨S100000x8, .f32⟩
  | 97 => ⟨S_, .f32⟩
  | 98 => ⟨S100000x8, .f32⟩
  | 99 => ⟨S100000x8, .i1⟩
  | 100 => ⟨S_, .f32⟩
  | 101 => ⟨S100000x8, .f32⟩
  | 102 => ⟨S100000x8, .i1⟩
  | 103 => ⟨S_, .f32⟩
  | 104 => ⟨S_, .f32⟩
  | 105 => ⟨S100000x8, .f32⟩
  | 106 => ⟨S100000x8, .f32⟩
  | 107 => ⟨S100000x8, .f32⟩
  | 108 => ⟨S_, .f32⟩
  | 109 => ⟨S100000x8, .f32⟩
  | 110 => ⟨S100000x8, .f32⟩
  | 111 => ⟨S100000x8, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x8, .f32⟩
  | 121 => ⟨S3200000x12, .f32⟩
  | 122 => ⟨S3200000x1x3, .f32⟩
  | 123 => ⟨S1x3x3, .f32⟩
  | 124 => ⟨S3200000x3x3, .f32⟩
  | 125 => ⟨S3200000x3x3, .f32⟩
  | 126 => ⟨S3200000x3x3, .f32⟩
  | 127 => ⟨S3200000x3x3, .f32⟩
  | _ => ⟨S100000x3, .f32⟩

abbrev hbmTy0_2 (i : Nat) : BufTy := match i % 128 with
  | 0 => ⟨S1x3x3, .f32⟩
  | 1 => ⟨S1x3x3, .f32⟩
  | 2 => ⟨S_, .f32⟩
  | 3 => ⟨S1x3x3, .f32⟩
  | 4 => ⟨S1x3x3, .f32⟩
  | 5 => ⟨S3200000x3x3, .f32⟩
  | 6 => ⟨S3200000x3x3, .f32⟩
  | 7 => ⟨S_, .f32⟩
  | 8 => ⟨S3200000x3, .f32⟩
  | 9 => ⟨S_, .f32⟩
  | 10 => ⟨S3200000x3, .f32⟩
  | 11 => ⟨S3200000x3, .f32⟩
  | 12 => ⟨S3200000x3, .f32⟩
  | 13 => ⟨S3200000x3x4, .f32⟩
  | 14 => ⟨S3200000x3x1, .f32⟩
  | 15 => ⟨S3200000x3x4, .f32⟩
  | 16 => ⟨S3200000x3x4, .f32⟩
  | 17 => ⟨S_, .f32⟩
  | 18 => ⟨S3200000x4, .f32⟩
  | 19 => ⟨S_, .f32⟩
  | 20 => ⟨S100000x4, .f32⟩
  | 21 => ⟨S3200000x1, .i32⟩
  | 22 => ⟨S100000x4, .f32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x4, .f32⟩
  | 34 => ⟨S100000x4, .f32⟩
  | 35 => ⟨S100000x4, .f32⟩
  | 36 => ⟨S100000x4, .f32⟩
  | 37 => ⟨S1x4, .f32⟩
  | 38 => ⟨S100000x4, .f32⟩
  | 39 => ⟨S100000x4, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_cst_1 : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_v4 : Ref sig .tc := ⟨.hbm, 92, rfl⟩
abbrev main_call0_v5 : Ref sig .tc := ⟨.hbm, 93, rfl⟩
abbrev main_call0_cst_2 : Ref sig .tc := ⟨.hbm, 94, rfl⟩
abbrev main_call0_v6 : Ref sig .tc := ⟨.hbm, 95, rfl⟩
abbrev main_call0_v7 : Ref sig .tc := ⟨.hbm, 96, rfl⟩
abbrev main_v50 : Ref sig .tc := ⟨.hbm, 97, rfl⟩
abbrev main_c_8 : Ref sig .tc := ⟨.hbm, 98, rfl⟩
abbrev main_v51 : Ref sig .tc := ⟨.hbm, 99, rfl⟩
abbrev main_v52 : Ref sig .tc := ⟨.hbm, 100, rfl⟩
abbrev main_c_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_11 : Ref sig .tc := ⟨.hbm, 121, rfl⟩
abbrev main_v71 : Ref sig .tc := ⟨.hbm, 122, rfl⟩
abbrev main_cst_12 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_13 : Ref sig .tc := ⟨.hbm, 131, rfl⟩
abbrev main_v79 : Ref sig .tc := ⟨.hbm, 132, rfl⟩
abbrev main_cst_14 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_15 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_17 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_call1_cst : Ref sig .tc := ⟨.hbm, 154, rfl⟩
abbrev main_call1_v0 : Ref sig .tc := ⟨.hbm, 155, rfl⟩
abbrev main_call1_v1 : Ref sig .tc := ⟨.hbm, 156, rfl⟩
abbrev main_call1_cst_0 : Ref sig .tc := ⟨.hbm, 157, rfl⟩
abbrev main_call1_v2 : Ref sig .tc := ⟨.hbm, 158, rfl⟩
abbrev main_call1_v3 : Ref sig .tc := ⟨.hbm, 159, rfl⟩
abbrev main_call1_cst_1 : Ref sig .tc := ⟨.hbm, 160, rfl⟩
abbrev main_call1_call0_v0 : Ref sig .tc := ⟨.hbm, 161, rfl⟩
abbrev main_call1_call0_v1 : Ref sig .tc := ⟨.hbm, 162, rfl⟩
abbrev main_call1_v4 : Ref sig .tc := ⟨.hbm, 163, rfl⟩
abbrev main_call1_v5 : Ref sig .tc := ⟨.hbm, 164, rfl⟩
abbrev main_call1_cst_2 : Ref sig .tc := ⟨.hbm, 165, rfl⟩
abbrev main_call1_v6 : Ref sig .tc := ⟨.hbm, 166, rfl⟩
abbrev main_call1_v7 : Ref sig .tc := ⟨.hbm, 167, rfl⟩
abbrev main_v97 : Ref sig .tc := ⟨.hbm, 168, rfl⟩
abbrev main_c_18 : Ref sig .tc := ⟨.hbm, 169, rfl⟩
abbrev main_v98 : Ref sig .tc := ⟨.hbm, 170, rfl⟩
abbrev main_v99 : Ref sig .tc := ⟨.hbm, 171, rfl⟩
abbrev main_c_19 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_20 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_21 : Ref sig .tc := ⟨.hbm, 192, rfl⟩
abbrev main_v118 : Ref sig .tc := ⟨.hbm, 193, rfl⟩
abbrev main_cst_22 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_cst_23 : Ref sig .tc := ⟨.hbm, 202, rfl⟩
abbrev main_v126 : Ref sig .tc := ⟨.hbm, 203, rfl⟩
abbrev main_cst_24 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_25 : Ref sig .tc := ⟨.hbm, 208, rfl⟩
abbrev main_v130 : Ref sig .tc := ⟨.hbm, 209, rfl⟩
abbrev main_cst_26 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_27 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call2_cst : Ref sig .tc := ⟨.hbm, 225, rfl⟩
abbrev main_call2_v0 : Ref sig .tc := ⟨.hbm, 226, rfl⟩
abbrev main_call2_v1 : Ref sig .tc := ⟨.hbm, 227, rfl⟩
abbrev main_call2_cst_0 : Ref sig .tc := ⟨.hbm, 228, rfl⟩
abbrev main_call2_v2 : Ref sig .tc := ⟨.hbm, 229, rfl⟩
abbrev main_call2_v3 : Ref sig .tc := ⟨.hbm, 230, rfl⟩
abbrev main_call2_cst_1 : Ref sig .tc := ⟨.hbm, 231, rfl⟩
abbrev main_call2_call0_v0 : Ref sig .tc := ⟨.hbm, 232, rfl⟩
abbrev main_call2_call0_v1 : Ref sig .tc := ⟨.hbm, 233, rfl⟩
abbrev main_call2_v4 : Ref sig .tc := ⟨.hbm, 234, rfl⟩
abbrev main_call2_v5 : Ref sig .tc := ⟨.hbm, 235, rfl⟩
abbrev main_call2_cst_2 : Ref sig .tc := ⟨.hbm, 236, rfl⟩
abbrev main_call2_v6 : Ref sig .tc := ⟨.hbm, 237, rfl⟩
abbrev main_call2_v7 : Ref sig .tc := ⟨.hbm, 238, rfl⟩
abbrev main_v144 : Ref sig .tc := ⟨.hbm, 239, rfl⟩
abbrev main_c_28 : Ref sig .tc := ⟨.hbm, 240, rfl⟩
abbrev main_v145 : Ref sig .tc := ⟨.hbm, 241, rfl⟩
abbrev main_v146 : Ref sig .tc := ⟨.hbm, 242, rfl⟩
abbrev main_c_29 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_30 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_cst_31 : Ref sig .tc := ⟨.hbm, 263, rfl⟩
abbrev main_v165 : Ref sig .tc := ⟨.hbm, 264, rfl⟩
abbrev main_cst_32 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_cst_33 : Ref sig .tc := ⟨.hbm, 273, rfl⟩
abbrev main_v173 : Ref sig .tc := ⟨.hbm, 274, rfl⟩
abbrev main_cst_34 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_cst_35 : Ref sig .tc := ⟨.hbm, 279, rfl⟩
abbrev main_v177 : Ref sig .tc := ⟨.hbm, 280, rfl⟩
abbrev main_cst_36 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_cst_37 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x3_S3200000x1x3_0_2 : S3200000x3.BroadcastsInDim S3200000x1x3 (![0, 2] : Fin 2 → Fin S3200000x1x3.rank)
  bcast_S3x3_S1x3x3_1_2 : S3x3.BroadcastsInDim S1x3x3 (![1, 2] : Fin 2 → Fin S1x3x3.rank)
  bcast_S3200000x1x3_S3200000x3x3_0_1_2 : S3200000x1x3.BroadcastsInDim S3200000x3x3 (![0, 1, 2] : Fin 3 → Fin S3200000x3x3.rank)
  bcast_S1x3x3_S3200000x3x3_0_1_2 : S1x3x3.BroadcastsInDim S3200000x3x3 (![0, 1, 2] : Fin 3 → Fin S3200000x3x3.rank)
  bcast_S_S1x3x3 : S_.BroadcastsInDim S1x3x3 (![] : Fin 0 → Fin S1x3x3.rank)
  reducesTo_S3200000x3x3_S3200000x3_d2 : S3200000x3x3.ReducesTo [2] S3200000x3
  h_S_ : 0 < S_.numel
  bcast_S_S3200000x3 : S_.BroadcastsInDim S3200000x3 (![] : Fin 0 → Fin S3200000x3.rank)
  shapeCasts_S3200000x24_S3200000x3x8 : S3200000x24.ShapeCasts S3200000x3x8
  bcast_S3200000x3_S3200000x3x1_0_1 : S3200000x3.BroadcastsInDim S3200000x3x1 (![0, 1] : Fin 2 → Fin S3200000x3x1.rank)
  bcast_S3200000x3x1_S3200000x3x8_0_1_2 : S3200000x3x1.BroadcastsInDim S3200000x3x8 (![0, 1, 2] : Fin 3 → Fin S3200000x3x8.rank)
  reducesTo_S3200000x3x8_S3200000x8_d1 : S3200000x3x8.ReducesTo [1] S3200000x8
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S3200000x48_S3200000x3x16 : S3200000x48.ShapeCasts S3200000x3x16
  bcast_S3200000x3x1_S3200000x3x16_0_1_2 : S3200000x3x1.BroadcastsInDim S3200000x3x16 (![0, 1, 2] : Fin 3 → Fin S3200000x3x16.rank)
  reducesTo_S3200000x3x16_S3200000x16_d1 : S3200000x3x16.ReducesTo [1] S3200000x16
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S3200000x12_S3200000x3x4 : S3200000x12.ShapeCasts S3200000x3x4
  bcast_S3200000x3x1_S3200000x3x4_0_1_2 : S3200000x3x1.BroadcastsInDim S3200000x3x4 (![0, 1, 2] : Fin 3 → Fin S3200000x3x4.rank)
  reducesTo_S3200000x3x4_S3200000x4_d1 : S3200000x3x4.ReducesTo [1] S3200000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x3_S3200000x1_S3200000x3_1_0_n_n_0_1_13_wf : GatherDims.WF S100000x3 S3200000x1 S3200000x3 [1] [0] [] [0] [] 1 ![1, 3]
  dot_S3200000x3_S3x24_S3200000x24_1_0_0_1_n_n_wf : DotDims.WF S3200000x3 S3x24 S3200000x24 [1] [0] [0] [1] [] []
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x3_S3x8_S100000x8_1_0_0_1_n_n_wf : DotDims.WF S100000x3 S3x8 S100000x8 [1] [0] [0] [1] [] []
  gather_S100000x8_S3200000x1_S3200000x8_1_0_n_n_0_1_18_wf : GatherDims.WF S100000x8 S3200000x1 S3200000x8 [1] [0] [] [0] [] 1 ![1, 8]
  dot_S3200000x8_S8x48_S3200000x48_1_0_0_1_n_n_wf : DotDims.WF S3200000x8 S8x48 S3200000x48 [1] [0] [0] [1] [] []
  scatter_S100000x16_S3200000x1_S3200000x16_1_0_0_1_wf : ScatterDims.WF S100000x16 S3200000x1 S3200000x16 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  dot_S3200000x16_S16x24_S3200000x24_1_0_0_1_n_n_wf : DotDims.WF S3200000x16 S16x24 S3200000x24 [1] [0] [0] [1] [] []
  dot_S100000x16_S16x8_S100000x8_1_0_0_1_n_n_wf : DotDims.WF S100000x16 S16x8 S100000x8 [1] [0] [0] [1] [] []
  dot_S3200000x8_S8x12_S3200000x12_1_0_0_1_n_n_wf : DotDims.WF S3200000x8 S8x12 S3200000x12 [1] [0] [0] [1] [] []
  scatter_S100000x4_S3200000x1_S3200000x4_1_0_0_1_wf : ScatterDims.WF S100000x4 S3200000x1 S3200000x4 [1] [0] [0] 1
  dot_S100000x8_S8x4_S100000x4_1_0_0_1_n_n_wf : DotDims.WF S100000x8 S8x4 S100000x4 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x3_S3x24_S3200000x24_1_0_0_1_n_n : DotDims S3200000x3 S3x24 S3200000x24 where
  lhsContracting := [1]
  rhsContracting := [0]
  lhsNonContracting := [0]
  rhsNonContracting := [1]
  lhsBatch := []
  rhsBatch := []
  wf := dot_S3200000x3_S3x24_S3200000x24_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x3_S3x8_S100000x8_1_0_0_1_n_n : DotDims S100000x3 S3x8 S100000x8 where
  lhsContracting := [1]
  rhsContracting := [0]
  lhsNonContracting := [0]
  rhsNonContracting := [1]
  lhsBatch := []
  rhsBatch := []
  wf := dot_S100000x3_S3x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x8_S8x48_S3200000x48_1_0_0_1_n_n : DotDims S3200000x8 S8x48 S3200000x48 where
  lhsContracting := [1]
  rhsContracting := [0]
  lhsNonContracting := [0]
  rhsNonContracting := [1]
  lhsBatch := []
  rhsBatch := []
  wf := dot_S3200000x8_S8x48_S3200000x48_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x16_S16x24_S3200000x24_1_0_0_1_n_n : DotDims S3200000x16 S16x24 S3200000x24 where
  lhsContracting := [1]
  rhsContracting := [0]
  lhsNonContracting := [0]
  rhsNonContracting := [1]
  lhsBatch := []
  rhsBatch := []
  wf := dot_S3200000x16_S16x24_S3200000x24_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S3200000x8_S8x12_S3200000x12_1_0_0_1_n_n : DotDims S3200000x8 S8x12 S3200000x12 where
  lhsContracting := [1]
  rhsContracting := [0]
  lhsNonContracting := [0]
  rhsNonContracting := [1]
  lhsBatch := []
  rhsBatch := []
  wf := dot_S3200000x8_S8x12_S3200000x12_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf

class Facts : Prop extends Facts₀ where

variable [Facts]
-- ==== Proof.EdgeB0.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 1: one block of 25600 edges, 3 input channels, 8 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rX0 : Rect S3x25600 := Rect.unit (s := S3x25600) ![0, 0] S3x25600.size inb_S3x25600_S3x25600_0_0
abbrev rE0 : Rect S3x25600 := Rect.unit (s := S3x25600) ![0, 0] S3x25600.size inb_S3x25600_S3x25600_0_0
abbrev rG0 : Rect S24x3 := Rect.unit (s := S24x3) ![0, 0] S24x3.size inb_S24x3_S24x3_0_0
abbrev rRow0_0 : Rect S3x3 := Rect.unit (s := S3x3) ![0, 0] S1x3.size inb_S3x3_S1x3_0_0
abbrev rRow1_0 : Rect S3x3 := Rect.unit (s := S3x3) ![1, 0] S1x3.size inb_S3x3_S1x3_1_0
abbrev rRow2_0 : Rect S3x3 := Rect.unit (s := S3x3) ![2, 0] S1x3.size inb_S3x3_S1x3_2_0
abbrev rO0 : Rect S8x25600 := Rect.unit (s := S8x25600) ![0, 0] S8x25600.size inb_S8x25600_S8x25600_0_0

/-- The message block the body computes from its five input blocks. -/
def msg0 (x : Vec F S3x25600 .bf16) (ea : Vec F S3x25600 .f32) (g : Vec F S24x3 .bf16) (mu sg : Vec F S3x3 .f32) : Vec F S8x25600 .f32 :=
  k0_pay1 (k0_pay2 (View.ld x (rX0)) (View.ld g (rG0))) (k0_pay3 (View.ld ea (rE0)))
    (k0_pay4 (View.ld x (rX0)) (View.ld g (rG0)) (View.ld ea (rE0)) (View.ld mu (rRow0_0)) (View.ld sg (rRow0_0)))
    (k0_pay5 (View.ld sg (rRow1_0))) (k0_pay6 (View.ld ea (rE0)) (View.ld mu (rRow1_0)))
    (View.ld mu (rRow2_0)) (View.ld sg (rRow2_0))

/-- The output buffer after the body: its one store, which covers it. -/
def out0_5 (x : Vec F S3x25600 .bf16) (ea : Vec F S3x25600 .f32) (g : Vec F S24x3 .bf16) (mu sg : Vec F S3x3 .f32) : Vec F S8x25600 .f32 :=
  View.canon [⟨rO0, msg0 x ea g mu sg⟩]

theorem cover0_5 (p0 : Vec F S8x25600 .f32) (y : S8x25600.Idx) :
    ∃ pc ∈ ([⟨rO0, p0⟩] : List (View.Piece (Elt F) S8x25600 .f32)), y ∈ pc.1.set :=
  View.cover_of_tiled [⟨rO0, p0⟩] S8x25600.size (by rfl) y

set_option maxHeartbeats 2000000 in
/-- The body on whole staging buffers: the inputs keep their contents, the output ends at `out0_5` of them. -/
theorem sound_kernel0 (c : Dev nD) (E : Set ℕ) (i : grid0.Coords)
    (arg1 : Memref sig .tc .vmem S3x25600 .bf16) (harg1 : arg1.IsWhole) (arg2 : Memref sig .tc .vmem S3x25600 .f32) (harg2 : arg2.IsWhole)
    (arg3 : Memref sig .tc .vmem S24x3 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S8x25600 .f32) (harg6 : arg6.IsWhole)
    (x : Vec F S3x25600 .bf16) (ea : Vec F S3x25600 .f32) (g : Vec F S24x3 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out0_5 x ea g mu sg)) -∗ K ⟨⟩))
      ⊢ wp frame (wpE (defs₀ (F := F)) Variants.none c none) E (cc0__edge_message_kernel i arg1 harg1 arg2 harg2 arg3 harg3 arg4 harg4 arg5 harg5 arg6 harg6) K := by
  simp only [cc0__edge_message_kernel_eq_skeleton]; unfold cc0__edge_message_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-! ## The proof data of this pipeline -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.NodeB1.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 1: one block of 4000 nodes, 3 input channels, 8 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether fetched there or kept from the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rH1 : Rect S4000x3 := Rect.unit (s := S4000x3) ![0, 0] S4000x3.size inb_S4000x3_S4000x3_0_0
abbrev rR1 : Rect S3x8 := Rect.unit (s := S3x8) ![0, 0] S3x8.size inb_S3x8_S3x8_0_0
abbrev rB1 : Rect S1x8 := Rect.unit (s := S1x8) ![0, 0] S1x8.size inb_S1x8_S1x8_0_0
abbrev rA1 : Rect S4000x8 := Rect.unit (s := S4000x8) ![0, 0] S4000x8.size inb_S4000x8_S4000x8_0_0
abbrev rC1 : Rect S4000x1 := Rect.unit (s := S4000x1) ![0, 0] S4000x1.size inb_S4000x1_S4000x1_0_0

/-- The updated block the body computes from its five input blocks. -/
def upd1 (h : Vec F S4000x3 .bf16) (root : Vec F S3x8 .f32) (bias : Vec F S1x8 .f32) (agg : Vec F S4000x8 .f32) (cinv : Vec F S4000x1 .f32) : Vec F S4000x8 .f32 :=
  k1_pay1 (View.ld h rH1) (View.ld root rR1) (View.ld agg rA1) (View.ld cinv rC1) (View.ld bias rB1)

/-- The output buffer after the body: its one store, which covers it. -/
def out1_5 (h : Vec F S4000x3 .bf16) (root : Vec F S3x8 .f32) (bias : Vec F S1x8 .f32) (agg : Vec F S4000x8 .f32) (cinv : Vec F S4000x1 .f32) : Vec F S4000x8 .f32 :=
  View.canon [⟨rA1, upd1 h root bias agg cinv⟩]

theorem cover1_5 (p0 : Vec F S4000x8 .f32) (y : S4000x8.Idx) :
    ∃ pc ∈ ([⟨rA1, p0⟩] : List (View.Piece (Elt F) S4000x8 .f32)), y ∈ pc.1.set :=
  View.cover_of_tiled [⟨rA1, p0⟩] S4000x8.size (by rfl) y

set_option maxHeartbeats 2000000 in
/-- The body on whole staging buffers: the inputs keep their contents, the output ends at `out1_5` of them. -/
theorem sound_kernel1 (c : Dev nD) (E : Set ℕ) (i : grid1.Coords)
    (arg1 : Memref sig .tc .vmem S4000x3 .bf16) (harg1 : arg1.IsWhole) (arg2 : Memref sig .tc .vmem S3x8 .f32) (harg2 : arg2.IsWhole)
    (arg3 : Memref sig .tc .vmem S1x8 .f32) (harg3 : arg3.IsWhole) (arg4 : Memref sig .tc .vmem S4000x8 .f32) (harg4 : arg4.IsWhole)
    (arg5 : Memref sig .tc .vmem S4000x1 .f32) (harg5 : arg5.IsWhole) (arg6 : Memref sig .tc .vmem S4000x8 .f32) (harg6 : arg6.IsWhole)
    (h : Vec F S4000x3 .bf16) (root : Vec F S3x8 .f32) (bias : Vec F S1x8 .f32) (agg : Vec F S4000x8 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out1_5 h root bias agg cinv)) -∗ K ⟨⟩))
      ⊢ wp frame (wpE (defs₀ (F := F)) Variants.none c none) E (cc1__node_update_kernel i arg1 harg1 arg2 harg2 arg3 harg3 arg4 harg4 arg5 harg5 arg6 harg6) K := by
  simp only [cc1__node_update_kernel_eq_skeleton]; unfold cc1__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The proof data of this pipeline -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.EdgeB2.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 2: one block of 25600 edges, 8 input channels, 16 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or kept from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or kept from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether fetched there or kept from the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether fetched there or kept from the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rX2 : Rect S8x25600 := Rect.unit (s := S8x25600) ![0, 0] S8x25600.size inb_S8x25600_S8x25600_0_0
abbrev rE2 : Rect S3x25600 := Rect.unit (s := S3x25600) ![0, 0] S3x25600.size inb_S3x25600_S3x25600_0_0
abbrev rG2 : Rect S48x8 := Rect.unit (s := S48x8) ![0, 0] S48x8.size inb_S48x8_S48x8_0_0
abbrev rRow0_2 : Rect S3x3 := Rect.unit (s := S3x3) ![0, 0] S1x3.size inb_S3x3_S1x3_0_0
abbrev rRow1_2 : Rect S3x3 := Rect.unit (s := S3x3) ![1, 0] S1x3.size inb_S3x3_S1x3_1_0
abbrev rRow2_2 : Rect S3x3 := Rect.unit (s := S3x3) ![2, 0] S1x3.size inb_S3x3_S1x3_2_0
abbrev rO2 : Rect S16x25600 := Rect.unit (s := S16x25600) ![0, 0] S16x25600.size inb_S16x25600_S16x25600_0_0

/-- The message block the body computes from its five input blocks. -/
def msg2 (x : Vec F S8x25600 .bf16) (ea : Vec F S3x25600 .f32) (g : Vec F S48x8 .bf16) (mu sg : Vec F S3x3 .f32) : Vec F S16x25600 .f32 :=
  k2_pay1 (k2_pay2 (View.ld x (rX2)) (View.ld g (rG2))) (k2_pay3 (View.ld ea (rE2)))
    (k2_pay4 (View.ld x (rX2)) (View.ld g (rG2)) (View.ld ea (rE2)) (View.ld mu (rRow0_2)) (View.ld sg (rRow0_2)))
    (k2_pay5 (View.ld sg (rRow1_2))) (k2_pay6 (View.ld ea (rE2)) (View.ld mu (rRow1_2)))
    (View.ld mu (rRow2_2)) (View.ld sg (rRow2_2))

/-- The output buffer after the body: its one store, which covers it. -/
def out2_5 (x : Vec F S8x25600 .bf16) (ea : Vec F S3x25600 .f32) (g : Vec F S48x8 .bf16) (mu sg : Vec F S3x3 .f32) : Vec F S16x25600 .f32 :=
  View.canon [⟨rO2, msg2 x ea g mu sg⟩]

theorem cover2_5 (p0 : Vec F S16x25600 .f32) (y : S16x25600.Idx) :
    ∃ pc ∈ ([⟨rO2, p0⟩] : List (View.Piece (Elt F) S16x25600 .f32)), y ∈ pc.1.set :=
  View.cover_of_tiled [⟨rO2, p0⟩] S16x25600.size (by rfl) y

set_option maxHeartbeats 2000000 in
/-- The body on whole staging buffers: the inputs keep their contents, the output ends at `out2_5` of them. -/
theorem sound_kernel2 (c : Dev nD) (E : Set ℕ) (i : grid2.Coords)
    (arg1 : Memref sig .tc .vmem S8x25600 .bf16) (harg1 : arg1.IsWhole) (arg2 : Memref sig .tc .vmem S3x25600 .f32) (harg2 : arg2.IsWhole)
    (arg3 : Memref sig .tc .vmem S48x8 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S16x25600 .f32) (harg6 : arg6.IsWhole)
    (x : Vec F S8x25600 .bf16) (ea : Vec F S3x25600 .f32) (g : Vec F S48x8 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out2_5 x ea g mu sg)) -∗ K ⟨⟩))
      ⊢ wp frame (wpE (defs₀ (F := F)) Variants.none c none) E (cc2__edge_message_kernel i arg1 harg1 arg2 harg2 arg3 harg3 arg4 harg4 arg5 harg5 arg6 harg6) K := by
  simp only [cc2__edge_message_kernel_eq_skeleton]; unfold cc2__edge_message_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data of this pipeline -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.NodeB3.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 2: one block of 4000 nodes, 8 input channels, 16 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or kept from the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or kept from the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether fetched there or kept from the point before. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether fetched there or kept from the point before. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev rH3 : Rect S4000x8 := Rect.unit (s := S4000x8) ![0, 0] S4000x8.size inb_S4000x8_S4000x8_0_0
abbrev rR3 : Rect S8x16 := Rect.unit (s := S8x16) ![0, 0] S8x16.size inb_S8x16_S8x16_0_0
abbrev rB3 : Rect S1x16 := Rect.unit (s := S1x16) ![0, 0] S1x16.size inb_S1x16_S1x16_0_0
abbrev rA3 : Rect S4000x16 := Rect.unit (s := S4000x16) ![0, 0] S4000x16.size inb_S4000x16_S4000x16_0_0
abbrev rC3 : Rect S4000x1 := Rect.unit (s := S4000x1) ![0, 0] S4000x1.size inb_S4000x1_S4000x1_0_0

/-- The updated block the body computes from its five input blocks. -/
def upd3 (h : Vec F S4000x8 .bf16) (root : Vec F S8x16 .f32) (bias : Vec F S1x16 .f32) (agg : Vec F S4000x16 .f32) (cinv : Vec F S4000x1 .f32) : Vec F S4000x16 .f32 :=
  k3_pay1 (View.ld h rH3) (View.ld root rR3) (View.ld agg rA3) (View.ld cinv rC3) (View.ld bias rB3)

/-- The output buffer after the body: its one store, which covers it. -/
def out3_5 (h : Vec F S4000x8 .bf16) (root : Vec F S8x16 .f32) (bias : Vec F S1x16 .f32) (agg : Vec F S4000x16 .f32) (cinv : Vec F S4000x1 .f32) : Vec F S4000x16 .f32 :=
  View.canon [⟨rA3, upd3 h root bias agg cinv⟩]

theorem cover3_5 (p0 : Vec F S4000x16 .f32) (y : S4000x16.Idx) :
    ∃ pc ∈ ([⟨rA3, p0⟩] : List (View.Piece (Elt F) S4000x16 .f32)), y ∈ pc.1.set :=
  View.cover_of_tiled [⟨rA3, p0⟩] S4000x16.size (by rfl) y

set_option maxHeartbeats 2000000 in
/-- The body on whole staging buffers: the inputs keep their contents, the output ends at `out3_5` of them. -/
theorem sound_kernel3 (c : Dev nD) (E : Set ℕ) (i : grid3.Coords)
    (arg1 : Memref sig .tc .vmem S4000x8 .bf16) (harg1 : arg1.IsWhole) (arg2 : Memref sig .tc .vmem S8x16 .f32) (harg2 : arg2.IsWhole)
    (arg3 : Memref sig .tc .vmem S1x16 .f32) (harg3 : arg3.IsWhole) (arg4 : Memref sig .tc .vmem S4000x16 .f32) (harg4 : arg4.IsWhole)
    (arg5 : Memref sig .tc .vmem S4000x1 .f32) (harg5 : arg5.IsWhole) (arg6 : Memref sig .tc .vmem S4000x16 .f32) (harg6 : arg6.IsWhole)
    (h : Vec F S4000x8 .bf16) (root : Vec F S8x16 .f32) (bias : Vec F S1x16 .f32) (agg : Vec F S4000x16 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out3_5 h root bias agg cinv)) -∗ K ⟨⟩))
      ⊢ wp frame (wpE (defs₀ (F := F)) Variants.none c none) E (cc3__node_update_kernel i arg1 harg1 arg2 harg2 arg3 harg3 arg4 harg4 arg5 harg5 arg6 harg6) K := by
  simp only [cc3__node_update_kernel_eq_skeleton]; unfold cc3__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The proof data of this pipeline -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.EdgeB4.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 3: one block of 25600 edges, 16 input channels, 8 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether fetched there or kept from the point before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether fetched there or kept from the point before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether fetched there or kept from the point before. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether fetched there or kept from the point before. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rX4 : Rect S16x25600 := Rect.unit (s := S16x25600) ![0, 0] S16x25600.size inb_S16x25600_S16x25600_0_0
abbrev rE4 : Rect S3x25600 := Rect.unit (s := S3x25600) ![0, 0] S3x25600.size inb_S3x25600_S3x25600_0_0
abbrev rG4 : Rect S24x16 := Rect.unit (s := S24x16) ![0, 0] S24x16.size inb_S24x16_S24x16_0_0
abbrev rRow0_4 : Rect S3x3 := Rect.unit (s := S3x3) ![0, 0] S1x3.size inb_S3x3_S1x3_0_0
abbrev rRow1_4 : Rect S3x3 := Rect.unit (s := S3x3) ![1, 0] S1x3.size inb_S3x3_S1x3_1_0
abbrev rRow2_4 : Rect S3x3 := Rect.unit (s := S3x3) ![2, 0] S1x3.size inb_S3x3_S1x3_2_0
abbrev rO4 : Rect S8x25600 := Rect.unit (s := S8x25600) ![0, 0] S8x25600.size inb_S8x25600_S8x25600_0_0

/-- The message block the body computes from its five input blocks. -/
def msg4 (x : Vec F S16x25600 .bf16) (ea : Vec F S3x25600 .f32) (g : Vec F S24x16 .bf16) (mu sg : Vec F S3x3 .f32) : Vec F S8x25600 .f32 :=
  k4_pay1 (k4_pay2 (View.ld x (rX4)) (View.ld g (rG4))) (k4_pay3 (View.ld ea (rE4)))
    (k4_pay4 (View.ld x (rX4)) (View.ld g (rG4)) (View.ld ea (rE4)) (View.ld mu (rRow0_4)) (View.ld sg (rRow0_4)))
    (k4_pay5 (View.ld sg (rRow1_4))) (k4_pay6 (View.ld ea (rE4)) (View.ld mu (rRow1_4)))
    (View.ld mu (rRow2_4)) (View.ld sg (rRow2_4))

/-- The output buffer after the body: its one store, which covers it. -/
def out4_5 (x : Vec F S16x25600 .bf16) (ea : Vec F S3x25600 .f32) (g : Vec F S24x16 .bf16) (mu sg : Vec F S3x3 .f32) : Vec F S8x25600 .f32 :=
  View.canon [⟨rO4, msg4 x ea g mu sg⟩]

theorem cover4_5 (p0 : Vec F S8x25600 .f32) (y : S8x25600.Idx) :
    ∃ pc ∈ ([⟨rO4, p0⟩] : List (View.Piece (Elt F) S8x25600 .f32)), y ∈ pc.1.set :=
  View.cover_of_tiled [⟨rO4, p0⟩] S8x25600.size (by rfl) y

set_option maxHeartbeats 2000000 in
/-- The body on whole staging buffers: the inputs keep their contents, the output ends at `out4_5` of them. -/
theorem sound_kernel4 (c : Dev nD) (E : Set ℕ) (i : grid4.Coords)
    (arg1 : Memref sig .tc .vmem S16x25600 .bf16) (harg1 : arg1.IsWhole) (arg2 : Memref sig .tc .vmem S3x25600 .f32) (harg2 : arg2.IsWhole)
    (arg3 : Memref sig .tc .vmem S24x16 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S8x25600 .f32) (harg6 : arg6.IsWhole)
    (x : Vec F S16x25600 .bf16) (ea : Vec F S3x25600 .f32) (g : Vec F S24x16 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out4_5 x ea g mu sg)) -∗ K ⟨⟩))
      ⊢ wp frame (wpE (defs₀ (F := F)) Variants.none c none) E (cc4__edge_message_kernel i arg1 harg1 arg2 harg2 arg3 harg3 arg4 harg4 arg5 harg5 arg6 harg6) K := by
  simp only [cc4__edge_message_kernel_eq_skeleton]; unfold cc4__edge_message_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_5 _)

/-! ## The proof data of this pipeline -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.NodeB5.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 3: one block of 4000 nodes, 16 input channels, 8 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether fetched there or kept from the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether fetched there or kept from the point before. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether fetched there or kept from the point before. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether fetched there or kept from the point before. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether fetched there or kept from the point before. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

abbrev rH5 : Rect S4000x16 := Rect.unit (s := S4000x16) ![0, 0] S4000x16.size inb_S4000x16_S4000x16_0_0
abbrev rR5 : Rect S16x8 := Rect.unit (s := S16x8) ![0, 0] S16x8.size inb_S16x8_S16x8_0_0
abbrev rB5 : Rect S1x8 := Rect.unit (s := S1x8) ![0, 0] S1x8.size inb_S1x8_S1x8_0_0
abbrev rA5 : Rect S4000x8 := Rect.unit (s := S4000x8) ![0, 0] S4000x8.size inb_S4000x8_S4000x8_0_0
abbrev rC5 : Rect S4000x1 := Rect.unit (s := S4000x1) ![0, 0] S4000x1.size inb_S4000x1_S4000x1_0_0

/-- The updated block the body computes from its five input blocks. -/
def upd5 (h : Vec F S4000x16 .bf16) (root : Vec F S16x8 .f32) (bias : Vec F S1x8 .f32) (agg : Vec F S4000x8 .f32) (cinv : Vec F S4000x1 .f32) : Vec F S4000x8 .f32 :=
  k5_pay1 (View.ld h rH5) (View.ld root rR5) (View.ld agg rA5) (View.ld cinv rC5) (View.ld bias rB5)

/-- The output buffer after the body: its one store, which covers it. -/
def out5_5 (h : Vec F S4000x16 .bf16) (root : Vec F S16x8 .f32) (bias : Vec F S1x8 .f32) (agg : Vec F S4000x8 .f32) (cinv : Vec F S4000x1 .f32) : Vec F S4000x8 .f32 :=
  View.canon [⟨rA5, upd5 h root bias agg cinv⟩]

theorem cover5_5 (p0 : Vec F S4000x8 .f32) (y : S4000x8.Idx) :
    ∃ pc ∈ ([⟨rA5, p0⟩] : List (View.Piece (Elt F) S4000x8 .f32)), y ∈ pc.1.set :=
  View.cover_of_tiled [⟨rA5, p0⟩] S4000x8.size (by rfl) y

set_option maxHeartbeats 2000000 in
/-- The body on whole staging buffers: the inputs keep their contents, the output ends at `out5_5` of them. -/
theorem sound_kernel5 (c : Dev nD) (E : Set ℕ) (i : grid5.Coords)
    (arg1 : Memref sig .tc .vmem S4000x16 .bf16) (harg1 : arg1.IsWhole) (arg2 : Memref sig .tc .vmem S16x8 .f32) (harg2 : arg2.IsWhole)
    (arg3 : Memref sig .tc .vmem S1x8 .f32) (harg3 : arg3.IsWhole) (arg4 : Memref sig .tc .vmem S4000x8 .f32) (harg4 : arg4.IsWhole)
    (arg5 : Memref sig .tc .vmem S4000x1 .f32) (harg5 : arg5.IsWhole) (arg6 : Memref sig .tc .vmem S4000x8 .f32) (harg6 : arg6.IsWhole)
    (h : Vec F S4000x16 .bf16) (root : Vec F S16x8 .f32) (bias : Vec F S1x8 .f32) (agg : Vec F S4000x8 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out5_5 h root bias agg cinv)) -∗ K ⟨⟩))
      ⊢ wp frame (wpE (defs₀ (F := F)) Variants.none c none) E (cc5__node_update_kernel i arg1 harg1 arg2 harg2 arg3 harg3 arg4 harg4 arg5 harg5 arg6 harg6) K := by
  simp only [cc5__node_update_kernel_eq_skeleton]; unfold cc5__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_5 _)

/-! ## The proof data of this pipeline -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.EdgeB6.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 4: one block of 25600 edges, 8 input channels, 4 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether fetched there or kept from the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether fetched there or kept from the point before. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether fetched there or kept from the point before. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether fetched there or kept from the point before. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, whether fetched there or kept from the point before. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

abbrev rX6 : Rect S8x25600 := Rect.unit (s := S8x25600) ![0, 0] S8x25600.size inb_S8x25600_S8x25600_0_0
abbrev rE6 : Rect S3x25600 := Rect.unit (s := S3x25600) ![0, 0] S3x25600.size inb_S3x25600_S3x25600_0_0
abbrev rG6 : Rect S12x8 := Rect.unit (s := S12x8) ![0, 0] S12x8.size inb_S12x8_S12x8_0_0
abbrev rRow0_6 : Rect S3x3 := Rect.unit (s := S3x3) ![0, 0] S1x3.size inb_S3x3_S1x3_0_0
abbrev rRow1_6 : Rect S3x3 := Rect.unit (s := S3x3) ![1, 0] S1x3.size inb_S3x3_S1x3_1_0
abbrev rRow2_6 : Rect S3x3 := Rect.unit (s := S3x3) ![2, 0] S1x3.size inb_S3x3_S1x3_2_0
abbrev rO6 : Rect S4x25600 := Rect.unit (s := S4x25600) ![0, 0] S4x25600.size inb_S4x25600_S4x25600_0_0

/-- The message block the body computes from its five input blocks. -/
def msg6 (x : Vec F S8x25600 .bf16) (ea : Vec F S3x25600 .f32) (g : Vec F S12x8 .bf16) (mu sg : Vec F S3x3 .f32) : Vec F S4x25600 .f32 :=
  k6_pay1 (k6_pay2 (View.ld x (rX6)) (View.ld g (rG6))) (k6_pay3 (View.ld ea (rE6)))
    (k6_pay4 (View.ld x (rX6)) (View.ld g (rG6)) (View.ld ea (rE6)) (View.ld mu (rRow0_6)) (View.ld sg (rRow0_6)))
    (k6_pay5 (View.ld sg (rRow1_6))) (k6_pay6 (View.ld ea (rE6)) (View.ld mu (rRow1_6)))
    (View.ld mu (rRow2_6)) (View.ld sg (rRow2_6))

/-- The output buffer after the body: its one store, which covers it. -/
def out6_5 (x : Vec F S8x25600 .bf16) (ea : Vec F S3x25600 .f32) (g : Vec F S12x8 .bf16) (mu sg : Vec F S3x3 .f32) : Vec F S4x25600 .f32 :=
  View.canon [⟨rO6, msg6 x ea g mu sg⟩]

theorem cover6_5 (p0 : Vec F S4x25600 .f32) (y : S4x25600.Idx) :
    ∃ pc ∈ ([⟨rO6, p0⟩] : List (View.Piece (Elt F) S4x25600 .f32)), y ∈ pc.1.set :=
  View.cover_of_tiled [⟨rO6, p0⟩] S4x25600.size (by rfl) y

set_option maxHeartbeats 2000000 in
/-- The body on whole staging buffers: the inputs keep their contents, the output ends at `out6_5` of them. -/
theorem sound_kernel6 (c : Dev nD) (E : Set ℕ) (i : grid6.Coords)
    (arg1 : Memref sig .tc .vmem S8x25600 .bf16) (harg1 : arg1.IsWhole) (arg2 : Memref sig .tc .vmem S3x25600 .f32) (harg2 : arg2.IsWhole)
    (arg3 : Memref sig .tc .vmem S12x8 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S4x25600 .f32) (harg6 : arg6.IsWhole)
    (x : Vec F S8x25600 .bf16) (ea : Vec F S3x25600 .f32) (g : Vec F S12x8 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out6_5 x ea g mu sg)) -∗ K ⟨⟩))
      ⊢ wp frame (wpE (defs₀ (F := F)) Variants.none c none) E (cc6__edge_message_kernel i arg1 harg1 arg2 harg2 arg3 harg3 arg4 harg4 arg5 harg5 arg6 harg6) K := by
  simp only [cc6__edge_message_kernel_eq_skeleton]; unfold cc6__edge_message_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The proof data of this pipeline -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.NodeB7.lean ====
import proofs.«144358_j6828998001340_2_alg».proof.Proof.Gen.Kernel.Launch
import proofs.«144358_j6828998001340_2_alg».proof.Proof.Gen.Kernel.Skeleton
import proofs.«144358_j6828998001340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 4: one block of 4000 nodes, 8 input channels, 4 output channels.
The body reads the node features, the root weight, the bias row, the summed messages and the reciprocal in-degree, and
stores (summed messages x reciprocal degree) + features x root + bias (the last layer: no unit after it); what the output buffer held before is read and discarded. -/

variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether fetched there or kept from the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether fetched there or kept from the point before. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether fetched there or kept from the point before. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether fetched there or kept from the point before. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether fetched there or kept from the point before. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes -/

abbrev rH7 : Rect S4000x8 := Rect.unit (s := S4000x8) ![0, 0] S4000x8.size inb_S4000x8_S4000x8_0_0
abbrev rR7 : Rect S8x4 := Rect.unit (s := S8x4) ![0, 0] S8x4.size inb_S8x4_S8x4_0_0
abbrev rB7 : Rect S1x4 := Rect.unit (s := S1x4) ![0, 0] S1x4.size inb_S1x4_S1x4_0_0
abbrev rA7 : Rect S4000x4 := Rect.unit (s := S4000x4) ![0, 0] S4000x4.size inb_S4000x4_S4000x4_0_0
abbrev rC7 : Rect S4000x1 := Rect.unit (s := S4000x1) ![0, 0] S4000x1.size inb_S4000x1_S4000x1_0_0

/-- The updated block the body computes from its five input blocks. -/
def upd7 (h : Vec F S4000x8 .bf16) (root : Vec F S8x4 .f32) (bias : Vec F S1x4 .f32) (agg : Vec F S4000x4 .f32) (cinv : Vec F S4000x1 .f32) : Vec F S4000x4 .f32 :=
  k7_pay1 (View.ld h rH7) (View.ld root rR7) (View.ld agg rA7) (View.ld cinv rC7) (View.ld bias rB7)

/-- The output buffer after the body: its one store, which covers it. -/
def out7_5 (h : Vec F S4000x8 .bf16) (root : Vec F S8x4 .f32) (bias : Vec F S1x4 .f32) (agg : Vec F S4000x4 .f32) (cinv : Vec F S4000x1 .f32) : Vec F S4000x4 .f32 :=
  View.canon [⟨rA7, upd7 h root bias agg cinv⟩]

theorem cover7_5 (p0 : Vec F S4000x4 .f32) (y : S4000x4.Idx) :
    ∃ pc ∈ ([⟨rA7, p0⟩] : List (View.Piece (Elt F) S4000x4 .f32)), y ∈ pc.1.set :=
  View.cover_of_tiled [⟨rA7, p0⟩] S4000x4.size (by rfl) y

set_option maxHeartbeats 2000000 in
/-- The body on whole staging buffers: the inputs keep their contents, the output ends at `out7_5` of them. -/
theorem sound_kernel7 (c : Dev nD) (E : Set ℕ) (i : grid7.Coords)
    (arg1 : Memref sig .tc .vmem S4000x8 .bf16) (harg1 : arg1.IsWhole) (arg2 : Memref sig .tc .vmem S8x4 .f32) (harg2 : arg2.IsWhole)
    (arg3 : Memref sig .tc .vmem S1x4 .f32) (harg3 : arg3.IsWhole) (arg4 : Memref sig .tc .vmem S4000x4 .f32) (harg4 : arg4.IsWhole)
    (arg5 : Memref sig .tc .vmem S4000x1 .f32) (harg5 : arg5.IsWhole) (arg6 : Memref sig .tc .vmem S4000x4 .f32) (harg6 : arg6.IsWhole)
    (h : Vec F S4000x8 .bf16) (root : Vec F S8x4 .f32) (bias : Vec F S1x4 .f32) (agg : Vec F S4000x4 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out7_5 h root bias agg cinv)) -∗ K ⟨⟩))
      ⊢ wp frame (wpE (defs₀ (F := F)) Variants.none c none) E (cc7__node_update_kernel i arg1 harg1 arg2 harg2 arg3 harg3 arg4 harg4 arg5 harg5 arg6 harg6) K := by
  simp only [cc7__node_update_kernel_eq_skeleton]; unfold cc7__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_5 _)

/-! ## The proof data of this pipeline -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.BoundsB.lean ====
import proofs.«144358_j6828998001340_2_alg».proof.Proof.Gen.Kernel.Launch
import proofs.«144358_j6828998001340_2_alg».proof.Proof.EdgeB0
import proofs.«144358_j6828998001340_2_alg».proof.Proof.NodeB1
import proofs.«144358_j6828998001340_2_alg».proof.Proof.EdgeB2
import proofs.«144358_j6828998001340_2_alg».proof.Proof.NodeB3
import proofs.«144358_j6828998001340_2_alg».proof.Proof.EdgeB4
import proofs.«144358_j6828998001340_2_alg».proof.Proof.NodeB5
import proofs.«144358_j6828998001340_2_alg».proof.Proof.EdgeB6
import proofs.«144358_j6828998001340_2_alg».proof.Proof.NodeB7
import Idealize.ShloMosaic.Lib.Pipeline.FrameBody
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # The buffer contents at each boundary of @main: a fold from the launch memory

@main is eight stretches of host operations, each followed by one kernel region. `W (2K)` is what core `c`'s buffers
hold when stretch `K` starts, `W (2K+1)` what they hold when region `K` is entered (the stretch's operations applied in
order), and `W (2K+2)` what they hold when region `K` is left: the region's arrays at what its write-backs leave,
every other buffer as entered. -/

/-- Core `c`'s buffers at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A region changes only its output array: every other buffer, its input arrays included, leaves as it entered. -/
theorem W2_kept (c : Dev nD) (b : Ref sig .tc) (hb : b ≠ Pipeline.arrRef spec0 5) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W2_arr m ρ c w).trans (((dat0 (V1 m ρ) c).arrAt_in w hw _).trans (A_eq0 (V1 m ρ) c w))
  · exact W2_of_ne m ρ c b fun w e => h ⟨w, e⟩

/-- After stretch 1 (region 1's entry). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A region changes only its output array: every other buffer, its input arrays included, leaves as it entered. -/
theorem W4_kept (c : Dev nD) (b : Ref sig .tc) (hb : b ≠ Pipeline.arrRef spec1 5) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W4_arr m ρ c w).trans (((dat1 (V3 m ρ) c).arrAt_in w hw _).trans (A_eq1 (V3 m ρ) c w))
  · exact W4_of_ne m ρ c b fun w e => h ⟨w, e⟩

/-- After stretch 2 (region 2's entry). -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A region changes only its output array: every other buffer, its input arrays included, leaves as it entered. -/
theorem W6_kept (c : Dev nD) (b : Ref sig .tc) (hb : b ≠ Pipeline.arrRef spec2 5) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W6_arr m ρ c w).trans (((dat2 (V5 m ρ) c).arrAt_in w hw _).trans (A_eq2 (V5 m ρ) c w))
  · exact W6_of_ne m ρ c b fun w e => h ⟨w, e⟩

/-- After stretch 3 (region 3's entry). -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A region changes only its output array: every other buffer, its input arrays included, leaves as it entered. -/
theorem W8_kept (c : Dev nD) (b : Ref sig .tc) (hb : b ≠ Pipeline.arrRef spec3 5) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W8_arr m ρ c w).trans (((dat3 (V7 m ρ) c).arrAt_in w hw _).trans (A_eq3 (V7 m ρ) c w))
  · exact W8_of_ne m ρ c b fun w e => h ⟨w, e⟩

/-- After stretch 4 (region 4's entry). -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A region changes only its output array: every other buffer, its input arrays included, leaves as it entered. -/
theorem W10_kept (c : Dev nD) (b : Ref sig .tc) (hb : b ≠ Pipeline.arrRef spec4 5) :
    W10 m ρ c (Proc.devRef .tc b) = W9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W10_arr m ρ c w).trans (((dat4 (V9 m ρ) c).arrAt_in w hw _).trans (A_eq4 (V9 m ρ) c w))
  · exact W10_of_ne m ρ c b fun w e => h ⟨w, e⟩

/-- After stretch 5 (region 5's entry). -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A region changes only its output array: every other buffer, its input arrays included, leaves as it entered. -/
theorem W12_kept (c : Dev nD) (b : Ref sig .tc) (hb : b ≠ Pipeline.arrRef spec5 5) :
    W12 m ρ c (Proc.devRef .tc b) = W11 m ρ c (Proc.devRef .tc b) := by
  by_cases h : ∃ w, Pipeline.arrRef spec5 w = b
  · obtain ⟨w, rfl⟩ := h
    have hw : (cfg5.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W12_arr m ρ c w).trans (((dat5 (V11 m ρ) c).arrAt_in w hw _).trans (A_eq5 (V11 m ρ) c w))
  · exact W12_of_ne m ρ c b fun w e => h ⟨w, e⟩

/-- After stretch 6 (region 6's entry). -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A region changes only its output array: every other buffer, its input arrays included, leaves as it entered. -/
theorem W14_kept (c : Dev nD) (b : Ref sig .tc) (hb : b ≠ Pipeline.arrRef spec6 5) :
    W14 m ρ c (Proc.devRef .tc b) = W13 m ρ c (Proc.devRef .tc b) := by
  by_cases h : ∃ w, Pipeline.arrRef spec6 w = b
  · obtain ⟨w, rfl⟩ := h
    have hw : (cfg6.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W14_arr m ρ c w).trans (((dat6 (V13 m ρ) c).arrAt_in w hw _).trans (A_eq6 (V13 m ρ) c w))
  · exact W14_of_ne m ρ c b fun w e => h ⟨w, e⟩

/-- After stretch 7 (region 7's entry). -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- At region 7's exit. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A region changes only its output array: every other buffer, its input arrays included, leaves as it entered. -/
theorem W16_kept (c : Dev nD) (b : Ref sig .tc) (hb : b ≠ Pipeline.arrRef spec7 5) :
    W16 m ρ c (Proc.devRef .tc b) = W15 m ρ c (Proc.devRef .tc b) := by
  by_cases h : ∃ w, Pipeline.arrRef spec7 w = b
  · obtain ⟨w, rfl⟩ := h
    have hw : (cfg7.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W16_arr m ρ c w).trans (((dat7 (V15 m ρ) c).arrAt_in w hw _).trans (A_eq7 (V15 m ρ) c w))
  · exact W16_of_ne m ρ c b fun w e => h ⟨w, e⟩

/-! ## The argument arrays end as launched -/

/-- The argument arrays of @main. -/
def argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22]

/-- No region's output array is an argument. -/
theorem arg_ne_out : ∀ b ∈ argRefs, b ≠ Pipeline.arrRef spec0 5 ∧ b ≠ Pipeline.arrRef spec1 5 ∧ b ≠ Pipeline.arrRef spec2 5 ∧ b ≠ Pipeline.arrRef spec3 5
    ∧ b ≠ Pipeline.arrRef spec4 5 ∧ b ≠ Pipeline.arrRef spec5 5 ∧ b ≠ Pipeline.arrRef spec6 5 ∧ b ≠ Pipeline.arrRef spec7 5 := by decide

/-- No operation of stretch 0 writes an argument array: each writes its own result buffer. -/
theorem hostOps0_keeps_args : (hostOps0 : List (HloOp τ sig (Elt F))).Forall fun op => ∀ b ∈ argRefs, Proc.devRef (τ := τ) .tc b ∉ op.writes := by
  simp only [hostOps0, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 1 writes an argument array: each writes its own result buffer. -/
theorem hostOps1_keeps_args : (hostOps1 : List (HloOp τ sig (Elt F))).Forall fun op => ∀ b ∈ argRefs, Proc.devRef (τ := τ) .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 2 writes an argument array: each writes its own result buffer. -/
theorem hostOps2_keeps_args : (hostOps2 : List (HloOp τ sig (Elt F))).Forall fun op => ∀ b ∈ argRefs, Proc.devRef (τ := τ) .tc b ∉ op.writes := by
  simp only [hostOps2, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 3 writes an argument array: each writes its own result buffer. -/
theorem hostOps3_keeps_args : (hostOps3 : List (HloOp τ sig (Elt F))).Forall fun op => ∀ b ∈ argRefs, Proc.devRef (τ := τ) .tc b ∉ op.writes := by
  simp only [hostOps3, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 4 writes an argument array: each writes its own result buffer. -/
theorem hostOps4_keeps_args : (hostOps4 : List (HloOp τ sig (Elt F))).Forall fun op => ∀ b ∈ argRefs, Proc.devRef (τ := τ) .tc b ∉ op.writes := by
  simp only [hostOps4, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 5 writes an argument array: each writes its own result buffer. -/
theorem hostOps5_keeps_args : (hostOps5 : List (HloOp τ sig (Elt F))).Forall fun op => ∀ b ∈ argRefs, Proc.devRef (τ := τ) .tc b ∉ op.writes := by
  simp only [hostOps5, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 6 writes an argument array: each writes its own result buffer. -/
theorem hostOps6_keeps_args : (hostOps6 : List (HloOp τ sig (Elt F))).Forall fun op => ∀ b ∈ argRefs, Proc.devRef (τ := τ) .tc b ∉ op.writes := by
  simp only [hostOps6, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 7 writes an argument array: each writes its own result buffer. -/
theorem hostOps7_keeps_args : (hostOps7 : List (HloOp τ sig (Elt F))).Forall fun op => ∀ b ∈ argRefs, Proc.devRef (τ := τ) .tc b ∉ op.writes := by
  simp only [hostOps7, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- An argument array is as launched at the end of @main: no host operation writes it and no region's output is it. -/
theorem W16_arg (c : Dev nD) (b : Ref sig .tc) (hb : b ∈ argRefs) : W16 m ρ c (Proc.devRef .tc b) = m ((c : Thread nD τ).loc b) := by
  obtain ⟨h0, h1, h2, h3, h4, h5, h6, h7⟩ := arg_ne_out b hb
  have host : ∀ (ops : List (HloOp τ sig (Elt F))) (W : Valuation τ sig (Elt F)),
      (ops.Forall fun op => ∀ b ∈ argRefs, Proc.devRef (τ := τ) .tc b ∉ op.writes) →
      StableHlo.after ops W (Proc.devRef .tc b) = W (Proc.devRef .tc b) := fun ops W h =>
    StableHlo.after_of_forall_not_mem ops W fun op hop => (List.forall_iff_forall_mem.mp h) op hop b hb
  calc W16 m ρ c (Proc.devRef .tc b)
    _ = W15 m ρ c (Proc.devRef .tc b) := W16_kept m ρ c b h7
    _ = W14 m ρ c (Proc.devRef .tc b) := host _ _ hostOps7_keeps_args
    _ = W13 m ρ c (Proc.devRef .tc b) := W14_kept m ρ c b h6
    _ = W12 m ρ c (Proc.devRef .tc b) := host _ _ hostOps6_keeps_args
    _ = W11 m ρ c (Proc.devRef .tc b) := W12_kept m ρ c b h5
    _ = W10 m ρ c (Proc.devRef .tc b) := host _ _ hostOps5_keeps_args
    _ = W9 m ρ c (Proc.devRef .tc b) := W10_kept m ρ c b h4
    _ = W8 m ρ c (Proc.devRef .tc b) := host _ _ hostOps4_keeps_args
    _ = W7 m ρ c (Proc.devRef .tc b) := W8_kept m ρ c b h3
    _ = W6 m ρ c (Proc.devRef .tc b) := host _ _ hostOps3_keeps_args
    _ = W5 m ρ c (Proc.devRef .tc b) := W6_kept m ρ c b h2
    _ = W4 m ρ c (Proc.devRef .tc b) := host _ _ hostOps2_keeps_args
    _ = W3 m ρ c (Proc.devRef .tc b) := W4_kept m ρ c b h1
    _ = W2 m ρ c (Proc.devRef .tc b) := host _ _ hostOps1_keeps_args
    _ = W1 m ρ c (Proc.devRef .tc b) := W2_kept m ρ c b h0
    _ = W0 m ρ c (Proc.devRef .tc b) := host _ _ hostOps0_keeps_args
    _ = m ((c : Thread nD τ).loc b) := rfl

end Cert.Kernel.Hand

end
-- ==== Proof.RunB.lean ====
import proofs.«144358_j6828998001340_2_alg».proof.Proof.BoundsB
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as sixteen segments: eight stretches of host operations, each followed by its kernel region

The thread state between segments is "every unscoped buffer holds the boundary's contents, the generator register is at
some state, nothing is owed". A region takes its six arrays out of the unscoped buffers, runs its pipeline over them and
puts them back at what the write-backs leave. -/

/-- No pipeline reads a prefetched table. -/
abbrev adm : (p : Fin 8) → (pcfgs (F := F) p).Adm := fun p => (cfgs p).toPCfg_adm

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- No operation of stretch 4 allocates a buffer. -/
theorem hostOps4_fresh : (hostOps4 : List (HloOp τ sig (Elt F))).Forall fun op => op.fresh = ∅ := by
  simp only [List.Forall]; repeat' constructor
/-- No operation of stretch 5 allocates a buffer. -/
theorem hostOps5_fresh : (hostOps5 : List (HloOp τ sig (Elt F))).Forall fun op => op.fresh = ∅ := by
  simp only [List.Forall]; repeat' constructor
/-- No operation of stretch 6 allocates a buffer. -/
theorem hostOps6_fresh : (hostOps6 : List (HloOp τ sig (Elt F))).Forall fun op => op.fresh = ∅ := by
  simp only [List.Forall]; repeat' constructor
/-- No operation of stretch 7 allocates a buffer. -/
theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last boundary's contents. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's sixteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- Every weakly fair execution of @main terminates without a fault, and at the end every unscoped buffer of every core holds
    the last boundary's contents `W16`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- An argument array ends as launched. -/
theorem arg_kept {r : PUnit × MemSt nD τ sig (Elt F)} (h : ∀ c : Dev nD, ∀ b ∈ Pipeline.ucRefs τ sig, r.2.mem (((c : Thread nD τ)).1, b) = W16 m ρ c b)
    (c : Dev nD) (b : Ref sig .tc) (hb : b ∈ argRefs) (hu : ¬ (Proc.devRef .tc b : DevRef τ sig).isScoped) :
    r.2.mem ((c.tc : Thread nD τ).loc b) = m ((c.tc : Thread nD τ).loc b) :=
  (h c _ (mem_uc b hu)).trans (W16_arg m ρ c b hb)

/-- The frame: @main runs to the end, faults nowhere, and leaves its twenty-three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨arg_kept m ρ h c main_arg0 (by decide) (by decide),
    arg_kept m ρ h c main_arg1 (by decide) (by decide),
    arg_kept m ρ h c main_arg2 (by decide) (by decide),
    arg_kept m ρ h c main_arg3 (by decide) (by decide),
    arg_kept m ρ h c main_arg4 (by decide) (by decide),
    arg_kept m ρ h c main_arg5 (by decide) (by decide),
    arg_kept m ρ h c main_arg6 (by decide) (by decide),
    arg_kept m ρ h c main_arg7 (by decide) (by decide),
    arg_kept m ρ h c main_arg8 (by decide) (by decide),
    arg_kept m ρ h c main_arg9 (by decide) (by decide),
    arg_kept m ρ h c main_arg10 (by decide) (by decide),
    arg_kept m ρ h c main_arg11 (by decide) (by decide),
    arg_kept m ρ h c main_arg12 (by decide) (by decide),
    arg_kept m ρ h c main_arg13 (by decide) (by decide),
    arg_kept m ρ h c main_arg14 (by decide) (by decide),
    arg_kept m ρ h c main_arg15 (by decide) (by decide),
    arg_kept m ρ h c main_arg16 (by decide) (by decide),
    arg_kept m ρ h c main_arg17 (by decide) (by decide),
    arg_kept m ρ h c main_arg18 (by decide) (by decide),
    arg_kept m ρ h c main_arg19 (by decide) (by decide),
    arg_kept m ρ h c main_arg20 (by decide) (by decide),
    arg_kept m ρ h c main_arg21 (by decide) (by decide),
    arg_kept m ρ h c main_arg22 (by decide) (by decide)⟩) (run_main m ρ)

end Cert.Kernel.Hand

end
-- ==== Proof.EdgeI0.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 1: one block of 25600 edges, 3 input channels, 8 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rX0 : Rect S3x25600 := Rect.unit (s := S3x25600) ![0, 0] S3x25600.size inb_S3x25600_S3x25600_0_0
abbrev rE0 : Rect S3x25600 := Rect.unit (s := S3x25600) ![0, 0] S3x25600.size inb_S3x25600_S3x25600_0_0
abbrev rG0 : Rect S24x3 := Rect.unit (s := S24x3) ![0, 0] S24x3.size inb_S24x3_S24x3_0_0
abbrev rRow0_0 : Rect S3x3 := Rect.unit (s := S3x3) ![0, 0] S1x3.size inb_S3x3_S1x3_0_0
abbrev rRow1_0 : Rect S3x3 := Rect.unit (s := S3x3) ![1, 0] S1x3.size inb_S3x3_S1x3_1_0
abbrev rRow2_0 : Rect S3x3 := Rect.unit (s := S3x3) ![2, 0] S1x3.size inb_S3x3_S1x3_2_0
abbrev rO0 : Rect S8x25600 := Rect.unit (s := S8x25600) ![0, 0] S8x25600.size inb_S8x25600_S8x25600_0_0

/-- The message block the body computes from its five input blocks. -/
def msg0 (x : Vec F S3x25600 .bf16) (ea : Vec F S3x25600 .f32) (g : Vec F S24x3 .bf16) (mu sg : Vec F S3x3 .f32) : Vec F S8x25600 .f32 :=
  k0_pay1 (k0_pay2 (View.ld x (rX0)) (View.ld g (rG0))) (k0_pay3 (View.ld ea (rE0)))
    (k0_pay4 (View.ld x (rX0)) (View.ld g (rG0)) (View.ld ea (rE0)) (View.ld mu (rRow0_0)) (View.ld sg (rRow0_0)))
    (k0_pay5 (View.ld sg (rRow1_0))) (k0_pay6 (View.ld ea (rE0)) (View.ld mu (rRow1_0)))
    (View.ld mu (rRow2_0)) (View.ld sg (rRow2_0))

/-- The output buffer after the body: its one store, which covers it. -/
def out0_5 (x : Vec F S3x25600 .bf16) (ea : Vec F S3x25600 .f32) (g : Vec F S24x3 .bf16) (mu sg : Vec F S3x3 .f32) : Vec F S8x25600 .f32 :=
  View.canon [⟨rO0, msg0 x ea g mu sg⟩]

theorem cover0_5 (p0 : Vec F S8x25600 .f32) (y : S8x25600.Idx) :
    ∃ pc ∈ ([⟨rO0, p0⟩] : List (View.Piece (Elt F) S8x25600 .f32)), y ∈ pc.1.set :=
  View.cover_of_tiled [⟨rO0, p0⟩] S8x25600.size (by rfl) y

set_option maxHeartbeats 2000000 in
/-- The body on whole staging buffers: the inputs keep their contents, the output ends at `out0_5` of them. -/
theorem sound_kernel0 (c : Dev nD) (E : Set ℕ) (i : grid0.Coords)
    (arg1 : Memref sig .tc .vmem S3x25600 .bf16) (harg1 : arg1.IsWhole) (arg2 : Memref sig .tc .vmem S3x25600 .f32) (harg2 : arg2.IsWhole)
    (arg3 : Memref sig .tc .vmem S24x3 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S8x25600 .f32) (harg6 : arg6.IsWhole)
    (x : Vec F S3x25600 .bf16) (ea : Vec F S3x25600 .f32) (g : Vec F S24x3 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out0_5 x ea g mu sg)) -∗ K ⟨⟩))
      ⊢ wp frame (wpE (defs₀ (F := F)) Variants.none c none) E (cc0__edge_message_kernel i arg1 harg1 arg2 harg2 arg3 harg3 arg4 harg4 arg5 harg5 arg6 harg6) K := by
  simp only [cc0__edge_message_kernel_eq_skeleton]; unfold cc0__edge_message_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-! ## The proof data of this pipeline -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.NodeI1.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 1: one block of 4000 nodes, 3 input channels, 8 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether fetched there or kept from the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rH1 : Rect S4000x3 := Rect.unit (s := S4000x3) ![0, 0] S4000x3.size inb_S4000x3_S4000x3_0_0
abbrev rR1 : Rect S3x8 := Rect.unit (s := S3x8) ![0, 0] S3x8.size inb_S3x8_S3x8_0_0
abbrev rB1 : Rect S1x8 := Rect.unit (s := S1x8) ![0, 0] S1x8.size inb_S1x8_S1x8_0_0
abbrev rA1 : Rect S4000x8 := Rect.unit (s := S4000x8) ![0, 0] S4000x8.size inb_S4000x8_S4000x8_0_0
abbrev rC1 : Rect S4000x1 := Rect.unit (s := S4000x1) ![0, 0] S4000x1.size inb_S4000x1_S4000x1_0_0

/-- The updated block the body computes from its five input blocks. -/
def upd1 (h : Vec F S4000x3 .bf16) (root : Vec F S3x8 .f32) (bias : Vec F S1x8 .f32) (agg : Vec F S4000x8 .f32) (cinv : Vec F S4000x1 .f32) : Vec F S4000x8 .f32 :=
  k1_pay1 (View.ld h rH1) (View.ld root rR1) (View.ld agg rA1) (View.ld cinv rC1) (View.ld bias rB1)

/-- The output buffer after the body: its one store, which covers it. -/
def out1_5 (h : Vec F S4000x3 .bf16) (root : Vec F S3x8 .f32) (bias : Vec F S1x8 .f32) (agg : Vec F S4000x8 .f32) (cinv : Vec F S4000x1 .f32) : Vec F S4000x8 .f32 :=
  View.canon [⟨rA1, upd1 h root bias agg cinv⟩]

theorem cover1_5 (p0 : Vec F S4000x8 .f32) (y : S4000x8.Idx) :
    ∃ pc ∈ ([⟨rA1, p0⟩] : List (View.Piece (Elt F) S4000x8 .f32)), y ∈ pc.1.set :=
  View.cover_of_tiled [⟨rA1, p0⟩] S4000x8.size (by rfl) y

set_option maxHeartbeats 2000000 in
/-- The body on whole staging buffers: the inputs keep their contents, the output ends at `out1_5` of them. -/
theorem sound_kernel1 (c : Dev nD) (E : Set ℕ) (i : grid1.Coords)
    (arg1 : Memref sig .tc .vmem S4000x3 .bf16) (harg1 : arg1.IsWhole) (arg2 : Memref sig .tc .vmem S3x8 .f32) (harg2 : arg2.IsWhole)
    (arg3 : Memref sig .tc .vmem S1x8 .f32) (harg3 : arg3.IsWhole) (arg4 : Memref sig .tc .vmem S4000x8 .f32) (harg4 : arg4.IsWhole)
    (arg5 : Memref sig .tc .vmem S4000x1 .f32) (harg5 : arg5.IsWhole) (arg6 : Memref sig .tc .vmem S4000x8 .f32) (harg6 : arg6.IsWhole)
    (h : Vec F S4000x3 .bf16) (root : Vec F S3x8 .f32) (bias : Vec F S1x8 .f32) (agg : Vec F S4000x8 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out1_5 h root bias agg cinv)) -∗ K ⟨⟩))
      ⊢ wp frame (wpE (defs₀ (F := F)) Variants.none c none) E (cc1__node_update_kernel i arg1 harg1 arg2 harg2 arg3 harg3 arg4 harg4 arg5 harg5 arg6 harg6) K := by
  simp only [cc1__node_update_kernel_eq_skeleton]; unfold cc1__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The proof data of this pipeline -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.EdgeI2.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 2: one block of 25600 edges, 8 input channels, 16 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or kept from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or kept from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether fetched there or kept from the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether fetched there or kept from the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rX2 : Rect S8x25600 := Rect.unit (s := S8x25600) ![0, 0] S8x25600.size inb_S8x25600_S8x25600_0_0
abbrev rE2 : Rect S3x25600 := Rect.unit (s := S3x25600) ![0, 0] S3x25600.size inb_S3x25600_S3x25600_0_0
abbrev rG2 : Rect S48x8 := Rect.unit (s := S48x8) ![0, 0] S48x8.size inb_S48x8_S48x8_0_0
abbrev rRow0_2 : Rect S3x3 := Rect.unit (s := S3x3) ![0, 0] S1x3.size inb_S3x3_S1x3_0_0
abbrev rRow1_2 : Rect S3x3 := Rect.unit (s := S3x3) ![1, 0] S1x3.size inb_S3x3_S1x3_1_0
abbrev rRow2_2 : Rect S3x3 := Rect.unit (s := S3x3) ![2, 0] S1x3.size inb_S3x3_S1x3_2_0
abbrev rO2 : Rect S16x25600 := Rect.unit (s := S16x25600) ![0, 0] S16x25600.size inb_S16x25600_S16x25600_0_0

/-- The message block the body computes from its five input blocks. -/
def msg2 (x : Vec F S8x25600 .bf16) (ea : Vec F S3x25600 .f32) (g : Vec F S48x8 .bf16) (mu sg : Vec F S3x3 .f32) : Vec F S16x25600 .f32 :=
  k2_pay1 (k2_pay2 (View.ld x (rX2)) (View.ld g (rG2))) (k2_pay3 (View.ld ea (rE2)))
    (k2_pay4 (View.ld x (rX2)) (View.ld g (rG2)) (View.ld ea (rE2)) (View.ld mu (rRow0_2)) (View.ld sg (rRow0_2)))
    (k2_pay5 (View.ld sg (rRow1_2))) (k2_pay6 (View.ld ea (rE2)) (View.ld mu (rRow1_2)))
    (View.ld mu (rRow2_2)) (View.ld sg (rRow2_2))

/-- The output buffer after the body: its one store, which covers it. -/
def out2_5 (x : Vec F S8x25600 .bf16) (ea : Vec F S3x25600 .f32) (g : Vec F S48x8 .bf16) (mu sg : Vec F S3x3 .f32) : Vec F S16x25600 .f32 :=
  View.canon [⟨rO2, msg2 x ea g mu sg⟩]

theorem cover2_5 (p0 : Vec F S16x25600 .f32) (y : S16x25600.Idx) :
    ∃ pc ∈ ([⟨rO2, p0⟩] : List (View.Piece (Elt F) S16x25600 .f32)), y ∈ pc.1.set :=
  View.cover_of_tiled [⟨rO2, p0⟩] S16x25600.size (by rfl) y

set_option maxHeartbeats 2000000 in
/-- The body on whole staging buffers: the inputs keep their contents, the output ends at `out2_5` of them. -/
theorem sound_kernel2 (c : Dev nD) (E : Set ℕ) (i : grid2.Coords)
    (arg1 : Memref sig .tc .vmem S8x25600 .bf16) (harg1 : arg1.IsWhole) (arg2 : Memref sig .tc .vmem S3x25600 .f32) (harg2 : arg2.IsWhole)
    (arg3 : Memref sig .tc .vmem S48x8 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S16x25600 .f32) (harg6 : arg6.IsWhole)
    (x : Vec F S8x25600 .bf16) (ea : Vec F S3x25600 .f32) (g : Vec F S48x8 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out2_5 x ea g mu sg)) -∗ K ⟨⟩))
      ⊢ wp frame (wpE (defs₀ (F := F)) Variants.none c none) E (cc2__edge_message_kernel i arg1 harg1 arg2 harg2 arg3 harg3 arg4 harg4 arg5 harg5 arg6 harg6) K := by
  simp only [cc2__edge_message_kernel_eq_skeleton]; unfold cc2__edge_message_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data of this pipeline -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.NodeI3.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 2: one block of 4000 nodes, 8 input channels, 16 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or kept from the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or kept from the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether fetched there or kept from the point before. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether fetched there or kept from the point before. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev rH3 : Rect S4000x8 := Rect.unit (s := S4000x8) ![0, 0] S4000x8.size inb_S4000x8_S4000x8_0_0
abbrev rR3 : Rect S8x16 := Rect.unit (s := S8x16) ![0, 0] S8x16.size inb_S8x16_S8x16_0_0
abbrev rB3 : Rect S1x16 := Rect.unit (s := S1x16) ![0, 0] S1x16.size inb_S1x16_S1x16_0_0
abbrev rA3 : Rect S4000x16 := Rect.unit (s := S4000x16) ![0, 0] S4000x16.size inb_S4000x16_S4000x16_0_0
abbrev rC3 : Rect S4000x1 := Rect.unit (s := S4000x1) ![0, 0] S4000x1.size inb_S4000x1_S4000x1_0_0

/-- The updated block the body computes from its five input blocks. -/
def upd3 (h : Vec F S4000x8 .bf16) (root : Vec F S8x16 .f32) (bias : Vec F S1x16 .f32) (agg : Vec F S4000x16 .f32) (cinv : Vec F S4000x1 .f32) : Vec F S4000x16 .f32 :=
  k3_pay1 (View.ld h rH3) (View.ld root rR3) (View.ld agg rA3) (View.ld cinv rC3) (View.ld bias rB3)

/-- The output buffer after the body: its one store, which covers it. -/
def out3_5 (h : Vec F S4000x8 .bf16) (root : Vec F S8x16 .f32) (bias : Vec F S1x16 .f32) (agg : Vec F S4000x16 .f32) (cinv : Vec F S4000x1 .f32) : Vec F S4000x16 .f32 :=
  View.canon [⟨rA3, upd3 h root bias agg cinv⟩]

theorem cover3_5 (p0 : Vec F S4000x16 .f32) (y : S4000x16.Idx) :
    ∃ pc ∈ ([⟨rA3, p0⟩] : List (View.Piece (Elt F) S4000x16 .f32)), y ∈ pc.1.set :=
  View.cover_of_tiled [⟨rA3, p0⟩] S4000x16.size (by rfl) y

set_option maxHeartbeats 2000000 in
/-- The body on whole staging buffers: the inputs keep their contents, the output ends at `out3_5` of them. -/
theorem sound_kernel3 (c : Dev nD) (E : Set ℕ) (i : grid3.Coords)
    (arg1 : Memref sig .tc .vmem S4000x8 .bf16) (harg1 : arg1.IsWhole) (arg2 : Memref sig .tc .vmem S8x16 .f32) (harg2 : arg2.IsWhole)
    (arg3 : Memref sig .tc .vmem S1x16 .f32) (harg3 : arg3.IsWhole) (arg4 : Memref sig .tc .vmem S4000x16 .f32) (harg4 : arg4.IsWhole)
    (arg5 : Memref sig .tc .vmem S4000x1 .f32) (harg5 : arg5.IsWhole) (arg6 : Memref sig .tc .vmem S4000x16 .f32) (harg6 : arg6.IsWhole)
    (h : Vec F S4000x8 .bf16) (root : Vec F S8x16 .f32) (bias : Vec F S1x16 .f32) (agg : Vec F S4000x16 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out3_5 h root bias agg cinv)) -∗ K ⟨⟩))
      ⊢ wp frame (wpE (defs₀ (F := F)) Variants.none c none) E (cc3__node_update_kernel i arg1 harg1 arg2 harg2 arg3 harg3 arg4 harg4 arg5 harg5 arg6 harg6) K := by
  simp only [cc3__node_update_kernel_eq_skeleton]; unfold cc3__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The proof data of this pipeline -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.EdgeI4.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 3: one block of 25600 edges, 16 input channels, 8 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether fetched there or kept from the point before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether fetched there or kept from the point before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether fetched there or kept from the point before. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether fetched there or kept from the point before. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rX4 : Rect S16x25600 := Rect.unit (s := S16x25600) ![0, 0] S16x25600.size inb_S16x25600_S16x25600_0_0
abbrev rE4 : Rect S3x25600 := Rect.unit (s := S3x25600) ![0, 0] S3x25600.size inb_S3x25600_S3x25600_0_0
abbrev rG4 : Rect S24x16 := Rect.unit (s := S24x16) ![0, 0] S24x16.size inb_S24x16_S24x16_0_0
abbrev rRow0_4 : Rect S3x3 := Rect.unit (s := S3x3) ![0, 0] S1x3.size inb_S3x3_S1x3_0_0
abbrev rRow1_4 : Rect S3x3 := Rect.unit (s := S3x3) ![1, 0] S1x3.size inb_S3x3_S1x3_1_0
abbrev rRow2_4 : Rect S3x3 := Rect.unit (s := S3x3) ![2, 0] S1x3.size inb_S3x3_S1x3_2_0
abbrev rO4 : Rect S8x25600 := Rect.unit (s := S8x25600) ![0, 0] S8x25600.size inb_S8x25600_S8x25600_0_0

/-- The message block the body computes from its five input blocks. -/
def msg4 (x : Vec F S16x25600 .bf16) (ea : Vec F S3x25600 .f32) (g : Vec F S24x16 .bf16) (mu sg : Vec F S3x3 .f32) : Vec F S8x25600 .f32 :=
  k4_pay1 (k4_pay2 (View.ld x (rX4)) (View.ld g (rG4))) (k4_pay3 (View.ld ea (rE4)))
    (k4_pay4 (View.ld x (rX4)) (View.ld g (rG4)) (View.ld ea (rE4)) (View.ld mu (rRow0_4)) (View.ld sg (rRow0_4)))
    (k4_pay5 (View.ld sg (rRow1_4))) (k4_pay6 (View.ld ea (rE4)) (View.ld mu (rRow1_4)))
    (View.ld mu (rRow2_4)) (View.ld sg (rRow2_4))

/-- The output buffer after the body: its one store, which covers it. -/
def out4_5 (x : Vec F S16x25600 .bf16) (ea : Vec F S3x25600 .f32) (g : Vec F S24x16 .bf16) (mu sg : Vec F S3x3 .f32) : Vec F S8x25600 .f32 :=
  View.canon [⟨rO4, msg4 x ea g mu sg⟩]

theorem cover4_5 (p0 : Vec F S8x25600 .f32) (y : S8x25600.Idx) :
    ∃ pc ∈ ([⟨rO4, p0⟩] : List (View.Piece (Elt F) S8x25600 .f32)), y ∈ pc.1.set :=
  View.cover_of_tiled [⟨rO4, p0⟩] S8x25600.size (by rfl) y

set_option maxHeartbeats 2000000 in
/-- The body on whole staging buffers: the inputs keep their contents, the output ends at `out4_5` of them. -/
theorem sound_kernel4 (c : Dev nD) (E : Set ℕ) (i : grid4.Coords)
    (arg1 : Memref sig .tc .vmem S16x25600 .bf16) (harg1 : arg1.IsWhole) (arg2 : Memref sig .tc .vmem S3x25600 .f32) (harg2 : arg2.IsWhole)
    (arg3 : Memref sig .tc .vmem S24x16 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S8x25600 .f32) (harg6 : arg6.IsWhole)
    (x : Vec F S16x25600 .bf16) (ea : Vec F S3x25600 .f32) (g : Vec F S24x16 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out4_5 x ea g mu sg)) -∗ K ⟨⟩))
      ⊢ wp frame (wpE (defs₀ (F := F)) Variants.none c none) E (cc4__edge_message_kernel i arg1 harg1 arg2 harg2 arg3 harg3 arg4 harg4 arg5 harg5 arg6 harg6) K := by
  simp only [cc4__edge_message_kernel_eq_skeleton]; unfold cc4__edge_message_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_5 _)

/-! ## The proof data of this pipeline -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.NodeI5.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 3: one block of 4000 nodes, 16 input channels, 8 output channels.
The body reads the node features, the root weight, the bias row, the summed messages and the reciprocal in-degree, and
stores (summed messages x reciprocal degree) + features x root + bias, passed through the exponential linear unit
(v where v > 0, exp v - 1 elsewhere); what the output buffer held before is read and discarded. -/

variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether fetched there or kept from the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether fetched there or kept from the point before. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether fetched there or kept from the point before. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether fetched there or kept from the point before. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether fetched there or kept from the point before. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

abbrev rH5 : Rect S4000x16 := Rect.unit (s := S4000x16) ![0, 0] S4000x16.size inb_S4000x16_S4000x16_0_0
abbrev rR5 : Rect S16x8 := Rect.unit (s := S16x8) ![0, 0] S16x8.size inb_S16x8_S16x8_0_0
abbrev rB5 : Rect S1x8 := Rect.unit (s := S1x8) ![0, 0] S1x8.size inb_S1x8_S1x8_0_0
abbrev rA5 : Rect S4000x8 := Rect.unit (s := S4000x8) ![0, 0] S4000x8.size inb_S4000x8_S4000x8_0_0
abbrev rC5 : Rect S4000x1 := Rect.unit (s := S4000x1) ![0, 0] S4000x1.size inb_S4000x1_S4000x1_0_0

/-- The updated block the body computes from its five input blocks. -/
def upd5 (h : Vec F S4000x16 .bf16) (root : Vec F S16x8 .f32) (bias : Vec F S1x8 .f32) (agg : Vec F S4000x8 .f32) (cinv : Vec F S4000x1 .f32) : Vec F S4000x8 .f32 :=
  k5_pay1 (View.ld h rH5) (View.ld root rR5) (View.ld agg rA5) (View.ld cinv rC5) (View.ld bias rB5)

/-- The output buffer after the body: its one store, which covers it. -/
def out5_5 (h : Vec F S4000x16 .bf16) (root : Vec F S16x8 .f32) (bias : Vec F S1x8 .f32) (agg : Vec F S4000x8 .f32) (cinv : Vec F S4000x1 .f32) : Vec F S4000x8 .f32 :=
  View.canon [⟨rA5, upd5 h root bias agg cinv⟩]

theorem cover5_5 (p0 : Vec F S4000x8 .f32) (y : S4000x8.Idx) :
    ∃ pc ∈ ([⟨rA5, p0⟩] : List (View.Piece (Elt F) S4000x8 .f32)), y ∈ pc.1.set :=
  View.cover_of_tiled [⟨rA5, p0⟩] S4000x8.size (by rfl) y

set_option maxHeartbeats 2000000 in
/-- The body on whole staging buffers: the inputs keep their contents, the output ends at `out5_5` of them. -/
theorem sound_kernel5 (c : Dev nD) (E : Set ℕ) (i : grid5.Coords)
    (arg1 : Memref sig .tc .vmem S4000x16 .bf16) (harg1 : arg1.IsWhole) (arg2 : Memref sig .tc .vmem S16x8 .f32) (harg2 : arg2.IsWhole)
    (arg3 : Memref sig .tc .vmem S1x8 .f32) (harg3 : arg3.IsWhole) (arg4 : Memref sig .tc .vmem S4000x8 .f32) (harg4 : arg4.IsWhole)
    (arg5 : Memref sig .tc .vmem S4000x1 .f32) (harg5 : arg5.IsWhole) (arg6 : Memref sig .tc .vmem S4000x8 .f32) (harg6 : arg6.IsWhole)
    (h : Vec F S4000x16 .bf16) (root : Vec F S16x8 .f32) (bias : Vec F S1x8 .f32) (agg : Vec F S4000x8 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out5_5 h root bias agg cinv)) -∗ K ⟨⟩))
      ⊢ wp frame (wpE (defs₀ (F := F)) Variants.none c none) E (cc5__node_update_kernel i arg1 harg1 arg2 harg2 arg3 harg3 arg4 harg4 arg5 harg5 arg6 harg6) K := by
  simp only [cc5__node_update_kernel_eq_skeleton]; unfold cc5__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_5 _)

/-! ## The proof data of this pipeline -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.EdgeI6.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-edge message kernel of layer 4: one block of 25600 edges, 8 input channels, 4 output channels.
The body reads the gathered source features, the edge coordinates, the projection matrix and the three rows of the
mixture's centres and widths, and stores the sum over the three mixture components of (projected features) x (Gaussian
weight); what the output buffer held before is read and discarded. -/

variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether fetched there or kept from the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether fetched there or kept from the point before. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether fetched there or kept from the point before. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether fetched there or kept from the point before. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, whether fetched there or kept from the point before. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

abbrev rX6 : Rect S8x25600 := Rect.unit (s := S8x25600) ![0, 0] S8x25600.size inb_S8x25600_S8x25600_0_0
abbrev rE6 : Rect S3x25600 := Rect.unit (s := S3x25600) ![0, 0] S3x25600.size inb_S3x25600_S3x25600_0_0
abbrev rG6 : Rect S12x8 := Rect.unit (s := S12x8) ![0, 0] S12x8.size inb_S12x8_S12x8_0_0
abbrev rRow0_6 : Rect S3x3 := Rect.unit (s := S3x3) ![0, 0] S1x3.size inb_S3x3_S1x3_0_0
abbrev rRow1_6 : Rect S3x3 := Rect.unit (s := S3x3) ![1, 0] S1x3.size inb_S3x3_S1x3_1_0
abbrev rRow2_6 : Rect S3x3 := Rect.unit (s := S3x3) ![2, 0] S1x3.size inb_S3x3_S1x3_2_0
abbrev rO6 : Rect S4x25600 := Rect.unit (s := S4x25600) ![0, 0] S4x25600.size inb_S4x25600_S4x25600_0_0

/-- The message block the body computes from its five input blocks. -/
def msg6 (x : Vec F S8x25600 .bf16) (ea : Vec F S3x25600 .f32) (g : Vec F S12x8 .bf16) (mu sg : Vec F S3x3 .f32) : Vec F S4x25600 .f32 :=
  k6_pay1 (k6_pay2 (View.ld x (rX6)) (View.ld g (rG6))) (k6_pay3 (View.ld ea (rE6)))
    (k6_pay4 (View.ld x (rX6)) (View.ld g (rG6)) (View.ld ea (rE6)) (View.ld mu (rRow0_6)) (View.ld sg (rRow0_6)))
    (k6_pay5 (View.ld sg (rRow1_6))) (k6_pay6 (View.ld ea (rE6)) (View.ld mu (rRow1_6)))
    (View.ld mu (rRow2_6)) (View.ld sg (rRow2_6))

/-- The output buffer after the body: its one store, which covers it. -/
def out6_5 (x : Vec F S8x25600 .bf16) (ea : Vec F S3x25600 .f32) (g : Vec F S12x8 .bf16) (mu sg : Vec F S3x3 .f32) : Vec F S4x25600 .f32 :=
  View.canon [⟨rO6, msg6 x ea g mu sg⟩]

theorem cover6_5 (p0 : Vec F S4x25600 .f32) (y : S4x25600.Idx) :
    ∃ pc ∈ ([⟨rO6, p0⟩] : List (View.Piece (Elt F) S4x25600 .f32)), y ∈ pc.1.set :=
  View.cover_of_tiled [⟨rO6, p0⟩] S4x25600.size (by rfl) y

set_option maxHeartbeats 2000000 in
/-- The body on whole staging buffers: the inputs keep their contents, the output ends at `out6_5` of them. -/
theorem sound_kernel6 (c : Dev nD) (E : Set ℕ) (i : grid6.Coords)
    (arg1 : Memref sig .tc .vmem S8x25600 .bf16) (harg1 : arg1.IsWhole) (arg2 : Memref sig .tc .vmem S3x25600 .f32) (harg2 : arg2.IsWhole)
    (arg3 : Memref sig .tc .vmem S12x8 .bf16) (harg3 : arg3.IsWhole) (arg4 : Memref sig .tc .vmem S3x3 .f32) (harg4 : arg4.IsWhole)
    (arg5 : Memref sig .tc .vmem S3x3 .f32) (harg5 : arg5.IsWhole) (arg6 : Memref sig .tc .vmem S4x25600 .f32) (harg6 : arg6.IsWhole)
    (x : Vec F S8x25600 .bf16) (ea : Vec F S3x25600 .f32) (g : Vec F S12x8 .bf16) (mu sg : Vec F S3x3 .f32) (K : PUnit → sProp 𝕄) :
    iprop(owns (c : Thread nD τ) arg1 fullShare x ∗ owns (c : Thread nD τ) arg2 fullShare ea ∗ owns (c : Thread nD τ) arg3 fullShare g
        ∗ owns (c : Thread nD τ) arg4 fullShare mu ∗ owns (c : Thread nD τ) arg5 fullShare sg ∗ (∃ d, owns (c : Thread nD τ) arg6 fullShare d)
        ∗ (iprop(owns (c : Thread nD τ) arg1 fullShare x ∗ owns (c : Thread nD τ) arg2 fullShare ea ∗ owns (c : Thread nD τ) arg3 fullShare g
            ∗ owns (c : Thread nD τ) arg4 fullShare mu ∗ owns (c : Thread nD τ) arg5 fullShare sg
            ∗ owns (c : Thread nD τ) arg6 fullShare (out6_5 x ea g mu sg)) -∗ K ⟨⟩))
      ⊢ wp frame (wpE (defs₀ (F := F)) Variants.none c none) E (cc6__edge_message_kernel i arg1 harg1 arg2 harg2 arg3 harg3 arg4 harg4 arg5 harg5 arg6 harg6) K := by
  simp only [cc6__edge_message_kernel_eq_skeleton]; unfold cc6__edge_message_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The proof data of this pipeline -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.NodeI7.lean ====
import proofs.«144358_j6828998001340_2_alg».proof.Proof.Gen.KernelIdeal.Launch
import proofs.«144358_j6828998001340_2_alg».proof.Proof.Gen.KernelIdeal.Skeleton
import proofs.«144358_j6828998001340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The per-node update kernel of layer 4: one block of 4000 nodes, 8 input channels, 4 output channels.
The body reads the node features, the root weight, the bias row, the summed messages and the reciprocal in-degree, and
stores (summed messages x reciprocal degree) + features x root + bias (the last layer: no unit after it); what the output buffer held before is read and discarded. -/

variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether fetched there or kept from the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether fetched there or kept from the point before. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether fetched there or kept from the point before. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether fetched there or kept from the point before. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether fetched there or kept from the point before. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes -/

abbrev rH7 : Rect S4000x8 := Rect.unit (s := S4000x8) ![0, 0] S4000x8.size inb_S4000x8_S4000x8_0_0
abbrev rR7 : Rect S8x4 := Rect.unit (s := S8x4) ![0, 0] S8x4.size inb_S8x4_S8x4_0_0
abbrev rB7 : Rect S1x4 := Rect.unit (s := S1x4) ![0, 0] S1x4.size inb_S1x4_S1x4_0_0
abbrev rA7 : Rect S4000x4 := Rect.unit (s := S4000x4) ![0, 0] S4000x4.size inb_S4000x4_S4000x4_0_0
abbrev rC7 : Rect S4000x1 := Rect.unit (s := S4000x1) ![0, 0] S4000x1.size inb_S4000x1_S4000x1_0_0

/-- The updated block the body computes from its five input blocks. -/
def upd7 (h : Vec F S4000x8 .bf16) (root : Vec F S8x4 .f32) (bias : Vec F S1x4 .f32) (agg : Vec F S4000x4 .f32) (cinv : Vec F S4000x1 .f32) : Vec F S4000x4 .f32 :=
  k7_pay1 (View.ld h rH7) (View.ld root rR7) (View.ld agg rA7) (View.ld cinv rC7) (View.ld bias rB7)

/-- The output buffer after the body: its one store, which covers it. -/
def out7_5 (h : Vec F S4000x8 .bf16) (root : Vec F S8x4 .f32) (bias : Vec F S1x4 .f32) (agg : Vec F S4000x4 .f32) (cinv : Vec F S4000x1 .f32) : Vec F S4000x4 .f32 :=
  View.canon [⟨rA7, upd7 h root bias agg cinv⟩]

theorem cover7_5 (p0 : Vec F S4000x4 .f32) (y : S4000x4.Idx) :
    ∃ pc ∈ ([⟨rA7, p0⟩] : List (View.Piece (Elt F) S4000x4 .f32)), y ∈ pc.1.set :=
  View.cover_of_tiled [⟨rA7, p0⟩] S4000x4.size (by rfl) y

set_option maxHeartbeats 2000000 in
/-- The body on whole staging buffers: the inputs keep their contents, the output ends at `out7_5` of them. -/
theorem sound_kernel7 (c : Dev nD) (E : Set ℕ) (i : grid7.Coords)
    (arg1 : Memref sig .tc .vmem S4000x8 .bf16) (harg1 : arg1.IsWhole) (arg2 : Memref sig .tc .vmem S8x4 .f32) (harg2 : arg2.IsWhole)
    (arg3 : Memref sig .tc .vmem S1x4 .f32) (harg3 : arg3.IsWhole) (arg4 : Memref sig .tc .vmem S4000x4 .f32) (harg4 : arg4.IsWhole)
    (arg5 : Memref sig .tc .vmem S4000x1 .f32) (harg5 : arg5.IsWhole) (arg6 : Memref sig .tc .vmem S4000x4 .f32) (harg6 : arg6.IsWhole)
    (h : Vec F S4000x8 .bf16) (root : Vec F S8x4 .f32) (bias : Vec F S1x4 .f32) (agg : Vec F S4000x4 .f32) (cinv : Vec F S4000x1 .f32) (K : PUnit → sProp 𝕄) :
    iprop(owns (c : Thread nD τ) arg1 fullShare h ∗ owns (c : Thread nD τ) arg2 fullShare root ∗ owns (c : Thread nD τ) arg3 fullShare bias
        ∗ owns (c : Thread nD τ) arg4 fullShare agg ∗ owns (c : Thread nD τ) arg5 fullShare cinv ∗ (∃ d, owns (c : Thread nD τ) arg6 fullShare d)
        ∗ (iprop(owns (c : Thread nD τ) arg1 fullShare h ∗ owns (c : Thread nD τ) arg2 fullShare root ∗ owns (c : Thread nD τ) arg3 fullShare bias
            ∗ owns (c : Thread nD τ) arg4 fullShare agg ∗ owns (c : Thread nD τ) arg5 fullShare cinv
            ∗ owns (c : Thread nD τ) arg6 fullShare (out7_5 h root bias agg cinv)) -∗ K ⟨⟩))
      ⊢ wp frame (wpE (defs₀ (F := F)) Variants.none c none) E (cc7__node_update_kernel i arg1 harg1 arg2 harg2 arg3 harg3 arg4 harg4 arg5 harg5 arg6 harg6) K := by
  simp only [cc7__node_update_kernel_eq_skeleton]; unfold cc7__node_update_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_5 _)

/-! ## The proof data of this pipeline -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.BoundsI.lean ====
import proofs.«144358_j6828998001340_2_alg».proof.Proof.Gen.KernelIdeal.Launch
import proofs.«144358_j6828998001340_2_alg».proof.Proof.EdgeI0
import proofs.«144358_j6828998001340_2_alg».proof.Proof.NodeI1
import proofs.«144358_j6828998001340_2_alg».proof.Proof.EdgeI2
import proofs.«144358_j6828998001340_2_alg».proof.Proof.NodeI3
import proofs.«144358_j6828998001340_2_alg».proof.Proof.EdgeI4
import proofs.«144358_j6828998001340_2_alg».proof.Proof.NodeI5
import proofs.«144358_j6828998001340_2_alg».proof.Proof.EdgeI6
import proofs.«144358_j6828998001340_2_alg».proof.Proof.NodeI7
import Idealize.ShloMosaic.Lib.Pipeline.FrameBody
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # The buffer contents at each boundary of @main: a fold from the launch memory

@main is eight stretches of host operations, each followed by one kernel region. `W (2K)` is what core `c`'s buffers
hold when stretch `K` starts, `W (2K+1)` what they hold when region `K` is entered (the stretch's operations applied in
order), and `W (2K+2)` what they hold when region `K` is left: the region's arrays at what its write-backs leave,
every other buffer as entered. -/

/-- Core `c`'s buffers at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A region changes only its output array: every other buffer, its input arrays included, leaves as it entered. -/
theorem W2_kept (c : Dev nD) (b : Ref sig .tc) (hb : b ≠ Pipeline.arrRef spec0 5) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W2_arr m ρ c w).trans (((dat0 (V1 m ρ) c).arrAt_in w hw _).trans (A_eq0 (V1 m ρ) c w))
  · exact W2_of_ne m ρ c b fun w e => h ⟨w, e⟩

/-- After stretch 1 (region 1's entry). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A region changes only its output array: every other buffer, its input arrays included, leaves as it entered. -/
theorem W4_kept (c : Dev nD) (b : Ref sig .tc) (hb : b ≠ Pipeline.arrRef spec1 5) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W4_arr m ρ c w).trans (((dat1 (V3 m ρ) c).arrAt_in w hw _).trans (A_eq1 (V3 m ρ) c w))
  · exact W4_of_ne m ρ c b fun w e => h ⟨w, e⟩

/-- After stretch 2 (region 2's entry). -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A region changes only its output array: every other buffer, its input arrays included, leaves as it entered. -/
theorem W6_kept (c : Dev nD) (b : Ref sig .tc) (hb : b ≠ Pipeline.arrRef spec2 5) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W6_arr m ρ c w).trans (((dat2 (V5 m ρ) c).arrAt_in w hw _).trans (A_eq2 (V5 m ρ) c w))
  · exact W6_of_ne m ρ c b fun w e => h ⟨w, e⟩

/-- After stretch 3 (region 3's entry). -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A region changes only its output array: every other buffer, its input arrays included, leaves as it entered. -/
theorem W8_kept (c : Dev nD) (b : Ref sig .tc) (hb : b ≠ Pipeline.arrRef spec3 5) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W8_arr m ρ c w).trans (((dat3 (V7 m ρ) c).arrAt_in w hw _).trans (A_eq3 (V7 m ρ) c w))
  · exact W8_of_ne m ρ c b fun w e => h ⟨w, e⟩

/-- After stretch 4 (region 4's entry). -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A region changes only its output array: every other buffer, its input arrays included, leaves as it entered. -/
theorem W10_kept (c : Dev nD) (b : Ref sig .tc) (hb : b ≠ Pipeline.arrRef spec4 5) :
    W10 m ρ c (Proc.devRef .tc b) = W9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W10_arr m ρ c w).trans (((dat4 (V9 m ρ) c).arrAt_in w hw _).trans (A_eq4 (V9 m ρ) c w))
  · exact W10_of_ne m ρ c b fun w e => h ⟨w, e⟩

/-- After stretch 5 (region 5's entry). -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A region changes only its output array: every other buffer, its input arrays included, leaves as it entered. -/
theorem W12_kept (c : Dev nD) (b : Ref sig .tc) (hb : b ≠ Pipeline.arrRef spec5 5) :
    W12 m ρ c (Proc.devRef .tc b) = W11 m ρ c (Proc.devRef .tc b) := by
  by_cases h : ∃ w, Pipeline.arrRef spec5 w = b
  · obtain ⟨w, rfl⟩ := h
    have hw : (cfg5.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W12_arr m ρ c w).trans (((dat5 (V11 m ρ) c).arrAt_in w hw _).trans (A_eq5 (V11 m ρ) c w))
  · exact W12_of_ne m ρ c b fun w e => h ⟨w, e⟩

/-- After stretch 6 (region 6's entry). -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A region changes only its output array: every other buffer, its input arrays included, leaves as it entered. -/
theorem W14_kept (c : Dev nD) (b : Ref sig .tc) (hb : b ≠ Pipeline.arrRef spec6 5) :
    W14 m ρ c (Proc.devRef .tc b) = W13 m ρ c (Proc.devRef .tc b) := by
  by_cases h : ∃ w, Pipeline.arrRef spec6 w = b
  · obtain ⟨w, rfl⟩ := h
    have hw : (cfg6.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W14_arr m ρ c w).trans (((dat6 (V13 m ρ) c).arrAt_in w hw _).trans (A_eq6 (V13 m ρ) c w))
  · exact W14_of_ne m ρ c b fun w e => h ⟨w, e⟩

/-- After stretch 7 (region 7's entry). -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- At region 7's exit. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A region changes only its output array: every other buffer, its input arrays included, leaves as it entered. -/
theorem W16_kept (c : Dev nD) (b : Ref sig .tc) (hb : b ≠ Pipeline.arrRef spec7 5) :
    W16 m ρ c (Proc.devRef .tc b) = W15 m ρ c (Proc.devRef .tc b) := by
  by_cases h : ∃ w, Pipeline.arrRef spec7 w = b
  · obtain ⟨w, rfl⟩ := h
    have hw : (cfg7.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W16_arr m ρ c w).trans (((dat7 (V15 m ρ) c).arrAt_in w hw _).trans (A_eq7 (V15 m ρ) c w))
  · exact W16_of_ne m ρ c b fun w e => h ⟨w, e⟩

/-! ## The argument arrays end as launched -/

/-- The argument arrays of @main. -/
def argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22]

/-- No region's output array is an argument. -/
theorem arg_ne_out : ∀ b ∈ argRefs, b ≠ Pipeline.arrRef spec0 5 ∧ b ≠ Pipeline.arrRef spec1 5 ∧ b ≠ Pipeline.arrRef spec2 5 ∧ b ≠ Pipeline.arrRef spec3 5
    ∧ b ≠ Pipeline.arrRef spec4 5 ∧ b ≠ Pipeline.arrRef spec5 5 ∧ b ≠ Pipeline.arrRef spec6 5 ∧ b ≠ Pipeline.arrRef spec7 5 := by decide

/-- No operation of stretch 0 writes an argument array: each writes its own result buffer. -/
theorem hostOps0_keeps_args : (hostOps0 : List (HloOp τ sig (Elt F))).Forall fun op => ∀ b ∈ argRefs, Proc.devRef (τ := τ) .tc b ∉ op.writes := by
  simp only [hostOps0, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 1 writes an argument array: each writes its own result buffer. -/
theorem hostOps1_keeps_args : (hostOps1 : List (HloOp τ sig (Elt F))).Forall fun op => ∀ b ∈ argRefs, Proc.devRef (τ := τ) .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 2 writes an argument array: each writes its own result buffer. -/
theorem hostOps2_keeps_args : (hostOps2 : List (HloOp τ sig (Elt F))).Forall fun op => ∀ b ∈ argRefs, Proc.devRef (τ := τ) .tc b ∉ op.writes := by
  simp only [hostOps2, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 3 writes an argument array: each writes its own result buffer. -/
theorem hostOps3_keeps_args : (hostOps3 : List (HloOp τ sig (Elt F))).Forall fun op => ∀ b ∈ argRefs, Proc.devRef (τ := τ) .tc b ∉ op.writes := by
  simp only [hostOps3, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 4 writes an argument array: each writes its own result buffer. -/
theorem hostOps4_keeps_args : (hostOps4 : List (HloOp τ sig (Elt F))).Forall fun op => ∀ b ∈ argRefs, Proc.devRef (τ := τ) .tc b ∉ op.writes := by
  simp only [hostOps4, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 5 writes an argument array: each writes its own result buffer. -/
theorem hostOps5_keeps_args : (hostOps5 : List (HloOp τ sig (Elt F))).Forall fun op => ∀ b ∈ argRefs, Proc.devRef (τ := τ) .tc b ∉ op.writes := by
  simp only [hostOps5, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 6 writes an argument array: each writes its own result buffer. -/
theorem hostOps6_keeps_args : (hostOps6 : List (HloOp τ sig (Elt F))).Forall fun op => ∀ b ∈ argRefs, Proc.devRef (τ := τ) .tc b ∉ op.writes := by
  simp only [hostOps6, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 7 writes an argument array: each writes its own result buffer. -/
theorem hostOps7_keeps_args : (hostOps7 : List (HloOp τ sig (Elt F))).Forall fun op => ∀ b ∈ argRefs, Proc.devRef (τ := τ) .tc b ∉ op.writes := by
  simp only [hostOps7, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- An argument array is as launched at the end of @main: no host operation writes it and no region's output is it. -/
theorem W16_arg (c : Dev nD) (b : Ref sig .tc) (hb : b ∈ argRefs) : W16 m ρ c (Proc.devRef .tc b) = m ((c : Thread nD τ).loc b) := by
  obtain ⟨h0, h1, h2, h3, h4, h5, h6, h7⟩ := arg_ne_out b hb
  have host : ∀ (ops : List (HloOp τ sig (Elt F))) (W : Valuation τ sig (Elt F)),
      (ops.Forall fun op => ∀ b ∈ argRefs, Proc.devRef (τ := τ) .tc b ∉ op.writes) →
      StableHlo.after ops W (Proc.devRef .tc b) = W (Proc.devRef .tc b) := fun ops W h =>
    StableHlo.after_of_forall_not_mem ops W fun op hop => (List.forall_iff_forall_mem.mp h) op hop b hb
  calc W16 m ρ c (Proc.devRef .tc b)
    _ = W15 m ρ c (Proc.devRef .tc b) := W16_kept m ρ c b h7
    _ = W14 m ρ c (Proc.devRef .tc b) := host _ _ hostOps7_keeps_args
    _ = W13 m ρ c (Proc.devRef .tc b) := W14_kept m ρ c b h6
    _ = W12 m ρ c (Proc.devRef .tc b) := host _ _ hostOps6_keeps_args
    _ = W11 m ρ c (Proc.devRef .tc b) := W12_kept m ρ c b h5
    _ = W10 m ρ c (Proc.devRef .tc b) := host _ _ hostOps5_keeps_args
    _ = W9 m ρ c (Proc.devRef .tc b) := W10_kept m ρ c b h4
    _ = W8 m ρ c (Proc.devRef .tc b) := host _ _ hostOps4_keeps_args
    _ = W7 m ρ c (Proc.devRef .tc b) := W8_kept m ρ c b h3
    _ = W6 m ρ c (Proc.devRef .tc b) := host _ _ hostOps3_keeps_args
    _ = W5 m ρ c (Proc.devRef .tc b) := W6_kept m ρ c b h2
    _ = W4 m ρ c (Proc.devRef .tc b) := host _ _ hostOps2_keeps_args
    _ = W3 m ρ c (Proc.devRef .tc b) := W4_kept m ρ c b h1
    _ = W2 m ρ c (Proc.devRef .tc b) := host _ _ hostOps1_keeps_args
    _ = W1 m ρ c (Proc.devRef .tc b) := W2_kept m ρ c b h0
    _ = W0 m ρ c (Proc.devRef .tc b) := host _ _ hostOps0_keeps_args
    _ = m ((c : Thread nD τ).loc b) := rfl

end Cert.KernelIdeal.Hand

end
-- ==== Proof.RunI.lean ====
import proofs.«144358_j6828998001340_2_alg».proof.Proof.BoundsI
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as sixteen segments: eight stretches of host operations, each followed by its kernel region

The thread state between segments is "every unscoped buffer holds the boundary's contents, the generator register is at
some state, nothing is owed". A region takes its six arrays out of the unscoped buffers, runs its pipeline over them and
puts them back at what the write-backs leave. -/

/-- No pipeline reads a prefetched table. -/
abbrev adm : (p : Fin 8) → (pcfgs (F := F) p).Adm := fun p => (cfgs p).toPCfg_adm

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- No operation of stretch 4 allocates a buffer. -/
theorem hostOps4_fresh : (hostOps4 : List (HloOp τ sig (Elt F))).Forall fun op => op.fresh = ∅ := by
  simp only [List.Forall]; repeat' constructor
/-- No operation of stretch 5 allocates a buffer. -/
theorem hostOps5_fresh : (hostOps5 : List (HloOp τ sig (Elt F))).Forall fun op => op.fresh = ∅ := by
  simp only [List.Forall]; repeat' constructor
/-- No operation of stretch 6 allocates a buffer. -/
theorem hostOps6_fresh : (hostOps6 : List (HloOp τ sig (Elt F))).Forall fun op => op.fresh = ∅ := by
  simp only [List.Forall]; repeat' constructor
/-- No operation of stretch 7 allocates a buffer. -/
theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last boundary's contents. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's sixteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- Every weakly fair execution of @main terminates without a fault, and at the end every unscoped buffer of every core holds
    the last boundary's contents `W16`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- An argument array ends as launched. -/
theorem arg_kept {r : PUnit × MemSt nD τ sig (Elt F)} (h : ∀ c : Dev nD, ∀ b ∈ Pipeline.ucRefs τ sig, r.2.mem (((c : Thread nD τ)).1, b) = W16 m ρ c b)
    (c : Dev nD) (b : Ref sig .tc) (hb : b ∈ argRefs) (hu : ¬ (Proc.devRef .tc b : DevRef τ sig).isScoped) :
    r.2.mem ((c.tc : Thread nD τ).loc b) = m ((c.tc : Thread nD τ).loc b) :=
  (h c _ (mem_uc b hu)).trans (W16_arg m ρ c b hb)

/-- The frame: @main runs to the end, faults nowhere, and leaves its twenty-three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨arg_kept m ρ h c main_arg0 (by decide) (by decide),
    arg_kept m ρ h c main_arg1 (by decide) (by decide),
    arg_kept m ρ h c main_arg2 (by decide) (by decide),
    arg_kept m ρ h c main_arg3 (by decide) (by decide),
    arg_kept m ρ h c main_arg4 (by decide) (by decide),
    arg_kept m ρ h c main_arg5 (by decide) (by decide),
    arg_kept m ρ h c main_arg6 (by decide) (by decide),
    arg_kept m ρ h c main_arg7 (by decide) (by decide),
    arg_kept m ρ h c main_arg8 (by decide) (by decide),
    arg_kept m ρ h c main_arg9 (by decide) (by decide),
    arg_kept m ρ h c main_arg10 (by decide) (by decide),
    arg_kept m ρ h c main_arg11 (by decide) (by decide),
    arg_kept m ρ h c main_arg12 (by decide) (by decide),
    arg_kept m ρ h c main_arg13 (by decide) (by decide),
    arg_kept m ρ h c main_arg14 (by decide) (by decide),
    arg_kept m ρ h c main_arg15 (by decide) (by decide),
    arg_kept m ρ h c main_arg16 (by decide) (by decide),
    arg_kept m ρ h c main_arg17 (by decide) (by decide),
    arg_kept m ρ h c main_arg18 (by decide) (by decide),
    arg_kept m ρ h c main_arg19 (by decide) (by decide),
    arg_kept m ρ h c main_arg20 (by decide) (by decide),
    arg_kept m ρ h c main_arg21 (by decide) (by decide),
    arg_kept m ρ h c main_arg22 (by decide) (by decide)⟩) (run_main m ρ)

end Cert.KernelIdeal.Hand

end
-- ==== Proof.StretchDefs.lean ====
import proofs.«144358_j6828998001340_2_alg».proof.Proof.Gen.KernelIdeal.Launch

set_option maxRecDepth 16384

/-!
# The host stretches of the channel-major program, as pure functions

Between two kernel regions the program runs a stretch of host operations. Each array a region reads is the value of a
short composition of these operations on the program's arguments and on the previous region's output. This module
names those compositions, literally as the operations are printed, with no index-level reading:

* the edge list e : [2, E] gives the flat source and target columns (row 0 and row 1 of e, reshaped to [E]);
* a source index is wrapped into range (i < 0 ↦ i + N) and laid out as an [E, 1] column: the start indices of every
  gather;
* the reciprocal in-degree column [N, 1]: ones are segment-summed over the target column, the counts floored at 1,
  inverted, and reshaped;
* an edge layer's inputs: the node features rounded to bf16, transposed to [c, N] and gathered along the node axis at
  the wrapped source indices ([c, E]); the edge coordinates transposed to [3, E]; the projection transposed and rounded;
* a node layer's inputs: the per-edge messages [c, E], one channel (row) at a time, reshaped to [E], segment-summed
  over the target column into [N], laid out as an [N, 1] column, and the c columns concatenated to [N, c]; the bias
  reshaped to a row [1, c].
-/

noncomputable section

namespace Cert.KernelIdeal.Hand

open Cert.KernelIdeal Cert.KernelIdeal.Gen
open Idealize.ShloMosaic Idealize.ShloMosaic.TcCoe

variable {F : FTy → Type} [FloatOps F]

/-! ## The edge list -/

/-- Row 0 of the edge list as a flat vector: the source node of each edge. -/
def edgeSrc (e : IVec S2x3200000 32) : IVec S3200000 32 := fun i =>
  shapeCast S3200000 (extractStridedSlice S1x3200000 ![0, 0] e slices_S2x3200000_S1x3200000_0_0) shapeCasts_S1x3200000_S3200000 i

/-- Row 1 of the edge list as a flat vector: the target node of each edge. -/
def edgeDst (e : IVec S2x3200000 32) : IVec S3200000 32 := fun i =>
  shapeCast S3200000 (extractStridedSlice S1x3200000 ![1, 0] e slices_S2x3200000_S1x3200000_1_0) shapeCasts_S1x3200000_S3200000 i

/-- The start indices of a gather along the node axis: a negative index i is read as i + N, the rest unchanged, as a
    column [E, 1]. -/
def wrapCol (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32)))
      s)

/-- The segment sum over the target column of a flat per-edge vector: zeros [N], scatter-added at the targets. -/
def segSum (d : IVec S3200000 32) (u : FVec F S3200000 .f32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 d)
    u

/-- The reciprocal in-degree column: 1 / max(count of edges into the node, 1), as [N, 1]. -/
def recipDeg (e : IVec S2x3200000 32) : FVec F S100000x1 .f32 := fun i =>
  shapeCast S100000x1
    (Host.divf (broadcastInDim S100000 ![] bcast_S_S100000 (constant S_ .f32 0x3F800000#32))
      (maximumf
        (segSum (edgeDst e) (broadcastInDim S3200000 ![] bcast_S_S3200000 (constant S_ .f32 0x3F800000#32)))
        (broadcastInDim S100000 ![] bcast_S_S100000 (constant S_ .f32 0x3F800000#32))))
    shapeCasts_S100000_S100000x1 i

/-- The edge coordinates, transposed to [3, E]. -/
def eaT (ea : FVec F S3200000x3 .f32) : FVec F S3x3200000 .f32 :=
  transpose S3x3200000 [1, 0] ea transposes_S3200000x3_S3x3200000_1_0

/-! ## Layer 1 (3 → 8 channels) -/

/-- The node features rounded to bf16. -/
def hBf1 (x : FVec F S100000x3 .f32) : FVec F S100000x3 .bf16 := truncf .bf16 x bitsLt_bf16_f32

/-- The gathered source features, channel-major [3, E]. -/
def xjT1 (x : FVec F S100000x3 .f32) (e : IVec S2x3200000 32) : FVec F S3x3200000 .bf16 :=
  Host.gather gather_S3x100000_S3200000x1_S3x3200000_0_1_n_n_1_1_31
    (transpose S3x100000 [1, 0] (truncf .bf16 x bitsLt_bf16_f32) transposes_S100000x3_S3x100000_1_0)
    (wrapCol (edgeSrc e))

/-- The projection, transposed to [24, 3] and rounded to bf16. -/
def gT1 (g : FVec F S3x24 .f32) : FVec F S24x3 .bf16 :=
  truncf .bf16 (transpose S24x3 [1, 0] g transposes_S3x24_S24x3_1_0) bitsLt_bf16_f32

/-- One channel of the per-edge messages summed into its targets: a row [1, E] reshaped to [E], segment-summed, as a
    column [N, 1]. -/
def aggCol (d : IVec S3200000 32) (r : FVec F S1x3200000 .f32) : FVec F S100000x1 .f32 :=
  broadcastInDim S100000x1 ![0] bcast_S100000_S100000x1_0
    (segSum d fun i => shapeCast S3200000 r shapeCasts_S1x3200000_S3200000 i)

/-- The summed messages of an 8-channel edge layer, [N, 8]: channel k of the [8, E] messages summed into column k. -/
def aggSum8 (msgT : FVec F S8x3200000 .f32) (e : IVec S2x3200000 32) : FVec F S100000x8 .f32 :=
  concatenate S100000x8 1
    [⟨S100000x1, aggCol (edgeDst e) (extractStridedSlice S1x3200000 ![0, 0] msgT slices_S8x3200000_S1x3200000_0_0)⟩,
     ⟨S100000x1, aggCol (edgeDst e) (extractStridedSlice S1x3200000 ![1, 0] msgT slices_S8x3200000_S1x3200000_1_0)⟩,
     ⟨S100000x1, aggCol (edgeDst e) (extractStridedSlice S1x3200000 ![2, 0] msgT slices_S8x3200000_S1x3200000_2_0)⟩,
     ⟨S100000x1, aggCol (edgeDst e) (extractStridedSlice S1x3200000 ![3, 0] msgT slices_S8x3200000_S1x3200000_3_0)⟩,
     ⟨S100000x1, aggCol (edgeDst e) (extractStridedSlice S1x3200000 ![4, 0] msgT slices_S8x3200000_S1x3200000_4_0)⟩,
     ⟨S100000x1, aggCol (edgeDst e) (extractStridedSlice S1x3200000 ![5, 0] msgT slices_S8x3200000_S1x3200000_5_0)⟩,
     ⟨S100000x1, aggCol (edgeDst e) (extractStridedSlice S1x3200000 ![6, 0] msgT slices_S8x3200000_S1x3200000_6_0)⟩,
     ⟨S100000x1, aggCol (edgeDst e) (extractStridedSlice S1x3200000 ![7, 0] msgT slices_S8x3200000_S1x3200000_7_0)⟩]
    concatenates_S100000x1_S100000x1_S100000x1_S100000x1_S100000x1_S100000x1_S100000x1_S100000x1_S100000x8_d1

/-- An 8-channel bias as a row [1, 8]. -/
def biasRow8 (b : FVec F S8 .f32) : FVec F S1x8 .f32 := fun i => shapeCast S1x8 b shapeCasts_S8_S1x8 i

/-! ## Layer 2 (8 → 16 channels) -/

/-- The 8-channel node features rounded to bf16. -/
def hBf8 (h : FVec F S100000x8 .f32) : FVec F S100000x8 .bf16 := truncf .bf16 h bitsLt_bf16_f32

/-- The gathered source features of an 8-channel layer, channel-major [8, E]. -/
def xjT8 (h : FVec F S100000x8 .f32) (e : IVec S2x3200000 32) : FVec F S8x3200000 .bf16 :=
  Host.gather gather_S8x100000_S3200000x1_S8x3200000_0_1_n_n_1_1_81
    (transpose S8x100000 [1, 0] (truncf .bf16 h bitsLt_bf16_f32) transposes_S100000x8_S8x100000_1_0)
    (wrapCol (edgeSrc e))

/-- The projection of layer 2, transposed to [48, 8] and rounded to bf16. -/
def gT2 (g : FVec F S8x48 .f32) : FVec F S48x8 .bf16 :=
  truncf .bf16 (transpose S48x8 [1, 0] g transposes_S8x48_S48x8_1_0) bitsLt_bf16_f32

/-- The summed messages of a 16-channel edge layer, [N, 16]. -/
def aggSum16 (msgT : FVec F S16x3200000 .f32) (e : IVec S2x3200000 32) : FVec F S100000x16 .f32 :=
  concatenate S100000x16 1
    [⟨S100000x1, aggCol (edgeDst e) (extractStridedSlice S1x3200000 ![0, 0] msgT slices_S16x3200000_S1x3200000_0_0)⟩,
     ⟨S100000x1, aggCol (edgeDst e) (extractStridedSlice S1x3200000 ![1, 0] msgT slices_S16x3200000_S1x3200000_1_0)⟩,
     ⟨S100000x1, aggCol (edgeDst e) (extractStridedSlice S1x3200000 ![2, 0] msgT slices_S16x3200000_S1x3200000_2_0)⟩,
     ⟨S100000x1, aggCol (edgeDst e) (extractStridedSlice S1x3200000 ![3, 0] msgT slices_S16x3200000_S1x3200000_3_0)⟩,
     ⟨S100000x1, aggCol (edgeDst e) (extractStridedSlice S1x3200000 ![4, 0] msgT slices_S16x3200000_S1x3200000_4_0)⟩,
     ⟨S100000x1, aggCol (edgeDst e) (extractStridedSlice S1x3200000 ![5, 0] msgT slices_S16x3200000_S1x3200000_5_0)⟩,
     ⟨S100000x1, aggCol (edgeDst e) (extractStridedSlice S1x3200000 ![6, 0] msgT slices_S16x3200000_S1x3200000_6_0)⟩,
     ⟨S100000x1, aggCol (edgeDst e) (extractStridedSlice S1x3200000 ![7, 0] msgT slices_S16x3200000_S1x3200000_7_0)⟩,
     ⟨S100000x1, aggCol (edgeDst e) (extractStridedSlice S1x3200000 ![8, 0] msgT slices_S16x3200000_S1x3200000_8_0)⟩,
     ⟨S100000x1, aggCol (edgeDst e) (extractStridedSlice S1x3200000 ![9, 0] msgT slices_S16x3200000_S1x3200000_9_0)⟩,
     ⟨S100000x1, aggCol (edgeDst e) (extractStridedSlice S1x3200000 ![10, 0] msgT slices_S16x3200000_S1x3200000_10_0)⟩,
     ⟨S100000x1, aggCol (edgeDst e) (extractStridedSlice S1x3200000 ![11, 0] msgT slices_S16x3200000_S1x3200000_11_0)⟩,
     ⟨S100000x1, aggCol (edgeDst e) (extractStridedSlice S1x3200000 ![12, 0] msgT slices_S16x3200000_S1x3200000_12_0)⟩,
     ⟨S100000x1, aggCol (edgeDst e) (extractStridedSlice S1x3200000 ![13, 0] msgT slices_S16x3200000_S1x3200000_13_0)⟩,
     ⟨S100000x1, aggCol (edgeDst e) (extractStridedSlice S1x3200000 ![14, 0] msgT slices_S16x3200000_S1x3200000_14_0)⟩,
     ⟨S100000x1, aggCol (edgeDst e) (extractStridedSlice S1x3200000 ![15, 0] msgT slices_S16x3200000_S1x3200000_15_0)⟩]
    concatenates_S100000x1_S100000x1_S100000x1_S100000x1_S100000x1_S100000x1_S100000x1_S100000x1_S100000x1_S100000x1_S100000x1_S100000x1_S100000x1_S100000x1_S100000x1_S100000x1_S100000x16_d1

/-- A 16-channel bias as a row [1, 16]. -/
def biasRow16 (b : FVec F S16 .f32) : FVec F S1x16 .f32 := fun i => shapeCast S1x16 b shapeCasts_S16_S1x16 i

/-! ## Layer 3 (16 → 8 channels) -/

/-- The 16-channel node features rounded to bf16. -/
def hBf16 (h : FVec F S100000x16 .f32) : FVec F S100000x16 .bf16 := truncf .bf16 h bitsLt_bf16_f32

/-- The gathered source features of a 16-channel layer, channel-major [16, E]. -/
def xjT16 (h : FVec F S100000x16 .f32) (e : IVec S2x3200000 32) : FVec F S16x3200000 .bf16 :=
  Host.gather gather_S16x100000_S3200000x1_S16x3200000_0_1_n_n_1_1_161
    (transpose S16x100000 [1, 0] (truncf .bf16 h bitsLt_bf16_f32) transposes_S100000x16_S16x100000_1_0)
    (wrapCol (edgeSrc e))

/-- The projection of layer 3, transposed to [24, 16] and rounded to bf16. -/
def gT3 (g : FVec F S16x24 .f32) : FVec F S24x16 .bf16 :=
  truncf .bf16 (transpose S24x16 [1, 0] g transposes_S16x24_S24x16_1_0) bitsLt_bf16_f32

/-! ## Layer 4 (8 → 4 channels) -/

/-- The projection of layer 4, transposed to [12, 8] and rounded to bf16. -/
def gT4 (g : FVec F S8x12 .f32) : FVec F S12x8 .bf16 :=
  truncf .bf16 (transpose S12x8 [1, 0] g transposes_S8x12_S12x8_1_0) bitsLt_bf16_f32

/-- The summed messages of a 4-channel edge layer, [N, 4]. -/
def aggSum4 (msgT : FVec F S4x3200000 .f32) (e : IVec S2x3200000 32) : FVec F S100000x4 .f32 :=
  concatenate S100000x4 1
    [⟨S100000x1, aggCol (edgeDst e) (extractStridedSlice S1x3200000 ![0, 0] msgT slices_S4x3200000_S1x3200000_0_0)⟩,
     ⟨S100000x1, aggCol (edgeDst e) (extractStridedSlice S1x3200000 ![1, 0] msgT slices_S4x3200000_S1x3200000_1_0)⟩,
     ⟨S100000x1, aggCol (edgeDst e) (extractStridedSlice S1x3200000 ![2, 0] msgT slices_S4x3200000_S1x3200000_2_0)⟩,
     ⟨S100000x1, aggCol (edgeDst e) (extractStridedSlice S1x3200000 ![3, 0] msgT slices_S4x3200000_S1x3200000_3_0)⟩]
    concatenates_S100000x1_S100000x1_S100000x1_S100000x1_S100000x4_d1

/-- A 4-channel bias as a row [1, 4]. -/
def biasRow4 (b : FVec F S4 .f32) : FVec F S1x4 .f32 := fun i => shapeCast S1x4 b shapeCasts_S4_S1x4 i

end Cert.KernelIdeal.Hand

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibGaussForms.lean ====
import Idealize.ShloMosaic.Lib.ValueLayout
import Idealize.ShloMosaic.Lib.ValueIdx
import Idealize.ShloMosaic.Lib.Pipeline.Value
import Idealize.ShloMosaic.PureOps.Ideal.Laws
import proofs.«144358_j6828998001340_2_alg».proof.Proof.LibColumnForms

set_option maxRecDepth 16384

noncomputable section

/-! # The Gaussian mixture weight of an edge, and how a block of edges computes it

For an edge with coordinates `u : Fin 3 → EReal`, a component's centre `μ` and widths `σ`, the weight is
`exp(-1/2 · Σ_d (u d - μ d)² / (ε + σ d · σ d))` with `ε` the single-precision word of 1e-15. A block holds its edges along
the lanes: coordinates are a [3, T] array, the centre and the widths rows of a [3, 3] array laid out as columns [3, 1] and
copied along the lanes; the sum over the three coordinates is a reduction over the sublane axis. -/

namespace Cert.GaussForms

open Idealize.ShloMosaic Idealize.ShloMosaic.ValueIdx

/-- The weight, from the squared differences and the widths. -/
def weightOf (sq s : Fin 3 → EReal) : EReal :=
  Ideal.exp (Ideal.ofBits .f32 0xBF000000#32 * ∑ d : Fin 3, Ideal.div (sq d) (Ideal.ofBits .f32 0x26901D7D#32 + s d * s d))

/-- A row `k` of a [3,3] array loaded as a [1,3] block reads the array's row. -/
theorem ld_row {k : ℕ} (A : Vec Ideal ⟨2, ![3, 3]⟩ .f32) (inb : ∀ a, (![k, 0] : Fin 2 → Nat) a + (⟨2, ![1, 3]⟩ : Shape).size a ≤ (⟨2, ![3, 3]⟩ : Shape).size a)
    (kk : Fin 3) (hk : kk.val = k) (u : Fin 1) (d : Fin 3) :
    View.ld A (Rect.unit (s := (⟨2, ![3, 3]⟩ : Shape)) ![k, 0] (⟨2, ![1, 3]⟩ : Shape).size inb) (ix2 u d) = A (ix2 kk d) := by
  show A _ = A _
  refine congrArg A (funext fun a => Fin.ext ?_)
  match a with
  | ⟨0, _⟩ => show k + 1 * u.val = kk.val; have := u.isLt; omega
  | ⟨1, _⟩ => show 0 + 1 * d.val = d.val; omega

/-- A [1,3] row flattened to [3], stood up as a column [3,1] and copied along T lanes reads the row's entry at the sublane. -/
theorem row_as_lanes {T : ℕ} (r : (⟨2, ![1, 3]⟩ : Shape).Idx → EReal) (h1 : (⟨2, ![1, 3]⟩ : Shape).ShapeCasts ⟨1, ![3]⟩)
    (h2 : (⟨1, ![3]⟩ : Shape).ShapeCasts ⟨2, ![3, 1]⟩) (hb : (⟨2, ![3, 1]⟩ : Shape).Broadcasts ⟨2, ![3, T]⟩) (d : Fin 3) (j : Fin T) :
    broadcastTo ⟨2, ![3, T]⟩ (shapeCast ⟨2, ![3, 1]⟩ (shapeCast ⟨1, ![3]⟩ r h1) h2) hb (ix2 d j) = r (ix2 (0 : Fin 1) d) :=
  (Cert.ColumnForms.broadcastTo_a1_ab_apply _ hb d j).trans
    ((Cert.ColumnForms.shapeCast_a_a1_apply _ h2 d 0).trans (shapeCast_1a_a_apply r h1 d))

/-- The widths' column ε + σ·σ copied along the lanes. -/
theorem width_as_lanes {T : ℕ} (s : FVec Ideal ⟨1, ![3]⟩ .f32) (h2 h2' : (⟨1, ![3]⟩ : Shape).ShapeCasts ⟨2, ![3, 1]⟩)
    (hb : (⟨2, ![3, 1]⟩ : Shape).Broadcasts ⟨2, ![3, T]⟩) (d : Fin 3) (j : Fin T) :
    broadcastTo ⟨2, ![3, T]⟩ (addf (broadcast ⟨2, ![3, 1]⟩ (Scalar.ofBits (F := Ideal) .f32 0x26901D7D#32))
        (mulf (shapeCast ⟨2, ![3, 1]⟩ s h2) (shapeCast ⟨2, ![3, 1]⟩ s h2'))) hb (ix2 d j)
      = Ideal.ofBits .f32 0x26901D7D#32 + s (ix1 d) * s (ix1 d) := by
  refine (Cert.ColumnForms.broadcastTo_a1_ab_apply _ hb d j).trans ?_
  show Ideal.ofBits .f32 0x26901D7D#32 + shapeCast ⟨2, ![3, 1]⟩ s h2 (ix2 d 0) * shapeCast ⟨2, ![3, 1]⟩ s h2' (ix2 d 0) = _
  rw [Cert.ColumnForms.shapeCast_a_a1_apply s h2 d 0]

/-- The sum over the three sublanes of a [3, T] array, at lane `j`. -/
theorem sublane_sum {T : ℕ} (w : FVec Ideal ⟨2, ![3, T]⟩ .f32) (hr : (⟨2, ![3, T]⟩ : Shape).Reduces [0] ⟨1, ![T]⟩) (hφ : FKind.Formats .f32)
    (hacc : (0x00000000#32 : BitVec 32) = FKind.add.neutral .f32 hφ) (j : Fin T) :
    multiReduction .add [0] ⟨1, ![T]⟩ w 0x00000000#32 hr hφ hacc (ix1 j) = ∑ d : Fin 3, w (ix2 d j) := by
  refine (Ideal.multiReduction_add_single w 0x00000000#32 hr hφ hacc (ix1 j)).trans ?_
  refine Finset.sum_congr rfl fun d _ => congrArg w ?_
  funext a
  apply Fin.ext
  match a with
  | ⟨0, _⟩ => rfl
  | ⟨1, _⟩ => rfl

/-- The weight row of a block: the lanes' weights as a [1, T] row copied down `c` sublanes. -/
theorem weight_as_rows {T c : ℕ} (sq : FVec Ideal ⟨2, ![3, T]⟩ .f32) (s : FVec Ideal ⟨1, ![3]⟩ .f32)
    (h2 h2' : (⟨1, ![3]⟩ : Shape).ShapeCasts ⟨2, ![3, 1]⟩) (hb : (⟨2, ![3, 1]⟩ : Shape).Broadcasts ⟨2, ![3, T]⟩)
    (hr : (⟨2, ![3, T]⟩ : Shape).Reduces [0] ⟨1, ![T]⟩) (hφ : FKind.Formats .f32) (hacc : (0x00000000#32 : BitVec 32) = FKind.add.neutral .f32 hφ)
    (hc : (⟨1, ![T]⟩ : Shape).ShapeCasts ⟨2, ![1, T]⟩) (hB : (⟨2, ![1, T]⟩ : Shape).Broadcasts ⟨2, ![c, T]⟩) (o : Fin c) (j : Fin T) :
    broadcastTo ⟨2, ![c, T]⟩ (exp (mulf (broadcast ⟨2, ![1, T]⟩ (Scalar.ofBits (F := Ideal) .f32 0xBF000000#32))
        (shapeCast ⟨2, ![1, T]⟩ (multiReduction .add [0] ⟨1, ![T]⟩
          (divf sq (broadcastTo ⟨2, ![3, T]⟩ (addf (broadcast ⟨2, ![3, 1]⟩ (Scalar.ofBits (F := Ideal) .f32 0x26901D7D#32))
            (mulf (shapeCast ⟨2, ![3, 1]⟩ s h2) (shapeCast ⟨2, ![3, 1]⟩ s h2'))) hb)) 0x00000000#32 hr hφ hacc) hc))) hB (ix2 o j)
      = weightOf (fun d => sq (ix2 d j)) (fun d => s (ix1 d)) := by
  refine (broadcastTo_1b_ab_apply _ hB o j).trans ?_
  show Ideal.exp (Ideal.ofBits .f32 0xBF000000#32 * shapeCast ⟨2, ![1, T]⟩ _ hc (ix2 (0 : Fin 1) j)) = _
  rw [shapeCast_a_1a_apply _ hc (0 : Fin 1) j, sublane_sum _ hr hφ hacc j]
  unfold weightOf
  refine congrArg (fun z => Ideal.exp (Ideal.ofBits .f32 0xBF000000#32 * z)) (Finset.sum_congr rfl fun d _ => ?_)
  show Ideal.div (sq (ix2 d j)) (broadcastTo ⟨2, ![3, T]⟩ _ hb (ix2 d j)) = _
  rw [width_as_lanes s h2 h2' hb d j]

end Cert.GaussForms

end
-- ==== Proof.LibEdgeSpec.lean ====
import Idealize.ShloMosaic.Lib.ValueIdx
import Idealize.ShloMosaic.PureOps.Ideal.Laws
import proofs.«144358_j6828998001340_2_alg».proof.Proof.LibGaussForms

noncomputable section

/-! # The message of one edge, and the channel-major message array

For an edge with gathered source features `x : Fin cin → EReal` and coordinates `u`, a projection `g` of `3·cout` rows (row
`k·cout + o` serves mixture component `k`, channel `o`), centres `μ` and widths `σ`, the message at channel `o` is, from the zero
word, the sum over the three components of (row `k·cout + o` of `g` applied to `x`) x (the component's Gaussian weight of the
edge), added in the order 0, 1, 2. The channel-major array [cout, E] holds it at (o, e) for the edge's column of the
gathered features [cin, E] and of the coordinates [3, E]. -/

namespace Cert.EdgeSpec

open Idealize.ShloMosaic Idealize.ShloMosaic.ValueIdx Cert.GaussForms

/-- The message of one edge at channel `o`. -/
def edgeMsg {cin cout : ℕ} (g : Fin (3 * cout) → Fin cin → EReal) (x : Fin cin → EReal) (u : Fin 3 → EReal)
    (mu sg : Fin 3 → Fin 3 → EReal) (o : Fin cout) : EReal :=
  ((Ideal.ofBits .f32 0x00000000#32
      + (∑ c : Fin cin, g ⟨0 + o.val, by have := o.isLt; omega⟩ c * x c) * weightOf (fun d => (u d - mu 0 d) * (u d - mu 0 d)) (sg 0))
      + (∑ c : Fin cin, g ⟨cout + o.val, by have := o.isLt; omega⟩ c * x c) * weightOf (fun d => (u d - mu 1 d) * (u d - mu 1 d)) (sg 1))
      + (∑ c : Fin cin, g ⟨2 * cout + o.val, by have := o.isLt; omega⟩ c * x c) * weightOf (fun d => (u d - mu 2 d) * (u d - mu 2 d)) (sg 2)

/-- The channel-major message array of all edges. -/
def edgeOut {cin cout E : ℕ} (xj : (⟨2, ![cin, E]⟩ : Shape).Idx → EReal) (eaT : (⟨2, ![3, E]⟩ : Shape).Idx → EReal)
    (gT : (⟨2, ![3 * cout, cin]⟩ : Shape).Idx → EReal) (mu sg : (⟨2, ![3, 3]⟩ : Shape).Idx → EReal) :
    (⟨2, ![cout, E]⟩ : Shape).Idx → EReal := fun i =>
  edgeMsg (fun q c => gT (ix2 q c)) (fun c => xj (ix2 c (i 1))) (fun d => eaT (ix2 d (i 1))) (fun k d => mu (ix2 k d)) (fun k d => sg (ix2 k d)) (i 0)

theorem edgeOut_apply {cin cout E : ℕ} (xj : (⟨2, ![cin, E]⟩ : Shape).Idx → EReal) (eaT : (⟨2, ![3, E]⟩ : Shape).Idx → EReal)
    (gT : (⟨2, ![3 * cout, cin]⟩ : Shape).Idx → EReal) (mu sg : (⟨2, ![3, 3]⟩ : Shape).Idx → EReal) (o : Fin cout) (e : Fin E) :
    edgeOut xj eaT gT mu sg (ix2 o e)
      = edgeMsg (fun q c => gT (ix2 q c)) (fun c => xj (ix2 c e)) (fun d => eaT (ix2 d e)) (fun k d => mu (ix2 k d)) (fun k d => sg (ix2 k d)) o := rfl

end Cert.EdgeSpec

end
-- ==== Proof.LibNodeSpec.lean ====
import Idealize.ShloMosaic.Lib.ValueIdx
import Idealize.ShloMosaic.PureOps.Ideal.Laws

noncomputable section

/-! # The update of one node, and the updated node array

For a node with summed messages `a` at a channel, reciprocal degree `r`, features `h : Fin cin → EReal`, the root weight's column
`w` for the channel and the bias `b`, the updated entry is `act (a · r + Σ_c h c · w c + b)`, with `act` the layer's unit (or
the identity in the last layer). -/

namespace Cert.NodeSpec

open Idealize.ShloMosaic Idealize.ShloMosaic.ValueIdx

/-- The exponential linear unit as a block computes it: v where v > 0, exp v - 1 elsewhere. -/
def unitOf (v : EReal) : EReal :=
  Scalar.select (FloatOps.cmpf (F := Ideal) .ogt v (Ideal.ofBits .f32 0x00000000#32)) v (Ideal.exp v - Ideal.ofBits .f32 0x3F800000#32)

/-- The updated node array. -/
def nodeOut {cin cout N : ℕ} (act : EReal → EReal) (h : (⟨2, ![N, cin]⟩ : Shape).Idx → EReal) (root : (⟨2, ![cin, cout]⟩ : Shape).Idx → EReal)
    (bias : (⟨2, ![1, cout]⟩ : Shape).Idx → EReal) (agg : (⟨2, ![N, cout]⟩ : Shape).Idx → EReal) (cinv : (⟨2, ![N, 1]⟩ : Shape).Idx → EReal) :
    (⟨2, ![N, cout]⟩ : Shape).Idx → EReal := fun i =>
  act (agg (ix2 (i 0) (i 1)) * cinv (ix2 (i 0) (0 : Fin 1)) + (∑ c : Fin cin, h (ix2 (i 0) c) * root (ix2 c (i 1))) + bias (ix2 (0 : Fin 1) (i 1)))

theorem nodeOut_apply {cin cout N : ℕ} (act : EReal → EReal) (h : (⟨2, ![N, cin]⟩ : Shape).Idx → EReal) (root : (⟨2, ![cin, cout]⟩ : Shape).Idx → EReal)
    (bias : (⟨2, ![1, cout]⟩ : Shape).Idx → EReal) (agg : (⟨2, ![N, cout]⟩ : Shape).Idx → EReal) (cinv : (⟨2, ![N, 1]⟩ : Shape).Idx → EReal)
    (n : Fin N) (o : Fin cout) :
    nodeOut act h root bias agg cinv (ix2 n o)
      = act (agg (ix2 n o) * cinv (ix2 n (0 : Fin 1)) + (∑ c : Fin cin, h (ix2 n c) * root (ix2 c o)) + bias (ix2 (0 : Fin 1) o)) := rfl

end Cert.NodeSpec

end
-- ==== Proof.KerLayerDefs.lean ====
import proofs.«144358_j6828998001340_2_alg».proof.Proof.StretchDefs
import proofs.«144358_j6828998001340_2_alg».proof.Proof.LibEdgeSpec
import proofs.«144358_j6828998001340_2_alg».proof.Proof.LibNodeSpec

noncomputable section

namespace Cert.KernelIdeal.Hand

open Cert.KernelIdeal Cert.KernelIdeal.Gen
open Idealize.ShloMosaic Idealize.ShloMosaic.TcCoe
open Cert.EdgeSpec Cert.NodeSpec

/-! # The channel-major program's four layers as functions of their input arrays

A layer gathers the source features channel-major, forms every edge's message (`edgeOut`), sums each channel's messages
into the target nodes and stacks the channels (`aggSum`), and updates every node (`nodeOut`) from the rounded features,
the root weight, the bias row, the summed messages and the reciprocal in-degree. -/

def kerLayer1 (x : FVec Ideal S100000x3 .f32) (e : IVec S2x3200000 32) (ea : FVec Ideal S3200000x3 .f32) (g : FVec Ideal S3x24 .f32)
    (mu sg : FVec Ideal S3x3 .f32) (root : FVec Ideal S3x8 .f32) (b : FVec Ideal S8 .f32) : FVec Ideal S100000x8 .f32 :=
  nodeOut (cin := 3) (cout := 8) (N := 100000) unitOf (hBf1 (F := Ideal) x) root (biasRow8 (F := Ideal) b)
    (aggSum8 (F := Ideal) (edgeOut (cin := 3) (cout := 8) (E := 3200000) (xjT1 (F := Ideal) x e) (eaT (F := Ideal) ea) (gT1 (F := Ideal) g) mu sg) e) (recipDeg (F := Ideal) e)

def kerLayer2 (h : FVec Ideal S100000x8 .f32) (e : IVec S2x3200000 32) (ea : FVec Ideal S3200000x3 .f32) (g : FVec Ideal S8x48 .f32)
    (mu sg : FVec Ideal S3x3 .f32) (root : FVec Ideal S8x16 .f32) (b : FVec Ideal S16 .f32) : FVec Ideal S100000x16 .f32 :=
  nodeOut (cin := 8) (cout := 16) (N := 100000) unitOf (hBf8 (F := Ideal) h) root (biasRow16 (F := Ideal) b)
    (aggSum16 (F := Ideal) (edgeOut (cin := 8) (cout := 16) (E := 3200000) (xjT8 (F := Ideal) h e) (eaT (F := Ideal) ea) (gT2 (F := Ideal) g) mu sg) e) (recipDeg (F := Ideal) e)

def kerLayer3 (h : FVec Ideal S100000x16 .f32) (e : IVec S2x3200000 32) (ea : FVec Ideal S3200000x3 .f32) (g : FVec Ideal S16x24 .f32)
    (mu sg : FVec Ideal S3x3 .f32) (root : FVec Ideal S16x8 .f32) (b : FVec Ideal S8 .f32) : FVec Ideal S100000x8 .f32 :=
  nodeOut (cin := 16) (cout := 8) (N := 100000) unitOf (hBf16 (F := Ideal) h) root (biasRow8 (F := Ideal) b)
    (aggSum8 (F := Ideal) (edgeOut (cin := 16) (cout := 8) (E := 3200000) (xjT16 (F := Ideal) h e) (eaT (F := Ideal) ea) (gT3 (F := Ideal) g) mu sg) e) (recipDeg (F := Ideal) e)

def kerLayer4 (h : FVec Ideal S100000x8 .f32) (e : IVec S2x3200000 32) (ea : FVec Ideal S3200000x3 .f32) (g : FVec Ideal S8x12 .f32)
    (mu sg : FVec Ideal S3x3 .f32) (root : FVec Ideal S8x4 .f32) (b : FVec Ideal S4 .f32) : FVec Ideal S100000x4 .f32 :=
  nodeOut (cin := 8) (cout := 4) (N := 100000) id (hBf8 (F := Ideal) h) root (biasRow4 (F := Ideal) b)
    (aggSum4 (F := Ideal) (edgeOut (cin := 8) (cout := 4) (E := 3200000) (xjT8 (F := Ideal) h e) (eaT (F := Ideal) ea) (gT4 (F := Ideal) g) mu sg) e) (recipDeg (F := Ideal) e)

end Cert.KernelIdeal.Hand

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.EdgePayI0.lean ====
import proofs.«144358_j6828998001340_2_alg».proof.Proof.EdgeI0
import proofs.«144358_j6828998001340_2_alg».proof.Proof.LibGaussForms
import proofs.«144358_j6828998001340_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.GaussForms

/-! # The message block of layer 1 read entry by entry

At output channel `o` and lane `j` the block holds, from the zero word, the sum over the three mixture components `k` of
(row `k·8 + o` of the projected features at lane `j`) x (the component's Gaussian weight of lane `j`'s edge); the projected
features are the projection matrix times the gathered features, a sum over the three input channels. -/

theorem hz2_0 : (![0, 0] : Fin 2 → Nat) = fun _ => 0 := funext fun a => by fin_cases a <;> rfl

/-- Row `q` of the projected features at lane `j`. -/
theorem proj0_apply (x : FVec Ideal S3x25600 .bf16) (g : FVec Ideal S24x3 .bf16) (q : Fin 24) (j : Fin 25600) :
    k0_pay2 (F := Ideal) x g (ix2 q j) = ∑ c : Fin 3, g (ix2 q c) * x (ix2 c j) := by
  unfold k0_pay2
  rw [shapeCast_self, shapeCast_self]
  exact Cert.PointConv.plainMatmul_zero_apply (R := 24) (n := 3) (k := 25600) _ none g x q j

/-- One mixture component's term: a slice of eight rows of the projected features times the weight row. -/
theorem comp0_apply (M : FVec Ideal S24x25600 .f32) (sq : FVec Ideal S3x25600 .f32) (s : FVec Ideal S3 .f32) (off : ℕ)
    (hsl : S24x25600.Slices ![off, 0] S8x25600) (h2 h2' : S3.ShapeCasts S3x1) (hb : S3x1.Broadcasts S3x25600)
    (hr : S3x25600.Reduces [0] S25600) (hφ : FKind.Formats .f32) (hacc : (0x00000000#32 : BitVec 32) = FKind.add.neutral .f32 hφ)
    (hc : S25600.ShapeCasts S1x25600) (hB : S1x25600.Broadcasts S8x25600) (o : Fin 8) (j : Fin 25600) (q : Fin 24) (hq : q.val = off + o.val) :
    mulf (extractStridedSlice S8x25600 ![off, 0] M hsl)
        (broadcastTo S8x25600 (exp (mulf (broadcast S1x25600 (Scalar.ofBits (F := Ideal) .f32 0xBF000000#32))
          (shapeCast S1x25600 (multiReduction .add [0] S25600
            (divf sq (broadcastTo S3x25600 (addf (broadcast S3x1 (Scalar.ofBits (F := Ideal) .f32 0x26901D7D#32))
              (mulf (shapeCast S3x1 s h2) (shapeCast S3x1 s h2'))) hb)) 0x00000000#32 hr hφ hacc) hc))) hB) (ix2 o j)
      = M (ix2 q j) * weightOf (fun d => sq (ix2 d j)) (fun d => s (ix1 d)) := by
  refine congrArg₂ (· * ·) (slice2_axis0_apply off M hsl o j q hq) ?_
  exact weight_as_rows (T := 25600) (c := 8) sq s h2 h2' hb hr hφ hacc hc hB o j

/-- The squared difference between the edge coordinates and a centre's row, at sublane `d` and lane `j`. -/
theorem sqdiff0_apply (ea : FVec Ideal S3x25600 .f32) (r : FVec Ideal S1x3 .f32) (h1 : S1x3.ShapeCasts S3) (h2 : S3.ShapeCasts S3x1)
    (hb : S3x1.Broadcasts S3x25600) (d : Fin 3) (j : Fin 25600) :
    mulf (subf ea (broadcastTo S3x25600 (shapeCast S3x1 (shapeCast S3 r h1) h2) hb))
        (subf ea (broadcastTo S3x25600 (shapeCast S3x1 (shapeCast S3 r h1) h2) hb)) (ix2 d j)
      = (ea (ix2 d j) - r (ix2 (0 : Fin 1) d)) * (ea (ix2 d j) - r (ix2 (0 : Fin 1) d)) := by
  show (ea (ix2 d j) - broadcastTo S3x25600 _ hb (ix2 d j)) * (ea (ix2 d j) - broadcastTo S3x25600 _ hb (ix2 d j)) = _
  rw [row_as_lanes (T := 25600) r h1 h2 hb d j]

/-- The whole message block at channel `o`, lane `j`. -/
theorem msg0_apply (x : FVec Ideal S3x25600 .bf16) (ea : FVec Ideal S3x25600 .f32) (g : FVec Ideal S24x3 .bf16) (mu sg : FVec Ideal S3x3 .f32)
    (o : Fin 8) (j : Fin 25600) :
    msg0 (F := Ideal) x ea g mu sg (ix2 o j)
      = ((Ideal.ofBits .f32 0x00000000#32
          + (∑ c : Fin 3, g (ix2 (⟨0 + o.val, by omega⟩ : Fin 24) c) * x (ix2 c j))
            * weightOf (fun d => (ea (ix2 d j) - mu (ix2 (0 : Fin 3) d)) * (ea (ix2 d j) - mu (ix2 (0 : Fin 3) d))) (fun d => sg (ix2 (0 : Fin 3) d)))
          + (∑ c : Fin 3, g (ix2 (⟨8 + o.val, by omega⟩ : Fin 24) c) * x (ix2 c j))
            * weightOf (fun d => (ea (ix2 d j) - mu (ix2 (1 : Fin 3) d)) * (ea (ix2 d j) - mu (ix2 (1 : Fin 3) d))) (fun d => sg (ix2 (1 : Fin 3) d)))
          + (∑ c : Fin 3, g (ix2 (⟨16 + o.val, by omega⟩ : Fin 24) c) * x (ix2 c j))
            * weightOf (fun d => (ea (ix2 d j) - mu (ix2 (2 : Fin 3) d)) * (ea (ix2 d j) - mu (ix2 (2 : Fin 3) d))) (fun d => sg (ix2 (2 : Fin 3) d)) := by
  unfold msg0
  simp only [View.ld_unit_zero (S := S3x25600) hz2_0, View.ld_unit_zero (S := S24x3) hz2_0]
  unfold k0_pay1 k0_pay4 k0_pay5 k0_pay6 k0_pay3
  simp only [shapeCast_self]
  refine congrArg₂ (· + ·) (congrArg₂ (· + ·) (congrArg₂ (· + ·) rfl ?_) ?_) ?_
  · refine (comp0_apply _ _ _ 0 _ _ _ _ _ _ _ _ _ o j ⟨0 + o.val, by omega⟩ rfl).trans ?_
    refine congrArg₂ (· * ·) (proj0_apply x g _ j) (congrArg₂ weightOf (funext fun d => ?_) (funext fun d => ?_))
    · exact (sqdiff0_apply ea _ _ _ _ d j).trans
        (congrArg (fun z => (ea (ix2 d j) - z) * (ea (ix2 d j) - z)) (ld_row (k := 0) mu _ (0 : Fin 3) rfl 0 d))
    · exact (shapeCast_1a_a_apply _ _ d).trans (ld_row (k := 0) sg _ (0 : Fin 3) rfl 0 d)
  · refine (comp0_apply _ _ _ 8 _ _ _ _ _ _ _ _ _ o j ⟨8 + o.val, by omega⟩ rfl).trans ?_
    refine congrArg₂ (· * ·) (proj0_apply x g _ j) (congrArg₂ weightOf (funext fun d => ?_) (funext fun d => ?_))
    · exact (sqdiff0_apply ea _ _ _ _ d j).trans
        (congrArg (fun z => (ea (ix2 d j) - z) * (ea (ix2 d j) - z)) (ld_row (k := 1) mu _ (1 : Fin 3) rfl 0 d))
    · exact (shapeCast_1a_a_apply _ _ d).trans (ld_row (k := 1) sg _ (1 : Fin 3) rfl 0 d)
  · refine (comp0_apply _ _ _ 16 _ _ _ _ _ _ _ _ _ o j ⟨16 + o.val, by omega⟩ rfl).trans ?_
    refine congrArg₂ (· * ·) (proj0_apply x g _ j) (congrArg₂ weightOf (funext fun d => ?_) (funext fun d => ?_))
    · exact (sqdiff0_apply ea _ _ _ _ d j).trans
        (congrArg (fun z => (ea (ix2 d j) - z) * (ea (ix2 d j) - z)) (ld_row (k := 2) mu _ (2 : Fin 3) rfl 0 d))
    · exact (shapeCast_1a_a_apply _ _ d).trans (ld_row (k := 2) sg _ (2 : Fin 3) rfl 0 d)

end Cert.KernelIdeal.Hand

end
-- ==== Proof.EdgeValI0.lean ====
import proofs.«144358_j6828998001340_2_alg».proof.Proof.EdgePayI0
import proofs.«144358_j6828998001340_2_alg».proof.Proof.LibEdgeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.GaussForms Cert.EdgeSpec

/-! # The message array of layer 1 after its region: one function of the arrays the region finds

Grid point `t` handles the 25600 edges `t·25600 … t·25600 + 25599`: the gathered features' and the coordinates' blocks are
those columns, the projection, the centres and the widths are whole; the point writes back those columns of the output, so
the 125 points cover it. -/

variable (V : (c : Dev nD) → (b : Ref sig .tc) → Buf (Elt Ideal) ((c : Thread nD τ).loc b))

/-- The message block in the form of the edge message, over the blocks' entries. -/
theorem msg0_spec (x : FVec Ideal S3x25600 .bf16) (ea : FVec Ideal S3x25600 .f32) (g : FVec Ideal S24x3 .bf16) (mu sg : FVec Ideal S3x3 .f32)
    (o : Fin 8) (j : Fin 25600) :
    msg0 (F := Ideal) x ea g mu sg (ix2 o j)
      = edgeMsg (cin := 3) (cout := 8) (fun q c => g (ix2 q c)) (fun c => x (ix2 c j)) (fun d => ea (ix2 d j)) (fun k d => mu (ix2 k d)) (fun k d => sg (ix2 k d)) o :=
  msg0_apply x ea g mu sg o j

/-- Where each window's block sits at point `t`, decided over the grid. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem lane_lt0 (t : Fin cfg0.N) (j : Fin 25600) : t.val * 25600 + j.val < 3200000 := by
  have h : t.val < 125 := Nat.lt_of_lt_of_eq t.isLt N_0
  have := j.isLt; omega

/-- The gathered features' block at point `t`: columns `t·25600 + j`. -/
theorem blk0_0 (c : Dev nD) (t : Fin cfg0.N) (a : Fin 3) (j : Fin 25600) :
    iblk0 V c 0 t (ix2 a j) = (V c main_v22 : S3x3200000.Idx → EReal) (ix2 a ⟨t.val * 25600 + j.val, lane_lt0 t j⟩) := by
  obtain ⟨e0, e1, -⟩ := idx_facts0 t
  show (V c main_v22 : S3x3200000.Idx → EReal) (((cfg0.win 0).blk t).view.emb (ix2 a j)) = _
  refine congrArg _ (funext fun ax => Fin.ext ?_)
  match ax with
  | ⟨0, _⟩ => show win0_0.index t (0 : Fin 2) * 3 + 1 * a.val = a.val; rw [e0]; omega
  | ⟨1, _⟩ => show win0_0.index t (1 : Fin 2) * 25600 + 1 * j.val = t.val * 25600 + j.val; rw [e1]; omega

/-- The coordinates' block. -/
theorem blk0_1 (c : Dev nD) (t : Fin cfg0.N) (a : Fin 3) (j : Fin 25600) :
    iblk0 V c 1 t (ix2 a j) = (V c main_v13 : S3x3200000.Idx → EReal) (ix2 a ⟨t.val * 25600 + j.val, lane_lt0 t j⟩) := by
  obtain ⟨-, -, e0, e1, -⟩ := idx_facts0 t
  show (V c main_v13 : S3x3200000.Idx → EReal) (((cfg0.win 1).blk t).view.emb (ix2 a j)) = _
  refine congrArg _ (funext fun ax => Fin.ext ?_)
  match ax with
  | ⟨0, _⟩ => show win0_1.index t (0 : Fin 2) * 3 + 1 * a.val = a.val; rw [e0]; omega
  | ⟨1, _⟩ => show win0_1.index t (1 : Fin 2) * 25600 + 1 * j.val = t.val * 25600 + j.val; rw [e1]; omega

/-- The projection is whole at every point. -/
theorem blk0_2 (c : Dev nD) (t : Fin cfg0.N) (q : Fin 24) (a : Fin 3) :
    iblk0 V c 2 t (ix2 q a) = (V c main_v24 : S24x3.Idx → EReal) (ix2 q a) := by
  obtain ⟨-, -, -, -, e0, e1, -⟩ := idx_facts0 t
  show (V c main_v24 : S24x3.Idx → EReal) (((cfg0.win 2).blk t).view.emb (ix2 q a)) = _
  refine congrArg _ (funext fun ax => Fin.ext ?_)
  match ax with
  | ⟨0, _⟩ => show win0_2.index t (0 : Fin 2) * 24 + 1 * q.val = q.val; rw [e0]; omega
  | ⟨1, _⟩ => show win0_2.index t (1 : Fin 2) * 3 + 1 * a.val = a.val; rw [e1]; omega

/-- So are the centres … -/
theorem blk0_3 (c : Dev nD) (t : Fin cfg0.N) (k a : Fin 3) :
    iblk0 V c 3 t (ix2 k a) = (V c main_arg4 : S3x3.Idx → EReal) (ix2 k a) := by
  obtain ⟨-, -, -, -, -, -, e0, e1, -⟩ := idx_facts0 t
  show (V c main_arg4 : S3x3.Idx → EReal) (((cfg0.win 3).blk t).view.emb (ix2 k a)) = _
  refine congrArg _ (funext fun ax => Fin.ext ?_)
  match ax with
  | ⟨0, _⟩ => show win0_3.index t (0 : Fin 2) * 3 + 1 * k.val = k.val; rw [e0]; omega
  | ⟨1, _⟩ => show win0_3.index t (1 : Fin 2) * 3 + 1 * a.val = a.val; rw [e1]; omega

/-- … and the widths. -/
theorem blk0_4 (c : Dev nD) (t : Fin cfg0.N) (k a : Fin 3) :
    iblk0 V c 4 t (ix2 k a) = (V c main_arg5 : S3x3.Idx → EReal) (ix2 k a) := by
  obtain ⟨-, -, -, -, -, -, -, -, e0, e1, -⟩ := idx_facts0 t
  show (V c main_arg5 : S3x3.Idx → EReal) (((cfg0.win 4).blk t).view.emb (ix2 k a)) = _
  refine congrArg _ (funext fun ax => Fin.ext ?_)
  match ax with
  | ⟨0, _⟩ => show win0_4.index t (0 : Fin 2) * 3 + 1 * k.val = k.val; rw [e0]; omega
  | ⟨1, _⟩ => show win0_4.index t (1 : Fin 2) * 3 + 1 * a.val = a.val; rw [e1]; omega

/-- The whole message array as the region's arrays determine it. -/
def msgArr0 (c : Dev nD) : S8x3200000.Idx → EReal :=
  edgeOut (cin := 3) (cout := 8) (E := 3200000) (V c main_v22 : S3x3200000.Idx → EReal) (V c main_v13 : S3x3200000.Idx → EReal)
    (V c main_v24 : S24x3.Idx → EReal) (V c main_arg4 : S3x3.Idx → EReal) (V c main_arg5 : S3x3.Idx → EReal)

/-- What point `t` writes back is block `t` of the message array. -/
theorem flushed0_eq (c : Dev nD) (t : Fin cfg0.N) :
    (dat0 V c).flushed 5 t = ((cfg0.win 5).blk t).view.read (Elt Ideal) (msgArr0 V c) := by
  show (cfg0.win 5).cut (grid0.coords t) ((dat0 V c).after 5 t) = _
  rw [after0_5]
  unfold out0_5
  rw [View.canon_unit_zero hz2_0]
  funext y
  obtain ⟨o, j, rfl⟩ : ∃ (o : Fin 8) (j : Fin 25600), y = ix2 o j := ⟨y 0, y 1, eq_ix2 y⟩
  obtain ⟨-, -, -, -, -, -, -, -, -, -, e0, e1⟩ := idx_facts0 t
  have hemb : ((cfg0.win 5).blk t).view.emb (ix2 o j) = (ix2 o ⟨t.val * 25600 + j.val, lane_lt0 t j⟩ : S8x3200000.Idx) := by
    funext ax; apply Fin.ext
    match ax with
    | ⟨0, _⟩ => show win0_5.index t (0 : Fin 2) * 8 + 1 * o.val = o.val; rw [e0]; omega
    | ⟨1, _⟩ => show win0_5.index t (1 : Fin 2) * 25600 + 1 * j.val = t.val * 25600 + j.val; rw [e1]; omega
  show msg0 (F := Ideal) (iblk0 V c 0 t) (iblk0 V c 1 t) (iblk0 V c 2 t) (iblk0 V c 3 t) (iblk0 V c 4 t) (ix2 o j) = msgArr0 V c (((cfg0.win 5).blk t).view.emb (ix2 o j))
  rw [hemb, msg0_spec]
  unfold msgArr0
  rw [edgeOut_apply]
  simp only [blk0_0, blk0_1, blk0_2, blk0_3, blk0_4]

/-- A column of the output is in point `t`'s block iff it is one of that point's 25600. -/
theorem mem_blk0 (t : Fin cfg0.N) (i : S8x3200000.Idx) :
    i ∈ ((cfg0.win 5).blk t).view.set ↔ ∀ a : Fin 2, win0_5.index t a * S8x25600.size a ≤ (i a).val ∧ (i a).val < win0_5.index t a * S8x25600.size a + S8x25600.size a := by
  show i ∈ ((View.whole main_v25).slice (win0_5.rect t)).set ↔ _
  rw [View.set_slice_whole, Rect.mem_set_unit]
  exact Iff.rfl

/-- THE ARRAY after the region. -/
theorem final0 (c : Dev nD) : (dat0 V c).arrAt 5 cfg0.N = msgArr0 V c :=
  (dat0 V c).arrAt_eq_of_cover 5 (msgArr0 V c) (fun t _ => flushed0_eq V c t) fun i => by
    have hi0 : (i 0).val < 8 := (i 0).isLt
    have hi1 : (i 1).val < 3200000 := (i 1).isLt
    have hN : cfg0.N = 125 := N_0
    refine ⟨⟨(i 1).val / 25600, by rw [hN]; omega⟩, flush0_5 _, ?_⟩
    rw [mem_blk0]
    obtain ⟨-, -, -, -, -, -, -, -, -, -, e0, e1⟩ := idx_facts0 ⟨(i 1).val / 25600, by rw [hN]; omega⟩
    intro a
    match a with
    | ⟨0, _⟩ => show win0_5.index _ (0 : Fin 2) * 8 ≤ (i 0).val ∧ (i 0).val < win0_5.index _ (0 : Fin 2) * 8 + 8; rw [e0]; omega
    | ⟨1, _⟩ => show win0_5.index _ (1 : Fin 2) * 25600 ≤ (i 1).val ∧ (i 1).val < win0_5.index _ (1 : Fin 2) * 25600 + 25600; rw [e1]; show (i 1).val / 25600 * 25600 ≤ (i 1).val ∧ (i 1).val < (i 1).val / 25600 * 25600 + 25600; omega

end Cert.KernelIdeal.Hand

end
-- ==== Proof.EdgePayI2.lean ====
import proofs.«144358_j6828998001340_2_alg».proof.Proof.EdgeI2
import proofs.«144358_j6828998001340_2_alg».proof.Proof.LibGaussForms
import proofs.«144358_j6828998001340_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.GaussForms

/-! # The message block of layer 2 read entry by entry

At output channel `o` and lane `j` the block holds, from the zero word, the sum over the three mixture components `k` of
(row `k·16 + o` of the projected features at lane `j`) x (the component's Gaussian weight of lane `j`'s edge); the projected
features are the projection matrix times the gathered features, a sum over the 8 input channels. -/

theorem hz2_2 : (![0, 0] : Fin 2 → Nat) = fun _ => 0 := funext fun a => by fin_cases a <;> rfl

/-- Row `q` of the projected features at lane `j`. -/
theorem proj2_apply (x : FVec Ideal S8x25600 .bf16) (g : FVec Ideal S48x8 .bf16) (q : Fin 48) (j : Fin 25600) :
    k2_pay2 (F := Ideal) x g (ix2 q j) = ∑ c : Fin 8, g (ix2 q c) * x (ix2 c j) := by
  unfold k2_pay2
  rw [shapeCast_self, shapeCast_self]
  exact Cert.PointConv.plainMatmul_zero_apply (R := 48) (n := 8) (k := 25600) _ none g x q j

/-- One mixture component's term: a slice of 16 rows of the projected features times the weight row. -/
theorem comp2_apply (M : FVec Ideal S48x25600 .f32) (sq : FVec Ideal S3x25600 .f32) (s : FVec Ideal S3 .f32) (off : ℕ)
    (hsl : S48x25600.Slices ![off, 0] S16x25600) (h2 h2' : S3.ShapeCasts S3x1) (hb : S3x1.Broadcasts S3x25600)
    (hr : S3x25600.Reduces [0] S25600) (hφ : FKind.Formats .f32) (hacc : (0x00000000#32 : BitVec 32) = FKind.add.neutral .f32 hφ)
    (hc : S25600.ShapeCasts S1x25600) (hB : S1x25600.Broadcasts S16x25600) (o : Fin 16) (j : Fin 25600) (q : Fin 48) (hq : q.val = off + o.val) :
    mulf (extractStridedSlice S16x25600 ![off, 0] M hsl)
        (broadcastTo S16x25600 (exp (mulf (broadcast S1x25600 (Scalar.ofBits (F := Ideal) .f32 0xBF000000#32))
          (shapeCast S1x25600 (multiReduction .add [0] S25600
            (divf sq (broadcastTo S3x25600 (addf (broadcast S3x1 (Scalar.ofBits (F := Ideal) .f32 0x26901D7D#32))
              (mulf (shapeCast S3x1 s h2) (shapeCast S3x1 s h2'))) hb)) 0x00000000#32 hr hφ hacc) hc))) hB) (ix2 o j)
      = M (ix2 q j) * weightOf (fun d => sq (ix2 d j)) (fun d => s (ix1 d)) := by
  refine congrArg₂ (· * ·) (slice2_axis0_apply off M hsl o j q hq) ?_
  exact weight_as_rows (T := 25600) (c := 16) sq s h2 h2' hb hr hφ hacc hc hB o j

/-- The squared difference between the edge coordinates and a centre's row, at sublane `d` and lane `j`. -/
theorem sqdiff2_apply (ea : FVec Ideal S3x25600 .f32) (r : FVec Ideal S1x3 .f32) (h1 : S1x3.ShapeCasts S3) (h2 : S3.ShapeCasts S3x1)
    (hb : S3x1.Broadcasts S3x25600) (d : Fin 3) (j : Fin 25600) :
    mulf (subf ea (broadcastTo S3x25600 (shapeCast S3x1 (shapeCast S3 r h1) h2) hb))
        (subf ea (broadcastTo S3x25600 (shapeCast S3x1 (shapeCast S3 r h1) h2) hb)) (ix2 d j)
      = (ea (ix2 d j) - r (ix2 (0 : Fin 1) d)) * (ea (ix2 d j) - r (ix2 (0 : Fin 1) d)) := by
  show (ea (ix2 d j) - broadcastTo S3x25600 _ hb (ix2 d j)) * (ea (ix2 d j) - broadcastTo S3x25600 _ hb (ix2 d j)) = _
  rw [row_as_lanes (T := 25600) r h1 h2 hb d j]

/-- The whole message block at channel `o`, lane `j`. -/
theorem msg2_apply (x : FVec Ideal S8x25600 .bf16) (ea : FVec Ideal S3x25600 .f32) (g : FVec Ideal S48x8 .bf16) (mu sg : FVec Ideal S3x3 .f32)
    (o : Fin 16) (j : Fin 25600) :
    msg2 (F := Ideal) x ea g mu sg (ix2 o j)
      = ((Ideal.ofBits .f32 0x00000000#32
          + (∑ c : Fin 8, g (ix2 (⟨0 + o.val, by omega⟩ : Fin 48) c) * x (ix2 c j))
            * weightOf (fun d => (ea (ix2 d j) - mu (ix2 (0 : Fin 3) d)) * (ea (ix2 d j) - mu (ix2 (0 : Fin 3) d))) (fun d => sg (ix2 (0 : Fin 3) d)))
          + (∑ c : Fin 8, g (ix2 (⟨16 + o.val, by omega⟩ : Fin 48) c) * x (ix2 c j))
            * weightOf (fun d => (ea (ix2 d j) - mu (ix2 (1 : Fin 3) d)) * (ea (ix2 d j) - mu (ix2 (1 : Fin 3) d))) (fun d => sg (ix2 (1 : Fin 3) d)))
          + (∑ c : Fin 8, g (ix2 (⟨32 + o.val, by omega⟩ : Fin 48) c) * x (ix2 c j))
            * weightOf (fun d => (ea (ix2 d j) - mu (ix2 (2 : Fin 3) d)) * (ea (ix2 d j) - mu (ix2 (2 : Fin 3) d))) (fun d => sg (ix2 (2 : Fin 3) d)) := by
  unfold msg2
  simp only [View.ld_unit_zero (S := S3x25600) hz2_2, View.ld_unit_zero (S := S8x25600) hz2_2, View.ld_unit_zero (S := S48x8) hz2_2]
  unfold k2_pay1 k2_pay4 k2_pay5 k2_pay6 k2_pay3
  simp only [shapeCast_self]
  refine congrArg₂ (· + ·) (congrArg₂ (· + ·) (congrArg₂ (· + ·) rfl ?_) ?_) ?_
  · refine (comp2_apply _ _ _ 0 _ _ _ _ _ _ _ _ _ o j ⟨0 + o.val, by omega⟩ rfl).trans ?_
    refine congrArg₂ (· * ·) (proj2_apply x g _ j) (congrArg₂ weightOf (funext fun d => ?_) (funext fun d => ?_))
    · exact (sqdiff2_apply ea _ _ _ _ d j).trans
        (congrArg (fun z => (ea (ix2 d j) - z) * (ea (ix2 d j) - z)) (ld_row (k := 0) mu _ (0 : Fin 3) rfl 0 d))
    · exact (shapeCast_1a_a_apply _ _ d).trans (ld_row (k := 0) sg _ (0 : Fin 3) rfl 0 d)
  · refine (comp2_apply _ _ _ 16 _ _ _ _ _ _ _ _ _ o j ⟨16 + o.val, by omega⟩ rfl).trans ?_
    refine congrArg₂ (· * ·) (proj2_apply x g _ j) (congrArg₂ weightOf (funext fun d => ?_) (funext fun d => ?_))
    · exact (sqdiff2_apply ea _ _ _ _ d j).trans
        (congrArg (fun z => (ea (ix2 d j) - z) * (ea (ix2 d j) - z)) (ld_row (k := 1) mu _ (1 : Fin 3) rfl 0 d))
    · exact (shapeCast_1a_a_apply _ _ d).trans (ld_row (k := 1) sg _ (1 : Fin 3) rfl 0 d)
  · refine (comp2_apply _ _ _ 32 _ _ _ _ _ _ _ _ _ o j ⟨32 + o.val, by omega⟩ rfl).trans ?_
    refine congrArg₂ (· * ·) (proj2_apply x g _ j) (congrArg₂ weightOf (funext fun d => ?_) (funext fun d => ?_))
    · exact (sqdiff2_apply ea _ _ _ _ d j).trans
        (congrArg (fun z => (ea (ix2 d j) - z) * (ea (ix2 d j) - z)) (ld_row (k := 2) mu _ (2 : Fin 3) rfl 0 d))
    · exact (shapeCast_1a_a_apply _ _ d).trans (ld_row (k := 2) sg _ (2 : Fin 3) rfl 0 d)

end Cert.KernelIdeal.Hand

end
-- ==== Proof.EdgeValI2.lean ====
import proofs.«144358_j6828998001340_2_alg».proof.Proof.EdgePayI2
import proofs.«144358_j6828998001340_2_alg».proof.Proof.LibEdgeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.GaussForms Cert.EdgeSpec

/-! # The message array of layer 2 after its region: one function of the arrays the region finds

Grid point `t` handles the 25600 edges `t·25600 … t·25600 + 25599`: the gathered features' and the coordinates' blocks are
those columns, the projection, the centres and the widths are whole; the point writes back those columns of the output, so
the 125 points cover it. -/

variable (V : (c : Dev nD) → (b : Ref sig .tc) → Buf (Elt Ideal) ((c : Thread nD τ).loc b))

/-- The message block in the form of the edge message, over the blocks' entries. -/
theorem msg2_spec (x : FVec Ideal S8x25600 .bf16) (ea : FVec Ideal S3x25600 .f32) (g : FVec Ideal S48x8 .bf16) (mu sg : FVec Ideal S3x3 .f32)
    (o : Fin 16) (j : Fin 25600) :
    msg2 (F := Ideal) x ea g mu sg (ix2 o j)
      = edgeMsg (cin := 8) (cout := 16) (fun q c => g (ix2 q c)) (fun c => x (ix2 c j)) (fun d => ea (ix2 d j)) (fun k d => mu (ix2 k d)) (fun k d => sg (ix2 k d)) o :=
  msg2_apply x ea g mu sg o j

/-- Where each window's block sits at point `t`, decided over the grid. -/
theorem idx_facts2 : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = t.val :=
  (by decide +kernel : ∀ t : Fin grid2.N, _)

theorem lane_lt2 (t : Fin cfg2.N) (j : Fin 25600) : t.val * 25600 + j.val < 3200000 := by
  have h : t.val < 125 := Nat.lt_of_lt_of_eq t.isLt N_2
  have := j.isLt; omega

/-- The gathered features' block at point `t`: columns `t·25600 + j`. -/
theorem blk2_0 (c : Dev nD) (t : Fin cfg2.N) (a : Fin 8) (j : Fin 25600) :
    iblk2 V c 0 t (ix2 a j) = (V c main_v85 : S8x3200000.Idx → EReal) (ix2 a ⟨t.val * 25600 + j.val, lane_lt2 t j⟩) := by
  obtain ⟨e0, e1, -⟩ := idx_facts2 t
  show (V c main_v85 : S8x3200000.Idx → EReal) (((cfg2.win 0).blk t).view.emb (ix2 a j)) = _
  refine congrArg _ (funext fun ax => Fin.ext ?_)
  match ax with
  | ⟨0, _⟩ => show win2_0.index t (0 : Fin 2) * 8 + 1 * a.val = a.val; rw [e0]; omega
  | ⟨1, _⟩ => show win2_0.index t (1 : Fin 2) * 25600 + 1 * j.val = t.val * 25600 + j.val; rw [e1]; omega

/-- The coordinates' block. -/
theorem blk2_1 (c : Dev nD) (t : Fin cfg2.N) (a : Fin 3) (j : Fin 25600) :
    iblk2 V c 1 t (ix2 a j) = (V c main_v13 : S3x3200000.Idx → EReal) (ix2 a ⟨t.val * 25600 + j.val, lane_lt2 t j⟩) := by
  obtain ⟨-, -, e0, e1, -⟩ := idx_facts2 t
  show (V c main_v13 : S3x3200000.Idx → EReal) (((cfg2.win 1).blk t).view.emb (ix2 a j)) = _
  refine congrArg _ (funext fun ax => Fin.ext ?_)
  match ax with
  | ⟨0, _⟩ => show win2_1.index t (0 : Fin 2) * 3 + 1 * a.val = a.val; rw [e0]; omega
  | ⟨1, _⟩ => show win2_1.index t (1 : Fin 2) * 25600 + 1 * j.val = t.val * 25600 + j.val; rw [e1]; omega

/-- The projection is whole at every point. -/
theorem blk2_2 (c : Dev nD) (t : Fin cfg2.N) (q : Fin 48) (a : Fin 8) :
    iblk2 V c 2 t (ix2 q a) = (V c main_v87 : S48x8.Idx → EReal) (ix2 q a) := by
  obtain ⟨-, -, -, -, e0, e1, -⟩ := idx_facts2 t
  show (V c main_v87 : S48x8.Idx → EReal) (((cfg2.win 2).blk t).view.emb (ix2 q a)) = _
  refine congrArg _ (funext fun ax => Fin.ext ?_)
  match ax with
  | ⟨0, _⟩ => show win2_2.index t (0 : Fin 2) * 48 + 1 * q.val = q.val; rw [e0]; omega
  | ⟨1, _⟩ => show win2_2.index t (1 : Fin 2) * 8 + 1 * a.val = a.val; rw [e1]; omega

/-- So are the centres … -/
theorem blk2_3 (c : Dev nD) (t : Fin cfg2.N) (k a : Fin 3) :
    iblk2 V c 3 t (ix2 k a) = (V c main_arg9 : S3x3.Idx → EReal) (ix2 k a) := by
  obtain ⟨-, -, -, -, -, -, e0, e1, -⟩ := idx_facts2 t
  show (V c main_arg9 : S3x3.Idx → EReal) (((cfg2.win 3).blk t).view.emb (ix2 k a)) = _
  refine congrArg _ (funext fun ax => Fin.ext ?_)
  match ax with
  | ⟨0, _⟩ => show win2_3.index t (0 : Fin 2) * 3 + 1 * k.val = k.val; rw [e0]; omega
  | ⟨1, _⟩ => show win2_3.index t (1 : Fin 2) * 3 + 1 * a.val = a.val; rw [e1]; omega

/-- … and the widths. -/
theorem blk2_4 (c : Dev nD) (t : Fin cfg2.N) (k a : Fin 3) :
    iblk2 V c 4 t (ix2 k a) = (V c main_arg10 : S3x3.Idx → EReal) (ix2 k a) := by
  obtain ⟨-, -, -, -, -, -, -, -, e0, e1, -⟩ := idx_facts2 t
  show (V c main_arg10 : S3x3.Idx → EReal) (((cfg2.win 4).blk t).view.emb (ix2 k a)) = _
  refine congrArg _ (funext fun ax => Fin.ext ?_)
  match ax with
  | ⟨0, _⟩ => show win2_4.index t (0 : Fin 2) * 3 + 1 * k.val = k.val; rw [e0]; omega
  | ⟨1, _⟩ => show win2_4.index t (1 : Fin 2) * 3 + 1 * a.val = a.val; rw [e1]; omega

/-- The whole message array as the region's arrays determine it. -/
def msgArr2 (c : Dev nD) : S16x3200000.Idx → EReal :=
  edgeOut (cin := 8) (cout := 16) (E := 3200000) (V c main_v85 : S8x3200000.Idx → EReal) (V c main_v13 : S3x3200000.Idx → EReal)
    (V c main_v87 : S48x8.Idx → EReal) (V c main_arg9 : S3x3.Idx → EReal) (V c main_arg10 : S3x3.Idx → EReal)

/-- What point `t` writes back is block `t` of the message array. -/
theorem flushed2_eq (c : Dev nD) (t : Fin cfg2.N) :
    (dat2 V c).flushed 5 t = ((cfg2.win 5).blk t).view.read (Elt Ideal) (msgArr2 V c) := by
  show (cfg2.win 5).cut (grid2.coords t) ((dat2 V c).after 5 t) = _
  rw [after2_5]
  unfold out2_5
  rw [View.canon_unit_zero hz2_2]
  funext y
  obtain ⟨o, j, rfl⟩ : ∃ (o : Fin 16) (j : Fin 25600), y = ix2 o j := ⟨y 0, y 1, eq_ix2 y⟩
  obtain ⟨-, -, -, -, -, -, -, -, -, -, e0, e1⟩ := idx_facts2 t
  have hemb : ((cfg2.win 5).blk t).view.emb (ix2 o j) = (ix2 o ⟨t.val * 25600 + j.val, lane_lt2 t j⟩ : S16x3200000.Idx) := by
    funext ax; apply Fin.ext
    match ax with
    | ⟨0, _⟩ => show win2_5.index t (0 : Fin 2) * 16 + 1 * o.val = o.val; rw [e0]; omega
    | ⟨1, _⟩ => show win2_5.index t (1 : Fin 2) * 25600 + 1 * j.val = t.val * 25600 + j.val; rw [e1]; omega
  show msg2 (F := Ideal) (iblk2 V c 0 t) (iblk2 V c 1 t) (iblk2 V c 2 t) (iblk2 V c 3 t) (iblk2 V c 4 t) (ix2 o j) = msgArr2 V c (((cfg2.win 5).blk t).view.emb (ix2 o j))
  rw [hemb, msg2_spec]
  unfold msgArr2
  rw [edgeOut_apply]
  simp only [blk2_0, blk2_1, blk2_2, blk2_3, blk2_4]

/-- A column of the output is in point `t`'s block iff it is one of that point's 25600. -/
theorem mem_blk2 (t : Fin cfg2.N) (i : S16x3200000.Idx) :
    i ∈ ((cfg2.win 5).blk t).view.set ↔ ∀ a : Fin 2, win2_5.index t a * S16x25600.size a ≤ (i a).val ∧ (i a).val < win2_5.index t a * S16x25600.size a + S16x25600.size a := by
  show i ∈ ((View.whole main_v88).slice (win2_5.rect t)).set ↔ _
  rw [View.set_slice_whole, Rect.mem_set_unit]
  exact Iff.rfl

/-- THE ARRAY after the region. -/
theorem final2 (c : Dev nD) : (dat2 V c).arrAt 5 cfg2.N = msgArr2 V c :=
  (dat2 V c).arrAt_eq_of_cover 5 (msgArr2 V c) (fun t _ => flushed2_eq V c t) fun i => by
    have hi0 : (i 0).val < 16 := (i 0).isLt
    have hi1 : (i 1).val < 3200000 := (i 1).isLt
    have hN : cfg2.N = 125 := N_2
    refine ⟨⟨(i 1).val / 25600, by rw [hN]; omega⟩, flush2_5 _, ?_⟩
    rw [mem_blk2]
    obtain ⟨-, -, -, -, -, -, -, -, -, -, e0, e1⟩ := idx_facts2 ⟨(i 1).val / 25600, by rw [hN]; omega⟩
    intro a
    match a with
    | ⟨0, _⟩ => show win2_5.index _ (0 : Fin 2) * 16 ≤ (i 0).val ∧ (i 0).val < win2_5.index _ (0 : Fin 2) * 16 + 16; rw [e0]; omega
    | ⟨1, _⟩ => show win2_5.index _ (1 : Fin 2) * 25600 ≤ (i 1).val ∧ (i 1).val < win2_5.index _ (1 : Fin 2) * 25600 + 25600; rw [e1]; show (i 1).val / 25600 * 25600 ≤ (i 1).val ∧ (i 1).val < (i 1).val / 25600 * 25600 + 25600; omega

end Cert.KernelIdeal.Hand

end
-- ==== Proof.EdgePayI4.lean ====
import proofs.«144358_j6828998001340_2_alg».proof.Proof.EdgeI4
import proofs.«144358_j6828998001340_2_alg».proof.Proof.LibGaussForms
import proofs.«144358_j6828998001340_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.GaussForms

/-! # The message block of layer 3 read entry by entry

At output channel `o` and lane `j` the block holds, from the zero word, the sum over the three mixture components `k` of
(row `k·8 + o` of the projected features at lane `j`) x (the component's Gaussian weight of lane `j`'s edge); the projected
features are the projection matrix times the gathered features, a sum over the 16 input channels. -/

theorem hz2_4 : (![0, 0] : Fin 2 → Nat) = fun _ => 0 := funext fun a => by fin_cases a <;> rfl

/-- Row `q` of the projected features at lane `j`. -/
theorem proj4_apply (x : FVec Ideal S16x25600 .bf16) (g : FVec Ideal S24x16 .bf16) (q : Fin 24) (j : Fin 25600) :
    k4_pay2 (F := Ideal) x g (ix2 q j) = ∑ c : Fin 16, g (ix2 q c) * x (ix2 c j) := by
  unfold k4_pay2
  rw [shapeCast_self, shapeCast_self]
  exact Cert.PointConv.plainMatmul_zero_apply (R := 24) (n := 16) (k := 25600) _ none g x q j

/-- One mixture component's term: a slice of 8 rows of the projected features times the weight row. -/
theorem comp4_apply (M : FVec Ideal S24x25600 .f32) (sq : FVec Ideal S3x25600 .f32) (s : FVec Ideal S3 .f32) (off : ℕ)
    (hsl : S24x25600.Slices ![off, 0] S8x25600) (h2 h2' : S3.ShapeCasts S3x1) (hb : S3x1.Broadcasts S3x25600)
    (hr : S3x25600.Reduces [0] S25600) (hφ : FKind.Formats .f32) (hacc : (0x00000000#32 : BitVec 32) = FKind.add.neutral .f32 hφ)
    (hc : S25600.ShapeCasts S1x25600) (hB : S1x25600.Broadcasts S8x25600) (o : Fin 8) (j : Fin 25600) (q : Fin 24) (hq : q.val = off + o.val) :
    mulf (extractStridedSlice S8x25600 ![off, 0] M hsl)
        (broadcastTo S8x25600 (exp (mulf (broadcast S1x25600 (Scalar.ofBits (F := Ideal) .f32 0xBF000000#32))
          (shapeCast S1x25600 (multiReduction .add [0] S25600
            (divf sq (broadcastTo S3x25600 (addf (broadcast S3x1 (Scalar.ofBits (F := Ideal) .f32 0x26901D7D#32))
              (mulf (shapeCast S3x1 s h2) (shapeCast S3x1 s h2'))) hb)) 0x00000000#32 hr hφ hacc) hc))) hB) (ix2 o j)
      = M (ix2 q j) * weightOf (fun d => sq (ix2 d j)) (fun d => s (ix1 d)) := by
  refine congrArg₂ (· * ·) (slice2_axis0_apply off M hsl o j q hq) ?_
  exact weight_as_rows (T := 25600) (c := 8) sq s h2 h2' hb hr hφ hacc hc hB o j

/-- The squared difference between the edge coordinates and a centre's row, at sublane `d` and lane `j`. -/
theorem sqdiff4_apply (ea : FVec Ideal S3x25600 .f32) (r : FVec Ideal S1x3 .f32) (h1 : S1x3.ShapeCasts S3) (h2 : S3.ShapeCasts S3x1)
    (hb : S3x1.Broadcasts S3x25600) (d : Fin 3) (j : Fin 25600) :
    mulf (subf ea (broadcastTo S3x25600 (shapeCast S3x1 (shapeCast S3 r h1) h2) hb))
        (subf ea (broadcastTo S3x25600 (shapeCast S3x1 (shapeCast S3 r h1) h2) hb)) (ix2 d j)
      = (ea (ix2 d j) - r (ix2 (0 : Fin 1) d)) * (ea (ix2 d j) - r (ix2 (0 : Fin 1) d)) := by
  show (ea (ix2 d j) - broadcastTo S3x25600 _ hb (ix2 d j)) * (ea (ix2 d j) - broadcastTo S3x25600 _ hb (ix2 d j)) = _
  rw [row_as_lanes (T := 25600) r h1 h2 hb d j]

/-- The whole message block at channel `o`, lane `j`. -/
theorem msg4_apply (x : FVec Ideal S16x25600 .bf16) (ea : FVec Ideal S3x25600 .f32) (g : FVec Ideal S24x16 .bf16) (mu sg : FVec Ideal S3x3 .f32)
    (o : Fin 8) (j : Fin 25600) :
    msg4 (F := Ideal) x ea g mu sg (ix2 o j)
      = ((Ideal.ofBits .f32 0x00000000#32
          + (∑ c : Fin 16, g (ix2 (⟨0 + o.val, by omega⟩ : Fin 24) c) * x (ix2 c j))
            * weightOf (fun d => (ea (ix2 d j) - mu (ix2 (0 : Fin 3) d)) * (ea (ix2 d j) - mu (ix2 (0 : Fin 3) d))) (fun d => sg (ix2 (0 : Fin 3) d)))
          + (∑ c : Fin 16, g (ix2 (⟨8 + o.val, by omega⟩ : Fin 24) c) * x (ix2 c j))
            * weightOf (fun d => (ea (ix2 d j) - mu (ix2 (1 : Fin 3) d)) * (ea (ix2 d j) - mu (ix2 (1 : Fin 3) d))) (fun d => sg (ix2 (1 : Fin 3) d)))
          + (∑ c : Fin 16, g (ix2 (⟨16 + o.val, by omega⟩ : Fin 24) c) * x (ix2 c j))
            * weightOf (fun d => (ea (ix2 d j) - mu (ix2 (2 : Fin 3) d)) * (ea (ix2 d j) - mu (ix2 (2 : Fin 3) d))) (fun d => sg (ix2 (2 : Fin 3) d)) := by
  unfold msg4
  simp only [View.ld_unit_zero (S := S3x25600) hz2_4, View.ld_unit_zero (S := S16x25600) hz2_4, View.ld_unit_zero (S := S24x16) hz2_4]
  unfold k4_pay1 k4_pay4 k4_pay5 k4_pay6 k4_pay3
  simp only [shapeCast_self]
  refine congrArg₂ (· + ·) (congrArg₂ (· + ·) (congrArg₂ (· + ·) rfl ?_) ?_) ?_
  · refine (comp4_apply _ _ _ 0 _ _ _ _ _ _ _ _ _ o j ⟨0 + o.val, by omega⟩ rfl).trans ?_
    refine congrArg₂ (· * ·) (proj4_apply x g _ j) (congrArg₂ weightOf (funext fun d => ?_) (funext fun d => ?_))
    · exact (sqdiff4_apply ea _ _ _ _ d j).trans
        (congrArg (fun z => (ea (ix2 d j) - z) * (ea (ix2 d j) - z)) (ld_row (k := 0) mu _ (0 : Fin 3) rfl 0 d))
    · exact (shapeCast_1a_a_apply _ _ d).trans (ld_row (k := 0) sg _ (0 : Fin 3) rfl 0 d)
  · refine (comp4_apply _ _ _ 8 _ _ _ _ _ _ _ _ _ o j ⟨8 + o.val, by omega⟩ rfl).trans ?_
    refine congrArg₂ (· * ·) (proj4_apply x g _ j) (congrArg₂ weightOf (funext fun d => ?_) (funext fun d => ?_))
    · exact (sqdiff4_apply ea _ _ _ _ d j).trans
        (congrArg (fun z => (ea (ix2 d j) - z) * (ea (ix2 d j) - z)) (ld_row (k := 1) mu _ (1 : Fin 3) rfl 0 d))
    · exact (shapeCast_1a_a_apply _ _ d).trans (ld_row (k := 1) sg _ (1 : Fin 3) rfl 0 d)
  · refine (comp4_apply _ _ _ 16 _ _ _ _ _ _ _ _ _ o j ⟨16 + o.val, by omega⟩ rfl).trans ?_
    refine congrArg₂ (· * ·) (proj4_apply x g _ j) (congrArg₂ weightOf (funext fun d => ?_) (funext fun d => ?_))
    · exact (sqdiff4_apply ea _ _ _ _ d j).trans
        (congrArg (fun z => (ea (ix2 d j) - z) * (ea (ix2 d j) - z)) (ld_row (k := 2) mu _ (2 : Fin 3) rfl 0 d))
    · exact (shapeCast_1a_a_apply _ _ d).trans (ld_row (k := 2) sg _ (2 : Fin 3) rfl 0 d)

end Cert.KernelIdeal.Hand

end
-- ==== Proof.EdgeValI4.lean ====
import proofs.«144358_j6828998001340_2_alg».proof.Proof.EdgePayI4
import proofs.«144358_j6828998001340_2_alg».proof.Proof.LibEdgeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.GaussForms Cert.EdgeSpec

/-! # The message array of layer 3 after its region: one function of the arrays the region finds

Grid point `t` handles the 25600 edges `t·25600 … t·25600 + 25599`: the gathered features' and the coordinates' blocks are
those columns, the projection, the centres and the widths are whole; the point writes back those columns of the output, so
the 125 points cover it. -/

variable (V : (c : Dev nD) → (b : Ref sig .tc) → Buf (Elt Ideal) ((c : Thread nD τ).loc b))

/-- The message block in the form of the edge message, over the blocks' entries. -/
theorem msg4_spec (x : FVec Ideal S16x25600 .bf16) (ea : FVec Ideal S3x25600 .f32) (g : FVec Ideal S24x16 .bf16) (mu sg : FVec Ideal S3x3 .f32)
    (o : Fin 8) (j : Fin 25600) :
    msg4 (F := Ideal) x ea g mu sg (ix2 o j)
      = edgeMsg (cin := 16) (cout := 8) (fun q c => g (ix2 q c)) (fun c => x (ix2 c j)) (fun d => ea (ix2 d j)) (fun k d => mu (ix2 k d)) (fun k d => sg (ix2 k d)) o :=
  msg4_apply x ea g mu sg o j

/-- Where each window's block sits at point `t`, decided over the grid. -/
theorem idx_facts4 : ∀ t : Fin cfg4.N, win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = t.val :=
  (by decide +kernel : ∀ t : Fin grid4.N, _)

theorem lane_lt4 (t : Fin cfg4.N) (j : Fin 25600) : t.val * 25600 + j.val < 3200000 := by
  have h : t.val < 125 := Nat.lt_of_lt_of_eq t.isLt N_4
  have := j.isLt; omega

/-- The gathered features' block at point `t`: columns `t·25600 + j`. -/
theorem blk4_0 (c : Dev nD) (t : Fin cfg4.N) (a : Fin 16) (j : Fin 25600) :
    iblk4 V c 0 t (ix2 a j) = (V c main_v196 : S16x3200000.Idx → EReal) (ix2 a ⟨t.val * 25600 + j.val, lane_lt4 t j⟩) := by
  obtain ⟨e0, e1, -⟩ := idx_facts4 t
  show (V c main_v196 : S16x3200000.Idx → EReal) (((cfg4.win 0).blk t).view.emb (ix2 a j)) = _
  refine congrArg _ (funext fun ax => Fin.ext ?_)
  match ax with
  | ⟨0, _⟩ => show win4_0.index t (0 : Fin 2) * 16 + 1 * a.val = a.val; rw [e0]; omega
  | ⟨1, _⟩ => show win4_0.index t (1 : Fin 2) * 25600 + 1 * j.val = t.val * 25600 + j.val; rw [e1]; omega

/-- The coordinates' block. -/
theorem blk4_1 (c : Dev nD) (t : Fin cfg4.N) (a : Fin 3) (j : Fin 25600) :
    iblk4 V c 1 t (ix2 a j) = (V c main_v13 : S3x3200000.Idx → EReal) (ix2 a ⟨t.val * 25600 + j.val, lane_lt4 t j⟩) := by
  obtain ⟨-, -, e0, e1, -⟩ := idx_facts4 t
  show (V c main_v13 : S3x3200000.Idx → EReal) (((cfg4.win 1).blk t).view.emb (ix2 a j)) = _
  refine congrArg _ (funext fun ax => Fin.ext ?_)
  match ax with
  | ⟨0, _⟩ => show win4_1.index t (0 : Fin 2) * 3 + 1 * a.val = a.val; rw [e0]; omega
  | ⟨1, _⟩ => show win4_1.index t (1 : Fin 2) * 25600 + 1 * j.val = t.val * 25600 + j.val; rw [e1]; omega

/-- The projection is whole at every point. -/
theorem blk4_2 (c : Dev nD) (t : Fin cfg4.N) (q : Fin 24) (a : Fin 16) :
    iblk4 V c 2 t (ix2 q a) = (V c main_v198 : S24x16.Idx → EReal) (ix2 q a) := by
  obtain ⟨-, -, -, -, e0, e1, -⟩ := idx_facts4 t
  show (V c main_v198 : S24x16.Idx → EReal) (((cfg4.win 2).blk t).view.emb (ix2 q a)) = _
  refine congrArg _ (funext fun ax => Fin.ext ?_)
  match ax with
  | ⟨0, _⟩ => show win4_2.index t (0 : Fin 2) * 24 + 1 * q.val = q.val; rw [e0]; omega
  | ⟨1, _⟩ => show win4_2.index t (1 : Fin 2) * 16 + 1 * a.val = a.val; rw [e1]; omega

/-- So are the centres … -/
theorem blk4_3 (c : Dev nD) (t : Fin cfg4.N) (k a : Fin 3) :
    iblk4 V c 3 t (ix2 k a) = (V c main_arg14 : S3x3.Idx → EReal) (ix2 k a) := by
  obtain ⟨-, -, -, -, -, -, e0, e1, -⟩ := idx_facts4 t
  show (V c main_arg14 : S3x3.Idx → EReal) (((cfg4.win 3).blk t).view.emb (ix2 k a)) = _
  refine congrArg _ (funext fun ax => Fin.ext ?_)
  match ax with
  | ⟨0, _⟩ => show win4_3.index t (0 : Fin 2) * 3 + 1 * k.val = k.val; rw [e0]; omega
  | ⟨1, _⟩ => show win4_3.index t (1 : Fin 2) * 3 + 1 * a.val = a.val; rw [e1]; omega

/-- … and the widths. -/
theorem blk4_4 (c : Dev nD) (t : Fin cfg4.N) (k a : Fin 3) :
    iblk4 V c 4 t (ix2 k a) = (V c main_arg15 : S3x3.Idx → EReal) (ix2 k a) := by
  obtain ⟨-, -, -, -, -, -, -, -, e0, e1, -⟩ := idx_facts4 t
  show (V c main_arg15 : S3x3.Idx → EReal) (((cfg4.win 4).blk t).view.emb (ix2 k a)) = _
  refine congrArg _ (funext fun ax => Fin.ext ?_)
  match ax with
  | ⟨0, _⟩ => show win4_4.index t (0 : Fin 2) * 3 + 1 * k.val = k.val; rw [e0]; omega
  | ⟨1, _⟩ => show win4_4.index t (1 : Fin 2) * 3 + 1 * a.val = a.val; rw [e1]; omega

/-- The whole message array as the region's arrays determine it. -/
def msgArr4 (c : Dev nD) : S8x3200000.Idx → EReal :=
  edgeOut (cin := 16) (cout := 8) (E := 3200000) (V c main_v196 : S16x3200000.Idx → EReal) (V c main_v13 : S3x3200000.Idx → EReal)
    (V c main_v198 : S24x16.Idx → EReal) (V c main_arg14 : S3x3.Idx → EReal) (V c main_arg15 : S3x3.Idx → EReal)

/-- What point `t` writes back is block `t` of the message array. -/
theorem flushed4_eq (c : Dev nD) (t : Fin cfg4.N) :
    (dat4 V c).flushed 5 t = ((cfg4.win 5).blk t).view.read (Elt Ideal) (msgArr4 V c) := by
  show (cfg4.win 5).cut (grid4.coords t) ((dat4 V c).after 5 t) = _
  rw [after4_5]
  unfold out4_5
  rw [View.canon_unit_zero hz2_4]
  funext y
  obtain ⟨o, j, rfl⟩ : ∃ (o : Fin 8) (j : Fin 25600), y = ix2 o j := ⟨y 0, y 1, eq_ix2 y⟩
  obtain ⟨-, -, -, -, -, -, -, -, -, -, e0, e1⟩ := idx_facts4 t
  have hemb : ((cfg4.win 5).blk t).view.emb (ix2 o j) = (ix2 o ⟨t.val * 25600 + j.val, lane_lt4 t j⟩ : S8x3200000.Idx) := by
    funext ax; apply Fin.ext
    match ax with
    | ⟨0, _⟩ => show win4_5.index t (0 : Fin 2) * 8 + 1 * o.val = o.val; rw [e0]; omega
    | ⟨1, _⟩ => show win4_5.index t (1 : Fin 2) * 25600 + 1 * j.val = t.val * 25600 + j.val; rw [e1]; omega
  show msg4 (F := Ideal) (iblk4 V c 0 t) (iblk4 V c 1 t) (iblk4 V c 2 t) (iblk4 V c 3 t) (iblk4 V c 4 t) (ix2 o j) = msgArr4 V c (((cfg4.win 5).blk t).view.emb (ix2 o j))
  rw [hemb, msg4_spec]
  unfold msgArr4
  rw [edgeOut_apply]
  simp only [blk4_0, blk4_1, blk4_2, blk4_3, blk4_4]

/-- A column of the output is in point `t`'s block iff it is one of that point's 25600. -/
theorem mem_blk4 (t : Fin cfg4.N) (i : S8x3200000.Idx) :
    i ∈ ((cfg4.win 5).blk t).view.set ↔ ∀ a : Fin 2, win4_5.index t a * S8x25600.size a ≤ (i a).val ∧ (i a).val < win4_5.index t a * S8x25600.size a + S8x25600.size a := by
  show i ∈ ((View.whole main_v199).slice (win4_5.rect t)).set ↔ _
  rw [View.set_slice_whole, Rect.mem_set_unit]
  exact Iff.rfl

/-- THE ARRAY after the region. -/
theorem final4 (c : Dev nD) : (dat4 V c).arrAt 5 cfg4.N = msgArr4 V c :=
  (dat4 V c).arrAt_eq_of_cover 5 (msgArr4 V c) (fun t _ => flushed4_eq V c t) fun i => by
    have hi0 : (i 0).val < 8 := (i 0).isLt
    have hi1 : (i 1).val < 3200000 := (i 1).isLt
    have hN : cfg4.N = 125 := N_4
    refine ⟨⟨(i 1).val / 25600, by rw [hN]; omega⟩, flush4_5 _, ?_⟩
    rw [mem_blk4]
    obtain ⟨-, -, -, -, -, -, -, -, -, -, e0, e1⟩ := idx_facts4 ⟨(i 1).val / 25600, by rw [hN]; omega⟩
    intro a
    match a with
    | ⟨0, _⟩ => show win4_5.index _ (0 : Fin 2) * 8 ≤ (i 0).val ∧ (i 0).val < win4_5.index _ (0 : Fin 2) * 8 + 8; rw [e0]; omega
    | ⟨1, _⟩ => show win4_5.index _ (1 : Fin 2) * 25600 ≤ (i 1).val ∧ (i 1).val < win4_5.index _ (1 : Fin 2) * 25600 + 25600; rw [e1]; show (i 1).val / 25600 * 25600 ≤ (i 1).val ∧ (i 1).val < (i 1).val / 25600 * 25600 + 25600; omega

end Cert.KernelIdeal.Hand

end
-- ==== Proof.EdgePayI6.lean ====
import proofs.«144358_j6828998001340_2_alg».proof.Proof.EdgeI6
import proofs.«144358_j6828998001340_2_alg».proof.Proof.LibGaussForms
import proofs.«144358_j6828998001340_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.GaussForms

/-! # The message block of layer 4 read entry by entry

At output channel `o` and lane `j` the block holds, from the zero word, the sum over the three mixture components `k` of
(row `k·4 + o` of the projected features at lane `j`) x (the component's Gaussian weight of lane `j`'s edge); the projected
features are the projection matrix times the gathered features, a sum over the 8 input channels. -/

theorem hz2_6 : (![0, 0] : Fin 2 → Nat) = fun _ => 0 := funext fun a => by fin_cases a <;> rfl

/-- Row `q` of the projected features at lane `j`. -/
theorem proj6_apply (x : FVec Ideal S8x25600 .bf16) (g : FVec Ideal S12x8 .bf16) (q : Fin 12) (j : Fin 25600) :
    k6_pay2 (F := Ideal) x g (ix2 q j) = ∑ c : Fin 8, g (ix2 q c) * x (ix2 c j) := by
  unfold k6_pay2
  rw [shapeCast_self, shapeCast_self]
  exact Cert.PointConv.plainMatmul_zero_apply (R := 12) (n := 8) (k := 25600) _ none g x q j

/-- One mixture component's term: a slice of 4 rows of the projected features times the weight row. -/
theorem comp6_apply (M : FVec Ideal S12x25600 .f32) (sq : FVec Ideal S3x25600 .f32) (s : FVec Ideal S3 .f32) (off : ℕ)
    (hsl : S12x25600.Slices ![off, 0] S4x25600) (h2 h2' : S3.ShapeCasts S3x1) (hb : S3x1.Broadcasts S3x25600)
    (hr : S3x25600.Reduces [0] S25600) (hφ : FKind.Formats .f32) (hacc : (0x00000000#32 : BitVec 32) = FKind.add.neutral .f32 hφ)
    (hc : S25600.ShapeCasts S1x25600) (hB : S1x25600.Broadcasts S4x25600) (o : Fin 4) (j : Fin 25600) (q : Fin 12) (hq : q.val = off + o.val) :
    mulf (extractStridedSlice S4x25600 ![off, 0] M hsl)
        (broadcastTo S4x25600 (exp (mulf (broadcast S1x25600 (Scalar.ofBits (F := Ideal) .f32 0xBF000000#32))
          (shapeCast S1x25600 (multiReduction .add [0] S25600
            (divf sq (broadcastTo S3x25600 (addf (broadcast S3x1 (Scalar.ofBits (F := Ideal) .f32 0x26901D7D#32))
              (mulf (shapeCast S3x1 s h2) (shapeCast S3x1 s h2'))) hb)) 0x00000000#32 hr hφ hacc) hc))) hB) (ix2 o j)
      = M (ix2 q j) * weightOf (fun d => sq (ix2 d j)) (fun d => s (ix1 d)) := by
  refine congrArg₂ (· * ·) (slice2_axis0_apply off M hsl o j q hq) ?_
  exact weight_as_rows (T := 25600) (c := 4) sq s h2 h2' hb hr hφ hacc hc hB o j

/-- The squared difference between the edge coordinates and a centre's row, at sublane `d` and lane `j`. -/
theorem sqdiff6_apply (ea : FVec Ideal S3x25600 .f32) (r : FVec Ideal S1x3 .f32) (h1 : S1x3.ShapeCasts S3) (h2 : S3.ShapeCasts S3x1)
    (hb : S3x1.Broadcasts S3x25600) (d : Fin 3) (j : Fin 25600) :
    mulf (subf ea (broadcastTo S3x25600 (shapeCast S3x1 (shapeCast S3 r h1) h2) hb))
        (subf ea (broadcastTo S3x25600 (shapeCast S3x1 (shapeCast S3 r h1) h2) hb)) (ix2 d j)
      = (ea (ix2 d j) - r (ix2 (0 : Fin 1) d)) * (ea (ix2 d j) - r (ix2 (0 : Fin 1) d)) := by
  show (ea (ix2 d j) - broadcastTo S3x25600 _ hb (ix2 d j)) * (ea (ix2 d j) - broadcastTo S3x25600 _ hb (ix2 d j)) = _
  rw [row_as_lanes (T := 25600) r h1 h2 hb d j]

/-- The whole message block at channel `o`, lane `j`. -/
theorem msg6_apply (x : FVec Ideal S8x25600 .bf16) (ea : FVec Ideal S3x25600 .f32) (g : FVec Ideal S12x8 .bf16) (mu sg : FVec Ideal S3x3 .f32)
    (o : Fin 4) (j : Fin 25600) :
    msg6 (F := Ideal) x ea g mu sg (ix2 o j)
      = ((Ideal.ofBits .f32 0x00000000#32
          + (∑ c : Fin 8, g (ix2 (⟨0 + o.val, by omega⟩ : Fin 12) c) * x (ix2 c j))
            * weightOf (fun d => (ea (ix2 d j) - mu (ix2 (0 : Fin 3) d)) * (ea (ix2 d j) - mu (ix2 (0 : Fin 3) d))) (fun d => sg (ix2 (0 : Fin 3) d)))
          + (∑ c : Fin 8, g (ix2 (⟨4 + o.val, by omega⟩ : Fin 12) c) * x (ix2 c j))
            * weightOf (fun d => (ea (ix2 d j) - mu (ix2 (1 : Fin 3) d)) * (ea (ix2 d j) - mu (ix2 (1 : Fin 3) d))) (fun d => sg (ix2 (1 : Fin 3) d)))
          + (∑ c : Fin 8, g (ix2 (⟨8 + o.val, by omega⟩ : Fin 12) c) * x (ix2 c j))
            * weightOf (fun d => (ea (ix2 d j) - mu (ix2 (2 : Fin 3) d)) * (ea (ix2 d j) - mu (ix2 (2 : Fin 3) d))) (fun d => sg (ix2 (2 : Fin 3) d)) := by
  unfold msg6
  simp only [View.ld_unit_zero (S := S3x25600) hz2_6, View.ld_unit_zero (S := S8x25600) hz2_6, View.ld_unit_zero (S := S12x8) hz2_6]
  unfold k6_pay1 k6_pay4 k6_pay5 k6_pay6 k6_pay3
  simp only [shapeCast_self]
  refine congrArg₂ (· + ·) (congrArg₂ (· + ·) (congrArg₂ (· + ·) rfl ?_) ?_) ?_
  · refine (comp6_apply _ _ _ 0 _ _ _ _ _ _ _ _ _ o j ⟨0 + o.val, by omega⟩ rfl).trans ?_
    refine congrArg₂ (· * ·) (proj6_apply x g _ j) (congrArg₂ weightOf (funext fun d => ?_) (funext fun d => ?_))
    · exact (sqdiff6_apply ea _ _ _ _ d j).trans
        (congrArg (fun z => (ea (ix2 d j) - z) * (ea (ix2 d j) - z)) (ld_row (k := 0) mu _ (0 : Fin 3) rfl 0 d))
    · exact (shapeCast_1a_a_apply _ _ d).trans (ld_row (k := 0) sg _ (0 : Fin 3) rfl 0 d)
  · refine (comp6_apply _ _ _ 4 _ _ _ _ _ _ _ _ _ o j ⟨4 + o.val, by omega⟩ rfl).trans ?_
    refine congrArg₂ (· * ·) (proj6_apply x g _ j) (congrArg₂ weightOf (funext fun d => ?_) (funext fun d => ?_))
    · exact (sqdiff6_apply ea _ _ _ _ d j).trans
        (congrArg (fun z => (ea (ix2 d j) - z) * (ea (ix2 d j) - z)) (ld_row (k := 1) mu _ (1 : Fin 3) rfl 0 d))
    · exact (shapeCast_1a_a_apply _ _ d).trans (ld_row (k := 1) sg _ (1 : Fin 3) rfl 0 d)
  · refine (comp6_apply _ _ _ 8 _ _ _ _ _ _ _ _ _ o j ⟨8 + o.val, by omega⟩ rfl).trans ?_
    refine congrArg₂ (· * ·) (proj6_apply x g _ j) (congrArg₂ weightOf (funext fun d => ?_) (funext fun d => ?_))
    · exact (sqdiff6_apply ea _ _ _ _ d j).trans
        (congrArg (fun z => (ea (ix2 d j) - z) * (ea (ix2 d j) - z)) (ld_row (k := 2) mu _ (2 : Fin 3) rfl 0 d))
    · exact (shapeCast_1a_a_apply _ _ d).trans (ld_row (k := 2) sg _ (2 : Fin 3) rfl 0 d)

end Cert.KernelIdeal.Hand

end
-- ==== Proof.EdgeValI6.lean ====
import proofs.«144358_j6828998001340_2_alg».proof.Proof.EdgePayI6
import proofs.«144358_j6828998001340_2_alg».proof.Proof.LibEdgeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.GaussForms Cert.EdgeSpec

/-! # The message array of layer 4 after its region: one function of the arrays the region finds

Grid point `t` handles the 25600 edges `t·25600 … t·25600 + 25599`: the gathered features' and the coordinates' blocks are
those columns, the projection, the centres and the widths are whole; the point writes back those columns of the output, so
the 125 points cover it. -/

variable (V : (c : Dev nD) → (b : Ref sig .tc) → Buf (Elt Ideal) ((c : Thread nD τ).loc b))

/-- The message block in the form of the edge message, over the blocks' entries. -/
theorem msg6_spec (x : FVec Ideal S8x25600 .bf16) (ea : FVec Ideal S3x25600 .f32) (g : FVec Ideal S12x8 .bf16) (mu sg : FVec Ideal S3x3 .f32)
    (o : Fin 4) (j : Fin 25600) :
    msg6 (F := Ideal) x ea g mu sg (ix2 o j)
      = edgeMsg (cin := 8) (cout := 4) (fun q c => g (ix2 q c)) (fun c => x (ix2 c j)) (fun d => ea (ix2 d j)) (fun k d => mu (ix2 k d)) (fun k d => sg (ix2 k d)) o :=
  msg6_apply x ea g mu sg o j

/-- Where each window's block sits at point `t`, decided over the grid. -/
theorem idx_facts6 : ∀ t : Fin cfg6.N, win6_0.index t (0 : Fin 2) = 0 ∧ win6_0.index t (1 : Fin 2) = t.val
    ∧ win6_1.index t (0 : Fin 2) = 0 ∧ win6_1.index t (1 : Fin 2) = t.val
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = t.val :=
  (by decide +kernel : ∀ t : Fin grid6.N, _)

theorem lane_lt6 (t : Fin cfg6.N) (j : Fin 25600) : t.val * 25600 + j.val < 3200000 := by
  have h : t.val < 125 := Nat.lt_of_lt_of_eq t.isLt N_6
  have := j.isLt; omega

/-- The gathered features' block at point `t`: columns `t·25600 + j`. -/
theorem blk6_0 (c : Dev nD) (t : Fin cfg6.N) (a : Fin 8) (j : Fin 25600) :
    iblk6 V c 0 t (ix2 a j) = (V c main_v259 : S8x3200000.Idx → EReal) (ix2 a ⟨t.val * 25600 + j.val, lane_lt6 t j⟩) := by
  obtain ⟨e0, e1, -⟩ := idx_facts6 t
  show (V c main_v259 : S8x3200000.Idx → EReal) (((cfg6.win 0).blk t).view.emb (ix2 a j)) = _
  refine congrArg _ (funext fun ax => Fin.ext ?_)
  match ax with
  | ⟨0, _⟩ => show win6_0.index t (0 : Fin 2) * 8 + 1 * a.val = a.val; rw [e0]; omega
  | ⟨1, _⟩ => show win6_0.index t (1 : Fin 2) * 25600 + 1 * j.val = t.val * 25600 + j.val; rw [e1]; omega

/-- The coordinates' block. -/
theorem blk6_1 (c : Dev nD) (t : Fin cfg6.N) (a : Fin 3) (j : Fin 25600) :
    iblk6 V c 1 t (ix2 a j) = (V c main_v13 : S3x3200000.Idx → EReal) (ix2 a ⟨t.val * 25600 + j.val, lane_lt6 t j⟩) := by
  obtain ⟨-, -, e0, e1, -⟩ := idx_facts6 t
  show (V c main_v13 : S3x3200000.Idx → EReal) (((cfg6.win 1).blk t).view.emb (ix2 a j)) = _
  refine congrArg _ (funext fun ax => Fin.ext ?_)
  match ax with
  | ⟨0, _⟩ => show win6_1.index t (0 : Fin 2) * 3 + 1 * a.val = a.val; rw [e0]; omega
  | ⟨1, _⟩ => show win6_1.index t (1 : Fin 2) * 25600 + 1 * j.val = t.val * 25600 + j.val; rw [e1]; omega

/-- The projection is whole at every point. -/
theorem blk6_2 (c : Dev nD) (t : Fin cfg6.N) (q : Fin 12) (a : Fin 8) :
    iblk6 V c 2 t (ix2 q a) = (V c main_v261 : S12x8.Idx → EReal) (ix2 q a) := by
  obtain ⟨-, -, -, -, e0, e1, -⟩ := idx_facts6 t
  show (V c main_v261 : S12x8.Idx → EReal) (((cfg6.win 2).blk t).view.emb (ix2 q a)) = _
  refine congrArg _ (funext fun ax => Fin.ext ?_)
  match ax with
  | ⟨0, _⟩ => show win6_2.index t (0 : Fin 2) * 12 + 1 * q.val = q.val; rw [e0]; omega
  | ⟨1, _⟩ => show win6_2.index t (1 : Fin 2) * 8 + 1 * a.val = a.val; rw [e1]; omega

/-- So are the centres … -/
theorem blk6_3 (c : Dev nD) (t : Fin cfg6.N) (k a : Fin 3) :
    iblk6 V c 3 t (ix2 k a) = (V c main_arg19 : S3x3.Idx → EReal) (ix2 k a) := by
  obtain ⟨-, -, -, -, -, -, e0, e1, -⟩ := idx_facts6 t
  show (V c main_arg19 : S3x3.Idx → EReal) (((cfg6.win 3).blk t).view.emb (ix2 k a)) = _
  refine congrArg _ (funext fun ax => Fin.ext ?_)
  match ax with
  | ⟨0, _⟩ => show win6_3.index t (0 : Fin 2) * 3 + 1 * k.val = k.val; rw [e0]; omega
  | ⟨1, _⟩ => show win6_3.index t (1 : Fin 2) * 3 + 1 * a.val = a.val; rw [e1]; omega

/-- … and the widths. -/
theorem blk6_4 (c : Dev nD) (t : Fin cfg6.N) (k a : Fin 3) :
    iblk6 V c 4 t (ix2 k a) = (V c main_arg20 : S3x3.Idx → EReal) (ix2 k a) := by
  obtain ⟨-, -, -, -, -, -, -, -, e0, e1, -⟩ := idx_facts6 t
  show (V c main_arg20 : S3x3.Idx → EReal) (((cfg6.win 4).blk t).view.emb (ix2 k a)) = _
  refine congrArg _ (funext fun ax => Fin.ext ?_)
  match ax with
  | ⟨0, _⟩ => show win6_4.index t (0 : Fin 2) * 3 + 1 * k.val = k.val; rw [e0]; omega
  | ⟨1, _⟩ => show win6_4.index t (1 : Fin 2) * 3 + 1 * a.val = a.val; rw [e1]; omega

/-- The whole message array as the region's arrays determine it. -/
def msgArr6 (c : Dev nD) : S4x3200000.Idx → EReal :=
  edgeOut (cin := 8) (cout := 4) (E := 3200000) (V c main_v259 : S8x3200000.Idx → EReal) (V c main_v13 : S3x3200000.Idx → EReal)
    (V c main_v261 : S12x8.Idx → EReal) (V c main_arg19 : S3x3.Idx → EReal) (V c main_arg20 : S3x3.Idx → EReal)

/-- What point `t` writes back is block `t` of the message array. -/
theorem flushed6_eq (c : Dev nD) (t : Fin cfg6.N) :
    (dat6 V c).flushed 5 t = ((cfg6.win 5).blk t).view.read (Elt Ideal) (msgArr6 V c) := by
  show (cfg6.win 5).cut (grid6.coords t) ((dat6 V c).after 5 t) = _
  rw [after6_5]
  unfold out6_5
  rw [View.canon_unit_zero hz2_6]
  funext y
  obtain ⟨o, j, rfl⟩ : ∃ (o : Fin 4) (j : Fin 25600), y = ix2 o j := ⟨y 0, y 1, eq_ix2 y⟩
  obtain ⟨-, -, -, -, -, -, -, -, -, -, e0, e1⟩ := idx_facts6 t
  have hemb : ((cfg6.win 5).blk t).view.emb (ix2 o j) = (ix2 o ⟨t.val * 25600 + j.val, lane_lt6 t j⟩ : S4x3200000.Idx) := by
    funext ax; apply Fin.ext
    match ax with
    | ⟨0, _⟩ => show win6_5.index t (0 : Fin 2) * 4 + 1 * o.val = o.val; rw [e0]; omega
    | ⟨1, _⟩ => show win6_5.index t (1 : Fin 2) * 25600 + 1 * j.val = t.val * 25600 + j.val; rw [e1]; omega
  show msg6 (F := Ideal) (iblk6 V c 0 t) (iblk6 V c 1 t) (iblk6 V c 2 t) (iblk6 V c 3 t) (iblk6 V c 4 t) (ix2 o j) = msgArr6 V c (((cfg6.win 5).blk t).view.emb (ix2 o j))
  rw [hemb, msg6_spec]
  unfold msgArr6
  rw [edgeOut_apply]
  simp only [blk6_0, blk6_1, blk6_2, blk6_3, blk6_4]

/-- A column of the output is in point `t`'s block iff it is one of that point's 25600. -/
theorem mem_blk6 (t : Fin cfg6.N) (i : S4x3200000.Idx) :
    i ∈ ((cfg6.win 5).blk t).view.set ↔ ∀ a : Fin 2, win6_5.index t a * S4x25600.size a ≤ (i a).val ∧ (i a).val < win6_5.index t a * S4x25600.size a + S4x25600.size a := by
  show i ∈ ((View.whole main_v262).slice (win6_5.rect t)).set ↔ _
  rw [View.set_slice_whole, Rect.mem_set_unit]
  exact Iff.rfl

/-- THE ARRAY after the region. -/
theorem final6 (c : Dev nD) : (dat6 V c).arrAt 5 cfg6.N = msgArr6 V c :=
  (dat6 V c).arrAt_eq_of_cover 5 (msgArr6 V c) (fun t _ => flushed6_eq V c t) fun i => by
    have hi0 : (i 0).val < 4 := (i 0).isLt
    have hi1 : (i 1).val < 3200000 := (i 1).isLt
    have hN : cfg6.N = 125 := N_6
    refine ⟨⟨(i 1).val / 25600, by rw [hN]; omega⟩, flush6_5 _, ?_⟩
    rw [mem_blk6]
    obtain ⟨-, -, -, -, -, -, -, -, -, -, e0, e1⟩ := idx_facts6 ⟨(i 1).val / 25600, by rw [hN]; omega⟩
    intro a
    match a with
    | ⟨0, _⟩ => show win6_5.index _ (0 : Fin 2) * 4 ≤ (i 0).val ∧ (i 0).val < win6_5.index _ (0 : Fin 2) * 4 + 4; rw [e0]; omega
    | ⟨1, _⟩ => show win6_5.index _ (1 : Fin 2) * 25600 ≤ (i 1).val ∧ (i 1).val < win6_5.index _ (1 : Fin 2) * 25600 + 25600; rw [e1]; show (i 1).val / 25600 * 25600 ≤ (i 1).val ∧ (i 1).val < (i 1).val / 25600 * 25600 + 25600; omega

end Cert.KernelIdeal.Hand

end
-- ==== Proof.NodePayI1.lean ====
import proofs.«144358_j6828998001340_2_alg».proof.Proof.NodeI1
import proofs.«144358_j6828998001340_2_alg».proof.Proof.LibColumnForms
import proofs.«144358_j6828998001340_2_alg».proof.Proof.LibPlainMatmul
import proofs.«144358_j6828998001340_2_alg».proof.Proof.LibNodeSpec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.NodeSpec

/-! # The updated node block of layer 1 read entry by entry

At node row `n` and channel `o`: v = (summed messages) x (reciprocal degree of the row) + (features x root) + bias, the product
a sum over the three input channels; the stored entry is v where v > 0 and exp v - 1 elsewhere. -/

theorem hz2_1 : (![0, 0] : Fin 2 → Nat) = fun _ => 0 := funext fun a => by fin_cases a <;> rfl

theorem upd1_apply (h : FVec Ideal S4000x3 .bf16) (root : FVec Ideal S3x8 .f32) (bias : FVec Ideal S1x8 .f32) (agg : FVec Ideal S4000x8 .f32)
    (cinv : FVec Ideal S4000x1 .f32) (n : Fin 4000) (o : Fin 8) :
    upd1 (F := Ideal) h root bias agg cinv (ix2 n o)
      = unitOf (agg (ix2 n o) * cinv (ix2 n (0 : Fin 1)) + (∑ c : Fin 3, h (ix2 n c) * root (ix2 c o)) + bias (ix2 (0 : Fin 1) o)) := by
  unfold upd1
  simp only [View.ld_unit_zero (S := S4000x3) hz2_1, View.ld_unit_zero (S := S3x8) hz2_1, View.ld_unit_zero (S := S1x8) hz2_1,
    View.ld_unit_zero (S := S4000x8) hz2_1, View.ld_unit_zero (S := S4000x1) hz2_1]
  unfold k1_pay1
  simp only [shapeCast_self]
  have hv : (addf (addf (mulf agg (broadcastTo S4000x8 cinv broadcasts_S4000x1_S4000x8))
        (matmul dot_S4000x3_S3x8_S4000x8_1_0_0_1_n_n none h (truncf .bf16 root bitsLt_bf16_f32) (constant S4000x8 .f32 0x00000000#32)))
        (broadcastTo S4000x8 bias broadcasts_S1x8_S4000x8)) (ix2 n o)
      = agg (ix2 n o) * cinv (ix2 n (0 : Fin 1)) + (∑ c : Fin 3, h (ix2 n c) * root (ix2 c o)) + bias (ix2 (0 : Fin 1) o) := by
    refine congrArg₂ (· + ·) (congrArg₂ (· + ·) (congrArg₂ (· * ·) rfl ?_) ?_) ?_
    · exact Cert.ColumnForms.broadcastTo_a1_ab_apply cinv _ n o
    · exact Cert.PointConv.plainMatmul_zero_apply (R := 4000) (n := 3) (k := 8) _ none h (truncf .bf16 root bitsLt_bf16_f32) n o
    · exact broadcastTo_1b_ab_apply bias _ n o
  show unitOf ((addf (addf (mulf agg (broadcastTo S4000x8 cinv broadcasts_S4000x1_S4000x8))
        (matmul dot_S4000x3_S3x8_S4000x8_1_0_0_1_n_n none h (truncf .bf16 root bitsLt_bf16_f32) (constant S4000x8 .f32 0x00000000#32)))
        (broadcastTo S4000x8 bias broadcasts_S1x8_S4000x8)) (ix2 n o)) = _
  rw [hv]

end Cert.KernelIdeal.Hand

end
-- ==== Proof.NodeValI1.lean ====
import proofs.«144358_j6828998001340_2_alg».proof.Proof.NodePayI1
import proofs.«144358_j6828998001340_2_alg».proof.Proof.LibNodeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.NodeSpec

/-! # The node array of layer 1 after its region: one function of the arrays the region finds

Grid point `t` handles the 4000 nodes `t·4000 … t·4000 + 3999`: the features', the summed messages' and the reciprocal
degrees' blocks are those rows, the root weight and the bias are whole; the point writes back those rows of the output, so the
25 points cover it. -/

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem row_lt1 (t : Fin cfg1.N) (r : Fin 4000) : t.val * 4000 + r.val < 100000 := by
  have h : t.val < 25 := Nat.lt_of_lt_of_eq t.isLt N_1
  have := r.isLt; omega

theorem blk1_0 (c : Dev nD) (t : Fin cfg1.N) (r : Fin 4000) (a : Fin 3) :
    iblk1 V c 0 t (ix2 r a) = (V c main_v14 : S100000x3.Idx → EReal) (ix2 ⟨t.val * 4000 + r.val, row_lt1 t r⟩ a) := by
  obtain ⟨e0, e1, -⟩ := idx_facts1 t
  show (V c main_v14 : S100000x3.Idx → EReal) (((cfg1.win 0).blk t).view.emb (ix2 r a)) = _
  refine congrArg _ (funext fun ax => Fin.ext ?_)
  match ax with
  | ⟨0, _⟩ => show win1_0.index t (0 : Fin 2) * 4000 + 1 * r.val = t.val * 4000 + r.val; rw [e0]; omega
  | ⟨1, _⟩ => show win1_0.index t (1 : Fin 2) * 3 + 1 * a.val = a.val; rw [e1]; omega

theorem blk1_1 (c : Dev nD) (t : Fin cfg1.N) (a : Fin 3) (o : Fin 8) :
    iblk1 V c 1 t (ix2 a o) = (V c main_arg6 : S3x8.Idx → EReal) (ix2 a o) := by
  obtain ⟨-, -, e0, e1, -⟩ := idx_facts1 t
  show (V c main_arg6 : S3x8.Idx → EReal) (((cfg1.win 1).blk t).view.emb (ix2 a o)) = _
  refine congrArg _ (funext fun ax => Fin.ext ?_)
  match ax with
  | ⟨0, _⟩ => show win1_1.index t (0 : Fin 2) * 3 + 1 * a.val = a.val; rw [e0]; omega
  | ⟨1, _⟩ => show win1_1.index t (1 : Fin 2) * 8 + 1 * o.val = o.val; rw [e1]; omega

theorem blk1_2 (c : Dev nD) (t : Fin cfg1.N) (u : Fin 1) (o : Fin 8) :
    iblk1 V c 2 t (ix2 u o) = (V c main_v75 : S1x8.Idx → EReal) (ix2 u o) := by
  obtain ⟨-, -, -, -, e0, e1, -⟩ := idx_facts1 t
  show (V c main_v75 : S1x8.Idx → EReal) (((cfg1.win 2).blk t).view.emb (ix2 u o)) = _
  refine congrArg _ (funext fun ax => Fin.ext ?_)
  match ax with
  | ⟨0, _⟩ => show win1_2.index t (0 : Fin 2) * 1 + 1 * u.val = u.val; rw [e0]; omega
  | ⟨1, _⟩ => show win1_2.index t (1 : Fin 2) * 8 + 1 * o.val = o.val; rw [e1]; omega

theorem blk1_3 (c : Dev nD) (t : Fin cfg1.N) (r : Fin 4000) (o : Fin 8) :
    iblk1 V c 3 t (ix2 r o) = (V c main_v74 : S100000x8.Idx → EReal) (ix2 ⟨t.val * 4000 + r.val, row_lt1 t r⟩ o) := by
  obtain ⟨-, -, -, -, -, -, e0, e1, -⟩ := idx_facts1 t
  show (V c main_v74 : S100000x8.Idx → EReal) (((cfg1.win 3).blk t).view.emb (ix2 r o)) = _
  refine congrArg _ (funext fun ax => Fin.ext ?_)
  match ax with
  | ⟨0, _⟩ => show win1_3.index t (0 : Fin 2) * 4000 + 1 * r.val = t.val * 4000 + r.val; rw [e0]; omega
  | ⟨1, _⟩ => show win1_3.index t (1 : Fin 2) * 8 + 1 * o.val = o.val; rw [e1]; omega

theorem blk1_4 (c : Dev nD) (t : Fin cfg1.N) (r : Fin 4000) (u : Fin 1) :
    iblk1 V c 4 t (ix2 r u) = (V c main_v12 : S100000x1.Idx → EReal) (ix2 ⟨t.val * 4000 + r.val, row_lt1 t r⟩ u) := by
  obtain ⟨-, -, -, -, -, -, -, -, e0, e1, -⟩ := idx_facts1 t
  show (V c main_v12 : S100000x1.Idx → EReal) (((cfg1.win 4).blk t).view.emb (ix2 r u)) = _
  refine congrArg _ (funext fun ax => Fin.ext ?_)
  match ax with
  | ⟨0, _⟩ => show win1_4.index t (0 : Fin 2) * 4000 + 1 * r.val = t.val * 4000 + r.val; rw [e0]; omega
  | ⟨1, _⟩ => show win1_4.index t (1 : Fin 2) * 1 + 1 * u.val = u.val; rw [e1]; omega

/-- The whole updated node array as the region's arrays determine it. -/
def nodeArr1 (c : Dev nD) : S100000x8.Idx → EReal :=
  nodeOut (cin := 3) (cout := 8) (N := 100000) unitOf (V c main_v14 : S100000x3.Idx → EReal) (V c main_arg6 : S3x8.Idx → EReal)
    (V c main_v75 : S1x8.Idx → EReal) (V c main_v74 : S100000x8.Idx → EReal) (V c main_v12 : S100000x1.Idx → EReal)

theorem flushed1_eq (c : Dev nD) (t : Fin cfg1.N) :
    (dat1 V c).flushed 5 t = ((cfg1.win 5).blk t).view.read (Elt Ideal) (nodeArr1 V c) := by
  show (cfg1.win 5).cut (grid1.coords t) ((dat1 V c).after 5 t) = _
  rw [after1_5]
  unfold out1_5
  rw [View.canon_unit_zero hz2_1]
  funext y
  obtain ⟨r, o, rfl⟩ : ∃ (r : Fin 4000) (o : Fin 8), y = ix2 r o := ⟨y 0, y 1, eq_ix2 y⟩
  obtain ⟨-, -, -, -, -, -, -, -, -, -, e0, e1⟩ := idx_facts1 t
  have hemb : ((cfg1.win 5).blk t).view.emb (ix2 r o) = (ix2 ⟨t.val * 4000 + r.val, row_lt1 t r⟩ o : S100000x8.Idx) := by
    funext ax; apply Fin.ext
    match ax with
    | ⟨0, _⟩ => show win1_5.index t (0 : Fin 2) * 4000 + 1 * r.val = t.val * 4000 + r.val; rw [e0]; omega
    | ⟨1, _⟩ => show win1_5.index t (1 : Fin 2) * 8 + 1 * o.val = o.val; rw [e1]; omega
  show upd1 (F := Ideal) (iblk1 V c 0 t) (iblk1 V c 1 t) (iblk1 V c 2 t) (iblk1 V c 3 t) (iblk1 V c 4 t) (ix2 r o) = nodeArr1 V c (((cfg1.win 5).blk t).view.emb (ix2 r o))
  rw [hemb, upd1_apply]
  unfold nodeArr1
  rw [nodeOut_apply]
  simp only [blk1_0, blk1_1, blk1_2, blk1_3, blk1_4]

theorem mem_blk1 (t : Fin cfg1.N) (i : S100000x8.Idx) :
    i ∈ ((cfg1.win 5).blk t).view.set ↔ ∀ a : Fin 2, win1_5.index t a * S4000x8.size a ≤ (i a).val ∧ (i a).val < win1_5.index t a * S4000x8.size a + S4000x8.size a := by
  show i ∈ ((View.whole main_v76).slice (win1_5.rect t)).set ↔ _
  rw [View.set_slice_whole, Rect.mem_set_unit]
  exact Iff.rfl

/-- THE ARRAY after the region. -/
theorem final1 (c : Dev nD) : (dat1 V c).arrAt 5 cfg1.N = nodeArr1 V c :=
  (dat1 V c).arrAt_eq_of_cover 5 (nodeArr1 V c) (fun t _ => flushed1_eq V c t) fun i => by
    have hi0 : (i 0).val < 100000 := (i 0).isLt
    have hi1 : (i 1).val < 8 := (i 1).isLt
    have hN : cfg1.N = 25 := N_1
    refine ⟨⟨(i 0).val / 4000, by rw [hN]; omega⟩, flush1_5 _, ?_⟩
    rw [mem_blk1]
    obtain ⟨-, -, -, -, -, -, -, -, -, -, e0, e1⟩ := idx_facts1 ⟨(i 0).val / 4000, by rw [hN]; omega⟩
    intro a
    match a with
    | ⟨0, _⟩ => show win1_5.index _ (0 : Fin 2) * 4000 ≤ (i 0).val ∧ (i 0).val < win1_5.index _ (0 : Fin 2) * 4000 + 4000; rw [e0]; show (i 0).val / 4000 * 4000 ≤ (i 0).val ∧ (i 0).val < (i 0).val / 4000 * 4000 + 4000; omega
    | ⟨1, _⟩ => show win1_5.index _ (1 : Fin 2) * 8 ≤ (i 1).val ∧ (i 1).val < win1_5.index _ (1 : Fin 2) * 8 + 8; rw [e1]; omega

end Cert.KernelIdeal.Hand

end
-- ==== Proof.NodePayI3.lean ====
import proofs.«144358_j6828998001340_2_alg».proof.Proof.NodeI3
import proofs.«144358_j6828998001340_2_alg».proof.Proof.LibColumnForms
import proofs.«144358_j6828998001340_2_alg».proof.Proof.LibPlainMatmul
import proofs.«144358_j6828998001340_2_alg».proof.Proof.LibNodeSpec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.NodeSpec

/-! # The updated node block of layer 2 read entry by entry

At node row `n` and channel `o`: v = (summed messages) x (reciprocal degree of the row) + (features x root) + bias, the product
a sum over the 8 input channels; the stored entry is v where v > 0 and exp v - 1 elsewhere. -/

theorem hz2_3 : (![0, 0] : Fin 2 → Nat) = fun _ => 0 := funext fun a => by fin_cases a <;> rfl

theorem upd3_apply (h : FVec Ideal S4000x8 .bf16) (root : FVec Ideal S8x16 .f32) (bias : FVec Ideal S1x16 .f32) (agg : FVec Ideal S4000x16 .f32)
    (cinv : FVec Ideal S4000x1 .f32) (n : Fin 4000) (o : Fin 16) :
    upd3 (F := Ideal) h root bias agg cinv (ix2 n o)
      = unitOf (agg (ix2 n o) * cinv (ix2 n (0 : Fin 1)) + (∑ c : Fin 8, h (ix2 n c) * root (ix2 c o)) + bias (ix2 (0 : Fin 1) o)) := by
  unfold upd3
  simp only [View.ld_unit_zero (S := S4000x8) hz2_3, View.ld_unit_zero (S := S8x16) hz2_3, View.ld_unit_zero (S := S1x16) hz2_3,
    View.ld_unit_zero (S := S4000x16) hz2_3, View.ld_unit_zero (S := S4000x1) hz2_3]
  unfold k3_pay1
  simp only [shapeCast_self]
  have hv : (addf (addf (mulf agg (broadcastTo S4000x16 cinv broadcasts_S4000x1_S4000x16))
        (matmul dot_S4000x8_S8x16_S4000x16_1_0_0_1_n_n none h (truncf .bf16 root bitsLt_bf16_f32) (constant S4000x16 .f32 0x00000000#32)))
        (broadcastTo S4000x16 bias broadcasts_S1x16_S4000x16)) (ix2 n o)
      = agg (ix2 n o) * cinv (ix2 n (0 : Fin 1)) + (∑ c : Fin 8, h (ix2 n c) * root (ix2 c o)) + bias (ix2 (0 : Fin 1) o) := by
    refine congrArg₂ (· + ·) (congrArg₂ (· + ·) (congrArg₂ (· * ·) rfl ?_) ?_) ?_
    · exact Cert.ColumnForms.broadcastTo_a1_ab_apply cinv _ n o
    · exact Cert.PointConv.plainMatmul_zero_apply (R := 4000) (n := 8) (k := 16) _ none h (truncf .bf16 root bitsLt_bf16_f32) n o
    · exact broadcastTo_1b_ab_apply bias _ n o
  show unitOf ((addf (addf (mulf agg (broadcastTo S4000x16 cinv broadcasts_S4000x1_S4000x16))
        (matmul dot_S4000x8_S8x16_S4000x16_1_0_0_1_n_n none h (truncf .bf16 root bitsLt_bf16_f32) (constant S4000x16 .f32 0x00000000#32)))
        (broadcastTo S4000x16 bias broadcasts_S1x16_S4000x16)) (ix2 n o)) = _
  rw [hv]

end Cert.KernelIdeal.Hand

end
-- ==== Proof.NodeValI3.lean ====
import proofs.«144358_j6828998001340_2_alg».proof.Proof.NodePayI3
import proofs.«144358_j6828998001340_2_alg».proof.Proof.LibNodeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.NodeSpec

/-! # The node array of layer 2 after its region: one function of the arrays the region finds

Grid point `t` handles the 4000 nodes `t·4000 … t·4000 + 3999`: the features', the summed messages' and the reciprocal
degrees' blocks are those rows, the root weight and the bias are whole; the point writes back those rows of the output, so the
25 points cover it. -/

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem row_lt3 (t : Fin cfg3.N) (r : Fin 4000) : t.val * 4000 + r.val < 100000 := by
  have h : t.val < 25 := Nat.lt_of_lt_of_eq t.isLt N_3
  have := r.isLt; omega

theorem blk3_0 (c : Dev nD) (t : Fin cfg3.N) (r : Fin 4000) (a : Fin 8) :
    iblk3 V c 0 t (ix2 r a) = (V c main_v77 : S100000x8.Idx → EReal) (ix2 ⟨t.val * 4000 + r.val, row_lt3 t r⟩ a) := by
  obtain ⟨e0, e1, -⟩ := idx_facts3 t
  show (V c main_v77 : S100000x8.Idx → EReal) (((cfg3.win 0).blk t).view.emb (ix2 r a)) = _
  refine congrArg _ (funext fun ax => Fin.ext ?_)
  match ax with
  | ⟨0, _⟩ => show win3_0.index t (0 : Fin 2) * 4000 + 1 * r.val = t.val * 4000 + r.val; rw [e0]; omega
  | ⟨1, _⟩ => show win3_0.index t (1 : Fin 2) * 8 + 1 * a.val = a.val; rw [e1]; omega

theorem blk3_1 (c : Dev nD) (t : Fin cfg3.N) (a : Fin 8) (o : Fin 16) :
    iblk3 V c 1 t (ix2 a o) = (V c main_arg11 : S8x16.Idx → EReal) (ix2 a o) := by
  obtain ⟨-, -, e0, e1, -⟩ := idx_facts3 t
  show (V c main_arg11 : S8x16.Idx → EReal) (((cfg3.win 1).blk t).view.emb (ix2 a o)) = _
  refine congrArg _ (funext fun ax => Fin.ext ?_)
  match ax with
  | ⟨0, _⟩ => show win3_1.index t (0 : Fin 2) * 8 + 1 * a.val = a.val; rw [e0]; omega
  | ⟨1, _⟩ => show win3_1.index t (1 : Fin 2) * 16 + 1 * o.val = o.val; rw [e1]; omega

theorem blk3_2 (c : Dev nD) (t : Fin cfg3.N) (u : Fin 1) (o : Fin 16) :
    iblk3 V c 2 t (ix2 u o) = (V c main_v186 : S1x16.Idx → EReal) (ix2 u o) := by
  obtain ⟨-, -, -, -, e0, e1, -⟩ := idx_facts3 t
  show (V c main_v186 : S1x16.Idx → EReal) (((cfg3.win 2).blk t).view.emb (ix2 u o)) = _
  refine congrArg _ (funext fun ax => Fin.ext ?_)
  match ax with
  | ⟨0, _⟩ => show win3_2.index t (0 : Fin 2) * 1 + 1 * u.val = u.val; rw [e0]; omega
  | ⟨1, _⟩ => show win3_2.index t (1 : Fin 2) * 16 + 1 * o.val = o.val; rw [e1]; omega

theorem blk3_3 (c : Dev nD) (t : Fin cfg3.N) (r : Fin 4000) (o : Fin 16) :
    iblk3 V c 3 t (ix2 r o) = (V c main_v185 : S100000x16.Idx → EReal) (ix2 ⟨t.val * 4000 + r.val, row_lt3 t r⟩ o) := by
  obtain ⟨-, -, -, -, -, -, e0, e1, -⟩ := idx_facts3 t
  show (V c main_v185 : S100000x16.Idx → EReal) (((cfg3.win 3).blk t).view.emb (ix2 r o)) = _
  refine congrArg _ (funext fun ax => Fin.ext ?_)
  match ax with
  | ⟨0, _⟩ => show win3_3.index t (0 : Fin 2) * 4000 + 1 * r.val = t.val * 4000 + r.val; rw [e0]; omega
  | ⟨1, _⟩ => show win3_3.index t (1 : Fin 2) * 16 + 1 * o.val = o.val; rw [e1]; omega

theorem blk3_4 (c : Dev nD) (t : Fin cfg3.N) (r : Fin 4000) (u : Fin 1) :
    iblk3 V c 4 t (ix2 r u) = (V c main_v12 : S100000x1.Idx → EReal) (ix2 ⟨t.val * 4000 + r.val, row_lt3 t r⟩ u) := by
  obtain ⟨-, -, -, -, -, -, -, -, e0, e1, -⟩ := idx_facts3 t
  show (V c main_v12 : S100000x1.Idx → EReal) (((cfg3.win 4).blk t).view.emb (ix2 r u)) = _
  refine congrArg _ (funext fun ax => Fin.ext ?_)
  match ax with
  | ⟨0, _⟩ => show win3_4.index t (0 : Fin 2) * 4000 + 1 * r.val = t.val * 4000 + r.val; rw [e0]; omega
  | ⟨1, _⟩ => show win3_4.index t (1 : Fin 2) * 1 + 1 * u.val = u.val; rw [e1]; omega

/-- The whole updated node array as the region's arrays determine it. -/
def nodeArr3 (c : Dev nD) : S100000x16.Idx → EReal :=
  nodeOut (cin := 8) (cout := 16) (N := 100000) unitOf (V c main_v77 : S100000x8.Idx → EReal) (V c main_arg11 : S8x16.Idx → EReal)
    (V c main_v186 : S1x16.Idx → EReal) (V c main_v185 : S100000x16.Idx → EReal) (V c main_v12 : S100000x1.Idx → EReal)

theorem flushed3_eq (c : Dev nD) (t : Fin cfg3.N) :
    (dat3 V c).flushed 5 t = ((cfg3.win 5).blk t).view.read (Elt Ideal) (nodeArr3 V c) := by
  show (cfg3.win 5).cut (grid3.coords t) ((dat3 V c).after 5 t) = _
  rw [after3_5]
  unfold out3_5
  rw [View.canon_unit_zero hz2_3]
  funext y
  obtain ⟨r, o, rfl⟩ : ∃ (r : Fin 4000) (o : Fin 16), y = ix2 r o := ⟨y 0, y 1, eq_ix2 y⟩
  obtain ⟨-, -, -, -, -, -, -, -, -, -, e0, e1⟩ := idx_facts3 t
  have hemb : ((cfg3.win 5).blk t).view.emb (ix2 r o) = (ix2 ⟨t.val * 4000 + r.val, row_lt3 t r⟩ o : S100000x16.Idx) := by
    funext ax; apply Fin.ext
    match ax with
    | ⟨0, _⟩ => show win3_5.index t (0 : Fin 2) * 4000 + 1 * r.val = t.val * 4000 + r.val; rw [e0]; omega
    | ⟨1, _⟩ => show win3_5.index t (1 : Fin 2) * 16 + 1 * o.val = o.val; rw [e1]; omega
  show upd3 (F := Ideal) (iblk3 V c 0 t) (iblk3 V c 1 t) (iblk3 V c 2 t) (iblk3 V c 3 t) (iblk3 V c 4 t) (ix2 r o) = nodeArr3 V c (((cfg3.win 5).blk t).view.emb (ix2 r o))
  rw [hemb, upd3_apply]
  unfold nodeArr3
  rw [nodeOut_apply]
  simp only [blk3_0, blk3_1, blk3_2, blk3_3, blk3_4]

theorem mem_blk3 (t : Fin cfg3.N) (i : S100000x16.Idx) :
    i ∈ ((cfg3.win 5).blk t).view.set ↔ ∀ a : Fin 2, win3_5.index t a * S4000x16.size a ≤ (i a).val ∧ (i a).val < win3_5.index t a * S4000x16.size a + S4000x16.size a := by
  show i ∈ ((View.whole main_v187).slice (win3_5.rect t)).set ↔ _
  rw [View.set_slice_whole, Rect.mem_set_unit]
  exact Iff.rfl

/-- THE ARRAY after the region. -/
theorem final3 (c : Dev nD) : (dat3 V c).arrAt 5 cfg3.N = nodeArr3 V c :=
  (dat3 V c).arrAt_eq_of_cover 5 (nodeArr3 V c) (fun t _ => flushed3_eq V c t) fun i => by
    have hi0 : (i 0).val < 100000 := (i 0).isLt
    have hi1 : (i 1).val < 16 := (i 1).isLt
    have hN : cfg3.N = 25 := N_3
    refine ⟨⟨(i 0).val / 4000, by rw [hN]; omega⟩, flush3_5 _, ?_⟩
    rw [mem_blk3]
    obtain ⟨-, -, -, -, -, -, -, -, -, -, e0, e1⟩ := idx_facts3 ⟨(i 0).val / 4000, by rw [hN]; omega⟩
    intro a
    match a with
    | ⟨0, _⟩ => show win3_5.index _ (0 : Fin 2) * 4000 ≤ (i 0).val ∧ (i 0).val < win3_5.index _ (0 : Fin 2) * 4000 + 4000; rw [e0]; show (i 0).val / 4000 * 4000 ≤ (i 0).val ∧ (i 0).val < (i 0).val / 4000 * 4000 + 4000; omega
    | ⟨1, _⟩ => show win3_5.index _ (1 : Fin 2) * 16 ≤ (i 1).val ∧ (i 1).val < win3_5.index _ (1 : Fin 2) * 16 + 16; rw [e1]; omega

end Cert.KernelIdeal.Hand

end
-- ==== Proof.NodePayI5.lean ====
import proofs.«144358_j6828998001340_2_alg».proof.Proof.NodeI5
import proofs.«144358_j6828998001340_2_alg».proof.Proof.LibColumnForms
import proofs.«144358_j6828998001340_2_alg».proof.Proof.LibPlainMatmul
import proofs.«144358_j6828998001340_2_alg».proof.Proof.LibNodeSpec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.NodeSpec

/-! # The updated node block of layer 3 read entry by entry

At node row `n` and channel `o`: v = (summed messages) x (reciprocal degree of the row) + (features x root) + bias, the product
a sum over the 16 input channels; the stored entry is v where v > 0 and exp v - 1 elsewhere. -/

theorem hz2_5 : (![0, 0] : Fin 2 → Nat) = fun _ => 0 := funext fun a => by fin_cases a <;> rfl

theorem upd5_apply (h : FVec Ideal S4000x16 .bf16) (root : FVec Ideal S16x8 .f32) (bias : FVec Ideal S1x8 .f32) (agg : FVec Ideal S4000x8 .f32)
    (cinv : FVec Ideal S4000x1 .f32) (n : Fin 4000) (o : Fin 8) :
    upd5 (F := Ideal) h root bias agg cinv (ix2 n o)
      = unitOf (agg (ix2 n o) * cinv (ix2 n (0 : Fin 1)) + (∑ c : Fin 16, h (ix2 n c) * root (ix2 c o)) + bias (ix2 (0 : Fin 1) o)) := by
  unfold upd5
  simp only [View.ld_unit_zero (S := S4000x16) hz2_5, View.ld_unit_zero (S := S16x8) hz2_5, View.ld_unit_zero (S := S1x8) hz2_5,
    View.ld_unit_zero (S := S4000x8) hz2_5, View.ld_unit_zero (S := S4000x1) hz2_5]
  unfold k5_pay1
  simp only [shapeCast_self]
  have hv : (addf (addf (mulf agg (broadcastTo S4000x8 cinv broadcasts_S4000x1_S4000x8))
        (matmul dot_S4000x16_S16x8_S4000x8_1_0_0_1_n_n none h (truncf .bf16 root bitsLt_bf16_f32) (constant S4000x8 .f32 0x00000000#32)))
        (broadcastTo S4000x8 bias broadcasts_S1x8_S4000x8)) (ix2 n o)
      = agg (ix2 n o) * cinv (ix2 n (0 : Fin 1)) + (∑ c : Fin 16, h (ix2 n c) * root (ix2 c o)) + bias (ix2 (0 : Fin 1) o) := by
    refine congrArg₂ (· + ·) (congrArg₂ (· + ·) (congrArg₂ (· * ·) rfl ?_) ?_) ?_
    · exact Cert.ColumnForms.broadcastTo_a1_ab_apply cinv _ n o
    · exact Cert.PointConv.plainMatmul_zero_apply (R := 4000) (n := 16) (k := 8) _ none h (truncf .bf16 root bitsLt_bf16_f32) n o
    · exact broadcastTo_1b_ab_apply bias _ n o
  show unitOf ((addf (addf (mulf agg (broadcastTo S4000x8 cinv broadcasts_S4000x1_S4000x8))
        (matmul dot_S4000x16_S16x8_S4000x8_1_0_0_1_n_n none h (truncf .bf16 root bitsLt_bf16_f32) (constant S4000x8 .f32 0x00000000#32)))
        (broadcastTo S4000x8 bias broadcasts_S1x8_S4000x8)) (ix2 n o)) = _
  rw [hv]

end Cert.KernelIdeal.Hand

end
-- ==== Proof.NodeValI5.lean ====
import proofs.«144358_j6828998001340_2_alg».proof.Proof.NodePayI5
import proofs.«144358_j6828998001340_2_alg».proof.Proof.LibNodeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.NodeSpec

/-! # The node array of layer 3 after its region: one function of the arrays the region finds

Grid point `t` handles the 4000 nodes `t·4000 … t·4000 + 3999`: the features', the summed messages' and the reciprocal
degrees' blocks are those rows, the root weight and the bias are whole; the point writes back those rows of the output, so the
25 points cover it. -/

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem row_lt5 (t : Fin cfg5.N) (r : Fin 4000) : t.val * 4000 + r.val < 100000 := by
  have h : t.val < 25 := Nat.lt_of_lt_of_eq t.isLt N_5
  have := r.isLt; omega

theorem blk5_0 (c : Dev nD) (t : Fin cfg5.N) (r : Fin 4000) (a : Fin 16) :
    iblk5 V c 0 t (ix2 r a) = (V c main_v188 : S100000x16.Idx → EReal) (ix2 ⟨t.val * 4000 + r.val, row_lt5 t r⟩ a) := by
  obtain ⟨e0, e1, -⟩ := idx_facts5 t
  show (V c main_v188 : S100000x16.Idx → EReal) (((cfg5.win 0).blk t).view.emb (ix2 r a)) = _
  refine congrArg _ (funext fun ax => Fin.ext ?_)
  match ax with
  | ⟨0, _⟩ => show win5_0.index t (0 : Fin 2) * 4000 + 1 * r.val = t.val * 4000 + r.val; rw [e0]; omega
  | ⟨1, _⟩ => show win5_0.index t (1 : Fin 2) * 16 + 1 * a.val = a.val; rw [e1]; omega

theorem blk5_1 (c : Dev nD) (t : Fin cfg5.N) (a : Fin 16) (o : Fin 8) :
    iblk5 V c 1 t (ix2 a o) = (V c main_arg16 : S16x8.Idx → EReal) (ix2 a o) := by
  obtain ⟨-, -, e0, e1, -⟩ := idx_facts5 t
  show (V c main_arg16 : S16x8.Idx → EReal) (((cfg5.win 1).blk t).view.emb (ix2 a o)) = _
  refine congrArg _ (funext fun ax => Fin.ext ?_)
  match ax with
  | ⟨0, _⟩ => show win5_1.index t (0 : Fin 2) * 16 + 1 * a.val = a.val; rw [e0]; omega
  | ⟨1, _⟩ => show win5_1.index t (1 : Fin 2) * 8 + 1 * o.val = o.val; rw [e1]; omega

theorem blk5_2 (c : Dev nD) (t : Fin cfg5.N) (u : Fin 1) (o : Fin 8) :
    iblk5 V c 2 t (ix2 u o) = (V c main_v249 : S1x8.Idx → EReal) (ix2 u o) := by
  obtain ⟨-, -, -, -, e0, e1, -⟩ := idx_facts5 t
  show (V c main_v249 : S1x8.Idx → EReal) (((cfg5.win 2).blk t).view.emb (ix2 u o)) = _
  refine congrArg _ (funext fun ax => Fin.ext ?_)
  match ax with
  | ⟨0, _⟩ => show win5_2.index t (0 : Fin 2) * 1 + 1 * u.val = u.val; rw [e0]; omega
  | ⟨1, _⟩ => show win5_2.index t (1 : Fin 2) * 8 + 1 * o.val = o.val; rw [e1]; omega

theorem blk5_3 (c : Dev nD) (t : Fin cfg5.N) (r : Fin 4000) (o : Fin 8) :
    iblk5 V c 3 t (ix2 r o) = (V c main_v248 : S100000x8.Idx → EReal) (ix2 ⟨t.val * 4000 + r.val, row_lt5 t r⟩ o) := by
  obtain ⟨-, -, -, -, -, -, e0, e1, -⟩ := idx_facts5 t
  show (V c main_v248 : S100000x8.Idx → EReal) (((cfg5.win 3).blk t).view.emb (ix2 r o)) = _
  refine congrArg _ (funext fun ax => Fin.ext ?_)
  match ax with
  | ⟨0, _⟩ => show win5_3.index t (0 : Fin 2) * 4000 + 1 * r.val = t.val * 4000 + r.val; rw [e0]; omega
  | ⟨1, _⟩ => show win5_3.index t (1 : Fin 2) * 8 + 1 * o.val = o.val; rw [e1]; omega

theorem blk5_4 (c : Dev nD) (t : Fin cfg5.N) (r : Fin 4000) (u : Fin 1) :
    iblk5 V c 4 t (ix2 r u) = (V c main_v12 : S100000x1.Idx → EReal) (ix2 ⟨t.val * 4000 + r.val, row_lt5 t r⟩ u) := by
  obtain ⟨-, -, -, -, -, -, -, -, e0, e1, -⟩ := idx_facts5 t
  show (V c main_v12 : S100000x1.Idx → EReal) (((cfg5.win 4).blk t).view.emb (ix2 r u)) = _
  refine congrArg _ (funext fun ax => Fin.ext ?_)
  match ax with
  | ⟨0, _⟩ => show win5_4.index t (0 : Fin 2) * 4000 + 1 * r.val = t.val * 4000 + r.val; rw [e0]; omega
  | ⟨1, _⟩ => show win5_4.index t (1 : Fin 2) * 1 + 1 * u.val = u.val; rw [e1]; omega

/-- The whole updated node array as the region's arrays determine it. -/
def nodeArr5 (c : Dev nD) : S100000x8.Idx → EReal :=
  nodeOut (cin := 16) (cout := 8) (N := 100000) unitOf (V c main_v188 : S100000x16.Idx → EReal) (V c main_arg16 : S16x8.Idx → EReal)
    (V c main_v249 : S1x8.Idx → EReal) (V c main_v248 : S100000x8.Idx → EReal) (V c main_v12 : S100000x1.Idx → EReal)

theorem flushed5_eq (c : Dev nD) (t : Fin cfg5.N) :
    (dat5 V c).flushed 5 t = ((cfg5.win 5).blk t).view.read (Elt Ideal) (nodeArr5 V c) := by
  show (cfg5.win 5).cut (grid5.coords t) ((dat5 V c).after 5 t) = _
  rw [after5_5]
  unfold out5_5
  rw [View.canon_unit_zero hz2_5]
  funext y
  obtain ⟨r, o, rfl⟩ : ∃ (r : Fin 4000) (o : Fin 8), y = ix2 r o := ⟨y 0, y 1, eq_ix2 y⟩
  obtain ⟨-, -, -, -, -, -, -, -, -, -, e0, e1⟩ := idx_facts5 t
  have hemb : ((cfg5.win 5).blk t).view.emb (ix2 r o) = (ix2 ⟨t.val * 4000 + r.val, row_lt5 t r⟩ o : S100000x8.Idx) := by
    funext ax; apply Fin.ext
    match ax with
    | ⟨0, _⟩ => show win5_5.index t (0 : Fin 2) * 4000 + 1 * r.val = t.val * 4000 + r.val; rw [e0]; omega
    | ⟨1, _⟩ => show win5_5.index t (1 : Fin 2) * 8 + 1 * o.val = o.val; rw [e1]; omega
  show upd5 (F := Ideal) (iblk5 V c 0 t) (iblk5 V c 1 t) (iblk5 V c 2 t) (iblk5 V c 3 t) (iblk5 V c 4 t) (ix2 r o) = nodeArr5 V c (((cfg5.win 5).blk t).view.emb (ix2 r o))
  rw [hemb, upd5_apply]
  unfold nodeArr5
  rw [nodeOut_apply]
  simp only [blk5_0, blk5_1, blk5_2, blk5_3, blk5_4]

theorem mem_blk5 (t : Fin cfg5.N) (i : S100000x8.Idx) :
    i ∈ ((cfg5.win 5).blk t).view.set ↔ ∀ a : Fin 2, win5_5.index t a * S4000x8.size a ≤ (i a).val ∧ (i a).val < win5_5.index t a * S4000x8.size a + S4000x8.size a := by
  show i ∈ ((View.whole main_v250).slice (win5_5.rect t)).set ↔ _
  rw [View.set_slice_whole, Rect.mem_set_unit]
  exact Iff.rfl

/-- THE ARRAY after the region. -/
theorem final5 (c : Dev nD) : (dat5 V c).arrAt 5 cfg5.N = nodeArr5 V c :=
  (dat5 V c).arrAt_eq_of_cover 5 (nodeArr5 V c) (fun t _ => flushed5_eq V c t) fun i => by
    have hi0 : (i 0).val < 100000 := (i 0).isLt
    have hi1 : (i 1).val < 8 := (i 1).isLt
    have hN : cfg5.N = 25 := N_5
    refine ⟨⟨(i 0).val / 4000, by rw [hN]; omega⟩, flush5_5 _, ?_⟩
    rw [mem_blk5]
    obtain ⟨-, -, -, -, -, -, -, -, -, -, e0, e1⟩ := idx_facts5 ⟨(i 0).val / 4000, by rw [hN]; omega⟩
    intro a
    match a with
    | ⟨0, _⟩ => show win5_5.index _ (0 : Fin 2) * 4000 ≤ (i 0).val ∧ (i 0).val < win5_5.index _ (0 : Fin 2) * 4000 + 4000; rw [e0]; show (i 0).val / 4000 * 4000 ≤ (i 0).val ∧ (i 0).val < (i 0).val / 4000 * 4000 + 4000; omega
    | ⟨1, _⟩ => show win5_5.index _ (1 : Fin 2) * 8 ≤ (i 1).val ∧ (i 1).val < win5_5.index _ (1 : Fin 2) * 8 + 8; rw [e1]; omega

end Cert.KernelIdeal.Hand

end
-- ==== Proof.NodePayI7.lean ====
import proofs.«144358_j6828998001340_2_alg».proof.Proof.NodeI7
import proofs.«144358_j6828998001340_2_alg».proof.Proof.LibColumnForms
import proofs.«144358_j6828998001340_2_alg».proof.Proof.LibPlainMatmul
import proofs.«144358_j6828998001340_2_alg».proof.Proof.LibNodeSpec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Cert.NodeSpec

/-! # The updated node block of layer 4 read entry by entry

At node row `n` and channel `o`: v = (summed messages) x (reciprocal degree of the row) + (features x root) + bias, the product
a sum over the 8 input channels; the stored entry is v itself (the last layer has no unit). -/

theorem hz2_7 : (![0, 0] : Fin 2 → Nat) = fun _ => 0 := funext fun a => by fin_cases a <;> rfl

theorem upd7_apply (h : FVec Ideal S4000x8 .bf16) (root : FVec Ideal S8x4 .f32) (bias : FVec Ideal S1x4 .f32) (agg : FVec Ideal S4000x4 .f32)
    (cinv : FVec Ideal S4000x1 .f32) (n : Fin 4000) (o : Fin 4) :
    upd7 (F := Ideal) h root bias agg cinv (ix2 n o)
      = (agg (ix2 n o) * cinv (ix2 n (0 : Fin 1)) + (∑ c : Fin 8, h (ix2 n c) * root (ix2 c o)) + bias (ix2 (0 : Fin 1) o)) := by
  unfold upd7
  simp only [View.ld_unit_zero (S := S4000x8) hz2_7, View.ld_unit_zero (S := S8x4) hz2_7, View.ld_unit_zero (S := S1x4) hz2_7,
    View.ld_unit_zero (S := S4000x4) hz2_7, View.ld_unit_zero (S := S4000x1) hz2_7]
  unfold k7_pay1
  simp only [shapeCast_self]
  have hv : (addf (addf (mulf agg (broadcastTo S4000x4 cinv broadcasts_S4000x1_S4000x4))
        (matmul dot_S4000x8_S8x4_S4000x4_1_0_0_1_n_n none h (truncf .bf16 root bitsLt_bf16_f32) (constant S4000x4 .f32 0x00000000#32)))
        (broadcastTo S4000x4 bias broadcasts_S1x4_S4000x4)) (ix2 n o)
      = agg (ix2 n o) * cinv (ix2 n (0 : Fin 1)) + (∑ c : Fin 8, h (ix2 n c) * root (ix2 c o)) + bias (ix2 (0 : Fin 1) o) := by
    refine congrArg₂ (· + ·) (congrArg₂ (· + ·) (congrArg₂ (· * ·) rfl ?_) ?_) ?_
    · exact Cert.ColumnForms.broadcastTo_a1_ab_apply cinv _ n o
    · exact Cert.PointConv.plainMatmul_zero_apply (R := 4000) (n := 8) (k := 4) _ none h (truncf .bf16 root bitsLt_bf16_f32) n o
    · exact broadcastTo_1b_ab_apply bias _ n o
  show ((addf (addf (mulf agg (broadcastTo S4000x4 cinv broadcasts_S4000x1_S4000x4))
        (matmul dot_S4000x8_S8x4_S4000x4_1_0_0_1_n_n none h (truncf .bf16 root bitsLt_bf16_f32) (constant S4000x4 .f32 0x00000000#32)))
        (broadcastTo S4000x4 bias broadcasts_S1x4_S4000x4)) (ix2 n o)) = _
  rw [hv]

end Cert.KernelIdeal.Hand

end
-- ==== Proof.NodeValI7.lean ====
import proofs.«144358_j6828998001340_2_alg».proof.Proof.NodePayI7
import proofs.«144358_j6828998001340_2_alg».proof.Proof.LibNodeSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.NodeSpec

/-! # The node array of layer 4 after its region: one function of the arrays the region finds

Grid point `t` handles the 4000 nodes `t·4000 … t·4000 + 3999`: the features', the summed messages' and the reciprocal
degrees' blocks are those rows, the root weight and the bias are whole; the point writes back those rows of the output, so the
25 points cover it. -/

variable (V : (c : Dev nD) → (b : Ref sig .tc) → Buf (Elt Ideal) ((c : Thread nD τ).loc b))

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

theorem row_lt7 (t : Fin cfg7.N) (r : Fin 4000) : t.val * 4000 + r.val < 100000 := by
  have h : t.val < 25 := Nat.lt_of_lt_of_eq t.isLt N_7
  have := r.isLt; omega

theorem blk7_0 (c : Dev nD) (t : Fin cfg7.N) (r : Fin 4000) (a : Fin 8) :
    iblk7 V c 0 t (ix2 r a) = (V c main_v251 : S100000x8.Idx → EReal) (ix2 ⟨t.val * 4000 + r.val, row_lt7 t r⟩ a) := by
  obtain ⟨e0, e1, -⟩ := idx_facts7 t
  show (V c main_v251 : S100000x8.Idx → EReal) (((cfg7.win 0).blk t).view.emb (ix2 r a)) = _
  refine congrArg _ (funext fun ax => Fin.ext ?_)
  match ax with
  | ⟨0, _⟩ => show win7_0.index t (0 : Fin 2) * 4000 + 1 * r.val = t.val * 4000 + r.val; rw [e0]; omega
  | ⟨1, _⟩ => show win7_0.index t (1 : Fin 2) * 8 + 1 * a.val = a.val; rw [e1]; omega

theorem blk7_1 (c : Dev nD) (t : Fin cfg7.N) (a : Fin 8) (o : Fin 4) :
    iblk7 V c 1 t (ix2 a o) = (V c main_arg21 : S8x4.Idx → EReal) (ix2 a o) := by
  obtain ⟨-, -, e0, e1, -⟩ := idx_facts7 t
  show (V c main_arg21 : S8x4.Idx → EReal) (((cfg7.win 1).blk t).view.emb (ix2 a o)) = _
  refine congrArg _ (funext fun ax => Fin.ext ?_)
  match ax with
  | ⟨0, _⟩ => show win7_1.index t (0 : Fin 2) * 8 + 1 * a.val = a.val; rw [e0]; omega
  | ⟨1, _⟩ => show win7_1.index t (1 : Fin 2) * 4 + 1 * o.val = o.val; rw [e1]; omega

theorem blk7_2 (c : Dev nD) (t : Fin cfg7.N) (u : Fin 1) (o : Fin 4) :
    iblk7 V c 2 t (ix2 u o) = (V c main_v288 : S1x4.Idx → EReal) (ix2 u o) := by
  obtain ⟨-, -, -, -, e0, e1, -⟩ := idx_facts7 t
  show (V c main_v288 : S1x4.Idx → EReal) (((cfg7.win 2).blk t).view.emb (ix2 u o)) = _
  refine congrArg _ (funext fun ax => Fin.ext ?_)
  match ax with
  | ⟨0, _⟩ => show win7_2.index t (0 : Fin 2) * 1 + 1 * u.val = u.val; rw [e0]; omega
  | ⟨1, _⟩ => show win7_2.index t (1 : Fin 2) * 4 + 1 * o.val = o.val; rw [e1]; omega

theorem blk7_3 (c : Dev nD) (t : Fin cfg7.N) (r : Fin 4000) (o : Fin 4) :
    iblk7 V c 3 t (ix2 r o) = (V c main_v287 : S100000x4.Idx → EReal) (ix2 ⟨t.val * 4000 + r.val, row_lt7 t r⟩ o) := by
  obtain ⟨-, -, -, -, -, -, e0, e1, -⟩ := idx_facts7 t
  show (V c main_v287 : S100000x4.Idx → EReal) (((cfg7.win 3).blk t).view.emb (ix2 r o)) = _
  refine congrArg _ (funext fun ax => Fin.ext ?_)
  match ax with
  | ⟨0, _⟩ => show win7_3.index t (0 : Fin 2) * 4000 + 1 * r.val = t.val * 4000 + r.val; rw [e0]; omega
  | ⟨1, _⟩ => show win7_3.index t (1 : Fin 2) * 4 + 1 * o.val = o.val; rw [e1]; omega

theorem blk7_4 (c : Dev nD) (t : Fin cfg7.N) (r : Fin 4000) (u : Fin 1) :
    iblk7 V c 4 t (ix2 r u) = (V c main_v12 : S100000x1.Idx → EReal) (ix2 ⟨t.val * 4000 + r.val, row_lt7 t r⟩ u) := by
  obtain ⟨-, -, -, -, -, -, -, -, e0, e1, -⟩ := idx_facts7 t
  show (V c main_v12 : S100000x1.Idx → EReal) (((cfg7.win 4).blk t).view.emb (ix2 r u)) = _
  refine congrArg _ (funext fun ax => Fin.ext ?_)
  match ax with
  | ⟨0, _⟩ => show win7_4.index t (0 : Fin 2) * 4000 + 1 * r.val = t.val * 4000 + r.val; rw [e0]; omega
  | ⟨1, _⟩ => show win7_4.index t (1 : Fin 2) * 1 + 1 * u.val = u.val; rw [e1]; omega

/-- The whole updated node array as the region's arrays determine it. -/
def nodeArr7 (c : Dev nD) : S100000x4.Idx → EReal :=
  nodeOut (cin := 8) (cout := 4) (N := 100000) id (V c main_v251 : S100000x8.Idx → EReal) (V c main_arg21 : S8x4.Idx → EReal)
    (V c main_v288 : S1x4.Idx → EReal) (V c main_v287 : S100000x4.Idx → EReal) (V c main_v12 : S100000x1.Idx → EReal)

theorem flushed7_eq (c : Dev nD) (t : Fin cfg7.N) :
    (dat7 V c).flushed 5 t = ((cfg7.win 5).blk t).view.read (Elt Ideal) (nodeArr7 V c) := by
  show (cfg7.win 5).cut (grid7.coords t) ((dat7 V c).after 5 t) = _
  rw [after7_5]
  unfold out7_5
  rw [View.canon_unit_zero hz2_7]
  funext y
  obtain ⟨r, o, rfl⟩ : ∃ (r : Fin 4000) (o : Fin 4), y = ix2 r o := ⟨y 0, y 1, eq_ix2 y⟩
  obtain ⟨-, -, -, -, -, -, -, -, -, -, e0, e1⟩ := idx_facts7 t
  have hemb : ((cfg7.win 5).blk t).view.emb (ix2 r o) = (ix2 ⟨t.val * 4000 + r.val, row_lt7 t r⟩ o : S100000x4.Idx) := by
    funext ax; apply Fin.ext
    match ax with
    | ⟨0, _⟩ => show win7_5.index t (0 : Fin 2) * 4000 + 1 * r.val = t.val * 4000 + r.val; rw [e0]; omega
    | ⟨1, _⟩ => show win7_5.index t (1 : Fin 2) * 4 + 1 * o.val = o.val; rw [e1]; omega
  show upd7 (F := Ideal) (iblk7 V c 0 t) (iblk7 V c 1 t) (iblk7 V c 2 t) (iblk7 V c 3 t) (iblk7 V c 4 t) (ix2 r o) = nodeArr7 V c (((cfg7.win 5).blk t).view.emb (ix2 r o))
  rw [hemb, upd7_apply]
  unfold nodeArr7
  rw [nodeOut_apply]
  simp only [blk7_0, blk7_1, blk7_2, blk7_3, blk7_4, id_eq]

theorem mem_blk7 (t : Fin cfg7.N) (i : S100000x4.Idx) :
    i ∈ ((cfg7.win 5).blk t).view.set ↔ ∀ a : Fin 2, win7_5.index t a * S4000x4.size a ≤ (i a).val ∧ (i a).val < win7_5.index t a * S4000x4.size a + S4000x4.size a := by
  show i ∈ ((View.whole main_v289).slice (win7_5.rect t)).set ↔ _
  rw [View.set_slice_whole, Rect.mem_set_unit]
  exact Iff.rfl

/-- THE ARRAY after the region. -/
theorem final7 (c : Dev nD) : (dat7 V c).arrAt 5 cfg7.N = nodeArr7 V c :=
  (dat7 V c).arrAt_eq_of_cover 5 (nodeArr7 V c) (fun t _ => flushed7_eq V c t) fun i => by
    have hi0 : (i 0).val < 100000 := (i 0).isLt
    have hi1 : (i 1).val < 4 := (i 1).isLt
    have hN : cfg7.N = 25 := N_7
    refine ⟨⟨(i 0).val / 4000, by rw [hN]; omega⟩, flush7_5 _, ?_⟩
    rw [mem_blk7]
    obtain ⟨-, -, -, -, -, -, -, -, -, -, e0, e1⟩ := idx_facts7 ⟨(i 0).val / 4000, by rw [hN]; omega⟩
    intro a
    match a with
    | ⟨0, _⟩ => show win7_5.index _ (0 : Fin 2) * 4000 ≤ (i 0).val ∧ (i 0).val < win7_5.index _ (0 : Fin 2) * 4000 + 4000; rw [e0]; show (i 0).val / 4000 * 4000 ≤ (i 0).val ∧ (i 0).val < (i 0).val / 4000 * 4000 + 4000; omega
    | ⟨1, _⟩ => show win7_5.index _ (1 : Fin 2) * 4 ≤ (i 1).val ∧ (i 1).val < win7_5.index _ (1 : Fin 2) * 4 + 4; rw [e1]; omega

end Cert.KernelIdeal.Hand

end
-- ==== Proof.StretchKeep.lean ====
import proofs.«144358_j6828998001340_2_alg».proof.Proof.BoundsI

set_option maxRecDepth 16384

/-!
# Buffers that outlive their stretch

Five results of the first stretch are read again by later stretches and regions and are written by nothing after it:
the flat source and target columns of the edge list, the reciprocal in-degree column, the transposed edge coordinates
and the rounded input features. No later host operation writes them and no region's output array is one of them, so at
every later boundary they hold what they held when region 0 was entered. The same holds for the argument arrays, which
hold at every boundary what they held at launch.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The first stretch's results that later stretches and regions read. -/
def keptRefs : List (Ref sig .tc) := [main_v1, main_v3, main_v12, main_v13, main_v14]

/-- No region's output array is one of them. -/
theorem kept_ne_out : ∀ b ∈ keptRefs, b ≠ Pipeline.arrRef spec0 5 ∧ b ≠ Pipeline.arrRef spec1 5 ∧ b ≠ Pipeline.arrRef spec2 5 ∧ b ≠ Pipeline.arrRef spec3 5
    ∧ b ≠ Pipeline.arrRef spec4 5 ∧ b ≠ Pipeline.arrRef spec5 5 ∧ b ≠ Pipeline.arrRef spec6 5 ∧ b ≠ Pipeline.arrRef spec7 5 := by decide

/-- No operation of stretch 1 writes one of them: each writes its own result buffer. -/
theorem hostOps1_keeps : (hostOps1 : List (HloOp τ sig (Elt F))).Forall fun op => ∀ b ∈ keptRefs, Proc.devRef (τ := τ) .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 2 writes one of them: each writes its own result buffer. -/
theorem hostOps2_keeps : (hostOps2 : List (HloOp τ sig (Elt F))).Forall fun op => ∀ b ∈ keptRefs, Proc.devRef (τ := τ) .tc b ∉ op.writes := by
  simp only [hostOps2, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 3 writes one of them: each writes its own result buffer. -/
theorem hostOps3_keeps : (hostOps3 : List (HloOp τ sig (Elt F))).Forall fun op => ∀ b ∈ keptRefs, Proc.devRef (τ := τ) .tc b ∉ op.writes := by
  simp only [hostOps3, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 4 writes one of them: each writes its own result buffer. -/
theorem hostOps4_keeps : (hostOps4 : List (HloOp τ sig (Elt F))).Forall fun op => ∀ b ∈ keptRefs, Proc.devRef (τ := τ) .tc b ∉ op.writes := by
  simp only [hostOps4, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 5 writes one of them: each writes its own result buffer. -/
theorem hostOps5_keeps : (hostOps5 : List (HloOp τ sig (Elt F))).Forall fun op => ∀ b ∈ keptRefs, Proc.devRef (τ := τ) .tc b ∉ op.writes := by
  simp only [hostOps5, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 6 writes one of them: each writes its own result buffer. -/
theorem hostOps6_keeps : (hostOps6 : List (HloOp τ sig (Elt F))).Forall fun op => ∀ b ∈ keptRefs, Proc.devRef (τ := τ) .tc b ∉ op.writes := by
  simp only [hostOps6, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- No operation of stretch 7 writes one of them: each writes its own result buffer. -/
theorem hostOps7_keeps : (hostOps7 : List (HloOp τ sig (Elt F))).Forall fun op => ∀ b ∈ keptRefs, Proc.devRef (τ := τ) .tc b ∉ op.writes := by
  simp only [hostOps7, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes, Finset.mem_singleton]
  repeat' apply And.intro
  all_goals exact fun b hb => StableHlo.devRef_ne_of_ne (by revert b; decide)

/-- A line of host operations none of which writes a listed buffer leaves it as it was. -/
theorem after_keeps {L : List (Ref sig .tc)} (ops : List (HloOp τ sig (Elt F))) (W : Valuation τ sig (Elt F))
    (h : ops.Forall fun op => ∀ b ∈ L, Proc.devRef (τ := τ) .tc b ∉ op.writes) (b : Ref sig .tc) (hb : b ∈ L) :
    StableHlo.after ops W (Proc.devRef .tc b) = W (Proc.devRef .tc b) :=
  StableHlo.after_of_forall_not_mem ops W fun op hop => (List.forall_iff_forall_mem.mp h) op hop b hb

/-! ## The kept results at every boundary -/
theorem W2_keep (c : Dev nD) (b : Ref sig .tc) (hb : b ∈ keptRefs) : W2 m ρ c (Proc.devRef .tc b) = W1 m ρ c (Proc.devRef .tc b) :=
  (W2_kept m ρ c b (kept_ne_out b hb).1)
theorem W3_keep (c : Dev nD) (b : Ref sig .tc) (hb : b ∈ keptRefs) : W3 m ρ c (Proc.devRef .tc b) = W1 m ρ c (Proc.devRef .tc b) :=
  (after_keeps _ _ hostOps1_keeps b hb).trans (W2_keep m ρ c b hb)
theorem W4_keep (c : Dev nD) (b : Ref sig .tc) (hb : b ∈ keptRefs) : W4 m ρ c (Proc.devRef .tc b) = W1 m ρ c (Proc.devRef .tc b) :=
  (W4_kept m ρ c b (kept_ne_out b hb).2.1).trans (W3_keep m ρ c b hb)
theorem W5_keep (c : Dev nD) (b : Ref sig .tc) (hb : b ∈ keptRefs) : W5 m ρ c (Proc.devRef .tc b) = W1 m ρ c (Proc.devRef .tc b) :=
  (after_keeps _ _ hostOps2_keeps b hb).trans (W4_keep m ρ c b hb)
theorem W6_keep (c : Dev nD) (b : Ref sig .tc) (hb : b ∈ keptRefs) : W6 m ρ c (Proc.devRef .tc b) = W1 m ρ c (Proc.devRef .tc b) :=
  (W6_kept m ρ c b (kept_ne_out b hb).2.2.1).trans (W5_keep m ρ c b hb)
theorem W7_keep (c : Dev nD) (b : Ref sig .tc) (hb : b ∈ keptRefs) : W7 m ρ c (Proc.devRef .tc b) = W1 m ρ c (Proc.devRef .tc b) :=
  (after_keeps _ _ hostOps3_keeps b hb).trans (W6_keep m ρ c b hb)
theorem W8_keep (c : Dev nD) (b : Ref sig .tc) (hb : b ∈ keptRefs) : W8 m ρ c (Proc.devRef .tc b) = W1 m ρ c (Proc.devRef .tc b) :=
  (W8_kept m ρ c b (kept_ne_out b hb).2.2.2.1).trans (W7_keep m ρ c b hb)
theorem W9_keep (c : Dev nD) (b : Ref sig .tc) (hb : b ∈ keptRefs) : W9 m ρ c (Proc.devRef .tc b) = W1 m ρ c (Proc.devRef .tc b) :=
  (after_keeps _ _ hostOps4_keeps b hb).trans (W8_keep m ρ c b hb)
theorem W10_keep (c : Dev nD) (b : Ref sig .tc) (hb : b ∈ keptRefs) : W10 m ρ c (Proc.devRef .tc b) = W1 m ρ c (Proc.devRef .tc b) :=
  (W10_kept m ρ c b (kept_ne_out b hb).2.2.2.2.1).trans (W9_keep m ρ c b hb)
theorem W11_keep (c : Dev nD) (b : Ref sig .tc) (hb : b ∈ keptRefs) : W11 m ρ c (Proc.devRef .tc b) = W1 m ρ c (Proc.devRef .tc b) :=
  (after_keeps _ _ hostOps5_keeps b hb).trans (W10_keep m ρ c b hb)
theorem W12_keep (c : Dev nD) (b : Ref sig .tc) (hb : b ∈ keptRefs) : W12 m ρ c (Proc.devRef .tc b) = W1 m ρ c (Proc.devRef .tc b) :=
  (W12_kept m ρ c b (kept_ne_out b hb).2.2.2.2.2.1).trans (W11_keep m ρ c b hb)
theorem W13_keep (c : Dev nD) (b : Ref sig .tc) (hb : b ∈ keptRefs) : W13 m ρ c (Proc.devRef .tc b) = W1 m ρ c (Proc.devRef .tc b) :=
  (after_keeps _ _ hostOps6_keeps b hb).trans (W12_keep m ρ c b hb)
theorem W14_keep (c : Dev nD) (b : Ref sig .tc) (hb : b ∈ keptRefs) : W14 m ρ c (Proc.devRef .tc b) = W1 m ρ c (Proc.devRef .tc b) :=
  (W14_kept m ρ c b (kept_ne_out b hb).2.2.2.2.2.2.1).trans (W13_keep m ρ c b hb)
theorem W15_keep (c : Dev nD) (b : Ref sig .tc) (hb : b ∈ keptRefs) : W15 m ρ c (Proc.devRef .tc b) = W1 m ρ c (Proc.devRef .tc b) :=
  (after_keeps _ _ hostOps7_keeps b hb).trans (W14_keep m ρ c b hb)

/-! ## The argument arrays at every boundary -/

theorem W1_arg (c : Dev nD) (b : Ref sig .tc) (hb : b ∈ argRefs) : W1 m ρ c (Proc.devRef .tc b) = m ((c : Thread nD τ).loc b) :=
  after_keeps _ _ hostOps0_keeps_args b hb
theorem W2_arg (c : Dev nD) (b : Ref sig .tc) (hb : b ∈ argRefs) : W2 m ρ c (Proc.devRef .tc b) = m ((c : Thread nD τ).loc b) :=
  (W2_kept m ρ c b (arg_ne_out b hb).1).trans (W1_arg m ρ c b hb)
theorem W3_arg (c : Dev nD) (b : Ref sig .tc) (hb : b ∈ argRefs) : W3 m ρ c (Proc.devRef .tc b) = m ((c : Thread nD τ).loc b) :=
  (after_keeps _ _ hostOps1_keeps_args b hb).trans (W2_arg m ρ c b hb)
theorem W4_arg (c : Dev nD) (b : Ref sig .tc) (hb : b ∈ argRefs) : W4 m ρ c (Proc.devRef .tc b) = m ((c : Thread nD τ).loc b) :=
  (W4_kept m ρ c b (arg_ne_out b hb).2.1).trans (W3_arg m ρ c b hb)
theorem W5_arg (c : Dev nD) (b : Ref sig .tc) (hb : b ∈ argRefs) : W5 m ρ c (Proc.devRef .tc b) = m ((c : Thread nD τ).loc b) :=
  (after_keeps _ _ hostOps2_keeps_args b hb).trans (W4_arg m ρ c b hb)
theorem W6_arg (c : Dev nD) (b : Ref sig .tc) (hb : b ∈ argRefs) : W6 m ρ c (Proc.devRef .tc b) = m ((c : Thread nD τ).loc b) :=
  (W6_kept m ρ c b (arg_ne_out b hb).2.2.1).trans (W5_arg m ρ c b hb)
theorem W7_arg (c : Dev nD) (b : Ref sig .tc) (hb : b ∈ argRefs) : W7 m ρ c (Proc.devRef .tc b) = m ((c : Thread nD τ).loc b) :=
  (after_keeps _ _ hostOps3_keeps_args b hb).trans (W6_arg m ρ c b hb)
theorem W8_arg (c : Dev nD) (b : Ref sig .tc) (hb : b ∈ argRefs) : W8 m ρ c (Proc.devRef .tc b) = m ((c : Thread nD τ).loc b) :=
  (W8_kept m ρ c b (arg_ne_out b hb).2.2.2.1).trans (W7_arg m ρ c b hb)
theorem W9_arg (c : Dev nD) (b : Ref sig .tc) (hb : b ∈ argRefs) : W9 m ρ c (Proc.devRef .tc b) = m ((c : Thread nD τ).loc b) :=
  (after_keeps _ _ hostOps4_keeps_args b hb).trans (W8_arg m ρ c b hb)
theorem W10_arg (c : Dev nD) (b : Ref sig .tc) (hb : b ∈ argRefs) : W10 m ρ c (Proc.devRef .tc b) = m ((c : Thread nD τ).loc b) :=
  (W10_kept m ρ c b (arg_ne_out b hb).2.2.2.2.1).trans (W9_arg m ρ c b hb)
theorem W11_arg (c : Dev nD) (b : Ref sig .tc) (hb : b ∈ argRefs) : W11 m ρ c (Proc.devRef .tc b) = m ((c : Thread nD τ).loc b) :=
  (after_keeps _ _ hostOps5_keeps_args b hb).trans (W10_arg m ρ c b hb)
theorem W12_arg (c : Dev nD) (b : Ref sig .tc) (hb : b ∈ argRefs) : W12 m ρ c (Proc.devRef .tc b) = m ((c : Thread nD τ).loc b) :=
  (W12_kept m ρ c b (arg_ne_out b hb).2.2.2.2.2.1).trans (W11_arg m ρ c b hb)
theorem W13_arg (c : Dev nD) (b : Ref sig .tc) (hb : b ∈ argRefs) : W13 m ρ c (Proc.devRef .tc b) = m ((c : Thread nD τ).loc b) :=
  (after_keeps _ _ hostOps6_keeps_args b hb).trans (W12_arg m ρ c b hb)
theorem W14_arg (c : Dev nD) (b : Ref sig .tc) (hb : b ∈ argRefs) : W14 m ρ c (Proc.devRef .tc b) = m ((c : Thread nD τ).loc b) :=
  (W14_kept m ρ c b (arg_ne_out b hb).2.2.2.2.2.2.1).trans (W13_arg m ρ c b hb)
theorem W15_arg (c : Dev nD) (b : Ref sig .tc) (hb : b ∈ argRefs) : W15 m ρ c (Proc.devRef .tc b) = m ((c : Thread nD τ).loc b) :=
  (after_keeps _ _ hostOps7_keeps_args b hb).trans (W14_arg m ρ c b hb)

end Cert.KernelIdeal.Hand

end
-- ==== Proof.StretchI0.lean ====
import proofs.«144358_j6828998001340_2_alg».proof.Proof.BoundsI
import proofs.«144358_j6828998001340_2_alg».proof.Proof.StretchDefs
import proofs.«144358_j6828998001340_2_alg».proof.Proof.StretchKeep

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 0: what region 0 finds in its input arrays

Region 0 is the first edge layer. Its five input arrays are: the gathered source features [3, E]; the transposed edge
coordinates [3, E]; the transposed, rounded projection [24, 3]; and the two [3, 3] mixture parameter arrays, which are
arguments. The stretch also leaves the flat source and target columns, the reciprocal in-degree column and the rounded
features for later stretches. -/

set_option maxHeartbeats 2000000 in
/-- Window 0: the gathered source features. -/
theorem W1_win0 (c : Dev nD) :
    W1 m ρ c (Proc.devRef .tc (Pipeline.arrRef spec0 0)) = xjT1 (m ((c : Thread nD τ).loc main_arg0)) (m ((c : Thread nD τ).loc main_arg1)) := by
  show StableHlo.after hostOps0 _ (Proc.devRef .tc main_v22) = _
  after_results
  rfl

/-- Window 1: the transposed edge coordinates. -/
theorem W1_win1 (c : Dev nD) :
    W1 m ρ c (Proc.devRef .tc (Pipeline.arrRef spec0 1)) = eaT (m ((c : Thread nD τ).loc main_arg2)) := by
  show StableHlo.after hostOps0 _ (Proc.devRef .tc main_v13) = _
  after_results
  rfl

/-- Window 2: the transposed, rounded projection. -/
theorem W1_win2 (c : Dev nD) :
    W1 m ρ c (Proc.devRef .tc (Pipeline.arrRef spec0 2)) = gT1 (m ((c : Thread nD τ).loc main_arg3)) := by
  show StableHlo.after hostOps0 _ (Proc.devRef .tc main_v24) = _
  after_results
  rfl

/-- Window 3: the mixture means, an argument. -/
theorem W1_win3 (c : Dev nD) :
    W1 m ρ c (Proc.devRef .tc (Pipeline.arrRef spec0 3)) = (m ((c : Thread nD τ).loc main_arg4)) :=
  W1_arg m ρ c main_arg4 (by decide)

/-- Window 4: the mixture widths, an argument. -/
theorem W1_win4 (c : Dev nD) :
    W1 m ρ c (Proc.devRef .tc (Pipeline.arrRef spec0 4)) = (m ((c : Thread nD τ).loc main_arg5)) :=
  W1_arg m ρ c main_arg5 (by decide)

/-! ## What the stretch leaves for later -/

/-- The flat source column. -/
theorem W1_src (c : Dev nD) : W1 m ρ c (Proc.devRef .tc main_v1) = edgeSrc (m ((c : Thread nD τ).loc main_arg1)) := by
  show StableHlo.after hostOps0 _ (Proc.devRef .tc main_v1) = _
  after_results
  rfl

/-- The flat target column. -/
theorem W1_dst (c : Dev nD) : W1 m ρ c (Proc.devRef .tc main_v3) = edgeDst (m ((c : Thread nD τ).loc main_arg1)) := by
  show StableHlo.after hostOps0 _ (Proc.devRef .tc main_v3) = _
  after_results
  rfl

set_option maxHeartbeats 2000000 in
/-- The reciprocal in-degree column. -/
theorem W1_recipDeg (c : Dev nD) : W1 m ρ c (Proc.devRef .tc main_v12) = recipDeg (F := F) (m ((c : Thread nD τ).loc main_arg1)) := by
  show StableHlo.after hostOps0 _ (Proc.devRef .tc main_v12) = _
  after_results
  rfl

/-- The rounded input features. -/
theorem W1_hBf (c : Dev nD) : W1 m ρ c (Proc.devRef .tc main_v14) = hBf1 (m ((c : Thread nD τ).loc main_arg0)) := by
  show StableHlo.after hostOps0 _ (Proc.devRef .tc main_v14) = _
  after_results
  rfl

end Cert.KernelIdeal.Hand

end
-- ==== Proof.StretchI1.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 1: what region 1 finds in its input arrays

Region 1 is the first node layer. Its input arrays are: the rounded input features [N, 3], left by the first stretch; the
root weight [3, 8], an argument; the bias as a row [1, 8]; the messages of region 0 summed into their target nodes [N, 8];
and the reciprocal in-degree column [N, 1], left by the first stretch. -/

/-- 8 columns [N, 1] side by side. -/
private def cat8 (c0 c1 c2 c3 c4 c5 c6 c7 : FVec F S100000x1 .f32) : FVec F S100000x8 .f32 :=
  concatenate S100000x8 1 [⟨S100000x1, c0⟩, ⟨S100000x1, c1⟩, ⟨S100000x1, c2⟩, ⟨S100000x1, c3⟩, ⟨S100000x1, c4⟩, ⟨S100000x1, c5⟩, ⟨S100000x1, c6⟩, ⟨S100000x1, c7⟩]
    concatenates_S100000x1_S100000x1_S100000x1_S100000x1_S100000x1_S100000x1_S100000x1_S100000x1_S100000x8_d1

/-- The concatenate's result: the columns' contents, each at its own buffer, side by side. -/
private theorem concat_v74_result (hxs hy) (V : Valuation τ sig (Elt F)) :
    (StableHlo.nary (τ := τ) ![main_v66, main_v67, main_v68, main_v69, main_v70, main_v71, main_v72, main_v73] main_v74
        (fun u => concatenate S100000x8 1 [⟨S100000x1, u 0⟩, ⟨S100000x1, u 1⟩, ⟨S100000x1, u 2⟩, ⟨S100000x1, u 3⟩, ⟨S100000x1, u 4⟩, ⟨S100000x1, u 5⟩, ⟨S100000x1, u 6⟩, ⟨S100000x1, u 7⟩] concatenates_S100000x1_S100000x1_S100000x1_S100000x1_S100000x1_S100000x1_S100000x1_S100000x1_S100000x8_d1) hxs hy).result V (no_index (Proc.devRef .tc main_v74))
      = cat8 (V (Proc.devRef .tc main_v66)) (V (Proc.devRef .tc main_v67)) (V (Proc.devRef .tc main_v68)) (V (Proc.devRef .tc main_v69)) (V (Proc.devRef .tc main_v70)) (V (Proc.devRef .tc main_v71)) (V (Proc.devRef .tc main_v72)) (V (Proc.devRef .tc main_v73)) := by
  rw [StableHlo.nary_result]; rfl

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      concat_v74_result,
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The summed messages: channel k of the previous region's output, summed over the target column, is column k. -/
theorem hostOps1_agg (W : Valuation τ sig (Elt F)) (e : IVec S2x3200000 32) (h : W (Proc.devRef .tc main_v3) = edgeDst e) :
    StableHlo.after hostOps1 W (Proc.devRef .tc main_v74) = aggSum8 (W (Proc.devRef .tc main_v25)) e := by
  host_results
  rw [h]
  rfl

set_option maxHeartbeats 4000000 in
/-- The bias as a row. -/
theorem hostOps1_bias (W : Valuation τ sig (Elt F)) :
    StableHlo.after hostOps1 W (Proc.devRef .tc main_v75) = biasRow8 (W (Proc.devRef .tc main_arg7)) := by
  host_results
  rfl

/-! ## The windows -/

/-- Window 0: the rounded input features. -/
theorem W3_win0 (c : Dev nD) :
    W3 m ρ c (Proc.devRef .tc (Pipeline.arrRef spec1 0)) = hBf1 (m ((c : Thread nD τ).loc main_arg0)) :=
  (W3_keep m ρ c main_v14 (by decide)).trans (W1_hBf m ρ c)

/-- Window 1: the root weight, an argument. -/
theorem W3_win1 (c : Dev nD) :
    W3 m ρ c (Proc.devRef .tc (Pipeline.arrRef spec1 1)) = (m ((c : Thread nD τ).loc main_arg6)) :=
  W3_arg m ρ c main_arg6 (by decide)

/-- Window 2: the bias as a row. -/
theorem W3_win2 (c : Dev nD) :
    W3 m ρ c (Proc.devRef .tc (Pipeline.arrRef spec1 2)) = biasRow8 (m ((c : Thread nD τ).loc main_arg7)) :=
  (hostOps1_bias (W2 m ρ c)).trans (congrArg (biasRow8 (F := F)) (W2_arg m ρ c main_arg7 (by decide)))

/-- Window 3: region 0's messages summed into their target nodes. -/
theorem W3_win3 (c : Dev nD) :
    W3 m ρ c (Proc.devRef .tc (Pipeline.arrRef spec1 3))
      = aggSum8 (W2 m ρ c (Proc.devRef .tc (Pipeline.arrRef spec0 5))) (m ((c : Thread nD τ).loc main_arg1)) :=
  hostOps1_agg (W2 m ρ c) (m ((c : Thread nD τ).loc main_arg1)) ((W2_keep m ρ c main_v3 (by decide)).trans (W1_dst m ρ c))

/-- Window 4: the reciprocal in-degree column. -/
theorem W3_win4 (c : Dev nD) :
    W3 m ρ c (Proc.devRef .tc (Pipeline.arrRef spec1 4)) = recipDeg (F := F) (m ((c : Thread nD τ).loc main_arg1)) :=
  (W3_keep m ρ c main_v12 (by decide)).trans (W1_recipDeg m ρ c)

end Cert.KernelIdeal.Hand

end
-- ==== Proof.StretchI2.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 2: what region 2 finds in its input arrays

Region 2 is edge layer 2. Its input arrays are: the output of node layer 1 (region 1), rounded to bf16, transposed to
[8, N] and gathered at the wrapped source indices, [8, E]; the transposed edge coordinates [3, E], left by the first stretch;
the transposed, rounded projection; and the two [3, 3] mixture parameter arrays, which are arguments. The stretch also
leaves the rounded [N, 8] features, which the next node layer reads. -/

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The gathered source features. -/
theorem hostOps2_xj (W : Valuation τ sig (Elt F)) (e : IVec S2x3200000 32) (h : W (Proc.devRef .tc main_v1) = edgeSrc e) :
    StableHlo.after hostOps2 W (Proc.devRef .tc main_v85) = xjT8 (W (Proc.devRef .tc main_v76)) e := by
  host_results
  rw [h]
  rfl

/-- The transposed, rounded projection. -/
theorem hostOps2_g (W : Valuation τ sig (Elt F)) :
    StableHlo.after hostOps2 W (Proc.devRef .tc main_v87) = gT2 (W (Proc.devRef .tc main_arg8)) := by
  host_results
  rfl

/-- The rounded features. -/
theorem hostOps2_h (W : Valuation τ sig (Elt F)) :
    StableHlo.after hostOps2 W (Proc.devRef .tc main_v77) = hBf8 (W (Proc.devRef .tc main_v76)) := by
  host_results
  rfl

/-! ## The windows -/

/-- Window 0: the gathered source features of region 1's output. -/
theorem W5_win0 (c : Dev nD) :
    W5 m ρ c (Proc.devRef .tc (Pipeline.arrRef spec2 0))
      = xjT8 (W4 m ρ c (Proc.devRef .tc (Pipeline.arrRef spec1 5))) (m ((c : Thread nD τ).loc main_arg1)) :=
  hostOps2_xj (W4 m ρ c) (m ((c : Thread nD τ).loc main_arg1)) ((W4_keep m ρ c main_v1 (by decide)).trans (W1_src m ρ c))

/-- Window 1: the transposed edge coordinates. -/
theorem W5_win1 (c : Dev nD) :
    W5 m ρ c (Proc.devRef .tc (Pipeline.arrRef spec2 1)) = eaT (m ((c : Thread nD τ).loc main_arg2)) :=
  (W5_keep m ρ c main_v13 (by decide)).trans (W1_win1 m ρ c)

/-- Window 2: the transposed, rounded projection. -/
theorem W5_win2 (c : Dev nD) :
    W5 m ρ c (Proc.devRef .tc (Pipeline.arrRef spec2 2)) = gT2 (m ((c : Thread nD τ).loc main_arg8)) :=
  (hostOps2_g (W4 m ρ c)).trans (congrArg (gT2 (F := F)) (W4_arg m ρ c main_arg8 (by decide)))

/-- Window 3: the mixture means, an argument. -/
theorem W5_win3 (c : Dev nD) :
    W5 m ρ c (Proc.devRef .tc (Pipeline.arrRef spec2 3)) = (m ((c : Thread nD τ).loc main_arg9)) :=
  W5_arg m ρ c main_arg9 (by decide)

/-- Window 4: the mixture widths, an argument. -/
theorem W5_win4 (c : Dev nD) :
    W5 m ρ c (Proc.devRef .tc (Pipeline.arrRef spec2 4)) = (m ((c : Thread nD τ).loc main_arg10)) :=
  W5_arg m ρ c main_arg10 (by decide)

/-! ## What the stretch leaves for the next node layer -/

/-- The rounded output of region 1. -/
theorem W5_hBf (c : Dev nD) :
    W5 m ρ c (Proc.devRef .tc main_v77) = hBf8 (W4 m ρ c (Proc.devRef .tc (Pipeline.arrRef spec1 5))) :=
  hostOps2_h (W4 m ρ c)

end Cert.KernelIdeal.Hand

end
-- ==== Proof.StretchI3.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 3: what region 3 finds in its input arrays

Region 3 is node layer 2. Its input arrays are: the output of node layer 1 (region 1) rounded to bf16, [N, 8], left by
the previous stretch; the root weight [8, 16], an argument; the bias as a row [1, 16]; the messages of region 2 summed into
their target nodes [N, 16]; and the reciprocal in-degree column [N, 1], left by the first stretch. -/

/-- 16 columns [N, 1] side by side. -/
private def cat16 (c0 c1 c2 c3 c4 c5 c6 c7 c8 c9 c10 c11 c12 c13 c14 c15 : FVec F S100000x1 .f32) : FVec F S100000x16 .f32 :=
  concatenate S100000x16 1 [⟨S100000x1, c0⟩, ⟨S100000x1, c1⟩, ⟨S100000x1, c2⟩, ⟨S100000x1, c3⟩, ⟨S100000x1, c4⟩, ⟨S100000x1, c5⟩, ⟨S100000x1, c6⟩, ⟨S100000x1, c7⟩, ⟨S100000x1, c8⟩, ⟨S100000x1, c9⟩, ⟨S100000x1, c10⟩, ⟨S100000x1, c11⟩, ⟨S100000x1, c12⟩, ⟨S100000x1, c13⟩, ⟨S100000x1, c14⟩, ⟨S100000x1, c15⟩]
    concatenates_S100000x1_S100000x1_S100000x1_S100000x1_S100000x1_S100000x1_S100000x1_S100000x1_S100000x1_S100000x1_S100000x1_S100000x1_S100000x1_S100000x1_S100000x1_S100000x1_S100000x16_d1

/-- The concatenate's result: the columns' contents, each at its own buffer, side by side. -/
private theorem concat_v185_result (hxs hy) (V : Valuation τ sig (Elt F)) :
    (StableHlo.nary (τ := τ) ![main_v169, main_v170, main_v171, main_v172, main_v173, main_v174, main_v175, main_v176, main_v177, main_v178, main_v179, main_v180, main_v181, main_v182, main_v183, main_v184] main_v185
        (fun u => concatenate S100000x16 1 [⟨S100000x1, u 0⟩, ⟨S100000x1, u 1⟩, ⟨S100000x1, u 2⟩, ⟨S100000x1, u 3⟩, ⟨S100000x1, u 4⟩, ⟨S100000x1, u 5⟩, ⟨S100000x1, u 6⟩, ⟨S100000x1, u 7⟩, ⟨S100000x1, u 8⟩, ⟨S100000x1, u 9⟩, ⟨S100000x1, u 10⟩, ⟨S100000x1, u 11⟩, ⟨S100000x1, u 12⟩, ⟨S100000x1, u 13⟩, ⟨S100000x1, u 14⟩, ⟨S100000x1, u 15⟩] concatenates_S100000x1_S100000x1_S100000x1_S100000x1_S100000x1_S100000x1_S100000x1_S100000x1_S100000x1_S100000x1_S100000x1_S100000x1_S100000x1_S100000x1_S100000x1_S100000x1_S100000x16_d1) hxs hy).result V (no_index (Proc.devRef .tc main_v185))
      = cat16 (V (Proc.devRef .tc main_v169)) (V (Proc.devRef .tc main_v170)) (V (Proc.devRef .tc main_v171)) (V (Proc.devRef .tc main_v172)) (V (Proc.devRef .tc main_v173)) (V (Proc.devRef .tc main_v174)) (V (Proc.devRef .tc main_v175)) (V (Proc.devRef .tc main_v176)) (V (Proc.devRef .tc main_v177)) (V (Proc.devRef .tc main_v178)) (V (Proc.devRef .tc main_v179)) (V (Proc.devRef .tc main_v180)) (V (Proc.devRef .tc main_v181)) (V (Proc.devRef .tc main_v182)) (V (Proc.devRef .tc main_v183)) (V (Proc.devRef .tc main_v184)) := by
  rw [StableHlo.nary_result]; rfl

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      concat_v185_result,
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The summed messages: channel k of the previous region's output, summed over the target column, is column k. -/
theorem hostOps3_agg (W : Valuation τ sig (Elt F)) (e : IVec S2x3200000 32) (h : W (Proc.devRef .tc main_v3) = edgeDst e) :
    StableHlo.after hostOps3 W (Proc.devRef .tc main_v185) = aggSum16 (W (Proc.devRef .tc main_v88)) e := by
  host_results
  rw [h]
  rfl

set_option maxHeartbeats 4000000 in
/-- The bias as a row. -/
theorem hostOps3_bias (W : Valuation τ sig (Elt F)) :
    StableHlo.after hostOps3 W (Proc.devRef .tc main_v186) = biasRow16 (W (Proc.devRef .tc main_arg12)) := by
  host_results
  rfl

set_option maxHeartbeats 4000000 in
/-- The stretch does not write the rounded features the previous stretch left. -/
theorem hostOps3_keeps_h (W : Valuation τ sig (Elt F)) :
    StableHlo.after hostOps3 W (Proc.devRef .tc main_v77) = W (Proc.devRef .tc main_v77) := by
  host_results

/-- The previous stretch's rounded features, over any buffer contents. -/
private theorem hostOps2_h' (W : Valuation τ sig (Elt F)) :
    StableHlo.after hostOps2 W (Proc.devRef .tc main_v77) = hBf8 (W (Proc.devRef .tc main_v76)) := by
  host_results
  rfl

/-! ## The windows -/

/-- Window 0: the rounded output of region 1. -/
theorem W7_win0 (c : Dev nD) :
    W7 m ρ c (Proc.devRef .tc (Pipeline.arrRef spec3 0))
      = hBf8 (W4 m ρ c (Proc.devRef .tc (Pipeline.arrRef spec1 5))) :=
  (hostOps3_keeps_h (W6 m ρ c)).trans
    ((W6_kept m ρ c main_v77 (by decide)).trans (hostOps2_h' (W4 m ρ c)))

/-- Window 1: the root weight, an argument. -/
theorem W7_win1 (c : Dev nD) :
    W7 m ρ c (Proc.devRef .tc (Pipeline.arrRef spec3 1)) = (m ((c : Thread nD τ).loc main_arg11)) :=
  W7_arg m ρ c main_arg11 (by decide)

/-- Window 2: the bias as a row. -/
theorem W7_win2 (c : Dev nD) :
    W7 m ρ c (Proc.devRef .tc (Pipeline.arrRef spec3 2)) = biasRow16 (m ((c : Thread nD τ).loc main_arg12)) :=
  (hostOps3_bias (W6 m ρ c)).trans (congrArg (biasRow16 (F := F)) (W6_arg m ρ c main_arg12 (by decide)))

/-- Window 3: region 2's messages summed into their target nodes. -/
theorem W7_win3 (c : Dev nD) :
    W7 m ρ c (Proc.devRef .tc (Pipeline.arrRef spec3 3))
      = aggSum16 (W6 m ρ c (Proc.devRef .tc (Pipeline.arrRef spec2 5))) (m ((c : Thread nD τ).loc main_arg1)) :=
  hostOps3_agg (W6 m ρ c) (m ((c : Thread nD τ).loc main_arg1)) ((W6_keep m ρ c main_v3 (by decide)).trans (W1_dst m ρ c))

/-- Window 4: the reciprocal in-degree column. -/
theorem W7_win4 (c : Dev nD) :
    W7 m ρ c (Proc.devRef .tc (Pipeline.arrRef spec3 4)) = recipDeg (F := F) (m ((c : Thread nD τ).loc main_arg1)) :=
  (W7_keep m ρ c main_v12 (by decide)).trans (W1_recipDeg m ρ c)

end Cert.KernelIdeal.Hand

end
-- ==== Proof.StretchI4.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 4: what region 4 finds in its input arrays

Region 4 is edge layer 3. Its input arrays are: the output of node layer 2 (region 3), rounded to bf16, transposed to
[16, N] and gathered at the wrapped source indices, [16, E]; the transposed edge coordinates [3, E], left by the first stretch;
the transposed, rounded projection; and the two [3, 3] mixture parameter arrays, which are arguments. The stretch also
leaves the rounded [N, 16] features, which the next node layer reads. -/

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The gathered source features. -/
theorem hostOps4_xj (W : Valuation τ sig (Elt F)) (e : IVec S2x3200000 32) (h : W (Proc.devRef .tc main_v1) = edgeSrc e) :
    StableHlo.after hostOps4 W (Proc.devRef .tc main_v196) = xjT16 (W (Proc.devRef .tc main_v187)) e := by
  host_results
  rw [h]
  rfl

/-- The transposed, rounded projection. -/
theorem hostOps4_g (W : Valuation τ sig (Elt F)) :
    StableHlo.after hostOps4 W (Proc.devRef .tc main_v198) = gT3 (W (Proc.devRef .tc main_arg13)) := by
  host_results
  rfl

/-- The rounded features. -/
theorem hostOps4_h (W : Valuation τ sig (Elt F)) :
    StableHlo.after hostOps4 W (Proc.devRef .tc main_v188) = hBf16 (W (Proc.devRef .tc main_v187)) := by
  host_results
  rfl

/-! ## The windows -/

/-- Window 0: the gathered source features of region 3's output. -/
theorem W9_win0 (c : Dev nD) :
    W9 m ρ c (Proc.devRef .tc (Pipeline.arrRef spec4 0))
      = xjT16 (W8 m ρ c (Proc.devRef .tc (Pipeline.arrRef spec3 5))) (m ((c : Thread nD τ).loc main_arg1)) :=
  hostOps4_xj (W8 m ρ c) (m ((c : Thread nD τ).loc main_arg1)) ((W8_keep m ρ c main_v1 (by decide)).trans (W1_src m ρ c))

/-- Window 1: the transposed edge coordinates. -/
theorem W9_win1 (c : Dev nD) :
    W9 m ρ c (Proc.devRef .tc (Pipeline.arrRef spec4 1)) = eaT (m ((c : Thread nD τ).loc main_arg2)) :=
  (W9_keep m ρ c main_v13 (by decide)).trans (W1_win1 m ρ c)

/-- Window 2: the transposed, rounded projection. -/
theorem W9_win2 (c : Dev nD) :
    W9 m ρ c (Proc.devRef .tc (Pipeline.arrRef spec4 2)) = gT3 (m ((c : Thread nD τ).loc main_arg13)) :=
  (hostOps4_g (W8 m ρ c)).trans (congrArg (gT3 (F := F)) (W8_arg m ρ c main_arg13 (by decide)))

/-- Window 3: the mixture means, an argument. -/
theorem W9_win3 (c : Dev nD) :
    W9 m ρ c (Proc.devRef .tc (Pipeline.arrRef spec4 3)) = (m ((c : Thread nD τ).loc main_arg14)) :=
  W9_arg m ρ c main_arg14 (by decide)

/-- Window 4: the mixture widths, an argument. -/
theorem W9_win4 (c : Dev nD) :
    W9 m ρ c (Proc.devRef .tc (Pipeline.arrRef spec4 4)) = (m ((c : Thread nD τ).loc main_arg15)) :=
  W9_arg m ρ c main_arg15 (by decide)

/-! ## What the stretch leaves for the next node layer -/

/-- The rounded output of region 3. -/
theorem W9_hBf (c : Dev nD) :
    W9 m ρ c (Proc.devRef .tc main_v188) = hBf16 (W8 m ρ c (Proc.devRef .tc (Pipeline.arrRef spec3 5))) :=
  hostOps4_h (W8 m ρ c)

end Cert.KernelIdeal.Hand

end
-- ==== Proof.StretchI5.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 5: what region 5 finds in its input arrays

Region 5 is node layer 3. Its input arrays are: the output of node layer 2 (region 3) rounded to bf16, [N, 16], left by
the previous stretch; the root weight [16, 8], an argument; the bias as a row [1, 8]; the messages of region 4 summed into
their target nodes [N, 8]; and the reciprocal in-degree column [N, 1], left by the first stretch. -/

/-- 8 columns [N, 1] side by side. -/
private def cat8 (c0 c1 c2 c3 c4 c5 c6 c7 : FVec F S100000x1 .f32) : FVec F S100000x8 .f32 :=
  concatenate S100000x8 1 [⟨S100000x1, c0⟩, ⟨S100000x1, c1⟩, ⟨S100000x1, c2⟩, ⟨S100000x1, c3⟩, ⟨S100000x1, c4⟩, ⟨S100000x1, c5⟩, ⟨S100000x1, c6⟩, ⟨S100000x1, c7⟩]
    concatenates_S100000x1_S100000x1_S100000x1_S100000x1_S100000x1_S100000x1_S100000x1_S100000x1_S100000x8_d1

/-- The concatenate's result: the columns' contents, each at its own buffer, side by side. -/
private theorem concat_v248_result (hxs hy) (V : Valuation τ sig (Elt F)) :
    (StableHlo.nary (τ := τ) ![main_v240, main_v241, main_v242, main_v243, main_v244, main_v245, main_v246, main_v247] main_v248
        (fun u => concatenate S100000x8 1 [⟨S100000x1, u 0⟩, ⟨S100000x1, u 1⟩, ⟨S100000x1, u 2⟩, ⟨S100000x1, u 3⟩, ⟨S100000x1, u 4⟩, ⟨S100000x1, u 5⟩, ⟨S100000x1, u 6⟩, ⟨S100000x1, u 7⟩] concatenates_S100000x1_S100000x1_S100000x1_S100000x1_S100000x1_S100000x1_S100000x1_S100000x1_S100000x8_d1) hxs hy).result V (no_index (Proc.devRef .tc main_v248))
      = cat8 (V (Proc.devRef .tc main_v240)) (V (Proc.devRef .tc main_v241)) (V (Proc.devRef .tc main_v242)) (V (Proc.devRef .tc main_v243)) (V (Proc.devRef .tc main_v244)) (V (Proc.devRef .tc main_v245)) (V (Proc.devRef .tc main_v246)) (V (Proc.devRef .tc main_v247)) := by
  rw [StableHlo.nary_result]; rfl

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      concat_v248_result,
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The summed messages: channel k of the previous region's output, summed over the target column, is column k. -/
theorem hostOps5_agg (W : Valuation τ sig (Elt F)) (e : IVec S2x3200000 32) (h : W (Proc.devRef .tc main_v3) = edgeDst e) :
    StableHlo.after hostOps5 W (Proc.devRef .tc main_v248) = aggSum8 (W (Proc.devRef .tc main_v199)) e := by
  host_results
  rw [h]
  rfl

set_option maxHeartbeats 4000000 in
/-- The bias as a row. -/
theorem hostOps5_bias (W : Valuation τ sig (Elt F)) :
    StableHlo.after hostOps5 W (Proc.devRef .tc main_v249) = biasRow8 (W (Proc.devRef .tc main_arg17)) := by
  host_results
  rfl

set_option maxHeartbeats 4000000 in
/-- The stretch does not write the rounded features the previous stretch left. -/
theorem hostOps5_keeps_h (W : Valuation τ sig (Elt F)) :
    StableHlo.after hostOps5 W (Proc.devRef .tc main_v188) = W (Proc.devRef .tc main_v188) := by
  host_results

/-- The previous stretch's rounded features, over any buffer contents. -/
private theorem hostOps4_h' (W : Valuation τ sig (Elt F)) :
    StableHlo.after hostOps4 W (Proc.devRef .tc main_v188) = hBf16 (W (Proc.devRef .tc main_v187)) := by
  host_results
  rfl

/-! ## The windows -/

/-- Window 0: the rounded output of region 3. -/
theorem W11_win0 (c : Dev nD) :
    W11 m ρ c (Proc.devRef .tc (Pipeline.arrRef spec5 0))
      = hBf16 (W8 m ρ c (Proc.devRef .tc (Pipeline.arrRef spec3 5))) :=
  (hostOps5_keeps_h (W10 m ρ c)).trans
    ((W10_kept m ρ c main_v188 (by decide)).trans (hostOps4_h' (W8 m ρ c)))

/-- Window 1: the root weight, an argument. -/
theorem W11_win1 (c : Dev nD) :
    W11 m ρ c (Proc.devRef .tc (Pipeline.arrRef spec5 1)) = (m ((c : Thread nD τ).loc main_arg16)) :=
  W11_arg m ρ c main_arg16 (by decide)

/-- Window 2: the bias as a row. -/
theorem W11_win2 (c : Dev nD) :
    W11 m ρ c (Proc.devRef .tc (Pipeline.arrRef spec5 2)) = biasRow8 (m ((c : Thread nD τ).loc main_arg17)) :=
  (hostOps5_bias (W10 m ρ c)).trans (congrArg (biasRow8 (F := F)) (W10_arg m ρ c main_arg17 (by decide)))

/-- Window 3: region 4's messages summed into their target nodes. -/
theorem W11_win3 (c : Dev nD) :
    W11 m ρ c (Proc.devRef .tc (Pipeline.arrRef spec5 3))
      = aggSum8 (W10 m ρ c (Proc.devRef .tc (Pipeline.arrRef spec4 5))) (m ((c : Thread nD τ).loc main_arg1)) :=
  hostOps5_agg (W10 m ρ c) (m ((c : Thread nD τ).loc main_arg1)) ((W10_keep m ρ c main_v3 (by decide)).trans (W1_dst m ρ c))

/-- Window 4: the reciprocal in-degree column. -/
theorem W11_win4 (c : Dev nD) :
    W11 m ρ c (Proc.devRef .tc (Pipeline.arrRef spec5 4)) = recipDeg (F := F) (m ((c : Thread nD τ).loc main_arg1)) :=
  (W11_keep m ρ c main_v12 (by decide)).trans (W1_recipDeg m ρ c)

end Cert.KernelIdeal.Hand

end
-- ==== Proof.StretchI6.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 6: what region 6 finds in its input arrays

Region 6 is edge layer 4. Its input arrays are: the output of node layer 3 (region 5), rounded to bf16, transposed to
[8, N] and gathered at the wrapped source indices, [8, E]; the transposed edge coordinates [3, E], left by the first stretch;
the transposed, rounded projection; and the two [3, 3] mixture parameter arrays, which are arguments. The stretch also
leaves the rounded [N, 8] features, which the next node layer reads. -/

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The gathered source features. -/
theorem hostOps6_xj (W : Valuation τ sig (Elt F)) (e : IVec S2x3200000 32) (h : W (Proc.devRef .tc main_v1) = edgeSrc e) :
    StableHlo.after hostOps6 W (Proc.devRef .tc main_v259) = xjT8 (W (Proc.devRef .tc main_v250)) e := by
  host_results
  rw [h]
  rfl

/-- The transposed, rounded projection. -/
theorem hostOps6_g (W : Valuation τ sig (Elt F)) :
    StableHlo.after hostOps6 W (Proc.devRef .tc main_v261) = gT4 (W (Proc.devRef .tc main_arg18)) := by
  host_results
  rfl

/-- The rounded features. -/
theorem hostOps6_h (W : Valuation τ sig (Elt F)) :
    StableHlo.after hostOps6 W (Proc.devRef .tc main_v251) = hBf8 (W (Proc.devRef .tc main_v250)) := by
  host_results
  rfl

/-! ## The windows -/

/-- Window 0: the gathered source features of region 5's output. -/
theorem W13_win0 (c : Dev nD) :
    W13 m ρ c (Proc.devRef .tc (Pipeline.arrRef spec6 0))
      = xjT8 (W12 m ρ c (Proc.devRef .tc (Pipeline.arrRef spec5 5))) (m ((c : Thread nD τ).loc main_arg1)) :=
  hostOps6_xj (W12 m ρ c) (m ((c : Thread nD τ).loc main_arg1)) ((W12_keep m ρ c main_v1 (by decide)).trans (W1_src m ρ c))

/-- Window 1: the transposed edge coordinates. -/
theorem W13_win1 (c : Dev nD) :
    W13 m ρ c (Proc.devRef .tc (Pipeline.arrRef spec6 1)) = eaT (m ((c : Thread nD τ).loc main_arg2)) :=
  (W13_keep m ρ c main_v13 (by decide)).trans (W1_win1 m ρ c)

/-- Window 2: the transposed, rounded projection. -/
theorem W13_win2 (c : Dev nD) :
    W13 m ρ c (Proc.devRef .tc (Pipeline.arrRef spec6 2)) = gT4 (m ((c : Thread nD τ).loc main_arg18)) :=
  (hostOps6_g (W12 m ρ c)).trans (congrArg (gT4 (F := F)) (W12_arg m ρ c main_arg18 (by decide)))

/-- Window 3: the mixture means, an argument. -/
theorem W13_win3 (c : Dev nD) :
    W13 m ρ c (Proc.devRef .tc (Pipeline.arrRef spec6 3)) = (m ((c : Thread nD τ).loc main_arg19)) :=
  W13_arg m ρ c main_arg19 (by decide)

/-- Window 4: the mixture widths, an argument. -/
theorem W13_win4 (c : Dev nD) :
    W13 m ρ c (Proc.devRef .tc (Pipeline.arrRef spec6 4)) = (m ((c : Thread nD τ).loc main_arg20)) :=
  W13_arg m ρ c main_arg20 (by decide)

/-! ## What the stretch leaves for the next node layer -/

/-- The rounded output of region 5. -/
theorem W13_hBf (c : Dev nD) :
    W13 m ρ c (Proc.devRef .tc main_v251) = hBf8 (W12 m ρ c (Proc.devRef .tc (Pipeline.arrRef spec5 5))) :=
  hostOps6_h (W12 m ρ c)

end Cert.KernelIdeal.Hand

end
-- ==== Proof.StretchI7.lean ====
import proofs.«144358_j6828998001340_2_alg».proof.Proof.BoundsI
import proofs.«144358_j6828998001340_2_alg».proof.Proof.StretchDefs
import proofs.«144358_j6828998001340_2_alg».proof.Proof.StretchKeep
import proofs.«144358_j6828998001340_2_alg».proof.Proof.StretchI0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! # Stretch 7: what region 7 finds in its input arrays

Region 7 is node layer 4. Its input arrays are: the output of node layer 3 (region 5) rounded to bf16, [N, 8], left by
the previous stretch; the root weight [8, 4], an argument; the bias as a row [1, 4]; the messages of region 6 summed into
their target nodes [N, 4]; and the reciprocal in-degree column [N, 1], left by the first stretch. -/

/-- 4 columns [N, 1] side by side. -/
private def cat4 (c0 c1 c2 c3 : FVec F S100000x1 .f32) : FVec F S100000x4 .f32 :=
  concatenate S100000x4 1 [⟨S100000x1, c0⟩, ⟨S100000x1, c1⟩, ⟨S100000x1, c2⟩, ⟨S100000x1, c3⟩]
    concatenates_S100000x1_S100000x1_S100000x1_S100000x1_S100000x4_d1

/-- The concatenate's result: the columns' contents, each at its own buffer, side by side. -/
private theorem concat_v287_result (hxs hy) (V : Valuation τ sig (Elt F)) :
    (StableHlo.nary (τ := τ) ![main_v283, main_v284, main_v285, main_v286] main_v287
        (fun u => concatenate S100000x4 1 [⟨S100000x1, u 0⟩, ⟨S100000x1, u 1⟩, ⟨S100000x1, u 2⟩, ⟨S100000x1, u 3⟩] concatenates_S100000x1_S100000x1_S100000x1_S100000x1_S100000x4_d1) hxs hy).result V (no_index (Proc.devRef .tc main_v287))
      = cat4 (V (Proc.devRef .tc main_v283)) (V (Proc.devRef .tc main_v284)) (V (Proc.devRef .tc main_v285)) (V (Proc.devRef .tc main_v286)) := by
  rw [StableHlo.nary_result]; rfl

/-- Each operation's result at its own result buffer is its function's value, at any other buffer what was there. -/
local macro "host_results" : tactic =>
  `(tactic| (simp (disch := decide) only [StableHlo.after_cons, StableHlo.after_nil,
      StableHlo.nullary_result', StableHlo.unary_result', StableHlo.binary_result', StableHlo.ternary_result', StableHlo.reshape_result',
      concat_v287_result,
      StableHlo.nullary_result_ne', StableHlo.unary_result_ne', StableHlo.binary_result_ne', StableHlo.ternary_result_ne',
      StableHlo.reshape_result_ne', StableHlo.nary_result_ne']))

/-! ## The stretch over any buffer contents -/

set_option maxHeartbeats 4000000 in
/-- The summed messages: channel k of the previous region's output, summed over the target column, is column k. -/
theorem hostOps7_agg (W : Valuation τ sig (Elt F)) (e : IVec S2x3200000 32) (h : W (Proc.devRef .tc main_v3) = edgeDst e) :
    StableHlo.after hostOps7 W (Proc.devRef .tc main_v287) = aggSum4 (W (Proc.devRef .tc main_v262)) e := by
  host_results
  rw [h]
  rfl

set_option maxHeartbeats 4000000 in
/-- The bias as a row. -/
theorem hostOps7_bias (W : Valuation τ sig (Elt F)) :
    StableHlo.after hostOps7 W (Proc.devRef .tc main_v288) = biasRow4 (W (Proc.devRef .tc main_arg22)) := by
  host_results
  rfl

set_option maxHeartbeats 4000000 in
/-- The stretch does not write the rounded features the previous stretch left. -/
theorem hostOps7_keeps_h (W : Valuation τ sig (Elt F)) :
    StableHlo.after hostOps7 W (Proc.devRef .tc main_v251) = W (Proc.devRef .tc main_v251) := by
  host_results

/-- The previous stretch's rounded features, over any buffer contents. -/
private theorem hostOps6_h' (W : Valuation τ sig (Elt F)) :
    StableHlo.after hostOps6 W (Proc.devRef .tc main_v251) = hBf8 (W (Proc.devRef .tc main_v250)) := by
  host_results
  rfl

/-! ## The windows -/

/-- Window 0: the rounded output of region 5. -/
theorem W15_win0 (c : Dev nD) :
    W15 m ρ c (Proc.devRef .tc (Pipeline.arrRef spec7 0))
      = hBf8 (W12 m ρ c (Proc.devRef .tc (Pipeline.arrRef spec5 5))) :=
  (hostOps7_keeps_h (W14 m ρ c)).trans
    ((W14_kept m ρ c main_v251 (by decide)).trans (hostOps6_h' (W12 m ρ c)))

/-- Window 1: the root weight, an argument. -/
theorem W15_win1 (c : Dev nD) :
    W15 m ρ c (Proc.devRef .tc (Pipeline.arrRef spec7 1)) = (m ((c : Thread nD τ).loc main_arg21)) :=
  W15_arg m ρ c main_arg21 (by decide)

/-- Window 2: the bias as a row. -/
theorem W15_win2 (c : Dev nD) :
    W15 m ρ c (Proc.devRef .tc (Pipeline.arrRef spec7 2)) = biasRow4 (m ((c : Thread nD τ).loc main_arg22)) :=
  (hostOps7_bias (W14 m ρ c)).trans (congrArg (biasRow4 (F := F)) (W14_arg m ρ c main_arg22 (by decide)))

/-- Window 3: region 6's messages summed into their target nodes. -/
theorem W15_win3 (c : Dev nD) :
    W15 m ρ c (Proc.devRef .tc (Pipeline.arrRef spec7 3))
      = aggSum4 (W14 m ρ c (Proc.devRef .tc (Pipeline.arrRef spec6 5))) (m ((c : Thread nD τ).loc main_arg1)) :=
  hostOps7_agg (W14 m ρ c) (m ((c : Thread nD τ).loc main_arg1)) ((W14_keep m ρ c main_v3 (by decide)).trans (W1_dst m ρ c))

/-- Window 4: the reciprocal in-degree column. -/
theorem W15_win4 (c : Dev nD) :
    W15 m ρ c (Proc.devRef .tc (Pipeline.arrRef spec7 4)) = recipDeg (F := F) (m ((c : Thread nD τ).loc main_arg1)) :=
  (W15_keep m ρ c main_v12 (by decide)).trans (W1_recipDeg m ρ c)

end Cert.KernelIdeal.Hand

end
-- ==== Proof.KerNetI.lean ====
import proofs.«144358_j6828998001340_2_alg».proof.Proof.RunI
import proofs.«144358_j6828998001340_2_alg».proof.Proof.KerLayerDefs
import proofs.«144358_j6828998001340_2_alg».proof.Proof.EdgeValI0
import proofs.«144358_j6828998001340_2_alg».proof.Proof.EdgeValI2
import proofs.«144358_j6828998001340_2_alg».proof.Proof.EdgeValI4
import proofs.«144358_j6828998001340_2_alg».proof.Proof.EdgeValI6
import proofs.«144358_j6828998001340_2_alg».proof.Proof.NodeValI1
import proofs.«144358_j6828998001340_2_alg».proof.Proof.NodeValI3
import proofs.«144358_j6828998001340_2_alg».proof.Proof.NodeValI5
import proofs.«144358_j6828998001340_2_alg».proof.Proof.NodeValI7
import proofs.«144358_j6828998001340_2_alg».proof.Proof.StretchI0
import proofs.«144358_j6828998001340_2_alg».proof.Proof.StretchI1
import proofs.«144358_j6828998001340_2_alg».proof.Proof.StretchI2
import proofs.«144358_j6828998001340_2_alg».proof.Proof.StretchI3
import proofs.«144358_j6828998001340_2_alg».proof.Proof.StretchI4
import proofs.«144358_j6828998001340_2_alg».proof.Proof.StretchI5
import proofs.«144358_j6828998001340_2_alg».proof.Proof.StretchI6
import proofs.«144358_j6828998001340_2_alg».proof.Proof.StretchI7

set_option maxRecDepth 16384

noncomputable section

namespace Cert.KernelIdeal.Hand

open Cert.KernelIdeal Cert.KernelIdeal.Gen
open Idealize.ShloMosaic Idealize.ShloMosaic.TcCoe Idealize.SL.Sem
open Cert.EdgeSpec Cert.NodeSpec

/-! # What the channel-major program leaves in its result array

Following the boundaries of @main: each edge region's output is `edgeOut` of what its stretch prepared, each node region's
output the layer function of the previous layer's output; the last region's output array is the program's result, the
composition of the four layers. -/

variable (m : (ℓ : Loc nD τ sig) → Buf (Elt Ideal) ℓ) (ρ : Dev nD → PrngReg) (c : Dev nD)

theorem edgeOut_congr {cin cout E : ℕ} {x x' : (⟨2, ![cin, E]⟩ : Shape).Idx → EReal} {u u' : (⟨2, ![3, E]⟩ : Shape).Idx → EReal}
    {g g' : (⟨2, ![3 * cout, cin]⟩ : Shape).Idx → EReal} {mu mu' sg sg' : (⟨2, ![3, 3]⟩ : Shape).Idx → EReal}
    (hx : x = x') (hu : u = u') (hg : g = g') (hmu : mu = mu') (hsg : sg = sg') : edgeOut x u g mu sg = edgeOut x' u' g' mu' sg' := by
  rw [hx, hu, hg, hmu, hsg]

theorem nodeOut_congr {cin cout N : ℕ} (act : EReal → EReal) {h h' : (⟨2, ![N, cin]⟩ : Shape).Idx → EReal} {r r' : (⟨2, ![cin, cout]⟩ : Shape).Idx → EReal}
    {b b' : (⟨2, ![1, cout]⟩ : Shape).Idx → EReal} {a a' : (⟨2, ![N, cout]⟩ : Shape).Idx → EReal} {d d' : (⟨2, ![N, 1]⟩ : Shape).Idx → EReal}
    (hh : h = h') (hr : r = r') (hb : b = b') (ha : a = a') (hd : d = d') : nodeOut act h r b a d = nodeOut act h' r' b' a' d' := by
  rw [hh, hr, hb, ha, hd]

/-- Layer 1's messages. -/
def kMsg1 : FVec Ideal S8x3200000 .f32 :=
  edgeOut (cin := 3) (cout := 8) (E := 3200000) (xjT1 (F := Ideal) (m ((c : Thread nD τ).loc main_arg0)) (m ((c : Thread nD τ).loc main_arg1))) (eaT (F := Ideal) (m ((c : Thread nD τ).loc main_arg2))) (gT1 (F := Ideal) (m ((c : Thread nD τ).loc main_arg3))) (m ((c : Thread nD τ).loc main_arg4)) (m ((c : Thread nD τ).loc main_arg5))
/-- Layer 1's output. -/
def kOut1 : FVec Ideal S100000x8 .f32 := kerLayer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def kMsg2 : FVec Ideal S16x3200000 .f32 :=
  edgeOut (cin := 8) (cout := 16) (E := 3200000) (xjT8 (F := Ideal) (kOut1 m c) (m ((c : Thread nD τ).loc main_arg1))) (eaT (F := Ideal) (m ((c : Thread nD τ).loc main_arg2))) (gT2 (F := Ideal) (m ((c : Thread nD τ).loc main_arg8))) (m ((c : Thread nD τ).loc main_arg9)) (m ((c : Thread nD τ).loc main_arg10))
def kOut2 : FVec Ideal S100000x16 .f32 := kerLayer2 (kOut1 m c) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12))
def kMsg3 : FVec Ideal S8x3200000 .f32 :=
  edgeOut (cin := 16) (cout := 8) (E := 3200000) (xjT16 (F := Ideal) (kOut2 m c) (m ((c : Thread nD τ).loc main_arg1))) (eaT (F := Ideal) (m ((c : Thread nD τ).loc main_arg2))) (gT3 (F := Ideal) (m ((c : Thread nD τ).loc main_arg13))) (m ((c : Thread nD τ).loc main_arg14)) (m ((c : Thread nD τ).loc main_arg15))
def kOut3 : FVec Ideal S100000x8 .f32 := kerLayer3 (kOut2 m c) (m ((c : Thread nD τ).loc main_arg1)) (m ((c : Thread nD τ).loc main_arg2)) (m ((c : Thread nD τ).loc main_arg13)) (m ((c : Thread nD τ).loc main_arg14)) (m ((c : Thread nD τ).loc main_arg15)) (m ((c : Thread nD τ).loc main_arg16)) (m ((c : Thread nD τ).loc main_arg17))
def kMsg4 : FVec Ideal S4x3200000 .f32 :=
  edgeOut (cin := 8) (cout := 4) (E := 3200000) (xjT8 (F := Ideal) (kOut3 m c) (m ((c : Thread nD τ).loc main_arg1))) (eaT (F := Ideal) (m ((c : Thread nD τ).loc main_arg2))) (gT4 (F := Ideal) (m ((c : Thread nD τ).loc main_arg18))) (m ((c : Thread nD τ).loc main_arg19)) (m ((c : Thread nD τ).loc main_arg20))
/-- The program's result: the fourth layer of the third of the second of the first. -/
def kOut4 : FVec Ideal S100000x4 .f32 := kerLayer4 (kOut3 m c) (m ((c : Thread nD τ).loc main_arg1)) (m ((c : Thread nD τ).loc main_arg2)) (m ((c : Thread nD τ).loc main_arg18)) (m ((c : Thread nD τ).loc main_arg19)) (m ((c : Thread nD τ).loc main_arg20)) (m ((c : Thread nD τ).loc main_arg21)) (m ((c : Thread nD τ).loc main_arg22))

theorem out0_eq : W2 m ρ c (Proc.devRef .tc (Pipeline.arrRef spec0 5)) = kMsg1 m c :=
  (W2_arr m ρ c 5).trans ((final0 (V1 m ρ) c).trans
    (show msgArr0 (V1 m ρ) c = _ from edgeOut_congr (W1_win0 m ρ c) (W1_win1 m ρ c) (W1_win2 m ρ c) (W1_win3 m ρ c) (W1_win4 m ρ c)))

theorem out1_eq : W4 m ρ c (Proc.devRef .tc (Pipeline.arrRef spec1 5)) = kOut1 m c :=
  (W4_arr m ρ c 5).trans ((final1 (V3 m ρ) c).trans
    (show nodeArr1 (V3 m ρ) c = _ from nodeOut_congr unitOf (W3_win0 m ρ c) (W3_win1 m ρ c) (W3_win2 m ρ c)
      ((W3_win3 m ρ c).trans (congrArg (fun z => aggSum8 (F := Ideal) z (m ((c : Thread nD τ).loc main_arg1))) (out0_eq m ρ c))) (W3_win4 m ρ c)))

theorem out2_eq : W6 m ρ c (Proc.devRef .tc (Pipeline.arrRef spec2 5)) = kMsg2 m c :=
  (W6_arr m ρ c 5).trans ((final2 (V5 m ρ) c).trans
    (show msgArr2 (V5 m ρ) c = _ from edgeOut_congr
      ((W5_win0 m ρ c).trans (congrArg (fun z => xjT8 (F := Ideal) z (m ((c : Thread nD τ).loc main_arg1))) (out1_eq m ρ c)))
      (W5_win1 m ρ c) (W5_win2 m ρ c) (W5_win3 m ρ c) (W5_win4 m ρ c)))

theorem out3_eq : W8 m ρ c (Proc.devRef .tc (Pipeline.arrRef spec3 5)) = kOut2 m c :=
  (W8_arr m ρ c 5).trans ((final3 (V7 m ρ) c).trans
    (show nodeArr3 (V7 m ρ) c = _ from nodeOut_congr unitOf
      ((W7_win0 m ρ c).trans (congrArg (fun z => hBf8 (F := Ideal) z) (out1_eq m ρ c))) (W7_win1 m ρ c) (W7_win2 m ρ c)
      ((W7_win3 m ρ c).trans (congrArg (fun z => aggSum16 (F := Ideal) z (m ((c : Thread nD τ).loc main_arg1))) (out2_eq m ρ c))) (W7_win4 m ρ c)))

theorem out4_eq : W10 m ρ c (Proc.devRef .tc (Pipeline.arrRef spec4 5)) = kMsg3 m c :=
  (W10_arr m ρ c 5).trans ((final4 (V9 m ρ) c).trans
    (show msgArr4 (V9 m ρ) c = _ from edgeOut_congr
      ((W9_win0 m ρ c).trans (congrArg (fun z => xjT16 (F := Ideal) z (m ((c : Thread nD τ).loc main_arg1))) (out3_eq m ρ c)))
      (W9_win1 m ρ c) (W9_win2 m ρ c) (W9_win3 m ρ c) (W9_win4 m ρ c)))

theorem out5_eq : W12 m ρ c (Proc.devRef .tc (Pipeline.arrRef spec5 5)) = kOut3 m c :=
  (W12_arr m ρ c 5).trans ((final5 (V11 m ρ) c).trans
    (show nodeArr5 (V11 m ρ) c = _ from nodeOut_congr unitOf
      ((W11_win0 m ρ c).trans (congrArg (fun z => hBf16 (F := Ideal) z) (out3_eq m ρ c))) (W11_win1 m ρ c) (W11_win2 m ρ c)
      ((W11_win3 m ρ c).trans (congrArg (fun z => aggSum8 (F := Ideal) z (m ((c : Thread nD τ).loc main_arg1))) (out4_eq m ρ c))) (W11_win4 m ρ c)))

theorem out6_eq : W14 m ρ c (Proc.devRef .tc (Pipeline.arrRef spec6 5)) = kMsg4 m c :=
  (W14_arr m ρ c 5).trans ((final6 (V13 m ρ) c).trans
    (show msgArr6 (V13 m ρ) c = _ from edgeOut_congr
      ((W13_win0 m ρ c).trans (congrArg (fun z => xjT8 (F := Ideal) z (m ((c : Thread nD τ).loc main_arg1))) (out5_eq m ρ c)))
      (W13_win1 m ρ c) (W13_win2 m ρ c) (W13_win3 m ρ c) (W13_win4 m ρ c)))

/-- THE RESULT ARRAY at the end of @main. -/
theorem out7_eq : W16 m ρ c (Proc.devRef .tc (Pipeline.arrRef spec7 5)) = kOut4 m c :=
  (W16_arr m ρ c 5).trans ((final7 (V15 m ρ) c).trans
    (show nodeArr7 (V15 m ρ) c = _ from nodeOut_congr id
      ((W15_win0 m ρ c).trans (congrArg (fun z => hBf8 (F := Ideal) z) (out5_eq m ρ c))) (W15_win1 m ρ c) (W15_win2 m ρ c)
      ((W15_win3 m ρ c).trans (congrArg (fun z => aggSum4 (F := Ideal) z (m ((c : Thread nD τ).loc main_arg1))) (out6_eq m ρ c))) (W15_win4 m ρ c)))

end Cert.KernelIdeal.Hand

end
-- ==== Proof.KerRunI.lean ====
import proofs.«144358_j6828998001340_2_alg».proof.Proof.KerNetI

set_option maxRecDepth 16384

noncomputable section

namespace Cert.KernelIdeal.Hand

open Cert.KernelIdeal Cert.KernelIdeal.Gen
open Idealize.ShloMosaic Idealize.ShloMosaic.TcCoe
open Idealize.SL Idealize.SL.Sem

/-! # The run of the channel-major program

Every weakly fair execution of @main from a launch memory ends, faults nowhere, and leaves in the result array the
composition of the four layers applied to the launched arguments; the twenty-three argument arrays end as launched.
The run itself leaves every unscoped buffer at the last boundary's contents; the result array there is the last
region's output, which the chain of boundaries identifies with the fourth layer's value. -/

/-- The run: the result array holds the four layers' composition, the arguments are as launched. -/
theorem ker_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v289) = kOut4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c _ (mem_uc main_v289 (by decide))).trans (out7_eq m ρ c),
    arg_kept m ρ h c main_arg0 (by decide) (by decide),
    arg_kept m ρ h c main_arg1 (by decide) (by decide),
    arg_kept m ρ h c main_arg2 (by decide) (by decide),
    arg_kept m ρ h c main_arg3 (by decide) (by decide),
    arg_kept m ρ h c main_arg4 (by decide) (by decide),
    arg_kept m ρ h c main_arg5 (by decide) (by decide),
    arg_kept m ρ h c main_arg6 (by decide) (by decide),
    arg_kept m ρ h c main_arg7 (by decide) (by decide),
    arg_kept m ρ h c main_arg8 (by decide) (by decide),
    arg_kept m ρ h c main_arg9 (by decide) (by decide),
    arg_kept m ρ h c main_arg10 (by decide) (by decide),
    arg_kept m ρ h c main_arg11 (by decide) (by decide),
    arg_kept m ρ h c main_arg12 (by decide) (by decide),
    arg_kept m ρ h c main_arg13 (by decide) (by decide),
    arg_kept m ρ h c main_arg14 (by decide) (by decide),
    arg_kept m ρ h c main_arg15 (by decide) (by decide),
    arg_kept m ρ h c main_arg16 (by decide) (by decide),
    arg_kept m ρ h c main_arg17 (by decide) (by decide),
    arg_kept m ρ h c main_arg18 (by decide) (by decide),
    arg_kept m ρ h c main_arg19 (by decide) (by decide),
    arg_kept m ρ h c main_arg20 (by decide) (by decide),
    arg_kept m ρ h c main_arg21 (by decide) (by decide),
    arg_kept m ρ h c main_arg22 (by decide) (by decide)⟩) (run_main m ρ)

end Cert.KernelIdeal.Hand

end
-- ==== Proof.RefRun.lean ====
import proofs.«144358_j6828998001340_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # The reference's @main as a list of host operations

@main is four layers of one graph convolution each; every layer but the last ends in a call of an exponential linear
unit, whose operations (and those of the two selects it calls) are listed here at the call site over the call's buffer
record. The list is cut where a layer ends and where a window of @main ends, so that each piece lies in one layer and
in one window. -/

/-- Layer 1 up to the pre-activation `main_v49` (the first window of @main): the edge endpoints, the gathered rows, the mixture weights, the per-edge messages, their segment sums, the degree-floored mean, the self term and the bias. -/
abbrev ops1a : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    StableHlo.binary main_v10 main_arg3 main_v11 ((fun l r => Host.dotGeneral dot_S3200000x3_S3x24_S3200000x24_1_0_0_1_n_n none l r) : (⟨S3200000x3, .f32⟩ : BufTy).Contents (Elt F) → (⟨S3x24, .f32⟩ : BufTy).Contents (Elt F) → (⟨S3200000x24, .f32⟩ : BufTy).Contents (Elt F)),
    StableHlo.unary main_arg2 main_v12 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg4 main_v13 (broadcastInDim S1x3x3 ![1, 2] bcast_S3x3_S1x3x3_1_2 : (⟨S3x3, .f32⟩ : BufTy).Contents (Elt F) → (⟨S1x3x3, .f32⟩ : BufTy).Contents (Elt F)),
    StableHlo.unary main_v12 main_v14 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v13 main_v15 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v14 main_v15 main_v16 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v16 main_v16 main_v17 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg5 main_v18 (broadcastInDim S1x3x3 ![1, 2] bcast_S3x3_S1x3x3_1_2 : (⟨S3x3, .f32⟩ : BufTy).Contents (Elt F) → (⟨S1x3x3, .f32⟩ : BufTy).Contents (Elt F)),
    StableHlo.binary main_v18 main_v18 main_v19 (mulf : (⟨S1x3x3, .f32⟩ : BufTy).Contents (Elt F) → (⟨S1x3x3, .f32⟩ : BufTy).Contents (Elt F) → (⟨S1x3x3, .f32⟩ : BufTy).Contents (Elt F)),
    StableHlo.nullary main_cst (constant S_ .f32 0x26901D7D#32),
    StableHlo.unary main_cst main_v20 (broadcastInDim S1x3x3 ![] bcast_S_S1x3x3 : (⟨S_, .f32⟩ : BufTy).Contents (Elt F) → (⟨S1x3x3, .f32⟩ : BufTy).Contents (Elt F)),
    StableHlo.binary main_v20 main_v19 main_v21 (addf : (⟨S1x3x3, .f32⟩ : BufTy).Contents (Elt F) → (⟨S1x3x3, .f32⟩ : BufTy).Contents (Elt F) → (⟨S1x3x3, .f32⟩ : BufTy).Contents (Elt F)),
    StableHlo.unary main_v21 main_v22 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v17 main_v22 main_v23 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_1 (constant S_ .f32 0x00000000#32),
    StableHlo.binary main_v23 main_cst_1 main_v24 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_2 (constant S_ .f32 0xBF000000#32),
    StableHlo.unary main_cst_2 main_v25 (broadcastInDim S3200000x3 ![] bcast_S_S3200000x3 : (⟨S_, .f32⟩ : BufTy).Contents (Elt F) → (⟨S3200000x3, .f32⟩ : BufTy).Contents (Elt F)),
    StableHlo.binary main_v25 main_v24 main_v26 (mulf : (⟨S3200000x3, .f32⟩ : BufTy).Contents (Elt F) → (⟨S3200000x3, .f32⟩ : BufTy).Contents (Elt F) → (⟨S3200000x3, .f32⟩ : BufTy).Contents (Elt F)),
    StableHlo.unary main_v26 main_v27 (Host.exp : (⟨S3200000x3, .f32⟩ : BufTy).Contents (Elt F) → (⟨S3200000x3, .f32⟩ : BufTy).Contents (Elt F)),
    StableHlo.reshape main_v11 main_v28 rfl shapeCasts_S3200000x24_S3200000x3x8,
    StableHlo.unary main_v27 main_v29 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v29 main_v30 (broadcastInDim S3200000x3x8 ![0, 1, 2] bcast_S3200000x3x1_S3200000x3x8_0_1_2 : (⟨S3200000x3x1, .f32⟩ : BufTy).Contents (Elt F) → (⟨S3200000x3x8, .f32⟩ : BufTy).Contents (Elt F)),
    StableHlo.binary main_v28 main_v30 main_v31 (mulf : (⟨S3200000x3x8, .f32⟩ : BufTy).Contents (Elt F) → (⟨S3200000x3x8, .f32⟩ : BufTy).Contents (Elt F) → (⟨S3200000x3x8, .f32⟩ : BufTy).Contents (Elt F)),
    StableHlo.nullary main_cst_3 (constant S_ .f32 0x00000000#32),
    StableHlo.binary main_v31 main_cst_3 main_v32 ((fun x v => Host.reduceAdd x v reducesTo_S3200000x3x8_S3200000x8_d1 h_S_) : (⟨S3200000x3x8, .f32⟩ : BufTy).Contents (Elt F) → (⟨S_, .f32⟩ : BufTy).Contents (Elt F) → (⟨S3200000x8, .f32⟩ : BufTy).Contents (Elt F)),
    StableHlo.nullary main_cst_4 (constant S_ .f32 0x00000000#32),
    StableHlo.unary main_cst_4 main_v33 (broadcastInDim S100000x8 ![] bcast_S_S100000x8 : (⟨S_, .f32⟩ : BufTy).Contents (Elt F) → (⟨S100000x8, .f32⟩ : BufTy).Contents (Elt F)),
    StableHlo.unary main_v3 main_v34 (broadcastInDim S3200000x1 ![0] bcast_S3200000_S3200000x1_0 : (⟨S3200000, .i32⟩ : BufTy).Contents (Elt F) → (⟨S3200000x1, .i32⟩ : BufTy).Contents (Elt F)),
    StableHlo.ternary main_v33 main_v34 main_v32 main_v35 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.nullary main_cst_5 (constant S_ .f32 0x3F800000#32),
    StableHlo.unary main_cst_5 main_v36 (broadcastInDim S3200000 ![] bcast_S_S3200000 : (⟨S_, .f32⟩ : BufTy).Contents (Elt F) → (⟨S3200000, .f32⟩ : BufTy).Contents (Elt F)),
    StableHlo.nullary main_cst_6 (constant S_ .f32 0x00000000#32),
    StableHlo.unary main_cst_6 main_v37 (broadcastInDim S100000 ![] bcast_S_S100000 : (⟨S_, .f32⟩ : BufTy).Contents (Elt F) → (⟨S100000, .f32⟩ : BufTy).Contents (Elt F)),
    StableHlo.unary main_v3 main_v38 (broadcastInDim S3200000x1 ![0] bcast_S3200000_S3200000x1_0 : (⟨S3200000, .i32⟩ : BufTy).Contents (Elt F) → (⟨S3200000x1, .i32⟩ : BufTy).Contents (Elt F)),
    StableHlo.ternary main_v37 main_v38 main_v36 main_v39 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_7 (constant S_ .f32 0x3F800000#32),
    StableHlo.unary main_cst_7 main_v40 (broadcastInDim S100000 ![] bcast_S_S100000 : (⟨S_, .f32⟩ : BufTy).Contents (Elt F) → (⟨S100000, .f32⟩ : BufTy).Contents (Elt F)),
    StableHlo.binary main_v39 main_v40 main_v41 (maximumf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x8 ![0, 1] bcast_S100000x1_S100000x8_0_1 : (⟨S100000x1, .f32⟩ : BufTy).Contents (Elt F) → (⟨S100000x8, .f32⟩ : BufTy).Contents (Elt F)),
    StableHlo.binary main_v35 main_v43 main_v44 (Host.divf : (⟨S100000x8, .f32⟩ : BufTy).Contents (Elt F) → (⟨S100000x8, .f32⟩ : BufTy).Contents (Elt F) → (⟨S100000x8, .f32⟩ : BufTy).Contents (Elt F)),
    StableHlo.binary main_arg0 main_arg6 main_v45 ((fun l r => Host.dotGeneral dot_S100000x3_S3x8_S100000x8_1_0_0_1_n_n none l r) : (⟨S100000x3, .f32⟩ : BufTy).Contents (Elt F) → (⟨S3x8, .f32⟩ : BufTy).Contents (Elt F) → (⟨S100000x8, .f32⟩ : BufTy).Contents (Elt F)),
    StableHlo.binary main_v44 main_v45 main_v46 (addf : (⟨S100000x8, .f32⟩ : BufTy).Contents (Elt F) → (⟨S100000x8, .f32⟩ : BufTy).Contents (Elt F) → (⟨S100000x8, .f32⟩ : BufTy).Contents (Elt F)),
    StableHlo.unary main_arg7 main_v47 (broadcastInDim S1x8 ![1] bcast_S8_S1x8_1 : (⟨S8, .f32⟩ : BufTy).Contents (Elt F) → (⟨S1x8, .f32⟩ : BufTy).Contents (Elt F)),
    StableHlo.unary main_v47 main_v48 (broadcastInDim S100000x8 ![0, 1] bcast_S1x8_S100000x8_0_1 : (⟨S1x8, .f32⟩ : BufTy).Contents (Elt F) → (⟨S100000x8, .f32⟩ : BufTy).Contents (Elt F)),
    StableHlo.binary main_v46 main_v48 main_v49 (addf : (⟨S100000x8, .f32⟩ : BufTy).Contents (Elt F) → (⟨S100000x8, .f32⟩ : BufTy).Contents (Elt F) → (⟨S100000x8, .f32⟩ : BufTy).Contents (Elt F)) ]

/-- Layer 1's activation: the call of @elu on `main_v49` with @_where and @_where_0 inlined, over the record `main_call0`; its result is `main_v50`. -/
abbrev ops1b : List (HloOp τ sig (Elt F)) :=
  [ StableHlo.TRef.nullary main_call0.cst (constant S_ .f32 0x00000000#32),
    StableHlo.TRef.unary main_call0.cst main_call0.v0 (broadcastInDim S100000x8 ![] bcast_S_S100000x8),
    StableHlo.TRef.binary (.of main_v49 : StableHlo.TRef sig ⟨S100000x8, .f32⟩) main_call0.v0 main_call0.v1 (cmpf .ogt),
    StableHlo.TRef.nullary main_call0.cst_0 (constant S_ .f32 0x00000000#32),
    StableHlo.TRef.unary main_call0.cst_0 main_call0.v2 (broadcastInDim S100000x8 ![] bcast_S_S100000x8),
    StableHlo.TRef.binary (.of main_v49 : StableHlo.TRef sig ⟨S100000x8, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x8 ![] bcast_S_S100000x8),
    StableHlo.TRef.ternary main_call0.v3 main_call0.call0.v1 (.of main_v49 : StableHlo.TRef sig ⟨S100000x8, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x8 ![] bcast_S_S100000x8),
    StableHlo.TRef.binary main_call0.v6 main_call0.v5 main_call0.v7 mulf,
    StableHlo.TRef.ternary main_call0.v1 (.of main_v49 : StableHlo.TRef sig ⟨S100000x8, .f32⟩) main_call0.v7 main_call0.call1.v0 select ]

/-- Layer 2: from `main_c_8` to the pre-activation `main_v96`, then the call of @elu_1 with @_where_2 and @_where_3 inlined over `main_call1`; its result is `main_v97`. -/
abbrev ops2 : List (HloOp τ sig (Elt F)) :=
  [ StableHlo.nullary main_c_8 (constantI S_ 32 0#32),
    StableHlo.unary main_c_8 main_v51 (broadcastInDim S3200000 ![] bcast_S_S3200000 : (⟨S_, .i32⟩ : BufTy).Contents (Elt F) → (⟨S3200000, .i32⟩ : BufTy).Contents (Elt F)),
    StableHlo.binary main_v1 main_v51 main_v52 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v53 (broadcastInDim S3200000 ![] bcast_S_S3200000 : (⟨S_, .i32⟩ : BufTy).Contents (Elt F) → (⟨S3200000, .i32⟩ : BufTy).Contents (Elt F)),
    StableHlo.binary main_v1 main_v53 main_v54 (addi : (⟨S3200000, .i32⟩ : BufTy).Contents (Elt F) → (⟨S3200000, .i32⟩ : BufTy).Contents (Elt F) → (⟨S3200000, .i32⟩ : BufTy).Contents (Elt F)),
    StableHlo.ternary main_v52 main_v54 main_v1 main_v55 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v55 main_v56 (broadcastInDim S3200000x1 ![0] bcast_S3200000_S3200000x1_0 : (⟨S3200000, .i32⟩ : BufTy).Contents (Elt F) → (⟨S3200000x1, .i32⟩ : BufTy).Contents (Elt F)),
    StableHlo.binary main_v50 main_v56 main_v57 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.binary main_v57 main_arg8 main_v58 ((fun l r => Host.dotGeneral dot_S3200000x8_S8x48_S3200000x48_1_0_0_1_n_n none l r) : (⟨S3200000x8, .f32⟩ : BufTy).Contents (Elt F) → (⟨S8x48, .f32⟩ : BufTy).Contents (Elt F) → (⟨S3200000x48, .f32⟩ : BufTy).Contents (Elt F)),
    StableHlo.unary main_arg2 main_v59 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg9 main_v60 (broadcastInDim S1x3x3 ![1, 2] bcast_S3x3_S1x3x3_1_2 : (⟨S3x3, .f32⟩ : BufTy).Contents (Elt F) → (⟨S1x3x3, .f32⟩ : BufTy).Contents (Elt F)),
    StableHlo.unary main_v59 main_v61 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v60 main_v62 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v61 main_v62 main_v63 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v63 main_v63 main_v64 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg10 main_v65 (broadcastInDim S1x3x3 ![1, 2] bcast_S3x3_S1x3x3_1_2 : (⟨S3x3, .f32⟩ : BufTy).Contents (Elt F) → (⟨S1x3x3, .f32⟩ : BufTy).Contents (Elt F)),
    StableHlo.binary main_v65 main_v65 main_v66 (mulf : (⟨S1x3x3, .f32⟩ : BufTy).Contents (Elt F) → (⟨S1x3x3, .f32⟩ : BufTy).Contents (Elt F) → (⟨S1x3x3, .f32⟩ : BufTy).Contents (Elt F)),
    StableHlo.nullary main_cst_10 (constant S_ .f32 0x26901D7D#32),
    StableHlo.unary main_cst_10 main_v67 (broadcastInDim S1x3x3 ![] bcast_S_S1x3x3 : (⟨S_, .f32⟩ : BufTy).Contents (Elt F) → (⟨S1x3x3, .f32⟩ : BufTy).Contents (Elt F)),
    StableHlo.binary main_v67 main_v66 main_v68 (addf : (⟨S1x3x3, .f32⟩ : BufTy).Contents (Elt F) → (⟨S1x3x3, .f32⟩ : BufTy).Contents (Elt F) → (⟨S1x3x3, .f32⟩ : BufTy).Contents (Elt F)),
    StableHlo.unary main_v68 main_v69 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v64 main_v69 main_v70 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_11 (constant S_ .f32 0x00000000#32),
    StableHlo.binary main_v70 main_cst_11 main_v71 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_12 (constant S_ .f32 0xBF000000#32),
    StableHlo.unary main_cst_12 main_v72 (broadcastInDim S3200000x3 ![] bcast_S_S3200000x3 : (⟨S_, .f32⟩ : BufTy).Contents (Elt F) → (⟨S3200000x3, .f32⟩ : BufTy).Contents (Elt F)),
    StableHlo.binary main_v72 main_v71 main_v73 (mulf : (⟨S3200000x3, .f32⟩ : BufTy).Contents (Elt F) → (⟨S3200000x3, .f32⟩ : BufTy).Contents (Elt F) → (⟨S3200000x3, .f32⟩ : BufTy).Contents (Elt F)),
    StableHlo.unary main_v73 main_v74 (Host.exp : (⟨S3200000x3, .f32⟩ : BufTy).Contents (Elt F) → (⟨S3200000x3, .f32⟩ : BufTy).Contents (Elt F)),
    StableHlo.reshape main_v58 main_v75 rfl shapeCasts_S3200000x48_S3200000x3x16,
    StableHlo.unary main_v74 main_v76 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v76 main_v77 (broadcastInDim S3200000x3x16 ![0, 1, 2] bcast_S3200000x3x1_S3200000x3x16_0_1_2 : (⟨S3200000x3x1, .f32⟩ : BufTy).Contents (Elt F) → (⟨S3200000x3x16, .f32⟩ : BufTy).Contents (Elt F)),
    StableHlo.binary main_v75 main_v77 main_v78 (mulf : (⟨S3200000x3x16, .f32⟩ : BufTy).Contents (Elt F) → (⟨S3200000x3x16, .f32⟩ : BufTy).Contents (Elt F) → (⟨S3200000x3x16, .f32⟩ : BufTy).Contents (Elt F)),
    StableHlo.nullary main_cst_13 (constant S_ .f32 0x00000000#32),
    StableHlo.binary main_v78 main_cst_13 main_v79 ((fun x v => Host.reduceAdd x v reducesTo_S3200000x3x16_S3200000x16_d1 h_S_) : (⟨S3200000x3x16, .f32⟩ : BufTy).Contents (Elt F) → (⟨S_, .f32⟩ : BufTy).Contents (Elt F) → (⟨S3200000x16, .f32⟩ : BufTy).Contents (Elt F)),
    StableHlo.nullary main_cst_14 (constant S_ .f32 0x00000000#32),
    StableHlo.unary main_cst_14 main_v80 (broadcastInDim S100000x16 ![] bcast_S_S100000x16 : (⟨S_, .f32⟩ : BufTy).Contents (Elt F) → (⟨S100000x16, .f32⟩ : BufTy).Contents (Elt F)),
    StableHlo.unary main_v3 main_v81 (broadcastInDim S3200000x1 ![0] bcast_S3200000_S3200000x1_0 : (⟨S3200000, .i32⟩ : BufTy).Contents (Elt F) → (⟨S3200000x1, .i32⟩ : BufTy).Contents (Elt F)),
    StableHlo.ternary main_v80 main_v81 main_v79 main_v82 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_15 (constant S_ .f32 0x3F800000#32),
    StableHlo.unary main_cst_15 main_v83 (broadcastInDim S3200000 ![] bcast_S_S3200000 : (⟨S_, .f32⟩ : BufTy).Contents (Elt F) → (⟨S3200000, .f32⟩ : BufTy).Contents (Elt F)),
    StableHlo.nullary main_cst_16 (constant S_ .f32 0x00000000#32),
    StableHlo.unary main_cst_16 main_v84 (broadcastInDim S100000 ![] bcast_S_S100000 : (⟨S_, .f32⟩ : BufTy).Contents (Elt F) → (⟨S100000, .f32⟩ : BufTy).Contents (Elt F)),
    StableHlo.unary main_v3 main_v85 (broadcastInDim S3200000x1 ![0] bcast_S3200000_S3200000x1_0 : (⟨S3200000, .i32⟩ : BufTy).Contents (Elt F) → (⟨S3200000x1, .i32⟩ : BufTy).Contents (Elt F)),
    StableHlo.ternary main_v84 main_v85 main_v83 main_v86 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_17 (constant S_ .f32 0x3F800000#32),
    StableHlo.unary main_cst_17 main_v87 (broadcastInDim S100000 ![] bcast_S_S100000 : (⟨S_, .f32⟩ : BufTy).Contents (Elt F) → (⟨S100000, .f32⟩ : BufTy).Contents (Elt F)),
    StableHlo.binary main_v86 main_v87 main_v88 (maximumf : (⟨S100000, .f32⟩ : BufTy).Contents (Elt F) → (⟨S100000, .f32⟩ : BufTy).Contents (Elt F) → (⟨S100000, .f32⟩ : BufTy).Contents (Elt F)),
    StableHlo.unary main_v88 main_v89 (broadcastInDim S100000x1 ![0] bcast_S100000_S100000x1_0 : (⟨S100000, .f32⟩ : BufTy).Contents (Elt F) → (⟨S100000x1, .f32⟩ : BufTy).Contents (Elt F)),
    StableHlo.unary main_v89 main_v90 (broadcastInDim S100000x16 ![0, 1] bcast_S100000x1_S100000x16_0_1 : (⟨S100000x1, .f32⟩ : BufTy).Contents (Elt F) → (⟨S100000x16, .f32⟩ : BufTy).Contents (Elt F)),
    StableHlo.binary main_v82 main_v90 main_v91 (Host.divf : (⟨S100000x16, .f32⟩ : BufTy).Contents (Elt F) → (⟨S100000x16, .f32⟩ : BufTy).Contents (Elt F) → (⟨S100000x16, .f32⟩ : BufTy).Contents (Elt F)),
    StableHlo.binary main_v50 main_arg11 main_v92 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.binary main_v91 main_v92 main_v93 (addf : (⟨S100000x16, .f32⟩ : BufTy).Contents (Elt F) → (⟨S100000x16, .f32⟩ : BufTy).Contents (Elt F) → (⟨S100000x16, .f32⟩ : BufTy).Contents (Elt F)),
    StableHlo.unary main_arg12 main_v94 (broadcastInDim S1x16 ![1] bcast_S16_S1x16_1 : (⟨S16, .f32⟩ : BufTy).Contents (Elt F) → (⟨S1x16, .f32⟩ : BufTy).Contents (Elt F)),
    StableHlo.unary main_v94 main_v95 (broadcastInDim S100000x16 ![0, 1] bcast_S1x16_S100000x16_0_1 : (⟨S1x16, .f32⟩ : BufTy).Contents (Elt F) → (⟨S100000x16, .f32⟩ : BufTy).Contents (Elt F)),
    StableHlo.binary main_v93 main_v95 main_v96 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (.of main_v96 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v96 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v96 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v96 : StableHlo.TRef sig ⟨S100000x16, .f32⟩) main_call1.v7 main_call1.call1.v0 select ]

/-- Layer 3's first two operations (the end of @main's second window). -/
abbrev ops3a : List (HloOp τ sig (Elt F)) :=
  [ StableHlo.nullary main_c_18 (constantI S_ 32 0#32),
    StableHlo.unary main_c_18 main_v98 (broadcastInDim S3200000 ![] bcast_S_S3200000 : (⟨S_, .i32⟩ : BufTy).Contents (Elt F) → (⟨S3200000, .i32⟩ : BufTy).Contents (Elt F)) ]

/-- Layer 3 from `main_v99` to the pre-activation `main_v143`, then the call of @elu over `main_call2`; its result is `main_v144`. -/
abbrev ops3b : List (HloOp τ sig (Elt F)) :=
  [ StableHlo.binary main_v1 main_v98 main_v99 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v100 (broadcastInDim S3200000 ![] bcast_S_S3200000 : (⟨S_, .i32⟩ : BufTy).Contents (Elt F) → (⟨S3200000, .i32⟩ : BufTy).Contents (Elt F)),
    StableHlo.binary main_v1 main_v100 main_v101 (addi : (⟨S3200000, .i32⟩ : BufTy).Contents (Elt F) → (⟨S3200000, .i32⟩ : BufTy).Contents (Elt F) → (⟨S3200000, .i32⟩ : BufTy).Contents (Elt F)),
    StableHlo.ternary main_v99 main_v101 main_v1 main_v102 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v102 main_v103 (broadcastInDim S3200000x1 ![0] bcast_S3200000_S3200000x1_0 : (⟨S3200000, .i32⟩ : BufTy).Contents (Elt F) → (⟨S3200000x1, .i32⟩ : BufTy).Contents (Elt F)),
    StableHlo.binary main_v97 main_v103 main_v104 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.binary main_v104 main_arg13 main_v105 ((fun l r => Host.dotGeneral dot_S3200000x16_S16x24_S3200000x24_1_0_0_1_n_n none l r) : (⟨S3200000x16, .f32⟩ : BufTy).Contents (Elt F) → (⟨S16x24, .f32⟩ : BufTy).Contents (Elt F) → (⟨S3200000x24, .f32⟩ : BufTy).Contents (Elt F)),
    StableHlo.unary main_arg2 main_v106 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg14 main_v107 (broadcastInDim S1x3x3 ![1, 2] bcast_S3x3_S1x3x3_1_2 : (⟨S3x3, .f32⟩ : BufTy).Contents (Elt F) → (⟨S1x3x3, .f32⟩ : BufTy).Contents (Elt F)),
    StableHlo.unary main_v106 main_v108 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v107 main_v109 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v108 main_v109 main_v110 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v110 main_v110 main_v111 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg15 main_v112 (broadcastInDim S1x3x3 ![1, 2] bcast_S3x3_S1x3x3_1_2 : (⟨S3x3, .f32⟩ : BufTy).Contents (Elt F) → (⟨S1x3x3, .f32⟩ : BufTy).Contents (Elt F)),
    StableHlo.binary main_v112 main_v112 main_v113 (mulf : (⟨S1x3x3, .f32⟩ : BufTy).Contents (Elt F) → (⟨S1x3x3, .f32⟩ : BufTy).Contents (Elt F) → (⟨S1x3x3, .f32⟩ : BufTy).Contents (Elt F)),
    StableHlo.nullary main_cst_20 (constant S_ .f32 0x26901D7D#32),
    StableHlo.unary main_cst_20 main_v114 (broadcastInDim S1x3x3 ![] bcast_S_S1x3x3 : (⟨S_, .f32⟩ : BufTy).Contents (Elt F) → (⟨S1x3x3, .f32⟩ : BufTy).Contents (Elt F)),
    StableHlo.binary main_v114 main_v113 main_v115 (addf : (⟨S1x3x3, .f32⟩ : BufTy).Contents (Elt F) → (⟨S1x3x3, .f32⟩ : BufTy).Contents (Elt F) → (⟨S1x3x3, .f32⟩ : BufTy).Contents (Elt F)),
    StableHlo.unary main_v115 main_v116 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v111 main_v116 main_v117 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_21 (constant S_ .f32 0x00000000#32),
    StableHlo.binary main_v117 main_cst_21 main_v118 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_22 (constant S_ .f32 0xBF000000#32),
    StableHlo.unary main_cst_22 main_v119 (broadcastInDim S3200000x3 ![] bcast_S_S3200000x3 : (⟨S_, .f32⟩ : BufTy).Contents (Elt F) → (⟨S3200000x3, .f32⟩ : BufTy).Contents (Elt F)),
    StableHlo.binary main_v119 main_v118 main_v120 (mulf : (⟨S3200000x3, .f32⟩ : BufTy).Contents (Elt F) → (⟨S3200000x3, .f32⟩ : BufTy).Contents (Elt F) → (⟨S3200000x3, .f32⟩ : BufTy).Contents (Elt F)),
    StableHlo.unary main_v120 main_v121 (Host.exp : (⟨S3200000x3, .f32⟩ : BufTy).Contents (Elt F) → (⟨S3200000x3, .f32⟩ : BufTy).Contents (Elt F)),
    StableHlo.reshape main_v105 main_v122 rfl shapeCasts_S3200000x24_S3200000x3x8,
    StableHlo.unary main_v121 main_v123 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v123 main_v124 (broadcastInDim S3200000x3x8 ![0, 1, 2] bcast_S3200000x3x1_S3200000x3x8_0_1_2 : (⟨S3200000x3x1, .f32⟩ : BufTy).Contents (Elt F) → (⟨S3200000x3x8, .f32⟩ : BufTy).Contents (Elt F)),
    StableHlo.binary main_v122 main_v124 main_v125 (mulf : (⟨S3200000x3x8, .f32⟩ : BufTy).Contents (Elt F) → (⟨S3200000x3x8, .f32⟩ : BufTy).Contents (Elt F) → (⟨S3200000x3x8, .f32⟩ : BufTy).Contents (Elt F)),
    StableHlo.nullary main_cst_23 (constant S_ .f32 0x00000000#32),
    StableHlo.binary main_v125 main_cst_23 main_v126 ((fun x v => Host.reduceAdd x v reducesTo_S3200000x3x8_S3200000x8_d1 h_S_) : (⟨S3200000x3x8, .f32⟩ : BufTy).Contents (Elt F) → (⟨S_, .f32⟩ : BufTy).Contents (Elt F) → (⟨S3200000x8, .f32⟩ : BufTy).Contents (Elt F)),
    StableHlo.nullary main_cst_24 (constant S_ .f32 0x00000000#32),
    StableHlo.unary main_cst_24 main_v127 (broadcastInDim S100000x8 ![] bcast_S_S100000x8 : (⟨S_, .f32⟩ : BufTy).Contents (Elt F) → (⟨S100000x8, .f32⟩ : BufTy).Contents (Elt F)),
    StableHlo.unary main_v3 main_v128 (broadcastInDim S3200000x1 ![0] bcast_S3200000_S3200000x1_0 : (⟨S3200000, .i32⟩ : BufTy).Contents (Elt F) → (⟨S3200000x1, .i32⟩ : BufTy).Contents (Elt F)),
    StableHlo.ternary main_v127 main_v128 main_v126 main_v129 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.nullary main_cst_25 (constant S_ .f32 0x3F800000#32),
    StableHlo.unary main_cst_25 main_v130 (broadcastInDim S3200000 ![] bcast_S_S3200000 : (⟨S_, .f32⟩ : BufTy).Contents (Elt F) → (⟨S3200000, .f32⟩ : BufTy).Contents (Elt F)),
    StableHlo.nullary main_cst_26 (constant S_ .f32 0x00000000#32),
    StableHlo.unary main_cst_26 main_v131 (broadcastInDim S100000 ![] bcast_S_S100000 : (⟨S_, .f32⟩ : BufTy).Contents (Elt F) → (⟨S100000, .f32⟩ : BufTy).Contents (Elt F)),
    StableHlo.unary main_v3 main_v132 (broadcastInDim S3200000x1 ![0] bcast_S3200000_S3200000x1_0 : (⟨S3200000, .i32⟩ : BufTy).Contents (Elt F) → (⟨S3200000x1, .i32⟩ : BufTy).Contents (Elt F)),
    StableHlo.ternary main_v131 main_v132 main_v130 main_v133 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_27 (constant S_ .f32 0x3F800000#32),
    StableHlo.unary main_cst_27 main_v134 (broadcastInDim S100000 ![] bcast_S_S100000 : (⟨S_, .f32⟩ : BufTy).Contents (Elt F) → (⟨S100000, .f32⟩ : BufTy).Contents (Elt F)),
    StableHlo.binary main_v133 main_v134 main_v135 (maximumf : (⟨S100000, .f32⟩ : BufTy).Contents (Elt F) → (⟨S100000, .f32⟩ : BufTy).Contents (Elt F) → (⟨S100000, .f32⟩ : BufTy).Contents (Elt F)),
    StableHlo.unary main_v135 main_v136 (broadcastInDim S100000x1 ![0] bcast_S100000_S100000x1_0 : (⟨S100000, .f32⟩ : BufTy).Contents (Elt F) → (⟨S100000x1, .f32⟩ : BufTy).Contents (Elt F)),
    StableHlo.unary main_v136 main_v137 (broadcastInDim S100000x8 ![0, 1] bcast_S100000x1_S100000x8_0_1 : (⟨S100000x1, .f32⟩ : BufTy).Contents (Elt F) → (⟨S100000x8, .f32⟩ : BufTy).Contents (Elt F)),
    StableHlo.binary main_v129 main_v137 main_v138 (Host.divf : (⟨S100000x8, .f32⟩ : BufTy).Contents (Elt F) → (⟨S100000x8, .f32⟩ : BufTy).Contents (Elt F) → (⟨S100000x8, .f32⟩ : BufTy).Contents (Elt F)),
    StableHlo.binary main_v97 main_arg16 main_v139 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    StableHlo.binary main_v138 main_v139 main_v140 (addf : (⟨S100000x8, .f32⟩ : BufTy).Contents (Elt F) → (⟨S100000x8, .f32⟩ : BufTy).Contents (Elt F) → (⟨S100000x8, .f32⟩ : BufTy).Contents (Elt F)),
    StableHlo.unary main_arg17 main_v141 (broadcastInDim S1x8 ![1] bcast_S8_S1x8_1 : (⟨S8, .f32⟩ : BufTy).Contents (Elt F) → (⟨S1x8, .f32⟩ : BufTy).Contents (Elt F)),
    StableHlo.unary main_v141 main_v142 (broadcastInDim S100000x8 ![0, 1] bcast_S1x8_S100000x8_0_1 : (⟨S1x8, .f32⟩ : BufTy).Contents (Elt F) → (⟨S100000x8, .f32⟩ : BufTy).Contents (Elt F)),
    StableHlo.binary main_v140 main_v142 main_v143 (addf : (⟨S100000x8, .f32⟩ : BufTy).Contents (Elt F) → (⟨S100000x8, .f32⟩ : BufTy).Contents (Elt F) → (⟨S100000x8, .f32⟩ : BufTy).Contents (Elt F)),
    StableHlo.TRef.nullary main_call2.cst (constant S_ .f32 0x00000000#32),
    StableHlo.TRef.unary main_call2.cst main_call2.v0 (broadcastInDim S100000x8 ![] bcast_S_S100000x8),
    StableHlo.TRef.binary (.of main_v143 : StableHlo.TRef sig ⟨S100000x8, .f32⟩) main_call2.v0 main_call2.v1 (cmpf .ogt),
    StableHlo.TRef.nullary main_call2.cst_0 (constant S_ .f32 0x00000000#32),
    StableHlo.TRef.unary main_call2.cst_0 main_call2.v2 (broadcastInDim S100000x8 ![] bcast_S_S100000x8),
    StableHlo.TRef.binary (.of main_v143 : StableHlo.TRef sig ⟨S100000x8, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x8 ![] bcast_S_S100000x8),
    StableHlo.TRef.ternary main_call2.v3 main_call2.call0.v1 (.of main_v143 : StableHlo.TRef sig ⟨S100000x8, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x8 ![] bcast_S_S100000x8),
    StableHlo.TRef.binary main_call2.v6 main_call2.v5 main_call2.v7 mulf,
    StableHlo.TRef.ternary main_call2.v1 (.of main_v143 : StableHlo.TRef sig ⟨S100000x8, .f32⟩) main_call2.v7 main_call2.call1.v0 select ]

/-- Layer 4's first five operations (the end of @main's third window). -/
abbrev ops4a : List (HloOp τ sig (Elt F)) :=
  [ StableHlo.nullary main_c_28 (constantI S_ 32 0#32),
    StableHlo.unary main_c_28 main_v145 (broadcastInDim S3200000 ![] bcast_S_S3200000 : (⟨S_, .i32⟩ : BufTy).Contents (Elt F) → (⟨S3200000, .i32⟩ : BufTy).Contents (Elt F)),
    StableHlo.binary main_v1 main_v145 main_v146 (cmpi .slt : (⟨S3200000, .i32⟩ : BufTy).Contents (Elt F) → (⟨S3200000, .i32⟩ : BufTy).Contents (Elt F) → (⟨S3200000, .i1⟩ : BufTy).Contents (Elt F)),
    StableHlo.nullary main_c_29 (constantI S_ 32 100000#32),
    StableHlo.unary main_c_29 main_v147 (broadcastInDim S3200000 ![] bcast_S_S3200000 : (⟨S_, .i32⟩ : BufTy).Contents (Elt F) → (⟨S3200000, .i32⟩ : BufTy).Contents (Elt F)) ]

/-- Layer 4 from `main_v148` to the result `main_v190` (the fourth window). -/
abbrev ops4b : List (HloOp τ sig (Elt F)) :=
  [ StableHlo.binary main_v1 main_v147 main_v148 (addi : (⟨S3200000, .i32⟩ : BufTy).Contents (Elt F) → (⟨S3200000, .i32⟩ : BufTy).Contents (Elt F) → (⟨S3200000, .i32⟩ : BufTy).Contents (Elt F)),
    StableHlo.ternary main_v146 main_v148 main_v1 main_v149 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v149 main_v150 (broadcastInDim S3200000x1 ![0] bcast_S3200000_S3200000x1_0 : (⟨S3200000, .i32⟩ : BufTy).Contents (Elt F) → (⟨S3200000x1, .i32⟩ : BufTy).Contents (Elt F)),
    StableHlo.binary main_v144 main_v150 main_v151 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.binary main_v151 main_arg18 main_v152 ((fun l r => Host.dotGeneral dot_S3200000x8_S8x12_S3200000x12_1_0_0_1_n_n none l r) : (⟨S3200000x8, .f32⟩ : BufTy).Contents (Elt F) → (⟨S8x12, .f32⟩ : BufTy).Contents (Elt F) → (⟨S3200000x12, .f32⟩ : BufTy).Contents (Elt F)),
    StableHlo.unary main_arg2 main_v153 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg19 main_v154 (broadcastInDim S1x3x3 ![1, 2] bcast_S3x3_S1x3x3_1_2 : (⟨S3x3, .f32⟩ : BufTy).Contents (Elt F) → (⟨S1x3x3, .f32⟩ : BufTy).Contents (Elt F)),
    StableHlo.unary main_v153 main_v155 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v154 main_v156 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v155 main_v156 main_v157 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v157 main_v157 main_v158 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg20 main_v159 (broadcastInDim S1x3x3 ![1, 2] bcast_S3x3_S1x3x3_1_2 : (⟨S3x3, .f32⟩ : BufTy).Contents (Elt F) → (⟨S1x3x3, .f32⟩ : BufTy).Contents (Elt F)),
    StableHlo.binary main_v159 main_v159 main_v160 (mulf : (⟨S1x3x3, .f32⟩ : BufTy).Contents (Elt F) → (⟨S1x3x3, .f32⟩ : BufTy).Contents (Elt F) → (⟨S1x3x3, .f32⟩ : BufTy).Contents (Elt F)),
    StableHlo.nullary main_cst_30 (constant S_ .f32 0x26901D7D#32),
    StableHlo.unary main_cst_30 main_v161 (broadcastInDim S1x3x3 ![] bcast_S_S1x3x3 : (⟨S_, .f32⟩ : BufTy).Contents (Elt F) → (⟨S1x3x3, .f32⟩ : BufTy).Contents (Elt F)),
    StableHlo.binary main_v161 main_v160 main_v162 (addf : (⟨S1x3x3, .f32⟩ : BufTy).Contents (Elt F) → (⟨S1x3x3, .f32⟩ : BufTy).Contents (Elt F) → (⟨S1x3x3, .f32⟩ : BufTy).Contents (Elt F)),
    StableHlo.unary main_v162 main_v163 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v158 main_v163 main_v164 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_31 (constant S_ .f32 0x00000000#32),
    StableHlo.binary main_v164 main_cst_31 main_v165 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_32 (constant S_ .f32 0xBF000000#32),
    StableHlo.unary main_cst_32 main_v166 (broadcastInDim S3200000x3 ![] bcast_S_S3200000x3 : (⟨S_, .f32⟩ : BufTy).Contents (Elt F) → (⟨S3200000x3, .f32⟩ : BufTy).Contents (Elt F)),
    StableHlo.binary main_v166 main_v165 main_v167 (mulf : (⟨S3200000x3, .f32⟩ : BufTy).Contents (Elt F) → (⟨S3200000x3, .f32⟩ : BufTy).Contents (Elt F) → (⟨S3200000x3, .f32⟩ : BufTy).Contents (Elt F)),
    StableHlo.unary main_v167 main_v168 (Host.exp : (⟨S3200000x3, .f32⟩ : BufTy).Contents (Elt F) → (⟨S3200000x3, .f32⟩ : BufTy).Contents (Elt F)),
    StableHlo.reshape main_v152 main_v169 rfl shapeCasts_S3200000x12_S3200000x3x4,
    StableHlo.unary main_v168 main_v170 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v170 main_v171 (broadcastInDim S3200000x3x4 ![0, 1, 2] bcast_S3200000x3x1_S3200000x3x4_0_1_2 : (⟨S3200000x3x1, .f32⟩ : BufTy).Contents (Elt F) → (⟨S3200000x3x4, .f32⟩ : BufTy).Contents (Elt F)),
    StableHlo.binary main_v169 main_v171 main_v172 (mulf : (⟨S3200000x3x4, .f32⟩ : BufTy).Contents (Elt F) → (⟨S3200000x3x4, .f32⟩ : BufTy).Contents (Elt F) → (⟨S3200000x3x4, .f32⟩ : BufTy).Contents (Elt F)),
    StableHlo.nullary main_cst_33 (constant S_ .f32 0x00000000#32),
    StableHlo.binary main_v172 main_cst_33 main_v173 ((fun x v => Host.reduceAdd x v reducesTo_S3200000x3x4_S3200000x4_d1 h_S_) : (⟨S3200000x3x4, .f32⟩ : BufTy).Contents (Elt F) → (⟨S_, .f32⟩ : BufTy).Contents (Elt F) → (⟨S3200000x4, .f32⟩ : BufTy).Contents (Elt F)),
    StableHlo.nullary main_cst_34 (constant S_ .f32 0x00000000#32),
    StableHlo.unary main_cst_34 main_v174 (broadcastInDim S100000x4 ![] bcast_S_S100000x4 : (⟨S_, .f32⟩ : BufTy).Contents (Elt F) → (⟨S100000x4, .f32⟩ : BufTy).Contents (Elt F)),
    StableHlo.unary main_v3 main_v175 (broadcastInDim S3200000x1 ![0] bcast_S3200000_S3200000x1_0 : (⟨S3200000, .i32⟩ : BufTy).Contents (Elt F) → (⟨S3200000x1, .i32⟩ : BufTy).Contents (Elt F)),
    StableHlo.ternary main_v174 main_v175 main_v173 main_v176 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F)),
    StableHlo.nullary main_cst_35 (constant S_ .f32 0x3F800000#32),
    StableHlo.unary main_cst_35 main_v177 (broadcastInDim S3200000 ![] bcast_S_S3200000 : (⟨S_, .f32⟩ : BufTy).Contents (Elt F) → (⟨S3200000, .f32⟩ : BufTy).Contents (Elt F)),
    StableHlo.nullary main_cst_36 (constant S_ .f32 0x00000000#32),
    StableHlo.unary main_cst_36 main_v178 (broadcastInDim S100000 ![] bcast_S_S100000 : (⟨S_, .f32⟩ : BufTy).Contents (Elt F) → (⟨S100000, .f32⟩ : BufTy).Contents (Elt F)),
    StableHlo.unary main_v3 main_v179 (broadcastInDim S3200000x1 ![0] bcast_S3200000_S3200000x1_0 : (⟨S3200000, .i32⟩ : BufTy).Contents (Elt F) → (⟨S3200000x1, .i32⟩ : BufTy).Contents (Elt F)),
    StableHlo.ternary main_v178 main_v179 main_v177 main_v180 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_37 (constant S_ .f32 0x3F800000#32),
    StableHlo.unary main_cst_37 main_v181 (broadcastInDim S100000 ![] bcast_S_S100000 : (⟨S_, .f32⟩ : BufTy).Contents (Elt F) → (⟨S100000, .f32⟩ : BufTy).Contents (Elt F)),
    StableHlo.binary main_v180 main_v181 main_v182 (maximumf : (⟨S100000, .f32⟩ : BufTy).Contents (Elt F) → (⟨S100000, .f32⟩ : BufTy).Contents (Elt F) → (⟨S100000, .f32⟩ : BufTy).Contents (Elt F)),
    StableHlo.unary main_v182 main_v183 (broadcastInDim S100000x1 ![0] bcast_S100000_S100000x1_0 : (⟨S100000, .f32⟩ : BufTy).Contents (Elt F) → (⟨S100000x1, .f32⟩ : BufTy).Contents (Elt F)),
    StableHlo.unary main_v183 main_v184 (broadcastInDim S100000x4 ![0, 1] bcast_S100000x1_S100000x4_0_1 : (⟨S100000x1, .f32⟩ : BufTy).Contents (Elt F) → (⟨S100000x4, .f32⟩ : BufTy).Contents (Elt F)),
    StableHlo.binary main_v176 main_v184 main_v185 (Host.divf : (⟨S100000x4, .f32⟩ : BufTy).Contents (Elt F) → (⟨S100000x4, .f32⟩ : BufTy).Contents (Elt F) → (⟨S100000x4, .f32⟩ : BufTy).Contents (Elt F)),
    StableHlo.binary main_v144 main_arg21 main_v186 ((fun l r => Host.dotGeneral dot_S100000x8_S8x4_S100000x4_1_0_0_1_n_n none l r) : (⟨S100000x8, .f32⟩ : BufTy).Contents (Elt F) → (⟨S8x4, .f32⟩ : BufTy).Contents (Elt F) → (⟨S100000x4, .f32⟩ : BufTy).Contents (Elt F)),
    StableHlo.binary main_v185 main_v186 main_v187 (addf : (⟨S100000x4, .f32⟩ : BufTy).Contents (Elt F) → (⟨S100000x4, .f32⟩ : BufTy).Contents (Elt F) → (⟨S100000x4, .f32⟩ : BufTy).Contents (Elt F)),
    StableHlo.unary main_arg22 main_v188 (broadcastInDim S1x4 ![1] bcast_S4_S1x4_1 : (⟨S4, .f32⟩ : BufTy).Contents (Elt F) → (⟨S1x4, .f32⟩ : BufTy).Contents (Elt F)),
    StableHlo.unary main_v188 main_v189 (broadcastInDim S100000x4 ![0, 1] bcast_S1x4_S100000x4_0_1 : (⟨S1x4, .f32⟩ : BufTy).Contents (Elt F) → (⟨S100000x4, .f32⟩ : BufTy).Contents (Elt F)),
    StableHlo.binary main_v187 main_v189 main_v190 (addf : (⟨S100000x4, .f32⟩ : BufTy).Contents (Elt F) → (⟨S100000x4, .f32⟩ : BufTy).Contents (Elt F) → (⟨S100000x4, .f32⟩ : BufTy).Contents (Elt F)) ]

/-- @main's 273 operations, in order, the three calls' operations inline. -/
abbrev ops : List (HloOp τ sig (Elt F)) :=
  ops1a ++ (ops1b ++ (ops2 ++ (ops3a ++ (ops3b ++ (ops4a ++ ops4b)))))

/-! ## @main is that line -/

set_option maxRecDepth 8192 in
set_option maxHeartbeats 4000000 in
theorem main_part0_eq (c : Dev nD) : main_part0 (F := F) c = seq ops1a := rfl

set_option maxRecDepth 8192 in
set_option maxHeartbeats 4000000 in
theorem main_part1_eq (c : Dev nD) : main_part1 (F := F) c = seq (ops1b ++ (ops2 ++ ops3a)) := rfl

set_option maxRecDepth 8192 in
set_option maxHeartbeats 4000000 in
theorem main_part2_eq (c : Dev nD) : main_part2 (F := F) c = seq (ops3b ++ ops4a) := rfl

set_option maxRecDepth 8192 in
set_option maxHeartbeats 4000000 in
theorem main_part3_eq (c : Dev nD) : main_part3 (F := F) c = seq ops4b := rfl

/-- @main runs its four windows in order; each is the line of its pieces, and a line of concatenated pieces is the
    pieces' lines in sequence. -/
theorem main_eq (c : Dev nD) : main (F := F) c = seq ops := by
  show (main_part0 (F := F) c >>= fun _ => main_part1 (F := F) c >>= fun _ => main_part2 (F := F) c >>= fun _ => main_part3 (F := F) c) = _
  rw [main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

set_option maxRecDepth 8192 in
theorem ops1a_sub : (ops1a : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., unary_bufs_sub .., unary_bufs_sub ..,
    binary_bufs_sub .., binary_bufs_sub .., unary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., reshape_bufs_sub .., unary_bufs_sub .., unary_bufs_sub ..,
    binary_bufs_sub .., nullary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., unary_bufs_sub .., unary_bufs_sub .., binary_bufs_sub ..⟩

set_option maxRecDepth 8192 in
theorem ops1b_sub : (ops1b : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    unary_bufs_sub .., unary_bufs_sub .., binary_bufs_sub .., binary_bufs_sub .., unary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

set_option maxRecDepth 8192 in
theorem ops3a_sub : (ops3a : List (HloOp τ sig (Elt F))).Forall fun op => op.bufs ⊆ tcRefs τ sig :=
  ⟨nullary_bufs_sub .., unary_bufs_sub ..⟩

set_option maxRecDepth 8192 in
theorem ops3b_sub : (ops3b : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., binary_bufs_sub .., unary_bufs_sub .., unary_bufs_sub .., unary_bufs_sub .., unary_bufs_sub ..,
    binary_bufs_sub .., binary_bufs_sub .., unary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., reshape_bufs_sub .., unary_bufs_sub .., unary_bufs_sub ..,
    binary_bufs_sub .., nullary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

set_option maxRecDepth 8192 in
theorem ops4a_sub : (ops4a : List (HloOp τ sig (Elt F))).Forall fun op => op.bufs ⊆ tcRefs τ sig :=
  ⟨nullary_bufs_sub .., unary_bufs_sub .., binary_bufs_sub .., nullary_bufs_sub .., unary_bufs_sub ..⟩

set_option maxRecDepth 8192 in
theorem ops4b_sub : (ops4b : List (HloOp τ sig (Elt F))).Forall fun op => op.bufs ⊆ tcRefs τ sig :=
  ⟨binary_bufs_sub .., ternary_bufs_sub .., unary_bufs_sub .., binary_bufs_sub .., binary_bufs_sub .., unary_bufs_sub ..,
    unary_bufs_sub .., unary_bufs_sub .., unary_bufs_sub .., binary_bufs_sub .., binary_bufs_sub .., unary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., binary_bufs_sub ..,
    unary_bufs_sub .., unary_bufs_sub .., binary_bufs_sub ..⟩

theorem ops_sub : (ops : List (HloOp τ sig (Elt F))).Forall fun op => op.bufs ⊆ tcRefs τ sig :=
  forall_append ops1a_sub (forall_append ops1b_sub (forall_append ops2_sub (forall_append ops3a_sub
    (forall_append ops3b_sub (forall_append ops4a_sub ops4b_sub)))))

set_option maxRecDepth 8192 in
theorem ops1a_fresh : ∀ op ∈ (ops1a : List (HloOp τ sig (Elt F))), op.fresh = ∅ := by
  intro _ h; (repeat (cases h with | head => rfl | tail _ h => ?_)); exact nomatch h

set_option maxRecDepth 8192 in
theorem ops1b_fresh : ∀ op ∈ (ops1b : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3a_fresh : ∀ op ∈ (ops3a : List (HloOp τ sig (Elt F))), op.fresh = ∅ := by
  intro _ h; (repeat (cases h with | head => rfl | tail _ h => ?_)); exact nomatch h

set_option maxRecDepth 8192 in
theorem ops3b_fresh : ∀ op ∈ (ops3b : List (HloOp τ sig (Elt F))), op.fresh = ∅ := by
  intro _ h; (repeat (cases h with | head => rfl | tail _ h => ?_)); exact nomatch h

set_option maxRecDepth 8192 in
theorem ops4a_fresh : ∀ op ∈ (ops4a : List (HloOp τ sig (Elt F))), op.fresh = ∅ := by
  intro _ h; (repeat (cases h with | head => rfl | tail _ h => ?_)); exact nomatch h

set_option maxRecDepth 8192 in
theorem ops4b_fresh : ∀ op ∈ (ops4b : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h
  exacts [ops1a_fresh op h, ops1b_fresh op h, ops2_fresh op h, ops3a_fresh op h, ops3b_fresh op h, ops4a_fresh op h, ops4b_fresh op h]

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The argument arrays end as launched -/

/-- The argument arrays of @main. -/
def argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22]

set_option maxRecDepth 8192 in
/-- No operation of this piece writes an argument array: each writes its own result buffer. -/
theorem ops1a_keeps_args : (ops1a : List (HloOp τ sig (Elt F))).Forall fun op => ∀ b ∈ argRefs, Proc.devRef (τ := τ) .tc b ∉ op.writes := by
  simp only [ops1a, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops1b_keeps_args : (ops1b : List (HloOp τ sig (Elt F))).Forall fun op => ∀ b ∈ argRefs, Proc.devRef (τ := τ) .tc b ∉ op.writes := by
  simp only [ops1b, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops2_keeps_args : (ops2 : List (HloOp τ sig (Elt F))).Forall fun op => ∀ b ∈ argRefs, Proc.devRef (τ := τ) .tc b ∉ op.writes := by
  simp only [ops2, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops3a_keeps_args : (ops3a : List (HloOp τ sig (Elt F))).Forall fun op => ∀ b ∈ argRefs, Proc.devRef (τ := τ) .tc b ∉ op.writes := by
  simp only [ops3a, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops3b_keeps_args : (ops3b : List (HloOp τ sig (Elt F))).Forall fun op => ∀ b ∈ argRefs, Proc.devRef (τ := τ) .tc b ∉ op.writes := by
  simp only [ops3b, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops4a_keeps_args : (ops4a : List (HloOp τ sig (Elt F))).Forall fun op => ∀ b ∈ argRefs, Proc.devRef (τ := τ) .tc b ∉ op.writes := by
  simp only [ops4a, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

set_option maxRecDepth 8192 in
/-- No operation of this piece writes an argument array: each writes its own result buffer. -/
theorem ops4b_keeps_args : (ops4b : List (HloOp τ sig (Elt F))).Forall fun op => ∀ b ∈ argRefs, Proc.devRef (τ := τ) .tc b ∉ op.writes := by
  simp only [ops4b, List.Forall, StableHlo.nullary_writes, StableHlo.unary_writes, StableHlo.binary_writes, StableHlo.ternary_writes,
    StableHlo.reshape_writes, Finset.mem_singleton]
  repeat' apply And.intro
  all_goals exact fun b hb => StableHlo.devRef_ne_of_ne (by revert b; decide)

theorem ops_keeps_args : (ops : List (HloOp τ sig (Elt F))).Forall fun op => ∀ b ∈ argRefs, Proc.devRef (τ := τ) .tc b ∉ op.writes :=
  forall_append ops1a_keeps_args (forall_append ops1b_keeps_args (forall_append ops2_keeps_args (forall_append ops3a_keeps_args
    (forall_append ops3b_keeps_args (forall_append ops4a_keeps_args ops4b_keeps_args)))))

/-- An argument array is, after the whole line, what it was before it. -/
theorem after_arg (V : Valuation τ sig (Elt F)) (b : Ref sig .tc) (hb : b ∈ argRefs) :
    after ops V (Proc.devRef .tc b) = V (Proc.devRef .tc b) :=
  after_of_forall_not_mem ops V fun op hop => (List.forall_iff_forall_mem.mp ops_keeps_args) op hop b hb

/-- Every weakly fair execution of @main terminates with the twenty-three argument arrays as launched. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide)),
      (h c main_arg6).trans (after_arg _ main_arg6 (by decide)),
      (h c main_arg7).trans (after_arg _ main_arg7 (by decide)),
      (h c main_arg8).trans (after_arg _ main_arg8 (by decide)),
      (h c main_arg9).trans (after_arg _ main_arg9 (by decide)),
      (h c main_arg10).trans (after_arg _ main_arg10 (by decide)),
      (h c main_arg11).trans (after_arg _ main_arg11 (by decide)),
      (h c main_arg12).trans (after_arg _ main_arg12 (by decide)),
      (h c main_arg13).trans (after_arg _ main_arg13 (by decide)),
      (h c main_arg14).trans (after_arg _ main_arg14 (by decide)),
      (h c main_arg15).trans (after_arg _ main_arg15 (by decide)),
      (h c main_arg16).trans (after_arg _ main_arg16 (by decide)),
      (h c main_arg17).trans (after_arg _ main_arg17 (by decide)),
      (h c main_arg18).trans (after_arg _ main_arg18 (by decide)),
      (h c main_arg19).trans (after_arg _ main_arg19 (by decide)),
      (h c main_arg20).trans (after_arg _ main_arg20 (by decide)),
      (h c main_arg21).trans (after_arg _ main_arg21 (by decide)),
      (h c main_arg22).trans (after_arg _ main_arg22 (by decide))⟩)
    (run_main (F := Ideal) m ρ)

end Cert.ReferenceIdeal.Hand

end
-- ==== Proof.RefKeep.lean ====
import proofs.«144358_j6828998001340_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # What the pieces of the reference's line write, and what they leave alone

The line `ops` is seven pieces. Each piece writes the buffers listed for it and no other; so a buffer outside a piece's
list is after the piece what it was before it. From that: the argument arrays and the two row vectors of the edge list
are, at the end of every layer, what the first piece left; and a layer's output buffer is, after the whole line, what
it was at the end of its layer. -/

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## What each piece writes -/

/-- The buffers the operations of `ops1a` write, in order. -/
def wr1a : List (Ref sig .tc) :=
  [main_v0, main_v1, main_v2, main_v3, main_c, main_v4, main_v5, main_c_0,
   main_v6, main_v7, main_v8, main_v9, main_v10, main_v11, main_v12, main_v13,
   main_v14, main_v15, main_v16, main_v17, main_v18, main_v19, main_cst, main_v20,
   main_v21, main_v22, main_v23, main_cst_1, main_v24, main_cst_2, main_v25, main_v26,
   main_v27, main_v28, main_v29, main_v30, main_v31, main_cst_3, main_v32, main_cst_4,
   main_v33, main_v34, main_v35, main_cst_5, main_v36, main_cst_6, main_v37, main_v38,
   main_v39, main_cst_7, main_v40, main_v41, main_v42, main_v43, main_v44, main_v45,
   main_v46, main_v47, main_v48, main_v49]

set_option maxRecDepth 8192 in
theorem ops1a_writes : (ops1a : List (HloOp τ sig (Elt F))).Forall fun op => op.writes ⊆ ((wr1a.map (Proc.devRef (τ := τ) .tc)).toFinset) := by
  simp only [ops1a, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops1a` does not write is after it what it was before it. -/
theorem keep1a (W : Valuation τ sig (Elt F)) (r : Ref sig .tc) (hr : r ∉ wr1a) :
    after ops1a W (Proc.devRef .tc r) = W (Proc.devRef .tc r) :=
  after_of_writes_sub ops1a W ops1a_writes hr

/-- The buffers the operations of `ops1b` write, in order. -/
def wr1b : List (Ref sig .tc) :=
  [main_call0_cst, main_call0_v0, main_call0_v1, main_call0_cst_0, main_call0_v2, main_call0_v3, main_call0_cst_1, main_call0_call0_v0,
   main_call0_call0_v1, main_call0_v4, main_call0_v5, main_call0_cst_2, main_call0_v6, main_call0_v7, main_v50]

set_option maxRecDepth 8192 in
theorem ops1b_writes : (ops1b : List (HloOp τ sig (Elt F))).Forall fun op => op.writes ⊆ ((wr1b.map (Proc.devRef (τ := τ) .tc)).toFinset) := by
  simp only [ops1b, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops1b` does not write is after it what it was before it. -/
theorem keep1b (W : Valuation τ sig (Elt F)) (r : Ref sig .tc) (hr : r ∉ wr1b) :
    after ops1b W (Proc.devRef .tc r) = W (Proc.devRef .tc r) :=
  after_of_writes_sub ops1b W ops1b_writes hr

/-- The buffers the operations of `ops2` write, in order. -/
def wr2 : List (Ref sig .tc) :=
  [main_c_8, main_v51, main_v52, main_c_9, main_v53, main_v54, main_v55, main_v56,
   main_v57, main_v58, main_v59, main_v60, main_v61, main_v62, main_v63, main_v64,
   main_v65, main_v66, main_cst_10, main_v67, main_v68, main_v69, main_v70, main_cst_11,
   main_v71, main_cst_12, main_v72, main_v73, main_v74, main_v75, main_v76, main_v77,
   main_v78, main_cst_13, main_v79, main_cst_14, main_v80, main_v81, main_v82, main_cst_15,
   main_v83, main_cst_16, main_v84, main_v85, main_v86, main_cst_17, main_v87, main_v88,
   main_v89, main_v90, main_v91, main_v92, main_v93, main_v94, main_v95, main_v96,
   main_call1_cst, main_call1_v0, main_call1_v1, main_call1_cst_0, main_call1_v2, main_call1_v3, main_call1_cst_1, main_call1_call0_v0,
   main_call1_call0_v1, main_call1_v4, main_call1_v5, main_call1_cst_2, main_call1_v6, main_call1_v7, main_v97]

set_option maxRecDepth 8192 in
theorem ops2_writes : (ops2 : List (HloOp τ sig (Elt F))).Forall fun op => op.writes ⊆ ((wr2.map (Proc.devRef (τ := τ) .tc)).toFinset) := by
  simp only [ops2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops2` does not write is after it what it was before it. -/
theorem keep2 (W : Valuation τ sig (Elt F)) (r : Ref sig .tc) (hr : r ∉ wr2) :
    after ops2 W (Proc.devRef .tc r) = W (Proc.devRef .tc r) :=
  after_of_writes_sub ops2 W ops2_writes hr

/-- The buffers the operations of `ops3a` write, in order. -/
def wr3a : List (Ref sig .tc) :=
  [main_c_18, main_v98]

set_option maxRecDepth 8192 in
theorem ops3a_writes : (ops3a : List (HloOp τ sig (Elt F))).Forall fun op => op.writes ⊆ ((wr3a.map (Proc.devRef (τ := τ) .tc)).toFinset) := by
  simp only [ops3a, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops3a` does not write is after it what it was before it. -/
theorem keep3a (W : Valuation τ sig (Elt F)) (r : Ref sig .tc) (hr : r ∉ wr3a) :
    after ops3a W (Proc.devRef .tc r) = W (Proc.devRef .tc r) :=
  after_of_writes_sub ops3a W ops3a_writes hr

/-- The buffers the operations of `ops3b` write, in order. -/
def wr3b : List (Ref sig .tc) :=
  [main_v99, main_c_19, main_v100, main_v101, main_v102, main_v103, main_v104, main_v105,
   main_v106, main_v107, main_v108, main_v109, main_v110, main_v111, main_v112, main_v113,
   main_cst_20, main_v114, main_v115, main_v116, main_v117, main_cst_21, main_v118, main_cst_22,
   main_v119, main_v120, main_v121, main_v122, main_v123, main_v124, main_v125, main_cst_23,
   main_v126, main_cst_24, main_v127, main_v128, main_v129, main_cst_25, main_v130, main_cst_26,
   main_v131, main_v132, main_v133, main_cst_27, main_v134, main_v135, main_v136, main_v137,
   main_v138, main_v139, main_v140, main_v141, main_v142, main_v143, main_call2_cst, main_call2_v0,
   main_call2_v1, main_call2_cst_0, main_call2_v2, main_call2_v3, main_call2_cst_1, main_call2_call0_v0, main_call2_call0_v1, main_call2_v4,
   main_call2_v5, main_call2_cst_2, main_call2_v6, main_call2_v7, main_v144]

set_option maxRecDepth 8192 in
theorem ops3b_writes : (ops3b : List (HloOp τ sig (Elt F))).Forall fun op => op.writes ⊆ ((wr3b.map (Proc.devRef (τ := τ) .tc)).toFinset) := by
  simp only [ops3b, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops3b` does not write is after it what it was before it. -/
theorem keep3b (W : Valuation τ sig (Elt F)) (r : Ref sig .tc) (hr : r ∉ wr3b) :
    after ops3b W (Proc.devRef .tc r) = W (Proc.devRef .tc r) :=
  after_of_writes_sub ops3b W ops3b_writes hr

/-- The buffers the operations of `ops4a` write, in order. -/
def wr4a : List (Ref sig .tc) :=
  [main_c_28, main_v145, main_v146, main_c_29, main_v147]

set_option maxRecDepth 8192 in
theorem ops4a_writes : (ops4a : List (HloOp τ sig (Elt F))).Forall fun op => op.writes ⊆ ((wr4a.map (Proc.devRef (τ := τ) .tc)).toFinset) := by
  simp only [ops4a, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops4a` does not write is after it what it was before it. -/
theorem keep4a (W : Valuation τ sig (Elt F)) (r : Ref sig .tc) (hr : r ∉ wr4a) :
    after ops4a W (Proc.devRef .tc r) = W (Proc.devRef .tc r) :=
  after_of_writes_sub ops4a W ops4a_writes hr

/-- The buffers the operations of `ops4b` write, in order. -/
def wr4b : List (Ref sig .tc) :=
  [main_v148, main_v149, main_v150, main_v151, main_v152, main_v153, main_v154, main_v155,
   main_v156, main_v157, main_v158, main_v159, main_v160, main_cst_30, main_v161, main_v162,
   main_v163, main_v164, main_cst_31, main_v165, main_cst_32, main_v166, main_v167, main_v168,
   main_v169, main_v170, main_v171, main_v172, main_cst_33, main_v173, main_cst_34, main_v174,
   main_v175, main_v176, main_cst_35, main_v177, main_cst_36, main_v178, main_v179, main_v180,
   main_cst_37, main_v181, main_v182, main_v183, main_v184, main_v185, main_v186, main_v187,
   main_v188, main_v189, main_v190]

set_option maxRecDepth 8192 in
theorem ops4b_writes : (ops4b : List (HloOp τ sig (Elt F))).Forall fun op => op.writes ⊆ ((wr4b.map (Proc.devRef (τ := τ) .tc)).toFinset) := by
  simp only [ops4b, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer `ops4b` does not write is after it what it was before it. -/
theorem keep4b (W : Valuation τ sig (Elt F)) (r : Ref sig .tc) (hr : r ∉ wr4b) :
    after ops4b W (Proc.devRef .tc r) = W (Proc.devRef .tc r) :=
  after_of_writes_sub ops4b W ops4b_writes hr

/-! ## What every later piece leaves alone -/

/-- The buffers every layer reads besides the previous layer's output: the two row vectors and the argument arrays. -/
def carried : List (Ref sig .tc) :=
  [main_v1, main_v3, main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20, main_arg21, main_arg22]

/-- The argument arrays. -/
def argList : List (Ref sig .tc) := carried.drop 2

theorem carried_1b : ∀ r ∈ carried, r ∉ wr1b := by decide
theorem carried_2 : ∀ r ∈ carried, r ∉ wr2 := by decide
theorem carried_3a : ∀ r ∈ carried, r ∉ wr3a := by decide
theorem carried_3b : ∀ r ∈ carried, r ∉ wr3b := by decide
theorem carried_4a : ∀ r ∈ carried, r ∉ wr4a := by decide
theorem carried_4b : ∀ r ∈ carried, r ∉ wr4b := by decide
theorem args_1a : ∀ r ∈ argList, r ∉ wr1a := by decide

/-- The whole line as its seven pieces in turn. -/
theorem after_ops (V : Valuation τ sig (Elt F)) :
    after ops V = after ops4b (after ops4a (after ops3b (after ops3a (after ops2 (after ops1b (after ops1a V)))))) := by
  simp only [ops, after_app]

/-- An argument array after the first piece is as before it. -/
theorem base_arg (W : Valuation τ sig (Elt F)) (r : Ref sig .tc) (hr : r ∈ argList) :
    after ops1a W (Proc.devRef .tc r) = W (Proc.devRef .tc r) := keep1a W r (args_1a r hr)

/-- A carried buffer at the end of layer 1 is as after the first piece. -/
theorem s1_carried (W : Valuation τ sig (Elt F)) (r : Ref sig .tc) (hr : r ∈ carried) :
    after ops1b (after ops1a W) (Proc.devRef .tc r) = after ops1a W (Proc.devRef .tc r) := keep1b _ r (carried_1b r hr)

/-- A carried buffer at the end of layer 2 is as after the first piece. -/
theorem s2_carried (W : Valuation τ sig (Elt F)) (r : Ref sig .tc) (hr : r ∈ carried) :
    after ops2 (after ops1b (after ops1a W)) (Proc.devRef .tc r) = after ops1a W (Proc.devRef .tc r) :=
  (keep2 _ r (carried_2 r hr)).trans (s1_carried W r hr)

/-- A carried buffer at the end of layer 3 is as after the first piece. -/
theorem s3_carried (W : Valuation τ sig (Elt F)) (r : Ref sig .tc) (hr : r ∈ carried) :
    after ops3b (after ops3a (after ops2 (after ops1b (after ops1a W)))) (Proc.devRef .tc r) = after ops1a W (Proc.devRef .tc r) :=
  (keep3b _ r (carried_3b r hr)).trans ((keep3a _ r (carried_3a r hr)).trans (s2_carried W r hr))

/-- Layer 1's output buffer is not written after layer 1. -/
theorem end_v50 (V : Valuation τ sig (Elt F)) :
    after ops V (main_v50 : DevRef τ sig) = after ops1b (after ops1a V) (main_v50 : DevRef τ sig) := by
  rw [after_ops, keep4b _ main_v50 (by decide), keep4a _ main_v50 (by decide), keep3b _ main_v50 (by decide), keep3a _ main_v50 (by decide),
    keep2 _ main_v50 (by decide)]

/-- Layer 2's output buffer is not written after layer 2. -/
theorem end_v97 (V : Valuation τ sig (Elt F)) :
    after ops V (main_v97 : DevRef τ sig) = after ops2 (after ops1b (after ops1a V)) (main_v97 : DevRef τ sig) := by
  rw [after_ops, keep4b _ main_v97 (by decide), keep4a _ main_v97 (by decide), keep3b _ main_v97 (by decide), keep3a _ main_v97 (by decide)]

/-- Layer 3's output buffer is not written after layer 3. -/
theorem end_v144 (V : Valuation τ sig (Elt F)) :
    after ops V (main_v144 : DevRef τ sig) = after ops3b (after ops3a (after ops2 (after ops1b (after ops1a V)))) (main_v144 : DevRef τ sig) := by
  rw [after_ops, keep4b _ main_v144 (by decide), keep4a _ main_v144 (by decide)]

end Cert.ReferenceIdeal.Hand

end
-- ==== Proof.RefLayer1Defs.lean ====
/-
  Layer 1 of the reference, as a function of its inputs, and that function read at an index.

  The layer: for every edge e with source row s(e) and target t(e), the message is
  m(e, o) = Σ_k (Σ_c h(s(e), c) · g(c, k·8 + o)) · w_k(e), where w_k(e) = exp(-1/2 · Σ_d (u(e,d) - μ(k,d))² / (ε + σ(k,d)²))
  is the weight of mixture component k at the edge's coordinates u(e, ·); the messages are added into their target rows,
  divided by the number of edges arriving there (floored at one), the node's own row times the root matrix and the bias
  are added, and the exponential linear unit is applied: v if v > 0, else exp v − 1.
-/
import Idealize.ShloMosaic.Lib.ValueIdx
import proofs.«144358_j6828998001340_2_alg».proof.ReferenceIdeal

noncomputable section

open scoped BigOperators

namespace Cert.ReferenceIdeal.Hand

open Cert.ReferenceIdeal Cert.ReferenceIdeal.Facts₀ Idealize.ShloMosaic Idealize.ShloMosaic.ValueIdx

variable [Facts₀]

/-! ## The layer as a composition of the host operations -/

/-- The first row of the edge list, as a vector: the sources as given. -/
def refRow0 (ei : IVec S2x3200000 32) : IVec S3200000 32 :=
  shapeCast S3200000 (extractStridedSlice S1x3200000 ![0, 0] ei slices_S2x3200000_S1x3200000_0_0) shapeCasts_S1x3200000_S3200000

/-- The second row of the edge list, as a vector: the targets. -/
def refRow1 (ei : IVec S2x3200000 32) : IVec S3200000 32 :=
  shapeCast S3200000 (extractStridedSlice S1x3200000 ![1, 0] ei slices_S2x3200000_S1x3200000_1_0) shapeCasts_S1x3200000_S3200000

/-- The source column: a negative source has the number of nodes added. -/
def refSrc (ei : IVec S2x3200000 32) : IVec S3200000x1 32 :=
  broadcastInDim S3200000x1 ![0] bcast_S3200000_S3200000x1_0
    (select (cmpi .slt (refRow0 ei) (broadcastInDim S3200000 ![] bcast_S_S3200000 (constantI S_ 32 0#32)))
      (addi (refRow0 ei) (broadcastInDim S3200000 ![] bcast_S_S3200000 (constantI S_ 32 100000#32)))
      (refRow0 ei))

/-- The target column. -/
def refDst (ei : IVec S2x3200000 32) : IVec S3200000x1 32 :=
  broadcastInDim S3200000x1 ![0] bcast_S3200000_S3200000x1_0 (refRow1 ei)

/-- The source rows of the node table, one per edge. -/
def refGath1 (h : FVec Ideal S100000x3 .f32) (ei : IVec S2x3200000 32) : FVec Ideal S3200000x3 .f32 :=
  Host.gather gather_S100000x3_S3200000x1_S3200000x3_1_0_n_n_0_1_13 h (refSrc ei)

/-- The gathered rows times the stacked component matrices. -/
def refProj1 (h : FVec Ideal S100000x3 .f32) (ei : IVec S2x3200000 32) (g : FVec Ideal S3x24 .f32) : FVec Ideal S3200000x24 .f32 :=
  Host.dotGeneral (F := Ideal) dot_S3200000x3_S3x24_S3200000x24_1_0_0_1_n_n none (refGath1 h ei) g

/-- The coordinate differences u(e, d) − μ(k, d). -/
def refDiff (ea : FVec Ideal S3200000x3 .f32) (mu : FVec Ideal S3x3 .f32) : FVec Ideal S3200000x3x3 .f32 :=
  subf (F := Ideal) (φ := .f32) (s := S3200000x3x3)
    (broadcastInDim S3200000x3x3 ![0, 1, 2] bcast_S3200000x1x3_S3200000x3x3_0_1_2
      (broadcastInDim S3200000x1x3 ![0, 2] bcast_S3200000x3_S3200000x1x3_0_2 ea))
    (broadcastInDim S3200000x3x3 ![0, 1, 2] bcast_S1x3x3_S3200000x3x3_0_1_2
      (broadcastInDim S1x3x3 ![1, 2] bcast_S3x3_S1x3x3_1_2 mu))

/-- The denominators ε + σ(k, d)². -/
def refDen (sg : FVec Ideal S3x3 .f32) : FVec Ideal S1x3x3 .f32 :=
  addf (F := Ideal) (φ := .f32) (s := S1x3x3) (broadcastInDim S1x3x3 ![] bcast_S_S1x3x3 (constant (F := Ideal) S_ .f32 0x26901D7D#32))
    (mulf (F := Ideal) (φ := .f32) (s := S1x3x3) (broadcastInDim S1x3x3 ![1, 2] bcast_S3x3_S1x3x3_1_2 sg)
      (broadcastInDim S1x3x3 ![1, 2] bcast_S3x3_S1x3x3_1_2 sg))

/-- The exponent's sum over the coordinates. -/
def refExpo (ea : FVec Ideal S3200000x3 .f32) (mu sg : FVec Ideal S3x3 .f32) : FVec Ideal S3200000x3 .f32 :=
  Host.reduceAdd (F := Ideal) (φ := .f32)
    (Host.divf (F := Ideal) (φ := .f32) (s := S3200000x3x3)
      (mulf (F := Ideal) (φ := .f32) (s := S3200000x3x3) (refDiff ea mu) (refDiff ea mu))
      (broadcastInDim S3200000x3x3 ![0, 1, 2] bcast_S1x3x3_S3200000x3x3_0_1_2 (refDen sg)))
    (constant (F := Ideal) S_ .f32 0x00000000#32) reducesTo_S3200000x3x3_S3200000x3_d2 h_S_

/-- The mixture weights, one per edge and component. -/
def refW (ea : FVec Ideal S3200000x3 .f32) (mu sg : FVec Ideal S3x3 .f32) : FVec Ideal S3200000x3 .f32 :=
  Host.exp (F := Ideal) (φ := .f32) (s := S3200000x3)
    (mulf (F := Ideal) (φ := .f32) (s := S3200000x3)
      (broadcastInDim S3200000x3 ![] bcast_S_S3200000x3 (constant (F := Ideal) S_ .f32 0xBF000000#32)) (refExpo ea mu sg))

/-- The messages, one row per edge. -/
def refMsg1 (h : FVec Ideal S100000x3 .f32) (ei : IVec S2x3200000 32) (ea : FVec Ideal S3200000x3 .f32) (g : FVec Ideal S3x24 .f32)
    (mu sg : FVec Ideal S3x3 .f32) : FVec Ideal S3200000x8 .f32 :=
  Host.reduceAdd (F := Ideal) (φ := .f32)
    (mulf (F := Ideal) (φ := .f32) (s := S3200000x3x8)
      (shapeCast S3200000x3x8 (refProj1 h ei g) shapeCasts_S3200000x24_S3200000x3x8)
      (broadcastInDim S3200000x3x8 ![0, 1, 2] bcast_S3200000x3x1_S3200000x3x8_0_1_2
        (broadcastInDim S3200000x3x1 ![0, 1] bcast_S3200000x3_S3200000x3x1_0_1 (refW ea mu sg))))
    (constant (F := Ideal) S_ .f32 0x00000000#32) reducesTo_S3200000x3x8_S3200000x8_d1 h_S_

/-- The messages added into their target rows. -/
def refAgg1 (h : FVec Ideal S100000x3 .f32) (ei : IVec S2x3200000 32) (ea : FVec Ideal S3200000x3 .f32) (g : FVec Ideal S3x24 .f32)
    (mu sg : FVec Ideal S3x3 .f32) : FVec Ideal S100000x8 .f32 :=
  Host.scatterAdd (F := Ideal) (φ := .f32) scatter_S100000x8_S3200000x1_S3200000x8_1_0_0_1
    (broadcastInDim S100000x8 ![] bcast_S_S100000x8 (constant (F := Ideal) S_ .f32 0x00000000#32)) (refDst ei)
    (refMsg1 h ei ea g mu sg)

/-- The number of edges arriving at each node. -/
def refCnt (ei : IVec S2x3200000 32) : FVec Ideal S100000 .f32 :=
  Host.scatterAdd (F := Ideal) (φ := .f32) scatter_S100000_S3200000x1_S3200000_n_0_0_1
    (broadcastInDim S100000 ![] bcast_S_S100000 (constant (F := Ideal) S_ .f32 0x00000000#32)) (refDst ei)
    (broadcastInDim S3200000 ![] bcast_S_S3200000 (constant (F := Ideal) S_ .f32 0x3F800000#32))

/-- That number floored at one. -/
def refFloor (ei : IVec S2x3200000 32) : FVec Ideal S100000 .f32 :=
  maximumf (F := Ideal) (φ := .f32) (s := S100000) (refCnt ei)
    (broadcastInDim S100000 ![] bcast_S_S100000 (constant (F := Ideal) S_ .f32 0x3F800000#32))

/-- The layer before its unit: the mean message, the node's own term, the bias. -/
def refPre1 (h : FVec Ideal S100000x3 .f32) (ei : IVec S2x3200000 32) (ea : FVec Ideal S3200000x3 .f32) (g : FVec Ideal S3x24 .f32)
    (mu sg : FVec Ideal S3x3 .f32) (root : FVec Ideal S3x8 .f32) (b : FVec Ideal S8 .f32) : FVec Ideal S100000x8 .f32 :=
  addf (F := Ideal) (φ := .f32) (s := S100000x8)
    (addf (F := Ideal) (φ := .f32) (s := S100000x8)
      (Host.divf (F := Ideal) (φ := .f32) (s := S100000x8) (refAgg1 h ei ea g mu sg)
        (broadcastInDim S100000x8 ![0, 1] bcast_S100000x1_S100000x8_0_1
          (broadcastInDim S100000x1 ![0] bcast_S100000_S100000x1_0 (refFloor ei))))
      (Host.dotGeneral (F := Ideal) dot_S100000x3_S3x8_S100000x8_1_0_0_1_n_n none h root))
    (broadcastInDim S100000x8 ![0, 1] bcast_S1x8_S100000x8_0_1 (broadcastInDim S1x8 ![1] bcast_S8_S1x8_1 b))

/-- The exponential linear unit on a table of eight columns. -/
def refElu8 (x : FVec Ideal S100000x8 .f32) : FVec Ideal S100000x8 .f32 :=
  select
    (cmpf (F := Ideal) (φ := .f32) (s := S100000x8) .ogt x
      (broadcastInDim S100000x8 ![] bcast_S_S100000x8 (constant (F := Ideal) S_ .f32 0x00000000#32)))
    x
    (mulf (F := Ideal) (φ := .f32) (s := S100000x8)
      (broadcastInDim S100000x8 ![] bcast_S_S100000x8 (constant (F := Ideal) S_ .f32 0x3F800000#32))
      (Host.expm1 (F := Ideal) (φ := .f32) (s := S100000x8)
        (select
          (cmpf (F := Ideal) (φ := .f32) (s := S100000x8) .ogt x
            (broadcastInDim S100000x8 ![] bcast_S_S100000x8 (constant (F := Ideal) S_ .f32 0x00000000#32)))
          (broadcastInDim S100000x8 ![] bcast_S_S100000x8 (id (constant (F := Ideal) S_ .f32 0x00000000#32)))
          x)))

/-- Layer 1. -/
def refLayer1 (h : FVec Ideal S100000x3 .f32) (ei : IVec S2x3200000 32) (ea : FVec Ideal S3200000x3 .f32) (g : FVec Ideal S3x24 .f32)
    (mu sg : FVec Ideal S3x3 .f32) (root : FVec Ideal S3x8 .f32) (b : FVec Ideal S8 .f32) : FVec Ideal S100000x8 .f32 :=
  refElu8 (refPre1 h ei ea g mu sg root b)

end Cert.ReferenceIdeal.Hand

end
-- ==== Proof.RefLayer2Defs.lean ====
/-
  Layer 2 of the reference, as a function of its inputs: the composition of its host operations.

  The layer has the shape of the first one with 8 input and 16 output columns: the source rows of the node table
  are gathered, multiplied by the three stacked 8 × 16 component matrices, weighted by the mixture weights of the edge's
  coordinates and summed over the components; the messages are added into their target rows, divided by the floored
  count, and the node's own term and the bias are added; the exponential linear unit is applied.
-/
import Idealize.ShloMosaic.Lib.ValueIdx
import proofs.«144358_j6828998001340_2_alg».proof.ReferenceIdeal
import proofs.«144358_j6828998001340_2_alg».proof.Proof.RefLayer1Defs

noncomputable section

open scoped BigOperators

namespace Cert.ReferenceIdeal.Hand

open Cert.ReferenceIdeal Cert.ReferenceIdeal.Facts₀ Idealize.ShloMosaic Idealize.ShloMosaic.ValueIdx

variable [Facts₀]

/-- The source rows of the node table, one per edge. -/
def refGath2 (h : FVec Ideal S100000x8 .f32) (ei : IVec S2x3200000 32) : FVec Ideal S3200000x8 .f32 :=
  Host.gather gather_S100000x8_S3200000x1_S3200000x8_1_0_n_n_0_1_18 h (refSrc ei)

/-- The gathered rows times the stacked component matrices. -/
def refProj2 (h : FVec Ideal S100000x8 .f32) (ei : IVec S2x3200000 32) (g : FVec Ideal S8x48 .f32) : FVec Ideal S3200000x48 .f32 :=
  Host.dotGeneral (F := Ideal) dot_S3200000x8_S8x48_S3200000x48_1_0_0_1_n_n none (refGath2 h ei) g

/-- The messages, one row per edge. -/
def refMsg2 (h : FVec Ideal S100000x8 .f32) (ei : IVec S2x3200000 32) (ea : FVec Ideal S3200000x3 .f32) (g : FVec Ideal S8x48 .f32)
    (mu sg : FVec Ideal S3x3 .f32) : FVec Ideal S3200000x16 .f32 :=
  Host.reduceAdd (F := Ideal) (φ := .f32)
    (mulf (F := Ideal) (φ := .f32) (s := S3200000x3x16)
      (shapeCast S3200000x3x16 (refProj2 h ei g) shapeCasts_S3200000x48_S3200000x3x16)
      (broadcastInDim S3200000x3x16 ![0, 1, 2] bcast_S3200000x3x1_S3200000x3x16_0_1_2
        (broadcastInDim S3200000x3x1 ![0, 1] bcast_S3200000x3_S3200000x3x1_0_1 (refW ea mu sg))))
    (constant (F := Ideal) S_ .f32 0x00000000#32) reducesTo_S3200000x3x16_S3200000x16_d1 h_S_

/-- The messages added into their target rows. -/
def refAgg2 (h : FVec Ideal S100000x8 .f32) (ei : IVec S2x3200000 32) (ea : FVec Ideal S3200000x3 .f32) (g : FVec Ideal S8x48 .f32)
    (mu sg : FVec Ideal S3x3 .f32) : FVec Ideal S100000x16 .f32 :=
  Host.scatterAdd (F := Ideal) (φ := .f32) scatter_S100000x16_S3200000x1_S3200000x16_1_0_0_1
    (broadcastInDim S100000x16 ![] bcast_S_S100000x16 (constant (F := Ideal) S_ .f32 0x00000000#32)) (refDst ei)
    (refMsg2 h ei ea g mu sg)

/-- The layer before its unit: the mean message, the node's own term, the bias. -/
def refPre2 (h : FVec Ideal S100000x8 .f32) (ei : IVec S2x3200000 32) (ea : FVec Ideal S3200000x3 .f32) (g : FVec Ideal S8x48 .f32)
    (mu sg : FVec Ideal S3x3 .f32) (root : FVec Ideal S8x16 .f32) (b : FVec Ideal S16 .f32) : FVec Ideal S100000x16 .f32 :=
  addf (F := Ideal) (φ := .f32) (s := S100000x16)
    (addf (F := Ideal) (φ := .f32) (s := S100000x16)
      (Host.divf (F := Ideal) (φ := .f32) (s := S100000x16) (refAgg2 h ei ea g mu sg)
        (broadcastInDim S100000x16 ![0, 1] bcast_S100000x1_S100000x16_0_1
          (broadcastInDim S100000x1 ![0] bcast_S100000_S100000x1_0 (refFloor ei))))
      (Host.dotGeneral (F := Ideal) dot_S100000x8_S8x16_S100000x16_1_0_0_1_n_n none h root))
    (broadcastInDim S100000x16 ![0, 1] bcast_S1x16_S100000x16_0_1 (broadcastInDim S1x16 ![1] bcast_S16_S1x16_1 b))

/-- The exponential linear unit on a table of sixteen columns. -/
def refElu16 (x : FVec Ideal S100000x16 .f32) : FVec Ideal S100000x16 .f32 :=
  select
    (cmpf (F := Ideal) (φ := .f32) (s := S100000x16) .ogt x
      (broadcastInDim S100000x16 ![] bcast_S_S100000x16 (constant (F := Ideal) S_ .f32 0x00000000#32)))
    x
    (mulf (F := Ideal) (φ := .f32) (s := S100000x16)
      (broadcastInDim S100000x16 ![] bcast_S_S100000x16 (constant (F := Ideal) S_ .f32 0x3F800000#32))
      (Host.expm1 (F := Ideal) (φ := .f32) (s := S100000x16)
        (select
          (cmpf (F := Ideal) (φ := .f32) (s := S100000x16) .ogt x
            (broadcastInDim S100000x16 ![] bcast_S_S100000x16 (constant (F := Ideal) S_ .f32 0x00000000#32)))
          (broadcastInDim S100000x16 ![] bcast_S_S100000x16 (id (constant (F := Ideal) S_ .f32 0x00000000#32)))
          x)))

/-- Layer 2. -/
def refLayer2 (h : FVec Ideal S100000x8 .f32) (ei : IVec S2x3200000 32) (ea : FVec Ideal S3200000x3 .f32) (g : FVec Ideal S8x48 .f32)
    (mu sg : FVec Ideal S3x3 .f32) (root : FVec Ideal S8x16 .f32) (b : FVec Ideal S16 .f32) : FVec Ideal S100000x16 .f32 :=
  refElu16 (refPre2 h ei ea g mu sg root b)

end Cert.ReferenceIdeal.Hand

end
-- ==== Proof.RefLayer3Defs.lean ====
/-
  Layer 3 of the reference, as a function of its inputs: the composition of its host operations.

  The layer has the shape of the first one with 16 input and 8 output columns: the source rows of the node table
  are gathered, multiplied by the three stacked 16 × 8 component matrices, weighted by the mixture weights of the edge's
  coordinates and summed over the components; the messages are added into their target rows, divided by the floored
  count, and the node's own term and the bias are added; the exponential linear unit is applied.
-/
import Idealize.ShloMosaic.Lib.ValueIdx
import proofs.«144358_j6828998001340_2_alg».proof.ReferenceIdeal
import proofs.«144358_j6828998001340_2_alg».proof.Proof.RefLayer1Defs

noncomputable section

open scoped BigOperators

namespace Cert.ReferenceIdeal.Hand

open Cert.ReferenceIdeal Cert.ReferenceIdeal.Facts₀ Idealize.ShloMosaic Idealize.ShloMosaic.ValueIdx

variable [Facts₀]

/-- The source rows of the node table, one per edge. -/
def refGath3 (h : FVec Ideal S100000x16 .f32) (ei : IVec S2x3200000 32) : FVec Ideal S3200000x16 .f32 :=
  Host.gather gather_S100000x16_S3200000x1_S3200000x16_1_0_n_n_0_1_116 h (refSrc ei)

/-- The gathered rows times the stacked component matrices. -/
def refProj3 (h : FVec Ideal S100000x16 .f32) (ei : IVec S2x3200000 32) (g : FVec Ideal S16x24 .f32) : FVec Ideal S3200000x24 .f32 :=
  Host.dotGeneral (F := Ideal) dot_S3200000x16_S16x24_S3200000x24_1_0_0_1_n_n none (refGath3 h ei) g

/-- The messages, one row per edge. -/
def refMsg3 (h : FVec Ideal S100000x16 .f32) (ei : IVec S2x3200000 32) (ea : FVec Ideal S3200000x3 .f32) (g : FVec Ideal S16x24 .f32)
    (mu sg : FVec Ideal S3x3 .f32) : FVec Ideal S3200000x8 .f32 :=
  Host.reduceAdd (F := Ideal) (φ := .f32)
    (mulf (F := Ideal) (φ := .f32) (s := S3200000x3x8)
      (shapeCast S3200000x3x8 (refProj3 h ei g) shapeCasts_S3200000x24_S3200000x3x8)
      (broadcastInDim S3200000x3x8 ![0, 1, 2] bcast_S3200000x3x1_S3200000x3x8_0_1_2
        (broadcastInDim S3200000x3x1 ![0, 1] bcast_S3200000x3_S3200000x3x1_0_1 (refW ea mu sg))))
    (constant (F := Ideal) S_ .f32 0x00000000#32) reducesTo_S3200000x3x8_S3200000x8_d1 h_S_

/-- The messages added into their target rows. -/
def refAgg3 (h : FVec Ideal S100000x16 .f32) (ei : IVec S2x3200000 32) (ea : FVec Ideal S3200000x3 .f32) (g : FVec Ideal S16x24 .f32)
    (mu sg : FVec Ideal S3x3 .f32) : FVec Ideal S100000x8 .f32 :=
  Host.scatterAdd (F := Ideal) (φ := .f32) scatter_S100000x8_S3200000x1_S3200000x8_1_0_0_1
    (broadcastInDim S100000x8 ![] bcast_S_S100000x8 (constant (F := Ideal) S_ .f32 0x00000000#32)) (refDst ei)
    (refMsg3 h ei ea g mu sg)

/-- The layer before its unit: the mean message, the node's own term, the bias. -/
def refPre3 (h : FVec Ideal S100000x16 .f32) (ei : IVec S2x3200000 32) (ea : FVec Ideal S3200000x3 .f32) (g : FVec Ideal S16x24 .f32)
    (mu sg : FVec Ideal S3x3 .f32) (root : FVec Ideal S16x8 .f32) (b : FVec Ideal S8 .f32) : FVec Ideal S100000x8 .f32 :=
  addf (F := Ideal) (φ := .f32) (s := S100000x8)
    (addf (F := Ideal) (φ := .f32) (s := S100000x8)
      (Host.divf (F := Ideal) (φ := .f32) (s := S100000x8) (refAgg3 h ei ea g mu sg)
        (broadcastInDim S100000x8 ![0, 1] bcast_S100000x1_S100000x8_0_1
          (broadcastInDim S100000x1 ![0] bcast_S100000_S100000x1_0 (refFloor ei))))
      (Host.dotGeneral (F := Ideal) dot_S100000x16_S16x8_S100000x8_1_0_0_1_n_n none h root))
    (broadcastInDim S100000x8 ![0, 1] bcast_S1x8_S100000x8_0_1 (broadcastInDim S1x8 ![1] bcast_S8_S1x8_1 b))

/-- Layer 3. -/
def refLayer3 (h : FVec Ideal S100000x16 .f32) (ei : IVec S2x3200000 32) (ea : FVec Ideal S3200000x3 .f32) (g : FVec Ideal S16x24 .f32)
    (mu sg : FVec Ideal S3x3 .f32) (root : FVec Ideal S16x8 .f32) (b : FVec Ideal S8 .f32) : FVec Ideal S100000x8 .f32 :=
  refElu8 (refPre3 h ei ea g mu sg root b)

end Cert.ReferenceIdeal.Hand

end
-- ==== Proof.RefLayer4Defs.lean ====
/-
  Layer 4 of the reference, as a function of its inputs: the composition of its host operations.

  The layer has the shape of the first one with 8 input and 4 output columns: the source rows of the node table
  are gathered, multiplied by the three stacked 8 × 4 component matrices, weighted by the mixture weights of the edge's
  coordinates and summed over the components; the messages are added into their target rows, divided by the floored
  count, and the node's own term and the bias are added; this last layer has no unit.
-/
import Idealize.ShloMosaic.Lib.ValueIdx
import proofs.«144358_j6828998001340_2_alg».proof.ReferenceIdeal
import proofs.«144358_j6828998001340_2_alg».proof.Proof.RefLayer1Defs

noncomputable section

open scoped BigOperators

namespace Cert.ReferenceIdeal.Hand

open Cert.ReferenceIdeal Cert.ReferenceIdeal.Facts₀ Idealize.ShloMosaic Idealize.ShloMosaic.ValueIdx

variable [Facts₀]

/-- The source rows of the node table, one per edge. -/
def refGath4 (h : FVec Ideal S100000x8 .f32) (ei : IVec S2x3200000 32) : FVec Ideal S3200000x8 .f32 :=
  Host.gather gather_S100000x8_S3200000x1_S3200000x8_1_0_n_n_0_1_18 h (refSrc ei)

/-- The gathered rows times the stacked component matrices. -/
def refProj4 (h : FVec Ideal S100000x8 .f32) (ei : IVec S2x3200000 32) (g : FVec Ideal S8x12 .f32) : FVec Ideal S3200000x12 .f32 :=
  Host.dotGeneral (F := Ideal) dot_S3200000x8_S8x12_S3200000x12_1_0_0_1_n_n none (refGath4 h ei) g

/-- The messages, one row per edge. -/
def refMsg4 (h : FVec Ideal S100000x8 .f32) (ei : IVec S2x3200000 32) (ea : FVec Ideal S3200000x3 .f32) (g : FVec Ideal S8x12 .f32)
    (mu sg : FVec Ideal S3x3 .f32) : FVec Ideal S3200000x4 .f32 :=
  Host.reduceAdd (F := Ideal) (φ := .f32)
    (mulf (F := Ideal) (φ := .f32) (s := S3200000x3x4)
      (shapeCast S3200000x3x4 (refProj4 h ei g) shapeCasts_S3200000x12_S3200000x3x4)
      (broadcastInDim S3200000x3x4 ![0, 1, 2] bcast_S3200000x3x1_S3200000x3x4_0_1_2
        (broadcastInDim S3200000x3x1 ![0, 1] bcast_S3200000x3_S3200000x3x1_0_1 (refW ea mu sg))))
    (constant (F := Ideal) S_ .f32 0x00000000#32) reducesTo_S3200000x3x4_S3200000x4_d1 h_S_

/-- The messages added into their target rows. -/
def refAgg4 (h : FVec Ideal S100000x8 .f32) (ei : IVec S2x3200000 32) (ea : FVec Ideal S3200000x3 .f32) (g : FVec Ideal S8x12 .f32)
    (mu sg : FVec Ideal S3x3 .f32) : FVec Ideal S100000x4 .f32 :=
  Host.scatterAdd (F := Ideal) (φ := .f32) scatter_S100000x4_S3200000x1_S3200000x4_1_0_0_1
    (broadcastInDim S100000x4 ![] bcast_S_S100000x4 (constant (F := Ideal) S_ .f32 0x00000000#32)) (refDst ei)
    (refMsg4 h ei ea g mu sg)

/-- The layer before its unit: the mean message, the node's own term, the bias. -/
def refPre4 (h : FVec Ideal S100000x8 .f32) (ei : IVec S2x3200000 32) (ea : FVec Ideal S3200000x3 .f32) (g : FVec Ideal S8x12 .f32)
    (mu sg : FVec Ideal S3x3 .f32) (root : FVec Ideal S8x4 .f32) (b : FVec Ideal S4 .f32) : FVec Ideal S100000x4 .f32 :=
  addf (F := Ideal) (φ := .f32) (s := S100000x4)
    (addf (F := Ideal) (φ := .f32) (s := S100000x4)
      (Host.divf (F := Ideal) (φ := .f32) (s := S100000x4) (refAgg4 h ei ea g mu sg)
        (broadcastInDim S100000x4 ![0, 1] bcast_S100000x1_S100000x4_0_1
          (broadcastInDim S100000x1 ![0] bcast_S100000_S100000x1_0 (refFloor ei))))
      (Host.dotGeneral (F := Ideal) dot_S100000x8_S8x4_S100000x4_1_0_0_1_n_n none h root))
    (broadcastInDim S100000x4 ![0, 1] bcast_S1x4_S100000x4_0_1 (broadcastInDim S1x4 ![1] bcast_S4_S1x4_1 b))

/-- Layer 4. -/
def refLayer4 (h : FVec Ideal S100000x8 .f32) (ei : IVec S2x3200000 32) (ea : FVec Ideal S3200000x3 .f32) (g : FVec Ideal S8x12 .f32)
    (mu sg : FVec Ideal S3x3 .f32) (root : FVec Ideal S8x4 .f32) (b : FVec Ideal S4 .f32) : FVec Ideal S100000x4 .f32 :=
  refPre4 h ei ea g mu sg root b

end Cert.ReferenceIdeal.Hand

end
-- ==== Proof.RefValue.lean ====
import proofs.«144358_j6828998001340_2_alg».proof.Proof.RefKeep
import proofs.«144358_j6828998001340_2_alg».proof.Proof.RefLayer1Defs
import proofs.«144358_j6828998001340_2_alg».proof.Proof.RefLayer2Defs
import proofs.«144358_j6828998001340_2_alg».proof.Proof.RefLayer3Defs
import proofs.«144358_j6828998001340_2_alg».proof.Proof.RefLayer4Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # Layer 1's output buffer after the reference's whole line

The first piece's operations, run from any contents, leave in `main_v49` layer 1's value before its unit, as a
function of what the argument arrays held; the unit's operations leave in `main_v50` the unit of what `main_v49`
held: in both cases the operations' results composed in their order are that function's definition unfolded. No later
piece writes `main_v50`. The two row vectors of the edge list, which every layer reads, are the edge list's rows. -/

/-! ## The two rows of the edge list -/

set_option maxHeartbeats 1000000 in
/-- From any contents `W`, the first piece leaves in `main_v1` the first row of what `W` holds in the edge list. -/
theorem base_src (W : Valuation τ sig (Elt Ideal)) : after ops1a W (main_v1 : DevRef τ sig) = refRow0 (W (main_arg1 : DevRef τ sig)) := by
  simp only [ops1a]
  after_results_simp
  rfl

set_option maxHeartbeats 1000000 in
/-- From any contents `W`, the first piece leaves in `main_v3` the second row of what `W` holds in the edge list. -/
theorem base_dst (W : Valuation τ sig (Elt Ideal)) : after ops1a W (main_v3 : DevRef τ sig) = refRow1 (W (main_arg1 : DevRef τ sig)) := by
  simp only [ops1a]
  after_results_simp
  rfl

/-- At the end of layer 1 the buffer `main_v1` holds the edge list's first row. -/
theorem s1_src (V : Valuation τ sig (Elt Ideal)) :
    after ops1b (after ops1a V) (main_v1 : DevRef τ sig) = refRow0 (V (main_arg1 : DevRef τ sig)) :=
  (s1_carried V main_v1 (by decide)).trans (base_src V)

/-- At the end of layer 1 the buffer `main_v3` holds the edge list's second row. -/
theorem s1_dst (V : Valuation τ sig (Elt Ideal)) :
    after ops1b (after ops1a V) (main_v3 : DevRef τ sig) = refRow1 (V (main_arg1 : DevRef τ sig)) :=
  (s1_carried V main_v3 (by decide)).trans (base_dst V)

/-- At the end of layer 2 the buffer `main_v1` holds the edge list's first row. -/
theorem s2_src (V : Valuation τ sig (Elt Ideal)) :
    after ops2 (after ops1b (after ops1a V)) (main_v1 : DevRef τ sig) = refRow0 (V (main_arg1 : DevRef τ sig)) :=
  (s2_carried V main_v1 (by decide)).trans (base_src V)

/-- At the end of layer 2 the buffer `main_v3` holds the edge list's second row. -/
theorem s2_dst (V : Valuation τ sig (Elt Ideal)) :
    after ops2 (after ops1b (after ops1a V)) (main_v3 : DevRef τ sig) = refRow1 (V (main_arg1 : DevRef τ sig)) :=
  (s2_carried V main_v3 (by decide)).trans (base_dst V)

/-- At the end of layer 3 the buffer `main_v1` holds the edge list's first row. -/
theorem s3_src (V : Valuation τ sig (Elt Ideal)) :
    after ops3b (after ops3a (after ops2 (after ops1b (after ops1a V)))) (main_v1 : DevRef τ sig) = refRow0 (V (main_arg1 : DevRef τ sig)) :=
  (s3_carried V main_v1 (by decide)).trans (base_src V)

/-- At the end of layer 3 the buffer `main_v3` holds the edge list's second row. -/
theorem s3_dst (V : Valuation τ sig (Elt Ideal)) :
    after ops3b (after ops3a (after ops2 (after ops1b (after ops1a V)))) (main_v3 : DevRef τ sig) = refRow1 (V (main_arg1 : DevRef τ sig)) :=
  (s3_carried V main_v3 (by decide)).trans (base_dst V)

/-! ## Layer 1 -/

attribute [local irreducible] Host.reduceAdd Host.gather Host.scatterAdd in
set_option maxHeartbeats 2000000 in
/-- From any contents `W`, the first piece leaves in `main_v49` layer 1's value before its unit: `refPre1` of what `W`
    holds in the argument arrays. -/
theorem pre1_after (W : Valuation τ sig (Elt Ideal)) :
    after ops1a W (main_v49 : DevRef τ sig)
      = refPre1 (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) := by
  simp only [ops1a]
  after_results_simp
  rfl

set_option maxHeartbeats 1000000 in
/-- From any contents `W`, the unit's operations leave in `main_v50` the exponential linear unit of what `W` holds in
    `main_v49`. -/
theorem elu1_after (W : Valuation τ sig (Elt Ideal)) :
    after ops1b W (main_v50 : DevRef τ sig) = refElu8 (W (main_v49 : DevRef τ sig)) := by
  simp only [ops1b]
  after_results_simp
  rfl

/-- Layer 1's output buffer after the whole line: layer 1's function of the argument arrays. -/
theorem val_layer1 (V : Valuation τ sig (Elt Ideal)) :
    after ops V (main_v50 : DevRef τ sig)
      = refLayer1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [end_v50, elu1_after, pre1_after]
  rfl

/-! # Layer 2's output buffer after the reference's whole line

The layer's operations, run from contents in which `main_v1` and `main_v3` hold the two rows of an edge list, leave in
`main_v96` the layer's value before its unit, and the unit's operations leave in `main_v97` the unit of that: the
operations' results composed in their order are the function's definition unfolded. At the end of layer 1 the two
buffers do hold the edge list's rows and the argument arrays are as launched; no later piece writes `main_v97`. -/

/-- Layer 2's operations before its unit. -/
abbrev ops2a : List (HloOp τ sig (Elt F)) :=
  [ StableHlo.nullary main_c_8 (constantI S_ 32 0#32),
    StableHlo.unary main_c_8 main_v51 (broadcastInDim S3200000 ![] bcast_S_S3200000 : (⟨S_, .i32⟩ : BufTy).Contents (Elt F) → (⟨S3200000, .i32⟩ : BufTy).Contents (Elt F)),
    StableHlo.binary main_v1 main_v51 main_v52 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v53 (broadcastInDim S3200000 ![] bcast_S_S3200000 : (⟨S_, .i32⟩ : BufTy).Contents (Elt F) → (⟨S3200000, .i32⟩ : BufTy).Contents (Elt F)),
    StableHlo.binary main_v1 main_v53 main_v54 (addi : (⟨S3200000, .i32⟩ : BufTy).Contents (Elt F) → (⟨S3200000, .i32⟩ : BufTy).Contents (Elt F) → (⟨S3200000, .i32⟩ : BufTy).Contents (Elt F)),
    StableHlo.ternary main_v52 main_v54 main_v1 main_v55 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v55 main_v56 (broadcastInDim S3200000x1 ![0] bcast_S3200000_S3200000x1_0 : (⟨S3200000, .i32⟩ : BufTy).Contents (Elt F) → (⟨S3200000x1, .i32⟩ : BufTy).Contents (Elt F)),
    StableHlo.binary main_v50 main_v56 main_v57 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.binary main_v57 main_arg8 main_v58 ((fun l r => Host.dotGeneral dot_S3200000x8_S8x48_S3200000x48_1_0_0_1_n_n none l r) : (⟨S3200000x8, .f32⟩ : BufTy).Contents (Elt F) → (⟨S8x48, .f32⟩ : BufTy).Contents (Elt F) → (⟨S3200000x48, .f32⟩ : BufTy).Contents (Elt F)),
    StableHlo.unary main_arg2 main_v59 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg9 main_v60 (broadcastInDim S1x3x3 ![1, 2] bcast_S3x3_S1x3x3_1_2 : (⟨S3x3, .f32⟩ : BufTy).Contents (Elt F) → (⟨S1x3x3, .f32⟩ : BufTy).Contents (Elt F)),
    StableHlo.unary main_v59 main_v61 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v60 main_v62 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v61 main_v62 main_v63 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v63 main_v63 main_v64 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg10 main_v65 (broadcastInDim S1x3x3 ![1, 2] bcast_S3x3_S1x3x3_1_2 : (⟨S3x3, .f32⟩ : BufTy).Contents (Elt F) → (⟨S1x3x3, .f32⟩ : BufTy).Contents (Elt F)),
    StableHlo.binary main_v65 main_v65 main_v66 (mulf : (⟨S1x3x3, .f32⟩ : BufTy).Contents (Elt F) → (⟨S1x3x3, .f32⟩ : BufTy).Contents (Elt F) → (⟨S1x3x3, .f32⟩ : BufTy).Contents (Elt F)),
    StableHlo.nullary main_cst_10 (constant S_ .f32 0x26901D7D#32),
    StableHlo.unary main_cst_10 main_v67 (broadcastInDim S1x3x3 ![] bcast_S_S1x3x3 : (⟨S_, .f32⟩ : BufTy).Contents (Elt F) → (⟨S1x3x3, .f32⟩ : BufTy).Contents (Elt F)),
    StableHlo.binary main_v67 main_v66 main_v68 (addf : (⟨S1x3x3, .f32⟩ : BufTy).Contents (Elt F) → (⟨S1x3x3, .f32⟩ : BufTy).Contents (Elt F) → (⟨S1x3x3, .f32⟩ : BufTy).Contents (Elt F)),
    StableHlo.unary main_v68 main_v69 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v64 main_v69 main_v70 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_11 (constant S_ .f32 0x00000000#32),
    StableHlo.binary main_v70 main_cst_11 main_v71 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_12 (constant S_ .f32 0xBF000000#32),
    StableHlo.unary main_cst_12 main_v72 (broadcastInDim S3200000x3 ![] bcast_S_S3200000x3 : (⟨S_, .f32⟩ : BufTy).Contents (Elt F) → (⟨S3200000x3, .f32⟩ : BufTy).Contents (Elt F)),
    StableHlo.binary main_v72 main_v71 main_v73 (mulf : (⟨S3200000x3, .f32⟩ : BufTy).Contents (Elt F) → (⟨S3200000x3, .f32⟩ : BufTy).Contents (Elt F) → (⟨S3200000x3, .f32⟩ : BufTy).Contents (Elt F)),
    StableHlo.unary main_v73 main_v74 (Host.exp : (⟨S3200000x3, .f32⟩ : BufTy).Contents (Elt F) → (⟨S3200000x3, .f32⟩ : BufTy).Contents (Elt F)),
    StableHlo.reshape main_v58 main_v75 rfl shapeCasts_S3200000x48_S3200000x3x16,
    StableHlo.unary main_v74 main_v76 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v76 main_v77 (broadcastInDim S3200000x3x16 ![0, 1, 2] bcast_S3200000x3x1_S3200000x3x16_0_1_2 : (⟨S3200000x3x1, .f32⟩ : BufTy).Contents (Elt F) → (⟨S3200000x3x16, .f32⟩ : BufTy).Contents (Elt F)),
    StableHlo.binary main_v75 main_v77 main_v78 (mulf : (⟨S3200000x3x16, .f32⟩ : BufTy).Contents (Elt F) → (⟨S3200000x3x16, .f32⟩ : BufTy).Contents (Elt F) → (⟨S3200000x3x16, .f32⟩ : BufTy).Contents (Elt F)),
    StableHlo.nullary main_cst_13 (constant S_ .f32 0x00000000#32),
    StableHlo.binary main_v78 main_cst_13 main_v79 ((fun x v => Host.reduceAdd x v reducesTo_S3200000x3x16_S3200000x16_d1 h_S_) : (⟨S3200000x3x16, .f32⟩ : BufTy).Contents (Elt F) → (⟨S_, .f32⟩ : BufTy).Contents (Elt F) → (⟨S3200000x16, .f32⟩ : BufTy).Contents (Elt F)),
    StableHlo.nullary main_cst_14 (constant S_ .f32 0x00000000#32),
    StableHlo.unary main_cst_14 main_v80 (broadcastInDim S100000x16 ![] bcast_S_S100000x16 : (⟨S_, .f32⟩ : BufTy).Contents (Elt F) → (⟨S100000x16, .f32⟩ : BufTy).Contents (Elt F)),
    StableHlo.unary main_v3 main_v81 (broadcastInDim S3200000x1 ![0] bcast_S3200000_S3200000x1_0 : (⟨S3200000, .i32⟩ : BufTy).Contents (Elt F) → (⟨S3200000x1, .i32⟩ : BufTy).Contents (Elt F)),
    StableHlo.ternary main_v80 main_v81 main_v79 main_v82 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_15 (constant S_ .f32 0x3F800000#32),
    StableHlo.unary main_cst_15 main_v83 (broadcastInDim S3200000 ![] bcast_S_S3200000 : (⟨S_, .f32⟩ : BufTy).Contents (Elt F) → (⟨S3200000, .f32⟩ : BufTy).Contents (Elt F)),
    StableHlo.nullary main_cst_16 (constant S_ .f32 0x00000000#32),
    StableHlo.unary main_cst_16 main_v84 (broadcastInDim S100000 ![] bcast_S_S100000 : (⟨S_, .f32⟩ : BufTy).Contents (Elt F) → (⟨S100000, .f32⟩ : BufTy).Contents (Elt F)),
    StableHlo.unary main_v3 main_v85 (broadcastInDim S3200000x1 ![0] bcast_S3200000_S3200000x1_0 : (⟨S3200000, .i32⟩ : BufTy).Contents (Elt F) → (⟨S3200000x1, .i32⟩ : BufTy).Contents (Elt F)),
    StableHlo.ternary main_v84 main_v85 main_v83 main_v86 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_17 (constant S_ .f32 0x3F800000#32),
    StableHlo.unary main_cst_17 main_v87 (broadcastInDim S100000 ![] bcast_S_S100000 : (⟨S_, .f32⟩ : BufTy).Contents (Elt F) → (⟨S100000, .f32⟩ : BufTy).Contents (Elt F)),
    StableHlo.binary main_v86 main_v87 main_v88 (maximumf : (⟨S100000, .f32⟩ : BufTy).Contents (Elt F) → (⟨S100000, .f32⟩ : BufTy).Contents (Elt F) → (⟨S100000, .f32⟩ : BufTy).Contents (Elt F)),
    StableHlo.unary main_v88 main_v89 (broadcastInDim S100000x1 ![0] bcast_S100000_S100000x1_0 : (⟨S100000, .f32⟩ : BufTy).Contents (Elt F) → (⟨S100000x1, .f32⟩ : BufTy).Contents (Elt F)),
    StableHlo.unary main_v89 main_v90 (broadcastInDim S100000x16 ![0, 1] bcast_S100000x1_S100000x16_0_1 : (⟨S100000x1, .f32⟩ : BufTy).Contents (Elt F) → (⟨S100000x16, .f32⟩ : BufTy).Contents (Elt F)),
    StableHlo.binary main_v82 main_v90 main_v91 (Host.divf : (⟨S100000x16, .f32⟩ : BufTy).Contents (Elt F) → (⟨S100000x16, .f32⟩ : BufTy).Contents (Elt F) → (⟨S100000x16, .f32⟩ : BufTy).Contents (Elt F)),
    StableHlo.binary main_v50 main_arg11 main_v92 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.binary main_v91 main_v92 main_v93 (addf : (⟨S100000x16, .f32⟩ : BufTy).Contents (Elt F) → (⟨S100000x16, .f32⟩ : BufTy).Contents (Elt F) → (⟨S100000x16, .f32⟩ : BufTy).Contents (Elt F)),
    StableHlo.unary main_arg12 main_v94 (broadcastInDim S1x16 ![1] bcast_S16_S1x16_1 : (⟨S16, .f32⟩ : BufTy).Contents (Elt F) → (⟨S1x16, .f32⟩ : BufTy).Contents (Elt F)),
    StableHlo.unary main_v94 main_v95 (broadcastInDim S100000x16 ![0, 1] bcast_S1x16_S100000x16_0_1 : (⟨S1x16, .f32⟩ : BufTy).Contents (Elt F) → (⟨S100000x16, .f32⟩ : BufTy).Contents (Elt F)),
    StableHlo.binary main_v93 main_v95 main_v96 (addf : (⟨S100000x16, .f32⟩ : BufTy).Contents (Elt F) → (⟨S100000x16, .f32⟩ : BufTy).Contents (Elt F) → (⟨S100000x16, .f32⟩ : BufTy).Contents (Elt F)) ]

/-- Layer 2's unit: the call of the exponential linear unit on `main_v96`, the two selects it calls inline. -/
abbrev ops2b : List (HloOp τ sig (Elt F)) :=
  [ StableHlo.TRef.nullary main_call1.cst (constant S_ .f32 0x00000000#32),
    StableHlo.TRef.unary main_call1.cst main_call1.v0 (broadcastInDim S100000x16 ![] bcast_S_S100000x16),
    StableHlo.TRef.binary (.of main_v96 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v96 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v96 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v96 : StableHlo.TRef sig ⟨S100000x16, .f32⟩) main_call1.v7 main_call1.call1.v0 select ]

/-- Layer 2's piece is those two in turn. -/
theorem ops2_split : (ops2 : List (HloOp τ sig (Elt F))) = ops2a ++ ops2b := rfl

attribute [local irreducible] Host.reduceAdd Host.gather Host.scatterAdd in
set_option maxHeartbeats 2000000 in
/-- From contents `W` in which `main_v1` and `main_v3` hold the rows of the edge list `ei`, layer 2's operations before its unit leave
    in `main_v96` the layer's value before its unit: `refPre2` of what `W` holds in `main_v50`, of `ei`, and of what `W` holds in the
    argument arrays. -/
theorem pre2_after (W : Valuation τ sig (Elt Ideal)) (ei : IVec S2x3200000 32)
    (h1 : W (main_v1 : DevRef τ sig) = refRow0 ei) (h3 : W (main_v3 : DevRef τ sig) = refRow1 ei) :
    after ops2a W (main_v96 : DevRef τ sig)
      = refPre2 (W (main_v50 : DevRef τ sig)) ei (W (main_arg2 : DevRef τ sig)) (W (main_arg8 : DevRef τ sig)) (W (main_arg9 : DevRef τ sig)) (W (main_arg10 : DevRef τ sig)) (W (main_arg11 : DevRef τ sig)) (W (main_arg12 : DevRef τ sig)) := by
  simp only [ops2a]
  after_results_simp
  rw [h1, h3]
  rfl

set_option maxHeartbeats 1000000 in
/-- From any contents `W`, the unit's operations leave in `main_v97` the exponential linear unit of what `W` holds in
    `main_v96`. -/
theorem elu2_after (W : Valuation τ sig (Elt Ideal)) :
    after ops2b W (main_v97 : DevRef τ sig) = refElu16 (W (main_v96 : DevRef τ sig)) := by
  simp only [ops2b]
  after_results_simp
  rfl

/-- Layer 2's output buffer after the whole line: layer 2's function of layer 1's output buffer and the argument arrays. -/
theorem val_layer2 (V : Valuation τ sig (Elt Ideal)) :
    after ops V (main_v97 : DevRef τ sig)
      = refLayer2 (after ops V (main_v50 : DevRef τ sig)) (V (main_arg1 : DevRef τ sig)) (V (main_arg2 : DevRef τ sig)) (V (main_arg8 : DevRef τ sig)) (V (main_arg9 : DevRef τ sig)) (V (main_arg10 : DevRef τ sig)) (V (main_arg11 : DevRef τ sig)) (V (main_arg12 : DevRef τ sig)) := by
  rw [end_v97, end_v50, ops2_split, after_app, elu2_after, pre2_after _ (V (main_arg1 : DevRef τ sig)) (s1_src V) (s1_dst V)]
  rw [s1_carried V main_arg2 (by decide), s1_carried V main_arg8 (by decide), s1_carried V main_arg9 (by decide), s1_carried V main_arg10 (by decide), s1_carried V main_arg11 (by decide), s1_carried V main_arg12 (by decide)]
  rw [base_arg V main_arg2 (by decide), base_arg V main_arg8 (by decide), base_arg V main_arg9 (by decide), base_arg V main_arg10 (by decide), base_arg V main_arg11 (by decide), base_arg V main_arg12 (by decide)]
  rfl

/-! # Layer 3's output buffer after the reference's whole line

The layer's operations, run from contents in which `main_v1` and `main_v3` hold the two rows of an edge list, leave in
`main_v143` the layer's value before its unit, and the unit's operations leave in `main_v144` the unit of that: the
operations' results composed in their order are the function's definition unfolded. At the end of layer 2 the two
buffers do hold the edge list's rows and the argument arrays are as launched; no later piece writes `main_v144`. -/

/-- Layer 3's operations of the third window before its unit. -/
abbrev ops3b1 : List (HloOp τ sig (Elt F)) :=
  [ StableHlo.binary main_v1 main_v98 main_v99 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v100 (broadcastInDim S3200000 ![] bcast_S_S3200000 : (⟨S_, .i32⟩ : BufTy).Contents (Elt F) → (⟨S3200000, .i32⟩ : BufTy).Contents (Elt F)),
    StableHlo.binary main_v1 main_v100 main_v101 (addi : (⟨S3200000, .i32⟩ : BufTy).Contents (Elt F) → (⟨S3200000, .i32⟩ : BufTy).Contents (Elt F) → (⟨S3200000, .i32⟩ : BufTy).Contents (Elt F)),
    StableHlo.ternary main_v99 main_v101 main_v1 main_v102 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v102 main_v103 (broadcastInDim S3200000x1 ![0] bcast_S3200000_S3200000x1_0 : (⟨S3200000, .i32⟩ : BufTy).Contents (Elt F) → (⟨S3200000x1, .i32⟩ : BufTy).Contents (Elt F)),
    StableHlo.binary main_v97 main_v103 main_v104 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.binary main_v104 main_arg13 main_v105 ((fun l r => Host.dotGeneral dot_S3200000x16_S16x24_S3200000x24_1_0_0_1_n_n none l r) : (⟨S3200000x16, .f32⟩ : BufTy).Contents (Elt F) → (⟨S16x24, .f32⟩ : BufTy).Contents (Elt F) → (⟨S3200000x24, .f32⟩ : BufTy).Contents (Elt F)),
    StableHlo.unary main_arg2 main_v106 (broadcastInDim S3200000x1x3 ![0, 2] bcast_S3200000x3_S3200000x1x3_0_2 : (⟨S3200000x3, .f32⟩ : BufTy).Contents (Elt F) → (⟨S3200000x1x3, .f32⟩ : BufTy).Contents (Elt F)),
    StableHlo.unary main_arg14 main_v107 (broadcastInDim S1x3x3 ![1, 2] bcast_S3x3_S1x3x3_1_2 : (⟨S3x3, .f32⟩ : BufTy).Contents (Elt F) → (⟨S1x3x3, .f32⟩ : BufTy).Contents (Elt F)),
    StableHlo.unary main_v106 main_v108 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    StableHlo.unary main_v107 main_v109 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v108 main_v109 main_v110 (subf : (⟨S3200000x3x3, .f32⟩ : BufTy).Contents (Elt F) → (⟨S3200000x3x3, .f32⟩ : BufTy).Contents (Elt F) → (⟨S3200000x3x3, .f32⟩ : BufTy).Contents (Elt F)),
    StableHlo.binary main_v110 main_v110 main_v111 (mulf : (⟨S3200000x3x3, .f32⟩ : BufTy).Contents (Elt F) → (⟨S3200000x3x3, .f32⟩ : BufTy).Contents (Elt F) → (⟨S3200000x3x3, .f32⟩ : BufTy).Contents (Elt F)),
    StableHlo.unary main_arg15 main_v112 (broadcastInDim S1x3x3 ![1, 2] bcast_S3x3_S1x3x3_1_2 : (⟨S3x3, .f32⟩ : BufTy).Contents (Elt F) → (⟨S1x3x3, .f32⟩ : BufTy).Contents (Elt F)),
    StableHlo.binary main_v112 main_v112 main_v113 (mulf : (⟨S1x3x3, .f32⟩ : BufTy).Contents (Elt F) → (⟨S1x3x3, .f32⟩ : BufTy).Contents (Elt F) → (⟨S1x3x3, .f32⟩ : BufTy).Contents (Elt F)),
    StableHlo.nullary main_cst_20 (constant S_ .f32 0x26901D7D#32),
    StableHlo.unary main_cst_20 main_v114 (broadcastInDim S1x3x3 ![] bcast_S_S1x3x3 : (⟨S_, .f32⟩ : BufTy).Contents (Elt F) → (⟨S1x3x3, .f32⟩ : BufTy).Contents (Elt F)),
    StableHlo.binary main_v114 main_v113 main_v115 (addf : (⟨S1x3x3, .f32⟩ : BufTy).Contents (Elt F) → (⟨S1x3x3, .f32⟩ : BufTy).Contents (Elt F) → (⟨S1x3x3, .f32⟩ : BufTy).Contents (Elt F)),
    StableHlo.unary main_v115 main_v116 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    StableHlo.binary main_v111 main_v116 main_v117 (Host.divf : (⟨S3200000x3x3, .f32⟩ : BufTy).Contents (Elt F) → (⟨S3200000x3x3, .f32⟩ : BufTy).Contents (Elt F) → (⟨S3200000x3x3, .f32⟩ : BufTy).Contents (Elt F)),
    StableHlo.nullary main_cst_21 (constant S_ .f32 0x00000000#32),
    StableHlo.binary main_v117 main_cst_21 main_v118 ((fun x v => Host.reduceAdd x v reducesTo_S3200000x3x3_S3200000x3_d2 h_S_) : (⟨S3200000x3x3, .f32⟩ : BufTy).Contents (Elt F) → (⟨S_, .f32⟩ : BufTy).Contents (Elt F) → (⟨S3200000x3, .f32⟩ : BufTy).Contents (Elt F)),
    StableHlo.nullary main_cst_22 (constant S_ .f32 0xBF000000#32),
    StableHlo.unary main_cst_22 main_v119 (broadcastInDim S3200000x3 ![] bcast_S_S3200000x3 : (⟨S_, .f32⟩ : BufTy).Contents (Elt F) → (⟨S3200000x3, .f32⟩ : BufTy).Contents (Elt F)),
    StableHlo.binary main_v119 main_v118 main_v120 (mulf : (⟨S3200000x3, .f32⟩ : BufTy).Contents (Elt F) → (⟨S3200000x3, .f32⟩ : BufTy).Contents (Elt F) → (⟨S3200000x3, .f32⟩ : BufTy).Contents (Elt F)),
    StableHlo.unary main_v120 main_v121 (Host.exp : (⟨S3200000x3, .f32⟩ : BufTy).Contents (Elt F) → (⟨S3200000x3, .f32⟩ : BufTy).Contents (Elt F)),
    StableHlo.reshape main_v105 main_v122 rfl shapeCasts_S3200000x24_S3200000x3x8,
    StableHlo.unary main_v121 main_v123 (broadcastInDim S3200000x3x1 ![0, 1] bcast_S3200000x3_S3200000x3x1_0_1 : (⟨S3200000x3, .f32⟩ : BufTy).Contents (Elt F) → (⟨S3200000x3x1, .f32⟩ : BufTy).Contents (Elt F)),
    StableHlo.unary main_v123 main_v124 (broadcastInDim S3200000x3x8 ![0, 1, 2] bcast_S3200000x3x1_S3200000x3x8_0_1_2 : (⟨S3200000x3x1, .f32⟩ : BufTy).Contents (Elt F) → (⟨S3200000x3x8, .f32⟩ : BufTy).Contents (Elt F)),
    StableHlo.binary main_v122 main_v124 main_v125 (mulf : (⟨S3200000x3x8, .f32⟩ : BufTy).Contents (Elt F) → (⟨S3200000x3x8, .f32⟩ : BufTy).Contents (Elt F) → (⟨S3200000x3x8, .f32⟩ : BufTy).Contents (Elt F)),
    StableHlo.nullary main_cst_23 (constant S_ .f32 0x00000000#32),
    StableHlo.binary main_v125 main_cst_23 main_v126 ((fun x v => Host.reduceAdd x v reducesTo_S3200000x3x8_S3200000x8_d1 h_S_) : (⟨S3200000x3x8, .f32⟩ : BufTy).Contents (Elt F) → (⟨S_, .f32⟩ : BufTy).Contents (Elt F) → (⟨S3200000x8, .f32⟩ : BufTy).Contents (Elt F)),
    StableHlo.nullary main_cst_24 (constant S_ .f32 0x00000000#32),
    StableHlo.unary main_cst_24 main_v127 (broadcastInDim S100000x8 ![] bcast_S_S100000x8 : (⟨S_, .f32⟩ : BufTy).Contents (Elt F) → (⟨S100000x8, .f32⟩ : BufTy).Contents (Elt F)),
    StableHlo.unary main_v3 main_v128 (broadcastInDim S3200000x1 ![0] bcast_S3200000_S3200000x1_0 : (⟨S3200000, .i32⟩ : BufTy).Contents (Elt F) → (⟨S3200000x1, .i32⟩ : BufTy).Contents (Elt F)),
    StableHlo.ternary main_v127 main_v128 main_v126 main_v129 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.nullary main_cst_25 (constant S_ .f32 0x3F800000#32),
    StableHlo.unary main_cst_25 main_v130 (broadcastInDim S3200000 ![] bcast_S_S3200000 : (⟨S_, .f32⟩ : BufTy).Contents (Elt F) → (⟨S3200000, .f32⟩ : BufTy).Contents (Elt F)),
    StableHlo.nullary main_cst_26 (constant S_ .f32 0x00000000#32),
    StableHlo.unary main_cst_26 main_v131 (broadcastInDim S100000 ![] bcast_S_S100000 : (⟨S_, .f32⟩ : BufTy).Contents (Elt F) → (⟨S100000, .f32⟩ : BufTy).Contents (Elt F)),
    StableHlo.unary main_v3 main_v132 (broadcastInDim S3200000x1 ![0] bcast_S3200000_S3200000x1_0 : (⟨S3200000, .i32⟩ : BufTy).Contents (Elt F) → (⟨S3200000x1, .i32⟩ : BufTy).Contents (Elt F)),
    StableHlo.ternary main_v131 main_v132 main_v130 main_v133 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_27 (constant S_ .f32 0x3F800000#32),
    StableHlo.unary main_cst_27 main_v134 (broadcastInDim S100000 ![] bcast_S_S100000 : (⟨S_, .f32⟩ : BufTy).Contents (Elt F) → (⟨S100000, .f32⟩ : BufTy).Contents (Elt F)),
    StableHlo.binary main_v133 main_v134 main_v135 (maximumf : (⟨S100000, .f32⟩ : BufTy).Contents (Elt F) → (⟨S100000, .f32⟩ : BufTy).Contents (Elt F) → (⟨S100000, .f32⟩ : BufTy).Contents (Elt F)),
    StableHlo.unary main_v135 main_v136 (broadcastInDim S100000x1 ![0] bcast_S100000_S100000x1_0 : (⟨S100000, .f32⟩ : BufTy).Contents (Elt F) → (⟨S100000x1, .f32⟩ : BufTy).Contents (Elt F)),
    StableHlo.unary main_v136 main_v137 (broadcastInDim S100000x8 ![0, 1] bcast_S100000x1_S100000x8_0_1 : (⟨S100000x1, .f32⟩ : BufTy).Contents (Elt F) → (⟨S100000x8, .f32⟩ : BufTy).Contents (Elt F)),
    StableHlo.binary main_v129 main_v137 main_v138 (Host.divf : (⟨S100000x8, .f32⟩ : BufTy).Contents (Elt F) → (⟨S100000x8, .f32⟩ : BufTy).Contents (Elt F) → (⟨S100000x8, .f32⟩ : BufTy).Contents (Elt F)),
    StableHlo.binary main_v97 main_arg16 main_v139 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    StableHlo.binary main_v138 main_v139 main_v140 (addf : (⟨S100000x8, .f32⟩ : BufTy).Contents (Elt F) → (⟨S100000x8, .f32⟩ : BufTy).Contents (Elt F) → (⟨S100000x8, .f32⟩ : BufTy).Contents (Elt F)),
    StableHlo.unary main_arg17 main_v141 (broadcastInDim S1x8 ![1] bcast_S8_S1x8_1 : (⟨S8, .f32⟩ : BufTy).Contents (Elt F) → (⟨S1x8, .f32⟩ : BufTy).Contents (Elt F)),
    StableHlo.unary main_v141 main_v142 (broadcastInDim S100000x8 ![0, 1] bcast_S1x8_S100000x8_0_1 : (⟨S1x8, .f32⟩ : BufTy).Contents (Elt F) → (⟨S100000x8, .f32⟩ : BufTy).Contents (Elt F)),
    StableHlo.binary main_v140 main_v142 main_v143 (addf : (⟨S100000x8, .f32⟩ : BufTy).Contents (Elt F) → (⟨S100000x8, .f32⟩ : BufTy).Contents (Elt F) → (⟨S100000x8, .f32⟩ : BufTy).Contents (Elt F)) ]

/-- Layer 3's unit: the call of the exponential linear unit on `main_v143`, the two selects it calls inline. -/
abbrev ops3b2 : List (HloOp τ sig (Elt F)) :=
  [ StableHlo.TRef.nullary main_call2.cst (constant S_ .f32 0x00000000#32),
    StableHlo.TRef.unary main_call2.cst main_call2.v0 (broadcastInDim S100000x8 ![] bcast_S_S100000x8),
    StableHlo.TRef.binary (.of main_v143 : StableHlo.TRef sig ⟨S100000x8, .f32⟩) main_call2.v0 main_call2.v1 (cmpf .ogt),
    StableHlo.TRef.nullary main_call2.cst_0 (constant S_ .f32 0x00000000#32),
    StableHlo.TRef.unary main_call2.cst_0 main_call2.v2 (broadcastInDim S100000x8 ![] bcast_S_S100000x8),
    StableHlo.TRef.binary (.of main_v143 : StableHlo.TRef sig ⟨S100000x8, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x8 ![] bcast_S_S100000x8),
    StableHlo.TRef.ternary main_call2.v3 main_call2.call0.v1 (.of main_v143 : StableHlo.TRef sig ⟨S100000x8, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x8 ![] bcast_S_S100000x8),
    StableHlo.TRef.binary main_call2.v6 main_call2.v5 main_call2.v7 mulf,
    StableHlo.TRef.ternary main_call2.v1 (.of main_v143 : StableHlo.TRef sig ⟨S100000x8, .f32⟩) main_call2.v7 main_call2.call1.v0 select ]

/-- Layer 3's second piece is those two in turn. -/
theorem ops3b_split : (ops3b : List (HloOp τ sig (Elt F))) = ops3b1 ++ ops3b2 := rfl

attribute [local irreducible] Host.reduceAdd Host.gather Host.scatterAdd in
set_option maxHeartbeats 2000000 in
/-- From contents `W` in which `main_v1` and `main_v3` hold the rows of the edge list `ei`, layer 3's operations before its unit leave
    in `main_v143` the layer's value before its unit: `refPre3` of what `W` holds in `main_v97`, of `ei`, and of what `W` holds in the
    argument arrays. -/
theorem pre3_after (W : Valuation τ sig (Elt Ideal)) (ei : IVec S2x3200000 32)
    (h1 : W (main_v1 : DevRef τ sig) = refRow0 ei) (h3 : W (main_v3 : DevRef τ sig) = refRow1 ei) :
    after ops3b1 (after ops3a W) (main_v143 : DevRef τ sig)
      = refPre3 (W (main_v97 : DevRef τ sig)) ei (W (main_arg2 : DevRef τ sig)) (W (main_arg13 : DevRef τ sig)) (W (main_arg14 : DevRef τ sig)) (W (main_arg15 : DevRef τ sig)) (W (main_arg16 : DevRef τ sig)) (W (main_arg17 : DevRef τ sig)) := by
  rw [← after_app]
  simp only [ops3a, ops3b1, List.cons_append, List.nil_append]
  after_results_simp
  rw [h1, h3]
  rfl

set_option maxHeartbeats 1000000 in
/-- From any contents `W`, the unit's operations leave in `main_v144` the exponential linear unit of what `W` holds in
    `main_v143`. -/
theorem elu3_after (W : Valuation τ sig (Elt Ideal)) :
    after ops3b2 W (main_v144 : DevRef τ sig) = refElu8 (W (main_v143 : DevRef τ sig)) := by
  simp only [ops3b2]
  after_results_simp
  rfl

/-- Layer 3's output buffer after the whole line: layer 3's function of layer 2's output buffer and the argument arrays. -/
theorem val_layer3 (V : Valuation τ sig (Elt Ideal)) :
    after ops V (main_v144 : DevRef τ sig)
      = refLayer3 (after ops V (main_v97 : DevRef τ sig)) (V (main_arg1 : DevRef τ sig)) (V (main_arg2 : DevRef τ sig)) (V (main_arg13 : DevRef τ sig)) (V (main_arg14 : DevRef τ sig)) (V (main_arg15 : DevRef τ sig)) (V (main_arg16 : DevRef τ sig)) (V (main_arg17 : DevRef τ sig)) := by
  rw [end_v144, end_v97, ops3b_split, after_app, elu3_after, pre3_after _ (V (main_arg1 : DevRef τ sig)) (s2_src V) (s2_dst V)]
  rw [s2_carried V main_arg2 (by decide), s2_carried V main_arg13 (by decide), s2_carried V main_arg14 (by decide), s2_carried V main_arg15 (by decide), s2_carried V main_arg16 (by decide), s2_carried V main_arg17 (by decide)]
  rw [base_arg V main_arg2 (by decide), base_arg V main_arg13 (by decide), base_arg V main_arg14 (by decide), base_arg V main_arg15 (by decide), base_arg V main_arg16 (by decide), base_arg V main_arg17 (by decide)]
  rfl

/-! # Layer 4's output buffer after the reference's whole line

The layer's operations, run from contents in which `main_v1` and `main_v3` hold the two rows of an edge list, leave in
`main_v190` the layer's value: the
operations' results composed in their order are the function's definition unfolded. At the end of layer 3 the two
buffers do hold the edge list's rows and the argument arrays are as launched. -/

attribute [local irreducible] Host.reduceAdd Host.gather Host.scatterAdd in
set_option maxHeartbeats 2000000 in
/-- From contents `W` in which `main_v1` and `main_v3` hold the rows of the edge list `ei`, layer 4's operations leave
    in `main_v190` the layer's value: `refPre4` of what `W` holds in `main_v144`, of `ei`, and of what `W` holds in the
    argument arrays. -/
theorem pre4_after (W : Valuation τ sig (Elt Ideal)) (ei : IVec S2x3200000 32)
    (h1 : W (main_v1 : DevRef τ sig) = refRow0 ei) (h3 : W (main_v3 : DevRef τ sig) = refRow1 ei) :
    after ops4b (after ops4a W) (main_v190 : DevRef τ sig)
      = refPre4 (W (main_v144 : DevRef τ sig)) ei (W (main_arg2 : DevRef τ sig)) (W (main_arg18 : DevRef τ sig)) (W (main_arg19 : DevRef τ sig)) (W (main_arg20 : DevRef τ sig)) (W (main_arg21 : DevRef τ sig)) (W (main_arg22 : DevRef τ sig)) := by
  rw [← after_app]
  simp only [ops4a, ops4b, List.cons_append, List.nil_append]
  after_results_simp
  rw [h1, h3]
  rfl

/-- Layer 4's output buffer after the whole line: layer 4's function of layer 3's output buffer and the argument arrays. -/
theorem val_layer4 (V : Valuation τ sig (Elt Ideal)) :
    after ops V (main_v190 : DevRef τ sig)
      = refLayer4 (after ops V (main_v144 : DevRef τ sig)) (V (main_arg1 : DevRef τ sig)) (V (main_arg2 : DevRef τ sig)) (V (main_arg18 : DevRef τ sig)) (V (main_arg19 : DevRef τ sig)) (V (main_arg20 : DevRef τ sig)) (V (main_arg21 : DevRef τ sig)) (V (main_arg22 : DevRef τ sig)) := by
  rw [end_v144, after_ops V, pre4_after _ (V (main_arg1 : DevRef τ sig)) (s3_src V) (s3_dst V)]
  rw [s3_carried V main_arg2 (by decide), s3_carried V main_arg18 (by decide), s3_carried V main_arg19 (by decide), s3_carried V main_arg20 (by decide), s3_carried V main_arg21 (by decide), s3_carried V main_arg22 (by decide)]
  rw [base_arg V main_arg2 (by decide), base_arg V main_arg18 (by decide), base_arg V main_arg19 (by decide), base_arg V main_arg20 (by decide), base_arg V main_arg21 (by decide), base_arg V main_arg22 (by decide)]
  rfl

/-! # The reference's run, with its result as the four layers composed -/

/-- The result buffer after the whole line: the four layers' functions composed, of the argument arrays. -/
theorem val_out (V : Valuation τ sig (Elt Ideal)) :
    after ops V (main_v190 : DevRef τ sig)
      = refLayer4 (refLayer3 (refLayer2 (refLayer1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)))
            (V (main_arg1 : DevRef τ sig)) (V (main_arg2 : DevRef τ sig)) (V (main_arg8 : DevRef τ sig)) (V (main_arg9 : DevRef τ sig)) (V (main_arg10 : DevRef τ sig)) (V (main_arg11 : DevRef τ sig)) (V (main_arg12 : DevRef τ sig)))
          (V (main_arg1 : DevRef τ sig)) (V (main_arg2 : DevRef τ sig)) (V (main_arg13 : DevRef τ sig)) (V (main_arg14 : DevRef τ sig)) (V (main_arg15 : DevRef τ sig)) (V (main_arg16 : DevRef τ sig)) (V (main_arg17 : DevRef τ sig)))
        (V (main_arg1 : DevRef τ sig)) (V (main_arg2 : DevRef τ sig)) (V (main_arg18 : DevRef τ sig)) (V (main_arg19 : DevRef τ sig)) (V (main_arg20 : DevRef τ sig)) (V (main_arg21 : DevRef τ sig)) (V (main_arg22 : DevRef τ sig)) := by
  rw [val_layer4, val_layer3, val_layer2, val_layer1]

/-- Every weakly fair execution of the reference's @main terminates; its result buffer then holds the four layers'
    functions composed, of the launched argument arrays, and the argument arrays are as launched. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v190)
        = refLayer4 (refLayer3 (refLayer2 (refLayer1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)))
              (m' ((c.tc : Thread nD τ).loc main_arg1)) (m' ((c.tc : Thread nD τ).loc main_arg2)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)))
            (m' ((c.tc : Thread nD τ).loc main_arg1)) (m' ((c.tc : Thread nD τ).loc main_arg2)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)))
          (m' ((c.tc : Thread nD τ).loc main_arg1)) (m' ((c.tc : Thread nD τ).loc main_arg2)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)) :=
  (θ_run defs _ _).mono (fun _ h c => ⟨(h c main_v190).trans (val_out (launchContents m' c)),
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide)),
      (h c main_arg6).trans (after_arg _ main_arg6 (by decide)),
      (h c main_arg7).trans (after_arg _ main_arg7 (by decide)),
      (h c main_arg8).trans (after_arg _ main_arg8 (by decide)),
      (h c main_arg9).trans (after_arg _ main_arg9 (by decide)),
      (h c main_arg10).trans (after_arg _ main_arg10 (by decide)),
      (h c main_arg11).trans (after_arg _ main_arg11 (by decide)),
      (h c main_arg12).trans (after_arg _ main_arg12 (by decide)),
      (h c main_arg13).trans (after_arg _ main_arg13 (by decide)),
      (h c main_arg14).trans (after_arg _ main_arg14 (by decide)),
      (h c main_arg15).trans (after_arg _ main_arg15 (by decide)),
      (h c main_arg16).trans (after_arg _ main_arg16 (by decide)),
      (h c main_arg17).trans (after_arg _ main_arg17 (by decide)),
      (h c main_arg18).trans (after_arg _ main_arg18 (by decide)),
      (h c main_arg19).trans (after_arg _ main_arg19 (by decide)),
      (h c main_arg20).trans (after_arg _ main_arg20 (by decide)),
      (h c main_arg21).trans (after_arg _ main_arg21 (by decide)),
      (h c main_arg22).trans (after_arg _ main_arg22 (by decide))⟩)
    (run_main (F := Ideal) m' ρ')

end Cert.ReferenceIdeal.Hand

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.LibChannelForms.lean ====
/-
  Channel-major arrays read at an entry: a column gather, a vector scatter-add, and a stack of columns.

  A graph layer may keep its node table channel-major, x : [C, N] (one row per channel), instead of row-major [N, C].
  Then "take, for every edge e, the entries of node src(e)" is a gather of COLUMNS (stablehlo.gather with offset_dims
  [0], collapsed_slice_dims [1], start_index_map [1], index_vector_dim 1 and slice sizes [C, 1], the start indices an
  [E, 1] integer array, the result [C, E]); the aggregation over the edges is done one channel at a time, each a
  scatter-add of an [E] vector into an [N] vector (stablehlo.scatter with an add body, update_window_dims [],
  inserted_window_dims [0], scatter_dims_to_operand_dims [0], index_vector_dim 1, the scatter indices an [E, 1]
  integer array); and the k per-channel results, each laid out as a column [N, 1], are put side by side into [N, k]
  (stablehlo.concatenate along axis 1).

  Read at the extended reals:
    * the gathered array at (c, e) is x at (c, row e), where row e is the start index of edge e read as a signed
      integer and clamped into [0, N − 1] — the same row the row-major gather reads;
    * the scatter-add at n is the operand's entry plus the sum over the edges e whose scatter index, read as a signed
      integer, IS n, of the update's entry e; an edge whose index is negative or ≥ N is equal to no n and contributes
      nowhere — the same condition as the row-major scatter-add's;
    * the stack of k columns at (n, o) is column o at (n, 0).
-/
import Idealize.ShloMosaic.Lib.ValueIdx
import Idealize.ShloMosaic.Lib.Pipeline.Value
import Idealize.ShloMosaic.PureOps.Ideal.Laws
import proofs.«144358_j6828998001340_2_alg».proof.Proof.LibSegmentRows

noncomputable section

open scoped BigOperators

namespace Cert.ChannelForms

open Idealize.ShloMosaic Idealize.ShloMosaic.ValueIdx

/-- Of the two axes of a matrix, the one that is not axis 1 is axis 0. -/
theorem kept_one {C N : Nat} : (⟨2, ![C, N]⟩ : Shape).kept [1] = [0] := rfl
/-- The same with an empty list of further axes appended. -/
theorem kept_one_nil {C N : Nat} : (⟨2, ![C, N]⟩ : Shape).kept ([1] ++ []) = [0] := rfl
/-- A vector's one axis removed, none is left. -/
theorem kept_vec {N : Nat} : (⟨1, ![N]⟩ : Shape).kept [0] = [] := rfl

/-! ## The column gather read at an entry -/

section Gather
variable {α : Type}

/-- The dimension numbers of "take columns": operand [C, N], start indices [E, 1], result [C, E]. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

variable {C N E w : Nat} (wf : GatherDims.WF ⟨2, ![C, N]⟩ ⟨2, ![E, 1]⟩ ⟨2, ![C, E]⟩ [0] [1] [] [1] [] 1 ![C, 1])
  (idx : IVec ⟨2, ![E, 1]⟩ w) (c : Fin C) (e : Fin E)

/-- On the channel axis the operand index is the result's channel … -/
theorem operandIdx_chan :
    ((colGatherDims C N E wf).operandIdx (ix2 c e) idx 0).val = c.val := by
  show (colGatherDims C N E wf).start (ix2 c e) idx 0 + (colGatherDims C N E wf).batchCoord (ix2 c e) 0
      + (colGatherDims C N E wf).offCoord (ix2 c e) 0 = _
  rw [GatherDims.batchCoord_eq_zero _ _ _ List.not_mem_nil]
  unfold GatherDims.start
  rw [dif_neg (by decide : ¬ (0 : Fin 2) ∈ ([1] : List (Fin 2)))]
  unfold GatherDims.offCoord
  rw [dif_pos (by rw [GatherDims.sKept, kept_one_nil]; exact List.mem_singleton.mpr rfl)]
  simp only [Nat.zero_add]
  rfl

/-- … and on the node axis it is the clamped start index. -/
theorem operandIdx_node :
    ((colGatherDims C N E wf).operandIdx (ix2 c e) idx 1).val = min (idx (ix2 e 0)).toInt.toNat (N - 1) := by
  show (colGatherDims C N E wf).start (ix2 c e) idx 1 + (colGatherDims C N E wf).batchCoord (ix2 c e) 1
      + (colGatherDims C N E wf).offCoord (ix2 c e) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGatherDims C N E wf).startIndexMap from List.mem_singleton.mpr rfl)]
  have hsi : (colGatherDims C N E wf).siIdx (ix2 c e) ⟨List.idxOf (1 : Fin 2) (colGatherDims C N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER AT (c, e): the operand at (c, row e), the row the row-major gather reads. -/
theorem gather_cols_apply (hN : 0 < N) (x : (⟨2, ![C, N]⟩ : Shape).Idx → α) :
    Host.gather (colGatherDims C N E wf) x idx (ix2 c e) = x (ix2 c (SegmentRows.rowOf hN idx e)) := by
  unfold Host.gather
  congr 1
  funext a
  refine Fin.ext ?_
  match a with
  | ⟨0, _⟩ => exact operandIdx_chan wf idx c e
  | ⟨1, _⟩ => exact operandIdx_node wf idx c e

end Gather

/-! ## The vector scatter-add read at an entry -/

section Scatter

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "add entries into a vector": operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at edge e's scatter index read signed … -/
theorem start_vec : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0 (the operand's one axis is an inserted axis). -/
theorem window_vec : (vecScatterDims N E wf).window (ix1 e) 0 = 0 := by
  unfold ScatterDims.window
  rw [dif_neg (by rw [ScatterDims.sKept, kept_vec]; exact List.not_mem_nil)]

/-- WHERE UPDATE e LANDS: at n exactly when edge e's scatter index, read signed, is n. An index that is negative or at
    least N is no n: that update is dropped. -/
theorem resultIdx?_vec_eq_some_iff (n : Fin N) :
    (vecScatterDims N E wf).resultIdx? (ix1 e) idx = some (ix1 n) ↔ (idx (ix2 e 0)).toInt = (n.val : Int) := by
  unfold ScatterDims.resultIdx?
  constructor
  · intro h
    split at h
    · rename_i hr
      have hf := Option.some.inj h
      have h0 := congrArg (fun f => (f 0).val) hf
      simp only [start_vec, window_vec] at h0
      have hr0 := hr 0
      rw [start_vec, window_vec] at hr0
      have : ((ix1 n : (⟨1, ![N]⟩ : Shape).Idx) 0).val = n.val := rfl
      omega
    · exact absurd h (by simp)
  · intro ht
    have hr : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [start_vec, window_vec, ht]
        have := n.isLt
        omega
    rw [dif_pos hr]
    congr 1
    funext a
    refine Fin.ext ?_
    match a with
    | ⟨0, _⟩ =>
      show ((vecScatterDims N E wf).start (ix1 e) idx 0 + (vecScatterDims N E wf).window (ix1 e) 0).toNat = n.val
      rw [start_vec, window_vec, ht]; simp

/-- THE VECTOR SCATTER-ADD AT n: the operand's entry plus the update's entries e over the edges e whose scatter index
    is n. -/
theorem hostScatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e 0)).toInt = (n.val : Int) then upd (ix1 e) else 0 := by
  unfold Ideal.hostScatterAdd
  congr 1
  rw [Finset.sum_filter, sum_idx1]
  refine Finset.sum_congr rfl fun e _ => ?_
  simp only [resultIdx?_vec_eq_some_iff]

/-- The same for the host's accumulating scatter at the ideal instance, which is that sum by definition. -/
theorem scatterAdd_vec_apply {φ : FTy} (x : FVec Ideal ⟨1, ![N]⟩ φ) (upd : FVec Ideal ⟨1, ![E]⟩ φ) (n : Fin N) :
    Host.scatterAdd (F := Ideal) (vecScatterDims N E wf) x idx upd (ix1 n)
      = x (ix1 n) + ∑ e : Fin E, if (idx (ix2 e 0)).toInt = (n.val : Int) then upd (ix1 e) else 0 :=
  hostScatterAdd_vec_apply wf idx x upd n

end Scatter

/-! ## A stack of columns read at an entry -/

section Columns
variable {α : Type}

/-- A vector [N] broadcast along a new unit axis to the column [N, 1] reads, at (n, u), the vector at n. -/
theorem column_apply {N : Nat} (v : (⟨1, ![N]⟩ : Shape).Idx → α) (dims : Fin 1 → Fin 2) (hd : dims 0 = 0)
    (h : (⟨1, ![N]⟩ : Shape).BroadcastsInDim ⟨2, ![N, 1]⟩ dims) (n : Fin N) (u : Fin 1) :
    broadcastInDim ⟨2, ![N, 1]⟩ dims h v (ix2 n u) = v (ix1 n) := by
  refine broadcastInDim_apply dims h v (ix2 n u) (ix1 n) fun ax => ?_
  match ax with
  | ⟨0, _⟩ =>
    show n.val = if N = 1 then 0 else ((ix2 n u : (⟨2, ![N, 1]⟩ : Shape).Idx) (dims 0)).val
    rw [hd]
    split
    · have := n.isLt; omega
    · rfl

/-- THE STACK OF k COLUMNS AT (n, o): column o at (n, 0). The columns are a family f, listed in order. -/
theorem concat_cols_apply {N k : Nat} (f : Fin k → ((⟨2, ![N, 1]⟩ : Shape).Idx → α))
    (h : Shape.Concatenates
      ((List.ofFn fun o : Fin k => (⟨⟨2, ![N, 1]⟩, f o⟩ : (s : Shape) × (s.Idx → α))).map (·.1)) ⟨2, ![N, k]⟩ 1)
    (n : Fin N) (o : Fin k) :
    concatenate ⟨2, ![N, k]⟩ 1 (List.ofFn fun o : Fin k => (⟨⟨2, ![N, 1]⟩, f o⟩ : (s : Shape) × (s.Idx → α))) h (ix2 n o)
      = f o (ix2 n 0) :=
  concatenate_ofFn_unit_apply (t := ⟨2, ![N, k]⟩) (s₁ := ⟨2, ![N, 1]⟩) 1 f h rfl rfl (ix2 n o) o rfl (ix2 n 0)
    (fun b hb => by
      match b with
      | ⟨0, _⟩ => rfl
      | ⟨1, _⟩ => exact absurd rfl hb)

/-- Four columns written out. -/
theorem concat_cols4_apply {N : Nat} (u0 u1 u2 u3 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩] :
      List ((s : Shape) × (s.Idx → α))).map (·.1)) ⟨2, ![N, 4]⟩ 1)
    (n : Fin N) (o : Fin 4) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 n o)
      = ![u0, u1, u2, u3] o (ix2 n 0) :=
  concat_cols_apply ![u0, u1, u2, u3] h n o

/-- Eight columns written out. -/
theorem concat_cols8_apply {N : Nat} (u0 u1 u2 u3 u4 u5 u6 u7 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] :
      List ((s : Shape) × (s.Idx → α))).map (·.1)) ⟨2, ![N, 8]⟩ 1)
    (n : Fin N) (o : Fin 8) :
    concatenate ⟨2, ![N, 8]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] h (ix2 n o)
      = ![u0, u1, u2, u3, u4, u5, u6, u7] o (ix2 n 0) :=
  concat_cols_apply ![u0, u1, u2, u3, u4, u5, u6, u7] h n o

/-- Sixteen columns written out. -/
theorem concat_cols16_apply {N : Nat} (u0 u1 u2 u3 u4 u5 u6 u7 u8 u9 u10 u11 u12 u13 u14 u15 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] :
      List ((s : Shape) × (s.Idx → α))).map (·.1)) ⟨2, ![N, 16]⟩ 1)
    (n : Fin N) (o : Fin 16) :
    concatenate ⟨2, ![N, 16]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] h (ix2 n o)
      = ![u0, u1, u2, u3, u4, u5, u6, u7, u8, u9, u10, u11, u12, u13, u14, u15] o (ix2 n 0) :=
  concat_cols_apply ![u0, u1, u2, u3, u4, u5, u6, u7, u8, u9, u10, u11, u12, u13, u14, u15] h n o

end Columns

end Cert.ChannelForms

end
-- ==== Proof.KerHostForms.lean ====
/-
  The channel-major program's host stretches read at an entry, over the extended reals.

  Each array a kernel region reads is a short composition of host operations on the program's arguments. Read at
  explicit coordinates, at the ideal instance (where a change of float format is the identity):
    * the gathered source features at (c, t) are the node table at (row t, c), row t the wrapped source index of edge t
      read signed and clamped into [0, N − 1];
    * the transposed edge coordinates and projections swap their two coordinates;
    * the summed messages at (n, o) are the zero word plus the sum, over the edges whose target index read signed is n,
      of channel o of the per-edge messages; the target column is not wrapped, so a target outside [0, N − 1]
      contributes nowhere;
    * the reciprocal in-degree at (n, 0) is one over the larger of that count and one;
    * a bias laid out as a row reads the bias.
-/
import proofs.«144358_j6828998001340_2_alg».proof.Proof.StretchDefs
import proofs.«144358_j6828998001340_2_alg».proof.Proof.LibChannelForms
import proofs.«144358_j6828998001340_2_alg».proof.Proof.LibSegmentRows
import proofs.«144358_j6828998001340_2_alg».proof.Proof.LibColumnForms
import Idealize.ShloMosaic.Lib.ValueLayout
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! ## The two index columns -/

/-- The start indices every gather takes: the wrapped source column [E, 1]. -/
def kerSrc (e : IVec S2x3200000 32) : IVec S3200000x1 32 := wrapCol (edgeSrc e)

/-- The scatter indices every segment sum takes: the target column [E, 1], not wrapped. -/
def kerDst (e : IVec S2x3200000 32) : IVec S3200000x1 32 :=
  broadcastInDim S3200000x1 ![0] bcast_S3200000_S3200000x1_0 (edgeDst e)

/-- The target of edge t is entry (1, t) of the edge list. -/
theorem edgeDst_apply (e : IVec S2x3200000 32) (t : Fin 3200000) : edgeDst e (ix1 t) = e (ix2 1 t) := by
  unfold edgeDst
  rw [shapeCast_1a_a_apply]
  exact slice2_axis0_apply 1 e slices_S2x3200000_S1x3200000_1_0 0 t 1 rfl

/-- The source of edge t is entry (0, t) of the edge list. -/
theorem edgeSrc_apply (e : IVec S2x3200000 32) (t : Fin 3200000) : edgeSrc e (ix1 t) = e (ix2 0 t) := by
  unfold edgeSrc
  rw [shapeCast_1a_a_apply]
  exact slice2_axis0_apply 0 e slices_S2x3200000_S1x3200000_0_0 0 t 0 rfl

/-- The target column at (t, 0) is the target of edge t. -/
theorem kerDst_apply (e : IVec S2x3200000 32) (t : Fin 3200000) : kerDst e (ix2 t 0) = e (ix2 1 t) := by
  unfold kerDst
  rw [ChannelForms.column_apply _ ![0] rfl]
  exact edgeDst_apply e t

/-- The source column at (t, 0): the source of edge t, a negative one moved up by the number of nodes. -/
theorem kerSrc_apply (e : IVec S2x3200000 32) (t : Fin 3200000) :
    kerSrc e (ix2 t 0)
      = Scalar.select (IntOp.cmpi .slt (e (ix2 0 t)) 0#32) (IntOp.addi (e (ix2 0 t)) 100000#32) (e (ix2 0 t)) := by
  unfold kerSrc wrapCol
  rw [ChannelForms.column_apply _ ![0] rfl]
  show Scalar.select (IntOp.cmpi .slt (edgeSrc e (ix1 t)) 0#32) (IntOp.addi (edgeSrc e (ix1 t)) 100000#32)
      (edgeSrc e (ix1 t)) = _
  rw [edgeSrc_apply]

/-! ## The gathered source features, the edge coordinates and the projections -/

/-- Layer 1's gathered features at (c, t): the node table at (row t, c). -/
theorem xjT1_apply (x : FVec Ideal S100000x3 .f32) (e : IVec S2x3200000 32) (c : Fin 3) (t : Fin 3200000) :
    xjT1 (F := Ideal) x e (ix2 c t) = x (ix2 (SegmentRows.rowOf (by decide) (kerSrc e) t) c) :=
  (ChannelForms.gather_cols_apply Facts₀.gather_S3x100000_S3200000x1_S3x3200000_0_1_n_n_1_1_31_wf
      (wrapCol (edgeSrc e)) c t (by decide) _).trans
    (transpose_ix2_apply _ transposes_S100000x3_S3x100000_1_0 c _)

/-- Layer 2's gathered features at (c, t). -/
theorem xjT8_apply (h : FVec Ideal S100000x8 .f32) (e : IVec S2x3200000 32) (c : Fin 8) (t : Fin 3200000) :
    xjT8 (F := Ideal) h e (ix2 c t) = h (ix2 (SegmentRows.rowOf (by decide) (kerSrc e) t) c) :=
  (ChannelForms.gather_cols_apply Facts₀.gather_S8x100000_S3200000x1_S8x3200000_0_1_n_n_1_1_81_wf
      (wrapCol (edgeSrc e)) c t (by decide) _).trans
    (transpose_ix2_apply _ transposes_S100000x8_S8x100000_1_0 c _)

/-- Layer 3's gathered features at (c, t). -/
theorem xjT16_apply (h : FVec Ideal S100000x16 .f32) (e : IVec S2x3200000 32) (c : Fin 16) (t : Fin 3200000) :
    xjT16 (F := Ideal) h e (ix2 c t) = h (ix2 (SegmentRows.rowOf (by decide) (kerSrc e) t) c) :=
  (ChannelForms.gather_cols_apply Facts₀.gather_S16x100000_S3200000x1_S16x3200000_0_1_n_n_1_1_161_wf
      (wrapCol (edgeSrc e)) c t (by decide) _).trans
    (transpose_ix2_apply _ transposes_S100000x16_S16x100000_1_0 c _)

/-- The transposed edge coordinates at (d, t). -/
theorem eaT_apply (ea : FVec Ideal S3200000x3 .f32) (d : Fin 3) (t : Fin 3200000) :
    eaT (F := Ideal) ea (ix2 d t) = ea (ix2 t d) :=
  transpose_ix2_apply ea transposes_S3200000x3_S3x3200000_1_0 d t

/-- The transposed projections at (q, c). -/
theorem gT1_apply (g : FVec Ideal S3x24 .f32) (q : Fin 24) (c : Fin 3) : gT1 (F := Ideal) g (ix2 q c) = g (ix2 c q) :=
  transpose_ix2_apply g transposes_S3x24_S24x3_1_0 q c
theorem gT2_apply (g : FVec Ideal S8x48 .f32) (q : Fin 48) (c : Fin 8) : gT2 (F := Ideal) g (ix2 q c) = g (ix2 c q) :=
  transpose_ix2_apply g transposes_S8x48_S48x8_1_0 q c
theorem gT3_apply (g : FVec Ideal S16x24 .f32) (q : Fin 24) (c : Fin 16) : gT3 (F := Ideal) g (ix2 q c) = g (ix2 c q) :=
  transpose_ix2_apply g transposes_S16x24_S24x16_1_0 q c
theorem gT4_apply (g : FVec Ideal S8x12 .f32) (q : Fin 12) (c : Fin 8) : gT4 (F := Ideal) g (ix2 q c) = g (ix2 c q) :=
  transpose_ix2_apply g transposes_S8x12_S12x8_1_0 q c

/-- Rounding to the narrower format changes no extended real. -/
theorem hBf1_eq (x : FVec Ideal S100000x3 .f32) : hBf1 (F := Ideal) x = x := rfl
theorem hBf8_eq (h : FVec Ideal S100000x8 .f32) : hBf8 (F := Ideal) h = h := rfl
theorem hBf16_eq (h : FVec Ideal S100000x16 .f32) : hBf16 (F := Ideal) h = h := rfl

/-- A bias laid out as a row reads, at (0, o), the bias at o. -/
theorem biasRow8_apply (b : FVec Ideal S8 .f32) (u : Fin 1) (o : Fin 8) : biasRow8 (F := Ideal) b (ix2 u o) = b (ix1 o) :=
  shapeCast_a_1a_apply b shapeCasts_S8_S1x8 u o
theorem biasRow16_apply (b : FVec Ideal S16 .f32) (u : Fin 1) (o : Fin 16) : biasRow16 (F := Ideal) b (ix2 u o) = b (ix1 o) :=
  shapeCast_a_1a_apply b shapeCasts_S16_S1x16 u o
theorem biasRow4_apply (b : FVec Ideal S4 .f32) (u : Fin 1) (o : Fin 4) : biasRow4 (F := Ideal) b (ix2 u o) = b (ix1 o) :=
  shapeCast_a_1a_apply b shapeCasts_S4_S1x4 u o

/-! ## A choice among finitely many functions -/

/-- A choice among four functions, read at a point, is decided case by case. -/
theorem pick4_at {β γ : Type} (i : β) (R : Fin 4 → γ) (u0 u1 u2 u3 : β → γ)
    (h0 : u0 i = R 0) (h1 : u1 i = R 1) (h2 : u2 i = R 2) (h3 : u3 i = R 3)
    (o : Fin 4) : ![u0, u1, u2, u3] o i = R o := by
  fin_cases o <;> assumption

/-- A choice among eight functions, read at a point, is decided case by case. -/
theorem pick8_at {β γ : Type} (i : β) (R : Fin 8 → γ) (u0 u1 u2 u3 u4 u5 u6 u7 : β → γ)
    (h0 : u0 i = R 0) (h1 : u1 i = R 1) (h2 : u2 i = R 2) (h3 : u3 i = R 3) (h4 : u4 i = R 4) (h5 : u5 i = R 5) (h6 : u6 i = R 6) (h7 : u7 i = R 7)
    (o : Fin 8) : ![u0, u1, u2, u3, u4, u5, u6, u7] o i = R o := by
  fin_cases o <;> assumption

/-- A choice among sixteen functions, read at a point, is decided case by case. -/
theorem pick16_at {β γ : Type} (i : β) (R : Fin 16 → γ) (u0 u1 u2 u3 u4 u5 u6 u7 u8 u9 u10 u11 u12 u13 u14 u15 : β → γ)
    (h0 : u0 i = R 0) (h1 : u1 i = R 1) (h2 : u2 i = R 2) (h3 : u3 i = R 3) (h4 : u4 i = R 4) (h5 : u5 i = R 5) (h6 : u6 i = R 6) (h7 : u7 i = R 7) (h8 : u8 i = R 8) (h9 : u9 i = R 9) (h10 : u10 i = R 10) (h11 : u11 i = R 11) (h12 : u12 i = R 12) (h13 : u13 i = R 13) (h14 : u14 i = R 14) (h15 : u15 i = R 15)
    (o : Fin 16) : ![u0, u1, u2, u3, u4, u5, u6, u7, u8, u9, u10, u11, u12, u13, u14, u15] o i = R o := by
  fin_cases o <;> assumption

/-! ## Segment sums over the target column -/

/-- The segment sum of a flat per-edge vector at node n: the zero word plus the entries of the edges whose target is n. -/
theorem segSum_apply (e : IVec S2x3200000 32) (u : FVec Ideal S3200000 .f32) (n : Fin 100000) :
    segSum (F := Ideal) (edgeDst e) u (ix1 n)
      = Ideal.ofBits .f32 0x00000000#32
        + ∑ t : Fin 3200000, if ((kerDst e) (ix2 t 0)).toInt = (n.val : Int) then u (ix1 t) else 0 :=
  ChannelForms.scatterAdd_vec_apply Facts₀.scatter_S100000_S3200000x1_S3200000_n_0_0_1_wf _ _ u n

/-- Row k of a channel-major [C, E] array, flattened, at edge t. -/
theorem flatRow_apply {C : Nat} (msgT : (⟨2, ![C, 3200000]⟩ : Shape).Idx → EReal) (k : Nat)
    (hs : (⟨2, ![C, 3200000]⟩ : Shape).Slices ![k, 0] S1x3200000) (o : Fin C) (ho : o.val = k) (t : Fin 3200000) :
    shapeCast S3200000 (extractStridedSlice S1x3200000 ![k, 0] msgT hs) shapeCasts_S1x3200000_S3200000 (ix1 t)
      = msgT (ix2 o t) := by
  rw [shapeCast_1a_a_apply]
  exact slice2_axis0_apply k msgT hs 0 t o (by rw [ho]; rfl)

/-- One channel summed into its targets, read at (n, u): row k of a channel-major [C, E] array, over the edges whose
    target is n. -/
theorem aggCol_row_apply {C : Nat} (msgT : (⟨2, ![C, 3200000]⟩ : Shape).Idx → EReal) (e : IVec S2x3200000 32) (k : Nat)
    (hs : (⟨2, ![C, 3200000]⟩ : Shape).Slices ![k, 0] S1x3200000) (o : Fin C) (ho : o.val = k) (n : Fin 100000)
    (u : Fin 1) :
    aggCol (F := Ideal) (edgeDst e) (extractStridedSlice S1x3200000 ![k, 0] msgT hs) (ix2 n u)
      = Ideal.ofBits .f32 0x00000000#32
        + ∑ t : Fin 3200000, if ((kerDst e) (ix2 t 0)).toInt = (n.val : Int) then msgT (ix2 o t) else 0 := by
  unfold aggCol
  rw [ChannelForms.column_apply _ ![0] rfl, segSum_apply]
  simp only [flatRow_apply msgT k hs o ho]

/-- The summed messages of a 4-channel edge layer at (n, o): channel o of the messages, over the edges whose target is n. -/
theorem aggSum4_apply (msgT : FVec Ideal S4x3200000 .f32) (e : IVec S2x3200000 32) (n : Fin 100000) (o : Fin 4) :
    aggSum4 (F := Ideal) msgT e (ix2 n o)
      = Ideal.ofBits .f32 0x00000000#32
        + ∑ t : Fin 3200000, if ((kerDst e) (ix2 t 0)).toInt = (n.val : Int) then msgT (ix2 o t) else 0 := by
  unfold aggSum4
  rw [ChannelForms.concat_cols4_apply]
  exact pick4_at (ix2 n 0)
    (fun o : Fin 4 => Ideal.ofBits .f32 0x00000000#32
      + ∑ t : Fin 3200000, if ((kerDst e) (ix2 t 0)).toInt = (n.val : Int) then msgT (ix2 o t) else 0)
    _ _ _ _
      (aggCol_row_apply msgT e 0 slices_S4x3200000_S1x3200000_0_0 0 rfl n 0)
      (aggCol_row_apply msgT e 1 slices_S4x3200000_S1x3200000_1_0 1 rfl n 0)
      (aggCol_row_apply msgT e 2 slices_S4x3200000_S1x3200000_2_0 2 rfl n 0)
      (aggCol_row_apply msgT e 3 slices_S4x3200000_S1x3200000_3_0 3 rfl n 0)
    o

/-- The summed messages of a 8-channel edge layer at (n, o): channel o of the messages, over the edges whose target is n. -/
theorem aggSum8_apply (msgT : FVec Ideal S8x3200000 .f32) (e : IVec S2x3200000 32) (n : Fin 100000) (o : Fin 8) :
    aggSum8 (F := Ideal) msgT e (ix2 n o)
      = Ideal.ofBits .f32 0x00000000#32
        + ∑ t : Fin 3200000, if ((kerDst e) (ix2 t 0)).toInt = (n.val : Int) then msgT (ix2 o t) else 0 := by
  unfold aggSum8
  rw [ChannelForms.concat_cols8_apply]
  exact pick8_at (ix2 n 0)
    (fun o : Fin 8 => Ideal.ofBits .f32 0x00000000#32
      + ∑ t : Fin 3200000, if ((kerDst e) (ix2 t 0)).toInt = (n.val : Int) then msgT (ix2 o t) else 0)
    _ _ _ _ _ _ _ _
      (aggCol_row_apply msgT e 0 slices_S8x3200000_S1x3200000_0_0 0 rfl n 0)
      (aggCol_row_apply msgT e 1 slices_S8x3200000_S1x3200000_1_0 1 rfl n 0)
      (aggCol_row_apply msgT e 2 slices_S8x3200000_S1x3200000_2_0 2 rfl n 0)
      (aggCol_row_apply msgT e 3 slices_S8x3200000_S1x3200000_3_0 3 rfl n 0)
      (aggCol_row_apply msgT e 4 slices_S8x3200000_S1x3200000_4_0 4 rfl n 0)
      (aggCol_row_apply msgT e 5 slices_S8x3200000_S1x3200000_5_0 5 rfl n 0)
      (aggCol_row_apply msgT e 6 slices_S8x3200000_S1x3200000_6_0 6 rfl n 0)
      (aggCol_row_apply msgT e 7 slices_S8x3200000_S1x3200000_7_0 7 rfl n 0)
    o

/-- The summed messages of a 16-channel edge layer at (n, o): channel o of the messages, over the edges whose target is n. -/
theorem aggSum16_apply (msgT : FVec Ideal S16x3200000 .f32) (e : IVec S2x3200000 32) (n : Fin 100000) (o : Fin 16) :
    aggSum16 (F := Ideal) msgT e (ix2 n o)
      = Ideal.ofBits .f32 0x00000000#32
        + ∑ t : Fin 3200000, if ((kerDst e) (ix2 t 0)).toInt = (n.val : Int) then msgT (ix2 o t) else 0 := by
  unfold aggSum16
  rw [ChannelForms.concat_cols16_apply]
  exact pick16_at (ix2 n 0)
    (fun o : Fin 16 => Ideal.ofBits .f32 0x00000000#32
      + ∑ t : Fin 3200000, if ((kerDst e) (ix2 t 0)).toInt = (n.val : Int) then msgT (ix2 o t) else 0)
    _ _ _ _ _ _ _ _ _ _ _ _ _ _ _ _
      (aggCol_row_apply msgT e 0 slices_S16x3200000_S1x3200000_0_0 0 rfl n 0)
      (aggCol_row_apply msgT e 1 slices_S16x3200000_S1x3200000_1_0 1 rfl n 0)
      (aggCol_row_apply msgT e 2 slices_S16x3200000_S1x3200000_2_0 2 rfl n 0)
      (aggCol_row_apply msgT e 3 slices_S16x3200000_S1x3200000_3_0 3 rfl n 0)
      (aggCol_row_apply msgT e 4 slices_S16x3200000_S1x3200000_4_0 4 rfl n 0)
      (aggCol_row_apply msgT e 5 slices_S16x3200000_S1x3200000_5_0 5 rfl n 0)
      (aggCol_row_apply msgT e 6 slices_S16x3200000_S1x3200000_6_0 6 rfl n 0)
      (aggCol_row_apply msgT e 7 slices_S16x3200000_S1x3200000_7_0 7 rfl n 0)
      (aggCol_row_apply msgT e 8 slices_S16x3200000_S1x3200000_8_0 8 rfl n 0)
      (aggCol_row_apply msgT e 9 slices_S16x3200000_S1x3200000_9_0 9 rfl n 0)
      (aggCol_row_apply msgT e 10 slices_S16x3200000_S1x3200000_10_0 10 rfl n 0)
      (aggCol_row_apply msgT e 11 slices_S16x3200000_S1x3200000_11_0 11 rfl n 0)
      (aggCol_row_apply msgT e 12 slices_S16x3200000_S1x3200000_12_0 12 rfl n 0)
      (aggCol_row_apply msgT e 13 slices_S16x3200000_S1x3200000_13_0 13 rfl n 0)
      (aggCol_row_apply msgT e 14 slices_S16x3200000_S1x3200000_14_0 14 rfl n 0)
      (aggCol_row_apply msgT e 15 slices_S16x3200000_S1x3200000_15_0 15 rfl n 0)
    o

/-! ## The reciprocal in-degree -/

/-- The all-ones per-edge vector is the constant function at the word of one. -/
theorem onesE_eq :
    (broadcastInDim S3200000 ![] bcast_S_S3200000 (constant (F := Ideal) S_ .f32 0x3F800000#32) : FVec Ideal S3200000 .f32)
      = fun _ => Ideal.ofBits .f32 0x3F800000#32 := rfl
/-- The all-ones per-node vector is the constant function at the word of one. -/
theorem onesN_eq :
    (broadcastInDim S100000 ![] bcast_S_S100000 (constant (F := Ideal) S_ .f32 0x3F800000#32) : FVec Ideal S100000 .f32)
      = fun _ => Ideal.ofBits .f32 0x3F800000#32 := rfl

/-- The reciprocal in-degree column at (n, u): one over the larger of the count of edges into n and one. -/
theorem recipDeg_apply (e : IVec S2x3200000 32) (n : Fin 100000) (u : Fin 1) :
    recipDeg (F := Ideal) e (ix2 n u)
      = Ideal.div (Ideal.ofBits .f32 0x3F800000#32)
          (max (Ideal.ofBits .f32 0x00000000#32
              + ∑ t : Fin 3200000, if ((kerDst e) (ix2 t 0)).toInt = (n.val : Int) then Ideal.ofBits .f32 0x3F800000#32 else 0)
            (Ideal.ofBits .f32 0x3F800000#32)) := by
  unfold recipDeg
  rw [ColumnForms.shapeCast_a_a1_apply, hostDivf_apply, maximumf_apply, onesE_eq, onesN_eq, segSum_apply]

end Cert.KernelIdeal.Hand

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibFlooredMean.lean ====
/-
  A mean by a count floored at one, taken by division or by the reciprocal: two pointwise laws over the extended reals,
  and the first of them on whole arrays.

  The mean over a node's in-neighbours divides a sum by the in-degree floored at one. One side divides by the floored
  degree, the other multiplies by its reciprocal. The floored degree is at least one, hence not zero, and the quotient
  of extended reals by a nonzero divisor IS the product with the divisor's inverse; so the two agree for every value of
  the sum and of the degree, infinite ones included. The other law is the order of the three summands of a layer:
  addition of extended reals is commutative and associative.
-/
import Idealize.ShloMosaic.PureOps.Ideal
import Idealize.ShloMosaic.PureOps.Ideal.Laws
import Idealize.ShloMosaic.Lib.IdealHost
import proofs.«144358_j6828998001340_2_alg».proof.Proof.LibHostRowForms

noncomputable section

namespace Cert.FlooredMean

open Idealize.ShloMosaic

/-- A divisor floored at one is not zero. -/
theorem floor_one_ne_zero (a : EReal) : max a 1 ≠ 0 :=
  (lt_of_lt_of_le zero_lt_one (le_max_right a 1)).ne'

/-- Dividing by a degree floored at one is multiplying by the reciprocal of that floored degree. -/
theorem div_floor_one (s a : EReal) : Ideal.div s (max a 1) = s * Ideal.div 1 (max a 1) := by
  have h : max a 1 ≠ 0 := floor_one_ne_zero a
  simp only [Ideal.div, if_neg h, one_mul]

/-- The same law with the float word of one where the programs print it. -/
theorem div_floor_one_word (s a : EReal) :
    Ideal.div s (max a (Ideal.ofBits .f32 0x3F800000#32))
      = s * Ideal.div (Ideal.ofBits .f32 0x3F800000#32) (max a (Ideal.ofBits .f32 0x3F800000#32)) := by
  rw [Ideal.ofBits_one_f32]
  exact div_floor_one s a

/-- A layer's three summands in either order. -/
theorem add_bias_last (a b c : EReal) : a + c + b = a + b + c := add_right_comm a c b

open Idealize.ShloMosaic.ValueIdx Cert.HostRowForms

/-- The law on whole arrays: a matrix of neighbour sums `[n, d]` divided by the floored degree of its row (the degree
    vector `[n]` floored at one, laid out as a column and copied along the row) is the matrix times the reciprocal of
    the floored degree laid out the same way. -/
theorem mean_forms {n d : ℕ} (S : FVec Ideal ⟨2, ![n, d]⟩ .f32) (cnt : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    Host.divf S (broadcastInDim ⟨2, ![n, d]⟩ ![0, 1] h2 (broadcastInDim ⟨2, ![n, 1]⟩ ![0] h1
        (maximumf cnt (broadcastInDim ⟨1, ![n]⟩ ![] h0 (constant (F := Ideal) ⟨0, ![]⟩ .f32 0x3F800000#32)))))
      = mulf S (broadcastInDim ⟨2, ![n, d]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))))) := by
  funext i
  obtain ⟨p, q, rfl⟩ : ∃ (p : Fin n) (q : Fin d), i = ix2 p q := ⟨i 0, i 1, eq_ix2 i⟩
  show Ideal.div (S (ix2 p q)) (broadcastInDim (s := ⟨2, ![n, 1]⟩) ⟨2, ![n, d]⟩ ![0, 1] h2 _ (ix2 p q))
    = S (ix2 p q) * broadcastInDim (s := ⟨2, ![n, 1]⟩) ⟨2, ![n, d]⟩ ![0, 1] h2 _ (ix2 p q)
  rw [bcast_a1_ab_apply _ _ rfl, bcast_a1_ab_apply _ _ rfl, bcast_a_a1_apply _ _ rfl, bcast_a_a1_apply _ _ rfl]
  exact div_floor_one_word (S (ix2 p q)) (cnt (ix1 p))

end Cert.FlooredMean

end
-- ==== Proof.LibBridgeLaws.lean ====
/-
  Three laws of the extended reals that join the entries of a channel-major program to those of a row-major one.

  (1) The message of an edge at a channel is written, on one side, as three products added one after the other onto the
      zero word, each an inner product "projection row times features" times a mixture weight; on the other side as the
      zero word plus the sum over the three components of "features times projection row" times the weight. The two
      differ by the order of the factors inside the inner products and by the bracketing of a four-term sum: the
      extended reals' multiplication is commutative and their addition associative, so they are equal for all values,
      infinite ones included. No distributivity is used.
  (2) Multiplying by the reciprocal of a count floored at one is dividing by that floored count: the floored count is
      at least one, hence not zero, and the quotient by a nonzero divisor is the product with its reciprocal.
  (3) The exponential linear unit, written with one choice (v where v > 0, exp v − 1 elsewhere), equals the form with
      two choices (v where v > 0, elsewhere one times "exp − 1" of the value that is 0 where v > 0 and v elsewhere):
      the inner choice is only ever read where v > 0 fails, where it is v.
-/
import Idealize.ShloMosaic.Lib.ValueIdx
import Idealize.ShloMosaic.Lib.IdealHost
import Idealize.ShloMosaic.PureOps.Ideal.Laws
import proofs.«144358_j6828998001340_2_alg».proof.Proof.LibGaussForms
import proofs.«144358_j6828998001340_2_alg».proof.Proof.LibEdgeSpec
import proofs.«144358_j6828998001340_2_alg».proof.Proof.LibNodeSpec
import proofs.«144358_j6828998001340_2_alg».proof.Proof.LibFlooredMean

noncomputable section

open scoped BigOperators

namespace Cert.BridgeLaws

open Idealize.ShloMosaic Idealize.ShloMosaic.ValueIdx

/-! ## The message of an edge as a sum over the mixture components -/

/-- An inner product with its factors in the other order, the row named by an equal index. -/
theorem row_dot_comm {cin m : ℕ} (G : Fin m → Fin cin → EReal) (X : Fin cin → EReal) (q q' : Fin m)
    (h : q.val = q'.val) : ∑ c : Fin cin, G q c * X c = ∑ c : Fin cin, X c * G q' c := by
  obtain rfl : q = q' := Fin.ext h
  exact Finset.sum_congr rfl fun c _ => mul_comm _ _

/-- Three terms added one after the other onto a first are the first plus their sum. -/
theorem add_four (z a b c : EReal) : z + a + b + c = z + (a + b + c) := by
  rw [add_assoc, add_assoc, add_assoc]

/-- THE MESSAGE OF AN EDGE at channel o: the zero word plus, over the three components k, (features · row k·cout + o of
    the projection) times the component's weight. -/
theorem edgeMsg_eq_sum {cin cout : ℕ} (G : Fin (3 * cout) → Fin cin → EReal) (X : Fin cin → EReal) (u : Fin 3 → EReal)
    (mu sg : Fin 3 → Fin 3 → EReal) (o : Fin cout) (hq : ∀ k : Fin 3, k.val * cout + o.val < 3 * cout) :
    Cert.EdgeSpec.edgeMsg G X u mu sg o
      = Ideal.ofBits .f32 0x00000000#32
        + ∑ k : Fin 3, (∑ c : Fin cin, X c * G ⟨k.val * cout + o.val, hq k⟩ c)
            * Cert.GaussForms.weightOf (fun d => (u d - mu k d) * (u d - mu k d)) (sg k) := by
  unfold Cert.EdgeSpec.edgeMsg
  rw [Fin.sum_univ_three,
    row_dot_comm G X ⟨0 + o.val, _⟩ ⟨(0 : Fin 3).val * cout + o.val, hq 0⟩ (by simp),
    row_dot_comm G X ⟨cout + o.val, _⟩ ⟨(1 : Fin 3).val * cout + o.val, hq 1⟩ (by simp),
    row_dot_comm G X ⟨2 * cout + o.val, _⟩ ⟨(2 : Fin 3).val * cout + o.val, hq 2⟩ (by simp)]
  exact add_four _ _ _ _

/-- The same with the projection given column-first, G' c q the entry of row q at feature c. -/
theorem edgeMsg_eq_sum' {cin cout : ℕ} (G' : Fin cin → Fin (3 * cout) → EReal) (X : Fin cin → EReal) (u : Fin 3 → EReal)
    (mu sg : Fin 3 → Fin 3 → EReal) (o : Fin cout) (hq : ∀ k : Fin 3, k.val * cout + o.val < 3 * cout) :
    Cert.EdgeSpec.edgeMsg (fun q c => G' c q) X u mu sg o
      = Ideal.ofBits .f32 0x00000000#32
        + ∑ k : Fin 3, (∑ c : Fin cin, X c * G' c ⟨k.val * cout + o.val, hq k⟩)
            * Cert.GaussForms.weightOf (fun d => (u d - mu k d) * (u d - mu k d)) (sg k) :=
  edgeMsg_eq_sum (fun q c => G' c q) X u mu sg o hq

/-! ## The mean by a floored count -/

/-- Multiplying by the reciprocal of a count floored at one is dividing by the floored count. -/
theorem mul_recip_floor (a cnt : EReal) :
    a * Ideal.div (Ideal.ofBits .f32 0x3F800000#32) (max cnt (Ideal.ofBits .f32 0x3F800000#32))
      = Ideal.div a (max cnt (Ideal.ofBits .f32 0x3F800000#32)) :=
  (Cert.FlooredMean.div_floor_one_word a cnt).symm

/-! ## The exponential linear unit -/

/-- THE UNIT with one choice equals the unit with two: where v > 0 both are v; elsewhere the inner choice is v, the
    word of one is 1, and "exp − 1" is exp v − 1. -/
theorem unitOf_eq (v : EReal) :
    Cert.NodeSpec.unitOf v
      = Scalar.select (FloatOps.cmpf (F := Ideal) (φ := .f32) .ogt v (Ideal.ofBits .f32 0x00000000#32)) v
          (Ideal.ofBits .f32 0x3F800000#32
            * FloatOps.hostUnary (F := Ideal) (φ := .f32) .expm1
                (Scalar.select (FloatOps.cmpf (F := Ideal) (φ := .f32) .ogt v (Ideal.ofBits .f32 0x00000000#32))
                  (Ideal.ofBits .f32 0x00000000#32) v)) := by
  unfold Cert.NodeSpec.unitOf
  by_cases hb : FloatOps.cmpf (F := Ideal) (φ := .f32) .ogt v (Ideal.ofBits .f32 0x00000000#32) = 1#1
  · rw [hb]
    exact (select_one _ _).trans (select_one _ _).symm
  · rw [eq_zero_of_ne_one hb]
    refine (select_zero _ _).trans ?_
    rw [select_zero, select_zero, Ideal.hostUnary_expm1_def, Ideal.ofBits_one_f32, one_mul]

end Cert.BridgeLaws

end
-- ==== Proof.KerLayerForms.lean ====
/-
  The channel-major program's layers read at an entry, in the shape of a row-major layer.

  A layer is "update every node from the summed messages of its incoming edges". Read at node n and channel o, over the
  extended reals: the unit (none in the last layer) of
      (Σ over the edges t whose target is n of the message of t at o) / max(number of such edges, 1)
        + (row n of the features) · (column o of the root weight) + (the bias at o),
  the message of an edge t at o being the zero word plus, over the three mixture components k,
      (features of the source row of t) · (column k·cout + o of the projection) × (the weight of component k at t).
  The program multiplies by the reciprocal of the floored count; that is the division, the floored count being nonzero.
-/
import proofs.«144358_j6828998001340_2_alg».proof.Proof.KerHostForms
import proofs.«144358_j6828998001340_2_alg».proof.Proof.KerLayerDefs
import proofs.«144358_j6828998001340_2_alg».proof.Proof.LibEdgeSpec
import proofs.«144358_j6828998001340_2_alg».proof.Proof.LibNodeSpec
import proofs.«144358_j6828998001340_2_alg».proof.Proof.LibBridgeLaws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! ## The two halves of a layer read at an entry, for any sizes -/

/-- THE MESSAGE ARRAY AT (o, t), once its three inputs are read at their entries: the gathered features of edge t are
    X t, its coordinates U t, and the projection's entry (q, c) is G' c q. -/
theorem edgeOut_entry {cin cout E : ℕ} (xj : (⟨2, ![cin, E]⟩ : Shape).Idx → EReal) (eaT : (⟨2, ![3, E]⟩ : Shape).Idx → EReal)
    (gT : (⟨2, ![3 * cout, cin]⟩ : Shape).Idx → EReal) (mu sg : (⟨2, ![3, 3]⟩ : Shape).Idx → EReal)
    (X : Fin E → Fin cin → EReal) (U : Fin E → Fin 3 → EReal) (G' : Fin cin → Fin (3 * cout) → EReal)
    (hX : ∀ c t, xj (ix2 c t) = X t c) (hU : ∀ d t, eaT (ix2 d t) = U t d) (hG : ∀ q c, gT (ix2 q c) = G' c q)
    (o : Fin cout) (t : Fin E) (hq : ∀ k : Fin 3, k.val * cout + o.val < 3 * cout) :
    Cert.EdgeSpec.edgeOut xj eaT gT mu sg (ix2 o t)
      = Ideal.ofBits .f32 0x00000000#32
        + ∑ k : Fin 3, (∑ c : Fin cin, X t c * G' c ⟨k.val * cout + o.val, hq k⟩)
            * Cert.GaussForms.weightOf (fun d => (U t d - mu (ix2 k d)) * (U t d - mu (ix2 k d))) (fun d => sg (ix2 k d)) := by
  have eG : (fun q c => gT (ix2 q c)) = fun q c => G' c q := funext fun q => funext fun c => hG q c
  have eX : (fun c => xj (ix2 c t)) = X t := funext fun c => hX c t
  have eU : (fun d => eaT (ix2 d t)) = U t := funext fun d => hU d t
  rw [Cert.EdgeSpec.edgeOut_apply, eG, eX, eU]
  exact Cert.BridgeLaws.edgeMsg_eq_sum' G' (X t) (U t) (fun k d => mu (ix2 k d)) (fun k d => sg (ix2 k d)) o hq

/-- THE UPDATED NODE ARRAY AT (n, o), once the summed messages, the reciprocal degree and the bias are read at their
    entries: the mean is taken by division by the floored count. -/
theorem nodeOut_entry {cin cout N : ℕ} (act : EReal → EReal) (h : (⟨2, ![N, cin]⟩ : Shape).Idx → EReal)
    (root : (⟨2, ![cin, cout]⟩ : Shape).Idx → EReal) (bias : (⟨2, ![1, cout]⟩ : Shape).Idx → EReal)
    (agg : (⟨2, ![N, cout]⟩ : Shape).Idx → EReal) (cinv : (⟨2, ![N, 1]⟩ : Shape).Idx → EReal) (n : Fin N) (o : Fin cout)
    (A CNT B : EReal) (hA : agg (ix2 n o) = A)
    (hC : cinv (ix2 n (0 : Fin 1))
      = Ideal.div (Ideal.ofBits .f32 0x3F800000#32) (max CNT (Ideal.ofBits .f32 0x3F800000#32)))
    (hB : bias (ix2 (0 : Fin 1) o) = B) :
    Cert.NodeSpec.nodeOut act h root bias agg cinv (ix2 n o)
      = act (Ideal.div A (max CNT (Ideal.ofBits .f32 0x3F800000#32)) + (∑ c : Fin cin, h (ix2 n c) * root (ix2 c o)) + B) := by
  rw [Cert.NodeSpec.nodeOut_apply, hA, hC, hB, Cert.BridgeLaws.mul_recip_floor]

/-! ## Layer 1 (3 → 8 channels) -/

/-- Layer 1's message of edge t at channel o. -/
theorem kerMsg1_apply (x : FVec Ideal S100000x3 .f32) (e : IVec S2x3200000 32) (ea : FVec Ideal S3200000x3 .f32)
    (g : FVec Ideal S3x24 .f32) (mu sg : FVec Ideal S3x3 .f32) (o : Fin 8) (t : Fin 3200000) :
    Cert.EdgeSpec.edgeOut (cin := 3) (cout := 8) (E := 3200000) (xjT1 (F := Ideal) x e) (eaT (F := Ideal) ea) (gT1 (F := Ideal) g) mu sg (ix2 o t)
      = Ideal.ofBits .f32 0x00000000#32
        + ∑ k : Fin 3, (∑ c : Fin 3, x (ix2 (SegmentRows.rowOf (by decide) (kerSrc e) t) c)
              * g (ix2 c (⟨k.val * 8 + o.val, by have := k.isLt; have := o.isLt; omega⟩ : Fin 24)))
            * Cert.GaussForms.weightOf (fun d => (ea (ix2 t d) - mu (ix2 k d)) * (ea (ix2 t d) - mu (ix2 k d)))
                (fun d => sg (ix2 k d)) :=
  edgeOut_entry (cin := 3) (cout := 8) (E := 3200000) (xjT1 (F := Ideal) x e) (eaT (F := Ideal) ea) (gT1 (F := Ideal) g) mu sg
    (fun t c => x (ix2 (SegmentRows.rowOf (by decide) (kerSrc e) t) c)) (fun t d => ea (ix2 t d))
    (fun c q => g (ix2 c q))
    (fun c t => xjT1_apply x e c t) (fun d t => eaT_apply ea d t) (fun q c => gT1_apply g q c) o t
    (fun k => by have := k.isLt; have := o.isLt; omega)

/-- LAYER 1 AT (n, o): the unit of (the mean message into n at channel o) + (row n of the features · column o of the
    root weight) + (the bias at o). -/
theorem kerLayer1_apply (x : FVec Ideal S100000x3 .f32) (e : IVec S2x3200000 32) (ea : FVec Ideal S3200000x3 .f32)
    (g : FVec Ideal S3x24 .f32) (mu sg : FVec Ideal S3x3 .f32) (root : FVec Ideal S3x8 .f32) (b : FVec Ideal S8 .f32)
    (n : Fin 100000) (o : Fin 8) :
    kerLayer1 x e ea g mu sg root b (ix2 n o)
      = Cert.NodeSpec.unitOf
          (Ideal.div
              (Ideal.ofBits .f32 0x00000000#32
                + ∑ t : Fin 3200000, if ((kerDst e) (ix2 t 0)).toInt = (n.val : Int) then
                    (Ideal.ofBits .f32 0x00000000#32
                      + ∑ k : Fin 3, (∑ c : Fin 3, x (ix2 (SegmentRows.rowOf (by decide) (kerSrc e) t) c)
                            * g (ix2 c (⟨k.val * 8 + o.val, by have := k.isLt; have := o.isLt; omega⟩ : Fin 24)))
                          * Cert.GaussForms.weightOf (fun d => (ea (ix2 t d) - mu (ix2 k d)) * (ea (ix2 t d) - mu (ix2 k d)))
                              (fun d => sg (ix2 k d)))
                  else 0)
              (max (Ideal.ofBits .f32 0x00000000#32
                  + ∑ t : Fin 3200000, if ((kerDst e) (ix2 t 0)).toInt = (n.val : Int) then Ideal.ofBits .f32 0x3F800000#32 else 0)
                (Ideal.ofBits .f32 0x3F800000#32))
            + (∑ c : Fin 3, x (ix2 n c) * root (ix2 c o)) + b (ix1 o)) := by
  unfold kerLayer1
  rw [hBf1_eq]
  refine nodeOut_entry (cin := 3) (cout := 8) (N := 100000) Cert.NodeSpec.unitOf x root (biasRow8 (F := Ideal) b) _ (recipDeg (F := Ideal) e) n o _ _ _
    ?_ (recipDeg_apply e n 0) (biasRow8_apply b 0 o)
  rw [aggSum8_apply]
  refine congrArg (fun s => Ideal.ofBits .f32 0x00000000#32 + s) (Finset.sum_congr rfl fun t _ => ?_)
  rw [kerMsg1_apply]

/-! ## Layer 2 (8 → 16 channels) -/

/-- Layer 2's message of edge t at channel o. -/
theorem kerMsg2_apply (h : FVec Ideal S100000x8 .f32) (e : IVec S2x3200000 32) (ea : FVec Ideal S3200000x3 .f32)
    (g : FVec Ideal S8x48 .f32) (mu sg : FVec Ideal S3x3 .f32) (o : Fin 16) (t : Fin 3200000) :
    Cert.EdgeSpec.edgeOut (cin := 8) (cout := 16) (E := 3200000) (xjT8 (F := Ideal) h e) (eaT (F := Ideal) ea) (gT2 (F := Ideal) g) mu sg (ix2 o t)
      = Ideal.ofBits .f32 0x00000000#32
        + ∑ k : Fin 3, (∑ c : Fin 8, h (ix2 (SegmentRows.rowOf (by decide) (kerSrc e) t) c)
              * g (ix2 c (⟨k.val * 16 + o.val, by have := k.isLt; have := o.isLt; omega⟩ : Fin 48)))
            * Cert.GaussForms.weightOf (fun d => (ea (ix2 t d) - mu (ix2 k d)) * (ea (ix2 t d) - mu (ix2 k d)))
                (fun d => sg (ix2 k d)) :=
  edgeOut_entry (cin := 8) (cout := 16) (E := 3200000) (xjT8 (F := Ideal) h e) (eaT (F := Ideal) ea) (gT2 (F := Ideal) g) mu sg
    (fun t c => h (ix2 (SegmentRows.rowOf (by decide) (kerSrc e) t) c)) (fun t d => ea (ix2 t d))
    (fun c q => g (ix2 c q))
    (fun c t => xjT8_apply h e c t) (fun d t => eaT_apply ea d t) (fun q c => gT2_apply g q c) o t
    (fun k => by have := k.isLt; have := o.isLt; omega)

/-- LAYER 2 AT (n, o): the unit of (the mean message into n at channel o) + (row n of the features · column o of the
    root weight) + (the bias at o). -/
theorem kerLayer2_apply (h : FVec Ideal S100000x8 .f32) (e : IVec S2x3200000 32) (ea : FVec Ideal S3200000x3 .f32)
    (g : FVec Ideal S8x48 .f32) (mu sg : FVec Ideal S3x3 .f32) (root : FVec Ideal S8x16 .f32) (b : FVec Ideal S16 .f32)
    (n : Fin 100000) (o : Fin 16) :
    kerLayer2 h e ea g mu sg root b (ix2 n o)
      = Cert.NodeSpec.unitOf
          (Ideal.div
              (Ideal.ofBits .f32 0x00000000#32
                + ∑ t : Fin 3200000, if ((kerDst e) (ix2 t 0)).toInt = (n.val : Int) then
                    (Ideal.ofBits .f32 0x00000000#32
                      + ∑ k : Fin 3, (∑ c : Fin 8, h (ix2 (SegmentRows.rowOf (by decide) (kerSrc e) t) c)
                            * g (ix2 c (⟨k.val * 16 + o.val, by have := k.isLt; have := o.isLt; omega⟩ : Fin 48)))
                          * Cert.GaussForms.weightOf (fun d => (ea (ix2 t d) - mu (ix2 k d)) * (ea (ix2 t d) - mu (ix2 k d)))
                              (fun d => sg (ix2 k d)))
                  else 0)
              (max (Ideal.ofBits .f32 0x00000000#32
                  + ∑ t : Fin 3200000, if ((kerDst e) (ix2 t 0)).toInt = (n.val : Int) then Ideal.ofBits .f32 0x3F800000#32 else 0)
                (Ideal.ofBits .f32 0x3F800000#32))
            + (∑ c : Fin 8, h (ix2 n c) * root (ix2 c o)) + b (ix1 o)) := by
  unfold kerLayer2
  rw [hBf8_eq]
  refine nodeOut_entry (cin := 8) (cout := 16) (N := 100000) Cert.NodeSpec.unitOf h root (biasRow16 (F := Ideal) b) _ (recipDeg (F := Ideal) e) n o _ _ _
    ?_ (recipDeg_apply e n 0) (biasRow16_apply b 0 o)
  rw [aggSum16_apply]
  refine congrArg (fun s => Ideal.ofBits .f32 0x00000000#32 + s) (Finset.sum_congr rfl fun t _ => ?_)
  rw [kerMsg2_apply]

/-! ## Layer 3 (16 → 8 channels) -/

/-- Layer 3's message of edge t at channel o. -/
theorem kerMsg3_apply (h : FVec Ideal S100000x16 .f32) (e : IVec S2x3200000 32) (ea : FVec Ideal S3200000x3 .f32)
    (g : FVec Ideal S16x24 .f32) (mu sg : FVec Ideal S3x3 .f32) (o : Fin 8) (t : Fin 3200000) :
    Cert.EdgeSpec.edgeOut (cin := 16) (cout := 8) (E := 3200000) (xjT16 (F := Ideal) h e) (eaT (F := Ideal) ea) (gT3 (F := Ideal) g) mu sg (ix2 o t)
      = Ideal.ofBits .f32 0x00000000#32
        + ∑ k : Fin 3, (∑ c : Fin 16, h (ix2 (SegmentRows.rowOf (by decide) (kerSrc e) t) c)
              * g (ix2 c (⟨k.val * 8 + o.val, by have := k.isLt; have := o.isLt; omega⟩ : Fin 24)))
            * Cert.GaussForms.weightOf (fun d => (ea (ix2 t d) - mu (ix2 k d)) * (ea (ix2 t d) - mu (ix2 k d)))
                (fun d => sg (ix2 k d)) :=
  edgeOut_entry (cin := 16) (cout := 8) (E := 3200000) (xjT16 (F := Ideal) h e) (eaT (F := Ideal) ea) (gT3 (F := Ideal) g) mu sg
    (fun t c => h (ix2 (SegmentRows.rowOf (by decide) (kerSrc e) t) c)) (fun t d => ea (ix2 t d))
    (fun c q => g (ix2 c q))
    (fun c t => xjT16_apply h e c t) (fun d t => eaT_apply ea d t) (fun q c => gT3_apply g q c) o t
    (fun k => by have := k.isLt; have := o.isLt; omega)

/-- LAYER 3 AT (n, o): the unit of (the mean message into n at channel o) + (row n of the features · column o of the
    root weight) + (the bias at o). -/
theorem kerLayer3_apply (h : FVec Ideal S100000x16 .f32) (e : IVec S2x3200000 32) (ea : FVec Ideal S3200000x3 .f32)
    (g : FVec Ideal S16x24 .f32) (mu sg : FVec Ideal S3x3 .f32) (root : FVec Ideal S16x8 .f32) (b : FVec Ideal S8 .f32)
    (n : Fin 100000) (o : Fin 8) :
    kerLayer3 h e ea g mu sg root b (ix2 n o)
      = Cert.NodeSpec.unitOf
          (Ideal.div
              (Ideal.ofBits .f32 0x00000000#32
                + ∑ t : Fin 3200000, if ((kerDst e) (ix2 t 0)).toInt = (n.val : Int) then
                    (Ideal.ofBits .f32 0x00000000#32
                      + ∑ k : Fin 3, (∑ c : Fin 16, h (ix2 (SegmentRows.rowOf (by decide) (kerSrc e) t) c)
                            * g (ix2 c (⟨k.val * 8 + o.val, by have := k.isLt; have := o.isLt; omega⟩ : Fin 24)))
                          * Cert.GaussForms.weightOf (fun d => (ea (ix2 t d) - mu (ix2 k d)) * (ea (ix2 t d) - mu (ix2 k d)))
                              (fun d => sg (ix2 k d)))
                  else 0)
              (max (Ideal.ofBits .f32 0x00000000#32
                  + ∑ t : Fin 3200000, if ((kerDst e) (ix2 t 0)).toInt = (n.val : Int) then Ideal.ofBits .f32 0x3F800000#32 else 0)
                (Ideal.ofBits .f32 0x3F800000#32))
            + (∑ c : Fin 16, h (ix2 n c) * root (ix2 c o)) + b (ix1 o)) := by
  unfold kerLayer3
  rw [hBf16_eq]
  refine nodeOut_entry (cin := 16) (cout := 8) (N := 100000) Cert.NodeSpec.unitOf h root (biasRow8 (F := Ideal) b) _ (recipDeg (F := Ideal) e) n o _ _ _
    ?_ (recipDeg_apply e n 0) (biasRow8_apply b 0 o)
  rw [aggSum8_apply]
  refine congrArg (fun s => Ideal.ofBits .f32 0x00000000#32 + s) (Finset.sum_congr rfl fun t _ => ?_)
  rw [kerMsg3_apply]

/-! ## Layer 4 (8 → 4 channels, no unit) -/

/-- Layer 4's message of edge t at channel o. -/
theorem kerMsg4_apply (h : FVec Ideal S100000x8 .f32) (e : IVec S2x3200000 32) (ea : FVec Ideal S3200000x3 .f32)
    (g : FVec Ideal S8x12 .f32) (mu sg : FVec Ideal S3x3 .f32) (o : Fin 4) (t : Fin 3200000) :
    Cert.EdgeSpec.edgeOut (cin := 8) (cout := 4) (E := 3200000) (xjT8 (F := Ideal) h e) (eaT (F := Ideal) ea) (gT4 (F := Ideal) g) mu sg (ix2 o t)
      = Ideal.ofBits .f32 0x00000000#32
        + ∑ k : Fin 3, (∑ c : Fin 8, h (ix2 (SegmentRows.rowOf (by decide) (kerSrc e) t) c)
              * g (ix2 c (⟨k.val * 4 + o.val, by have := k.isLt; have := o.isLt; omega⟩ : Fin 12)))
            * Cert.GaussForms.weightOf (fun d => (ea (ix2 t d) - mu (ix2 k d)) * (ea (ix2 t d) - mu (ix2 k d)))
                (fun d => sg (ix2 k d)) :=
  edgeOut_entry (cin := 8) (cout := 4) (E := 3200000) (xjT8 (F := Ideal) h e) (eaT (F := Ideal) ea) (gT4 (F := Ideal) g) mu sg
    (fun t c => h (ix2 (SegmentRows.rowOf (by decide) (kerSrc e) t) c)) (fun t d => ea (ix2 t d))
    (fun c q => g (ix2 c q))
    (fun c t => xjT8_apply h e c t) (fun d t => eaT_apply ea d t) (fun q c => gT4_apply g q c) o t
    (fun k => by have := k.isLt; have := o.isLt; omega)

/-- LAYER 4 AT (n, o): (the mean message into n at channel o) + (row n of the features · column o of the
    root weight) + (the bias at o). -/
theorem kerLayer4_apply (h : FVec Ideal S100000x8 .f32) (e : IVec S2x3200000 32) (ea : FVec Ideal S3200000x3 .f32)
    (g : FVec Ideal S8x12 .f32) (mu sg : FVec Ideal S3x3 .f32) (root : FVec Ideal S8x4 .f32) (b : FVec Ideal S4 .f32)
    (n : Fin 100000) (o : Fin 4) :
    kerLayer4 h e ea g mu sg root b (ix2 n o)
      = (Ideal.div
              (Ideal.ofBits .f32 0x00000000#32
                + ∑ t : Fin 3200000, if ((kerDst e) (ix2 t 0)).toInt = (n.val : Int) then
                    (Ideal.ofBits .f32 0x00000000#32
                      + ∑ k : Fin 3, (∑ c : Fin 8, h (ix2 (SegmentRows.rowOf (by decide) (kerSrc e) t) c)
                            * g (ix2 c (⟨k.val * 4 + o.val, by have := k.isLt; have := o.isLt; omega⟩ : Fin 12)))
                          * Cert.GaussForms.weightOf (fun d => (ea (ix2 t d) - mu (ix2 k d)) * (ea (ix2 t d) - mu (ix2 k d)))
                              (fun d => sg (ix2 k d)))
                  else 0)
              (max (Ideal.ofBits .f32 0x00000000#32
                  + ∑ t : Fin 3200000, if ((kerDst e) (ix2 t 0)).toInt = (n.val : Int) then Ideal.ofBits .f32 0x3F800000#32 else 0)
                (Ideal.ofBits .f32 0x3F800000#32))
            + (∑ c : Fin 8, h (ix2 n c) * root (ix2 c o)) + b (ix1 o)) := by
  unfold kerLayer4
  rw [hBf8_eq]
  refine (nodeOut_entry (cin := 8) (cout := 4) (N := 100000) id h root (biasRow4 (F := Ideal) b) _ (recipDeg (F := Ideal) e) n o _ _ _
    ?_ (recipDeg_apply e n 0) (biasRow4_apply b 0 o)).trans (id_eq _)
  rw [aggSum4_apply]
  refine congrArg (fun s => Ideal.ofBits .f32 0x00000000#32 + s) (Finset.sum_congr rfl fun t _ => ?_)
  rw [kerMsg4_apply]

end Cert.KernelIdeal.Hand

end
-- ==== Proof.LibRank3Forms.lean ====
/-
  Host operations on rank-3 arrays, read at an index by coordinates.

  Layout: a matrix `[a, c]` broadcast along a new middle unit axis to `[a, 1, c]`, a matrix `[b, c]` along a new
  leading unit axis to `[1, b, c]`, a matrix `[a, b]` along a new trailing unit axis to `[a, b, 1]`, and an array with
  one unit axis (`[a, 1, c]`, `[1, b, c]`, `[a, b, 1]`) stretched along that axis to `[a, b, c]`, each read the entry
  their kept coordinates name; the row-major reshape of `[a, b · c]` to `[a, b, c]` reads, at `(e, k, o)`, row `e` at
  column `k · c + o`. These hold for any entry type.

  Sums, over the extended reals: a host sum of `[a, b, c]` along its last axis is, at `(i, j)`, the initial value plus
  the sum over `d` of the entries `(i, j, d)`; along its middle axis, at `(i, o)`, the initial value plus the sum over
  `k` of the entries `(i, k, o)`. Nothing here needs an entry to be finite.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.Rank3Forms

open Idealize.ShloMosaic Idealize.ShloMosaic.ValueIdx

/-! ## Broadcasts -/

section Layout
variable {α : Type}

/-- A matrix `[a, c]` broadcast along a new middle unit axis to `[a, 1, c]` reads, at `(e, u, d)`, the matrix at
    `(e, d)`. -/
theorem bcast_ac_a1c_apply {a c : ℕ} (v : (⟨2, ![a, c]⟩ : Shape).Idx → α) (dims : Fin 2 → Fin 3) (h0 : dims 0 = 0)
    (h1 : dims 1 = 2) (h : (⟨2, ![a, c]⟩ : Shape).BroadcastsInDim ⟨3, ![a, 1, c]⟩ dims) (e : Fin a) (u : Fin 1) (d : Fin c) :
    broadcastInDim ⟨3, ![a, 1, c]⟩ dims h v (ix3 e u d) = v (ix2 e d) := by
  refine broadcastInDim_apply dims h v (ix3 e u d) (ix2 e d) fun ax => ?_
  match ax with
  | ⟨0, _⟩ =>
    show e.val = if a = 1 then 0 else ((ix3 e u d : (⟨3, ![a, 1, c]⟩ : Shape).Idx) (dims 0)).val
    rw [h0]
    split
    · have := e.isLt; omega
    · rfl
  | ⟨1, _⟩ =>
    show d.val = if c = 1 then 0 else ((ix3 e u d : (⟨3, ![a, 1, c]⟩ : Shape).Idx) (dims 1)).val
    rw [h1]
    split
    · have := d.isLt; omega
    · rfl

/-- A matrix `[b, c]` broadcast along a new leading unit axis to `[1, b, c]` reads, at `(u, k, d)`, the matrix at
    `(k, d)`. -/
theorem bcast_bc_1bc_apply {b c : ℕ} (v : (⟨2, ![b, c]⟩ : Shape).Idx → α) (dims : Fin 2 → Fin 3) (h0 : dims 0 = 1)
    (h1 : dims 1 = 2) (h : (⟨2, ![b, c]⟩ : Shape).BroadcastsInDim ⟨3, ![1, b, c]⟩ dims) (u : Fin 1) (k : Fin b) (d : Fin c) :
    broadcastInDim ⟨3, ![1, b, c]⟩ dims h v (ix3 u k d) = v (ix2 k d) := by
  refine broadcastInDim_apply dims h v (ix3 u k d) (ix2 k d) fun ax => ?_
  match ax with
  | ⟨0, _⟩ =>
    show k.val = if b = 1 then 0 else ((ix3 u k d : (⟨3, ![1, b, c]⟩ : Shape).Idx) (dims 0)).val
    rw [h0]
    split
    · have := k.isLt; omega
    · rfl
  | ⟨1, _⟩ =>
    show d.val = if c = 1 then 0 else ((ix3 u k d : (⟨3, ![1, b, c]⟩ : Shape).Idx) (dims 1)).val
    rw [h1]
    split
    · have := d.isLt; omega
    · rfl

/-- A matrix `[a, b]` broadcast along a new trailing unit axis to `[a, b, 1]` reads, at `(e, k, u)`, the matrix at
    `(e, k)`. -/
theorem bcast_ab_ab1_apply {a b : ℕ} (v : (⟨2, ![a, b]⟩ : Shape).Idx → α) (dims : Fin 2 → Fin 3) (h0 : dims 0 = 0)
    (h1 : dims 1 = 1) (h : (⟨2, ![a, b]⟩ : Shape).BroadcastsInDim ⟨3, ![a, b, 1]⟩ dims) (e : Fin a) (k : Fin b) (u : Fin 1) :
    broadcastInDim ⟨3, ![a, b, 1]⟩ dims h v (ix3 e k u) = v (ix2 e k) := by
  refine broadcastInDim_apply dims h v (ix3 e k u) (ix2 e k) fun ax => ?_
  match ax with
  | ⟨0, _⟩ =>
    show e.val = if a = 1 then 0 else ((ix3 e k u : (⟨3, ![a, b, 1]⟩ : Shape).Idx) (dims 0)).val
    rw [h0]
    split
    · have := e.isLt; omega
    · rfl
  | ⟨1, _⟩ =>
    show k.val = if b = 1 then 0 else ((ix3 e k u : (⟨3, ![a, b, 1]⟩ : Shape).Idx) (dims 1)).val
    rw [h1]
    split
    · have := k.isLt; omega
    · rfl

/-- An array `[a, 1, c]` stretched along its middle axis to `[a, b, c]` reads, at `(e, k, d)`, the array at
    `(e, 0, d)`. -/
theorem bcast_a1c_abc_apply {a b c : ℕ} (v : (⟨3, ![a, 1, c]⟩ : Shape).Idx → α) (dims : Fin 3 → Fin 3) (h0 : dims 0 = 0)
    (h2 : dims 2 = 2) (h : (⟨3, ![a, 1, c]⟩ : Shape).BroadcastsInDim ⟨3, ![a, b, c]⟩ dims) (e : Fin a) (k : Fin b) (d : Fin c) :
    broadcastInDim ⟨3, ![a, b, c]⟩ dims h v (ix3 e k d) = v (ix3 e (0 : Fin 1) d) := by
  refine broadcastInDim_apply dims h v (ix3 e k d) (ix3 e (0 : Fin 1) d) fun ax => ?_
  match ax with
  | ⟨0, _⟩ =>
    show e.val = if a = 1 then 0 else ((ix3 e k d : (⟨3, ![a, b, c]⟩ : Shape).Idx) (dims 0)).val
    rw [h0]
    split
    · have := e.isLt; omega
    · rfl
  | ⟨1, _⟩ => rfl
  | ⟨2, _⟩ =>
    show d.val = if c = 1 then 0 else ((ix3 e k d : (⟨3, ![a, b, c]⟩ : Shape).Idx) (dims 2)).val
    rw [h2]
    split
    · have := d.isLt; omega
    · rfl

/-- An array `[1, b, c]` stretched along its leading axis to `[a, b, c]` reads, at `(e, k, d)`, the array at
    `(0, k, d)`. -/
theorem bcast_1bc_abc_apply {a b c : ℕ} (v : (⟨3, ![1, b, c]⟩ : Shape).Idx → α) (dims : Fin 3 → Fin 3) (h1 : dims 1 = 1)
    (h2 : dims 2 = 2) (h : (⟨3, ![1, b, c]⟩ : Shape).BroadcastsInDim ⟨3, ![a, b, c]⟩ dims) (e : Fin a) (k : Fin b) (d : Fin c) :
    broadcastInDim ⟨3, ![a, b, c]⟩ dims h v (ix3 e k d) = v (ix3 (0 : Fin 1) k d) := by
  refine broadcastInDim_apply dims h v (ix3 e k d) (ix3 (0 : Fin 1) k d) fun ax => ?_
  match ax with
  | ⟨0, _⟩ => rfl
  | ⟨1, _⟩ =>
    show k.val = if b = 1 then 0 else ((ix3 e k d : (⟨3, ![a, b, c]⟩ : Shape).Idx) (dims 1)).val
    rw [h1]
    split
    · have := k.isLt; omega
    · rfl
  | ⟨2, _⟩ =>
    show d.val = if c = 1 then 0 else ((ix3 e k d : (⟨3, ![a, b, c]⟩ : Shape).Idx) (dims 2)).val
    rw [h2]
    split
    · have := d.isLt; omega
    · rfl

/-- An array `[a, b, 1]` stretched along its trailing axis to `[a, b, c]` reads, at `(e, k, o)`, the array at
    `(e, k, 0)`. -/
theorem bcast_ab1_abc_apply {a b c : ℕ} (v : (⟨3, ![a, b, 1]⟩ : Shape).Idx → α) (dims : Fin 3 → Fin 3) (h0 : dims 0 = 0)
    (h1 : dims 1 = 1) (h : (⟨3, ![a, b, 1]⟩ : Shape).BroadcastsInDim ⟨3, ![a, b, c]⟩ dims) (e : Fin a) (k : Fin b) (o : Fin c) :
    broadcastInDim ⟨3, ![a, b, c]⟩ dims h v (ix3 e k o) = v (ix3 e k (0 : Fin 1)) := by
  refine broadcastInDim_apply dims h v (ix3 e k o) (ix3 e k (0 : Fin 1)) fun ax => ?_
  match ax with
  | ⟨0, _⟩ =>
    show e.val = if a = 1 then 0 else ((ix3 e k o : (⟨3, ![a, b, c]⟩ : Shape).Idx) (dims 0)).val
    rw [h0]
    split
    · have := e.isLt; omega
    · rfl
  | ⟨1, _⟩ =>
    show k.val = if b = 1 then 0 else ((ix3 e k o : (⟨3, ![a, b, c]⟩ : Shape).Idx) (dims 1)).val
    rw [h1]
    split
    · have := k.isLt; omega
    · rfl
  | ⟨2, _⟩ => rfl

/-- A rank-zero array broadcast to any shape reads its one entry everywhere. -/
theorem bcast_rank0_apply {t : Shape} (v : (⟨0, ![]⟩ : Shape).Idx → α) (dims : Fin 0 → Fin t.rank)
    (h : (⟨0, ![]⟩ : Shape).BroadcastsInDim t dims) (j : t.Idx) : broadcastInDim t dims h v j = v ix0 :=
  broadcastInDim_apply dims h v j ix0 fun ax => ax.elim0

/-! ## The reshape that splits the column axis -/

/-- The column `k · c + o` of a row of `b · c` entries. -/
theorem split_lt {b c m : ℕ} (hm : m = b * c) (k : Fin b) (o : Fin c) : k.val * c + o.val < m := by
  rw [hm]
  calc k.val * c + o.val < k.val * c + c := Nat.add_lt_add_left o.isLt _
    _ = (k.val + 1) * c := (Nat.succ_mul _ _).symm
    _ ≤ b * c := Nat.mul_le_mul_right _ k.isLt

/-- `[a, m]` reshaped in row-major order to `[a, b, c]` (`m = b · c`) reads, at `(e, k, o)`, row `e` at column
    `k · c + o`. -/
theorem reshape_am_abc_apply {a b c m : ℕ} (x : (⟨2, ![a, m]⟩ : Shape).Idx → α)
    (h : (⟨2, ![a, m]⟩ : Shape).ShapeCasts ⟨3, ![a, b, c]⟩) (hm : m = b * c) (e : Fin a) (k : Fin b) (o : Fin c) :
    shapeCast ⟨3, ![a, b, c]⟩ x h (ix3 e k o) = x (ix2 e (⟨k.val * c + o.val, split_lt hm k o⟩ : Fin m)) :=
  shapeCast_apply x h _ _ (by
    rw [Shape.rowMajor_val_three, Shape.rowMajor_val_two]
    show e.val * m + (k.val * c + o.val) = (e.val * b + k.val) * c + o.val
    rw [hm]; ring)

end Layout

/-! ## Host sums along one axis -/

variable {φ : FTy}

/-- The index of `[a, b, c]` that reduces to `(i, j)` along the last axis and has `k` there is `(i, j, k)`. -/
theorem lift_axis2 {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- The index of `[a, b, c]` that reduces to `(i, o)` along the middle axis and has `k` there is `(i, k, o)`. -/
theorem lift_axis1 {a b c : ℕ} (h : (⟨3, ![a, b, c]⟩ : Shape).Reduces [1] ⟨2, ![a, c]⟩) (i : Fin a) (o : Fin c)
    (k : Fin ((⟨3, ![a, b, c]⟩ : Shape).size 1)) : h.lift (ix2 i o) k = ix3 i (⟨k.val, k.isLt⟩ : Fin b) o := by
  funext d; apply Fin.ext
  match d with
  | ⟨0, _⟩ => rfl
  | ⟨1, _⟩ => rfl
  | ⟨2, _⟩ => rfl

/-- A host sum of `[a, b, c]` along the last axis, at `(i, j)`: the initial value plus the sum over `d` of the
    entries `(i, j, d)`. -/
theorem reduceAdd_axis2 {a b c : ℕ} {u : Shape} (x : FVec Ideal ⟨3, ![a, b, c]⟩ φ) (init : u.Idx → Ideal φ)
    (h' : (⟨3, ![a, b, c]⟩ : Shape).ReducesTo [2] ⟨2, ![a, b]⟩) (hu : 0 < u.numel) (i : Fin a) (j : Fin b) :
    Host.reduceAdd x init h' hu (ix2 i j) = init (Shape.Idx.first hu) + ∑ d : Fin c, x (ix3 i j d) := by
  have h : (⟨3, ![a, b, c]⟩ : Shape).Reduces [2] ⟨2, ![a, b]⟩ := ⟨h'.1, Nat.succ_pos _, h'.2⟩
  rw [hostReduceAdd_apply, Ideal.hostReduceAdd_single h' h]
  exact congrArg (fun z => init (Shape.Idx.first hu) + z)
    (Finset.sum_congr rfl fun k _ => congrArg x (lift_axis2 h i j k))

/-- A host sum of `[a, b, c]` along the middle axis, at `(i, o)`: the initial value plus the sum over `k` of the
    entries `(i, k, o)`. -/
theorem reduceAdd_axis1 {a b c : ℕ} {u : Shape} (x : FVec Ideal ⟨3, ![a, b, c]⟩ φ) (init : u.Idx → Ideal φ)
    (h' : (⟨3, ![a, b, c]⟩ : Shape).ReducesTo [1] ⟨2, ![a, c]⟩) (hu : 0 < u.numel) (i : Fin a) (o : Fin c) :
    Host.reduceAdd x init h' hu (ix2 i o) = init (Shape.Idx.first hu) + ∑ k : Fin b, x (ix3 i k o) := by
  have h : (⟨3, ![a, b, c]⟩ : Shape).Reduces [1] ⟨2, ![a, c]⟩ := ⟨h'.1, Nat.succ_pos _, h'.2⟩
  rw [hostReduceAdd_apply, Ideal.hostReduceAdd_single h' h]
  exact congrArg (fun z => init (Shape.Idx.first hu) + z)
    (Finset.sum_congr rfl fun k _ => congrArg x (lift_axis1 h i o k))

/-- From the zero word, the sum along the last axis at `(i, j)` is the sum over `d` of the entries `(i, j, d)`. -/
theorem reduceAdd_axis2_zero {a b c : ℕ} {u : Shape} (x : FVec Ideal ⟨3, ![a, b, c]⟩ .f32)
    (h' : (⟨3, ![a, b, c]⟩ : Shape).ReducesTo [2] ⟨2, ![a, b]⟩) (hu : 0 < u.numel) (i : Fin a) (j : Fin b) :
    Host.reduceAdd x (constant (F := Ideal) u .f32 0x00000000#32) h' hu (ix2 i j) = ∑ d : Fin c, x (ix3 i j d) := by
  rw [reduceAdd_axis2]
  show Ideal.ofBits .f32 0x00000000#32 + _ = _
  rw [Ideal.ofBits_zero_f32, zero_add]

/-- From the zero word, the sum along the middle axis at `(i, o)` is the sum over `k` of the entries `(i, k, o)`. -/
theorem reduceAdd_axis1_zero {a b c : ℕ} {u : Shape} (x : FVec Ideal ⟨3, ![a, b, c]⟩ .f32)
    (h' : (⟨3, ![a, b, c]⟩ : Shape).ReducesTo [1] ⟨2, ![a, c]⟩) (hu : 0 < u.numel) (i : Fin a) (o : Fin c) :
    Host.reduceAdd x (constant (F := Ideal) u .f32 0x00000000#32) h' hu (ix2 i o) = ∑ k : Fin b, x (ix3 i k o) := by
  rw [reduceAdd_axis1]
  show Ideal.ofBits .f32 0x00000000#32 + _ = _
  rw [Ideal.ofBits_zero_f32, zero_add]

end Cert.Rank3Forms

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«144358_j6828998001340_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.RefLayer1.lean ====
/-
  Layer 1 of the reference read at an index.

  At an edge e and an output column o the message is the zero the sum starts from plus, over the three mixture
  components k, the source row of e contracted with column k·8 + o of the stacked matrices, times the weight of
  component k at the edge's coordinates. At a node n the aggregate is the sum of the messages of the edges whose target is
  n, the count the number of those edges; the layer before its unit is the aggregate divided by the count floored at
  one, plus the node's own row contracted with the root matrix, plus the bias; the unit sends v to v if v > 0 and to
  exp v − 1 otherwise.
-/
import Idealize.ShloMosaic.Lib.ValueIdx
import Idealize.ShloMosaic.Lib.IdealHost
import Idealize.ShloMosaic.Lib.ValueLayout
import Idealize.ShloMosaic.PureOps.Ideal.Laws
import proofs.«144358_j6828998001340_2_alg».proof.ReferenceIdeal
import proofs.«144358_j6828998001340_2_alg».proof.Proof.RefLayer1Defs
import proofs.«144358_j6828998001340_2_alg».proof.Proof.LibRank3Forms
import proofs.«144358_j6828998001340_2_alg».proof.Proof.LibHostRowForms
import proofs.«144358_j6828998001340_2_alg».proof.Proof.LibSegmentRows
import proofs.«144358_j6828998001340_2_alg».proof.Proof.LibChannelForms
import proofs.«144358_j6828998001340_2_alg».proof.Proof.LibPlainHostProduct
import proofs.«144358_j6828998001340_2_alg».proof.Proof.LibGaussForms

noncomputable section

open scoped BigOperators

namespace Cert.ReferenceIdeal.Hand

open Cert.ReferenceIdeal Cert.ReferenceIdeal.Facts₀ Idealize.ShloMosaic Idealize.ShloMosaic.ValueIdx
open Cert.Rank3Forms Cert.HostRowForms

variable [Facts₀]

/-! ## Host operations at an entry -/

/-- The host exponential at an entry. -/
theorem hostExp_apply {s : Shape} {φ : FTy} (x : FVec Ideal s φ) (i : s.Idx) : Host.exp x i = Ideal.exp (x i) := rfl

/-- The host exponential minus one at an entry. -/
theorem hostExpm1_apply {s : Shape} {φ : FTy} (x : FVec Ideal s φ) (i : s.Idx) : Host.expm1 x i = Ideal.expm1 (x i) := rfl

/-- A comparison at an entry is the comparison of the extended reals. -/
theorem cmpfI_apply {s : Shape} {φ : FTy} (p : CmpFPredicate) (a b : FVec Ideal s φ) (i : s.Idx) :
    cmpf p a b i = Ideal.cmp p (a i) (b i) := rfl

/-! ## The index columns at an entry -/

/-- The sources as given: entry t is entry (0, t) of the edge list. -/
theorem refRow0_apply (ei : IVec S2x3200000 32) (t : Fin 3200000) : refRow0 ei (ix1 t) = ei (ix2 0 t) :=
  (shapeCast_1a_a_apply _ shapeCasts_S1x3200000_S3200000 t).trans
    (slice2_axis0_apply 0 ei slices_S2x3200000_S1x3200000_0_0 0 t 0 rfl)

/-- The targets: entry t is entry (1, t) of the edge list. -/
theorem refRow1_apply (ei : IVec S2x3200000 32) (t : Fin 3200000) : refRow1 ei (ix1 t) = ei (ix2 1 t) :=
  (shapeCast_1a_a_apply _ shapeCasts_S1x3200000_S3200000 t).trans
    (slice2_axis0_apply 1 ei slices_S2x3200000_S1x3200000_1_0 0 t 1 rfl)

/-- The target column at (t, 0) is the target of edge t. -/
theorem refDst_apply (ei : IVec S2x3200000 32) (t : Fin 3200000) : refDst ei (ix2 t 0) = ei (ix2 1 t) :=
  (bcast_a_a1_apply (refRow1 ei) _ rfl _ t 0).trans (refRow1_apply ei t)

/-- The source column at (t, 0): the source of edge t, a negative one moved up by the number of nodes. -/
theorem refSrc_apply (ei : IVec S2x3200000 32) (t : Fin 3200000) :
    refSrc ei (ix2 t 0)
      = Scalar.select (IntOp.cmpi .slt (ei (ix2 0 t)) 0#32) (IntOp.addi (ei (ix2 0 t)) 100000#32) (ei (ix2 0 t)) := by
  refine (bcast_a_a1_apply _ _ rfl _ t 0).trans ?_
  show Scalar.select (IntOp.cmpi .slt (refRow0 ei (ix1 t)) 0#32) (IntOp.addi (refRow0 ei (ix1 t)) 100000#32)
      (refRow0 ei (ix1 t)) = _
  rw [refRow0_apply]

/-! ## The edge side, the node side, and the unit -/

/-- The gathered row of edge e is the node table's row at the edge's source. -/
theorem refGath1_apply (h : FVec Ideal S100000x3 .f32) (ei : IVec S2x3200000 32) (e : Fin 3200000) (c : Fin 3) :
    refGath1 h ei (ix2 e c) = h (ix2 (SegmentRows.rowOf (by decide) (refSrc ei) e) c) :=
  SegmentRows.gather_rows_apply gather_S100000x3_S3200000x1_S3200000x3_1_0_n_n_0_1_13_wf (refSrc ei) e c (by decide) h

/-- The projected row of edge e at column q: the source row contracted with column q. -/
theorem refProj1_apply (h : FVec Ideal S100000x3 .f32) (ei : IVec S2x3200000 32) (g : FVec Ideal S3x24 .f32)
    (e : Fin 3200000) (q : Fin 24) :
    refProj1 h ei g (ix2 e q) = ∑ c : Fin 3, h (ix2 (SegmentRows.rowOf (by decide) (refSrc ei) e) c) * g (ix2 c q) :=
  (Cert.PointConv.plainDotGeneral_apply dot_S3200000x3_S3x24_S3200000x24_1_0_0_1_n_n_wf none .single (refGath1 h ei) g e q).trans
    (Finset.sum_congr rfl fun c _ => congrArg (· * g (ix2 c q)) (refGath1_apply h ei e c))

/-- The coordinate difference at (e, k, d). -/
theorem refDiff_apply (ea : FVec Ideal S3200000x3 .f32) (mu : FVec Ideal S3x3 .f32) (e : Fin 3200000) (k d : Fin 3) :
    refDiff ea mu (ix3 e k d) = ea (ix2 e d) - mu (ix2 k d) :=
  (subf_apply _ _ (ix3 e k d)).trans (congrArg₂ (· - ·)
    ((bcast_a1c_abc_apply _ _ rfl rfl _ e k d).trans (bcast_ac_a1c_apply ea _ rfl rfl _ e 0 d))
    ((bcast_1bc_abc_apply _ _ rfl rfl _ e k d).trans (bcast_bc_1bc_apply mu _ rfl rfl _ 0 k d)))

/-- The denominator at (k, d). -/
theorem refDen_apply (sg : FVec Ideal S3x3 .f32) (k d : Fin 3) :
    refDen sg (ix3 (0 : Fin 1) k d) = Ideal.ofBits .f32 0x26901D7D#32 + sg (ix2 k d) * sg (ix2 k d) :=
  (addf_apply _ _ (ix3 (0 : Fin 1) k d)).trans (congrArg₂ (· + ·)
    (bcast_scalar_apply (φ := .f32) 0x26901D7D#32 _ bcast_S_S1x3x3 (ix3 (0 : Fin 1) k d))
    ((mulf_apply _ _ (ix3 (0 : Fin 1) k d)).trans (congrArg₂ (· * ·)
      (bcast_bc_1bc_apply sg _ rfl rfl _ 0 k d) (bcast_bc_1bc_apply sg _ rfl rfl _ 0 k d))))

/-- The exponent's sum at (e, k), as the host sum gives it: from the zero word. -/
theorem refExpo_apply (ea : FVec Ideal S3200000x3 .f32) (mu sg : FVec Ideal S3x3 .f32) (e : Fin 3200000) (k : Fin 3) :
    refExpo ea mu sg (ix2 e k) = Ideal.ofBits .f32 0x00000000#32 + ∑ d : Fin 3,
      Ideal.div ((ea (ix2 e d) - mu (ix2 k d)) * (ea (ix2 e d) - mu (ix2 k d)))
        (Ideal.ofBits .f32 0x26901D7D#32 + sg (ix2 k d) * sg (ix2 k d)) :=
  (reduceAdd_axis2 _ (constant (F := Ideal) S_ .f32 0x00000000#32) reducesTo_S3200000x3x3_S3200000x3_d2 h_S_ e k).trans
    (congrArg (Ideal.ofBits .f32 0x00000000#32 + ·) (Finset.sum_congr rfl fun d _ =>
      (hostDivf_apply _ _ (ix3 e k d)).trans (congrArg₂ Ideal.div
        ((mulf_apply _ _ (ix3 e k d)).trans (congrArg₂ (· * ·) (refDiff_apply ea mu e k d) (refDiff_apply ea mu e k d)))
        ((bcast_1bc_abc_apply _ _ rfl rfl _ e k d).trans (refDen_apply sg k d)))))

/-- The weight at (e, k) over the exponent's sum. -/
theorem refW_apply (ea : FVec Ideal S3200000x3 .f32) (mu sg : FVec Ideal S3x3 .f32) (e : Fin 3200000) (k : Fin 3) :
    refW ea mu sg (ix2 e k) = Ideal.exp (Ideal.ofBits .f32 0xBF000000#32 * refExpo ea mu sg (ix2 e k)) :=
  (hostExp_apply _ (ix2 e k)).trans (congrArg Ideal.exp ((mulf_apply _ _ (ix2 e k)).trans
    (congrArg (· * refExpo ea mu sg (ix2 e k)) (bcast_scalar_apply (φ := .f32) 0xBF000000#32 _ bcast_S_S3200000x3 (ix2 e k)))))

/-- The weight at (e, k) with the zero the host sum starts from still inside the exponent. -/
theorem refW_apply_zero (ea : FVec Ideal S3200000x3 .f32) (mu sg : FVec Ideal S3x3 .f32) (e : Fin 3200000) (k : Fin 3) :
    refW ea mu sg (ix2 e k) = Ideal.exp (Ideal.ofBits .f32 0xBF000000#32 * (Ideal.ofBits .f32 0x00000000#32 + ∑ d : Fin 3,
      Ideal.div ((ea (ix2 e d) - mu (ix2 k d)) * (ea (ix2 e d) - mu (ix2 k d)))
        (Ideal.ofBits .f32 0x26901D7D#32 + sg (ix2 k d) * sg (ix2 k d)))) :=
  (refW_apply ea mu sg e k).trans (congrArg (fun z => Ideal.exp (Ideal.ofBits .f32 0xBF000000#32 * z)) (refExpo_apply ea mu sg e k))

/-- The weight at (e, k) is the mixture weight of component k at the edge's coordinates. -/
theorem refW_eq_weightOf (ea : FVec Ideal S3200000x3 .f32) (mu sg : FVec Ideal S3x3 .f32) (e : Fin 3200000) (k : Fin 3) :
    refW ea mu sg (ix2 e k) = Cert.GaussForms.weightOf
      (fun d => (ea (ix2 e d) - mu (ix2 k d)) * (ea (ix2 e d) - mu (ix2 k d))) (fun d => sg (ix2 k d)) := by
  rw [refW_apply_zero, Ideal.ofBits_zero_f32, zero_add]
  rfl

/-- The message at (e, o) over the projected row and the weights, from the zero word. -/
theorem refMsg1_apply_proj (h : FVec Ideal S100000x3 .f32) (ei : IVec S2x3200000 32) (ea : FVec Ideal S3200000x3 .f32)
    (g : FVec Ideal S3x24 .f32) (mu sg : FVec Ideal S3x3 .f32) (e : Fin 3200000) (o : Fin 8) :
    refMsg1 h ei ea g mu sg (ix2 e o) = Ideal.ofBits .f32 0x00000000#32 + ∑ k : Fin 3,
      refProj1 h ei g (ix2 e (⟨k.val * 8 + o.val, split_lt rfl k o⟩ : Fin 24)) * refW ea mu sg (ix2 e k) :=
  (reduceAdd_axis1 _ (constant (F := Ideal) S_ .f32 0x00000000#32) reducesTo_S3200000x3x8_S3200000x8_d1 h_S_ e o).trans
    (congrArg (Ideal.ofBits .f32 0x00000000#32 + ·) (Finset.sum_congr rfl fun k _ =>
      (mulf_apply _ _ (ix3 e k o)).trans (congrArg₂ (· * ·)
        (reshape_am_abc_apply (refProj1 h ei g) shapeCasts_S3200000x24_S3200000x3x8 rfl e k o)
        ((bcast_ab1_abc_apply _ _ rfl rfl _ e k o).trans (bcast_ab_ab1_apply (refW ea mu sg) _ rfl rfl _ e k 0)))))

/-- The message at (e, o): from the zero word, the sum over the components of the contracted source row times the
    component's weight. -/
theorem refMsg1_apply (h : FVec Ideal S100000x3 .f32) (ei : IVec S2x3200000 32) (ea : FVec Ideal S3200000x3 .f32)
    (g : FVec Ideal S3x24 .f32) (mu sg : FVec Ideal S3x3 .f32) (e : Fin 3200000) (o : Fin 8) :
    refMsg1 h ei ea g mu sg (ix2 e o) = Ideal.ofBits .f32 0x00000000#32 + ∑ k : Fin 3,
      (∑ c : Fin 3, h (ix2 (SegmentRows.rowOf (by decide) (refSrc ei) e) c)
          * g (ix2 c (⟨k.val * 8 + o.val, split_lt rfl k o⟩ : Fin 24)))
        * Cert.GaussForms.weightOf (fun d => (ea (ix2 e d) - mu (ix2 k d)) * (ea (ix2 e d) - mu (ix2 k d)))
            (fun d => sg (ix2 k d)) :=
  (refMsg1_apply_proj h ei ea g mu sg e o).trans
    (congrArg (Ideal.ofBits .f32 0x00000000#32 + ·) (Finset.sum_congr rfl fun k _ =>
      congrArg₂ (· * ·) (refProj1_apply h ei g e _) (refW_eq_weightOf ea mu sg e k)))

/-- The same without the zero. -/
theorem refMsg1_apply' (h : FVec Ideal S100000x3 .f32) (ei : IVec S2x3200000 32) (ea : FVec Ideal S3200000x3 .f32)
    (g : FVec Ideal S3x24 .f32) (mu sg : FVec Ideal S3x3 .f32) (e : Fin 3200000) (o : Fin 8) :
    refMsg1 h ei ea g mu sg (ix2 e o) = ∑ k : Fin 3,
      (∑ c : Fin 3, h (ix2 (SegmentRows.rowOf (by decide) (refSrc ei) e) c)
          * g (ix2 c (⟨k.val * 8 + o.val, split_lt rfl k o⟩ : Fin 24)))
        * Cert.GaussForms.weightOf (fun d => (ea (ix2 e d) - mu (ix2 k d)) * (ea (ix2 e d) - mu (ix2 k d)))
            (fun d => sg (ix2 k d)) := by
  rw [refMsg1_apply, Ideal.ofBits_zero_f32, zero_add]

/-! ## The node side -/

/-- The aggregate, as the scatter-add of the messages into a zero table, over the dimension numbers of a row scatter. -/
theorem refAgg1_eq (h : FVec Ideal S100000x3 .f32) (ei : IVec S2x3200000 32) (ea : FVec Ideal S3200000x3 .f32)
    (g : FVec Ideal S3x24 .f32) (mu sg : FVec Ideal S3x3 .f32) :
    refAgg1 h ei ea g mu sg = Ideal.hostScatterAdd
      (SegmentRows.rowScatterDims 100000 3200000 8 scatter_S100000x8_S3200000x1_S3200000x8_1_0_0_1_wf)
      (broadcastInDim S100000x8 ![] bcast_S_S100000x8 (constant (F := Ideal) S_ .f32 0x00000000#32)) (refDst ei)
      (refMsg1 h ei ea g mu sg) := rfl

/-- The aggregate at (n, o): from the zero word, the messages of the edges whose target is n. -/
theorem refAgg1_apply (h : FVec Ideal S100000x3 .f32) (ei : IVec S2x3200000 32) (ea : FVec Ideal S3200000x3 .f32)
    (g : FVec Ideal S3x24 .f32) (mu sg : FVec Ideal S3x3 .f32) (n : Fin 100000) (o : Fin 8) :
    refAgg1 h ei ea g mu sg (ix2 n o) = Ideal.ofBits .f32 0x00000000#32 + ∑ e : Fin 3200000,
      if ((refDst ei) (ix2 e 0)).toInt = (n.val : Int) then refMsg1 h ei ea g mu sg (ix2 e o) else 0 :=
  (congrFun (refAgg1_eq h ei ea g mu sg) (ix2 n o)).trans
    ((SegmentRows.hostScatterAdd_rows_apply scatter_S100000x8_S3200000x1_S3200000x8_1_0_0_1_wf (refDst ei) o
      (broadcastInDim S100000x8 ![] bcast_S_S100000x8 (constant (F := Ideal) S_ .f32 0x00000000#32)) (refMsg1 h ei ea g mu sg) n).trans
      (congrArg (fun z => z + ∑ e : Fin 3200000,
          if ((refDst ei) (ix2 e 0)).toInt = (n.val : Int) then refMsg1 h ei ea g mu sg (ix2 e o) else 0)
        (bcast_scalar_apply (φ := .f32) 0x00000000#32 _ bcast_S_S100000x8 (ix2 n o))))

/-- The count, as the scatter-add of ones into a zero vector, over the dimension numbers of a vector scatter. -/
theorem refCnt_eq (ei : IVec S2x3200000 32) :
    refCnt ei = Host.scatterAdd (F := Ideal) (φ := .f32)
      (Cert.ChannelForms.vecScatterDims 100000 3200000 scatter_S100000_S3200000x1_S3200000_n_0_0_1_wf)
      (broadcastInDim S100000 ![] bcast_S_S100000 (constant (F := Ideal) S_ .f32 0x00000000#32)) (refDst ei)
      (broadcastInDim S3200000 ![] bcast_S_S3200000 (constant (F := Ideal) S_ .f32 0x3F800000#32)) := rfl

/-- The count at n: from the zero word, one for every edge whose target is n. -/
theorem refCnt_apply (ei : IVec S2x3200000 32) (n : Fin 100000) :
    refCnt ei (ix1 n) = Ideal.ofBits .f32 0x00000000#32 + ∑ e : Fin 3200000,
      if ((refDst ei) (ix2 e 0)).toInt = (n.val : Int) then Ideal.ofBits .f32 0x3F800000#32 else 0 :=
  (congrFun (refCnt_eq ei) (ix1 n)).trans
    ((Cert.ChannelForms.scatterAdd_vec_apply scatter_S100000_S3200000x1_S3200000_n_0_0_1_wf (refDst ei)
      (broadcastInDim S100000 ![] bcast_S_S100000 (constant (F := Ideal) S_ .f32 0x00000000#32))
      (broadcastInDim S3200000 ![] bcast_S_S3200000 (constant (F := Ideal) S_ .f32 0x3F800000#32)) n).trans
      (congrArg₂ (· + ·) (bcast_scalar_apply (φ := .f32) 0x00000000#32 _ bcast_S_S100000 (ix1 n))
        (Finset.sum_congr rfl fun e _ => congrArg (fun z => if ((refDst ei) (ix2 e 0)).toInt = (n.val : Int) then z else 0)
          (bcast_scalar_apply (φ := .f32) 0x3F800000#32 _ bcast_S_S3200000 (ix1 e)))))

/-- The floored count at n. -/
theorem refFloor_apply (ei : IVec S2x3200000 32) (n : Fin 100000) :
    refFloor ei (ix1 n) = max (refCnt ei (ix1 n)) (Ideal.ofBits .f32 0x3F800000#32) :=
  (maximumf_apply _ _ (ix1 n)).trans (congrArg (max (refCnt ei (ix1 n))) (bcast_scalar_apply (φ := .f32) 0x3F800000#32 _ bcast_S_S100000 (ix1 n)))

/-- The same with the word of one read. -/
theorem refFloor_apply' (ei : IVec S2x3200000 32) (n : Fin 100000) :
    refFloor ei (ix1 n) = max (refCnt ei (ix1 n)) 1 := by
  rw [refFloor_apply, Ideal.ofBits_one_f32]

/-- The layer before its unit at (n, o). -/
theorem refPre1_apply (h : FVec Ideal S100000x3 .f32) (ei : IVec S2x3200000 32) (ea : FVec Ideal S3200000x3 .f32)
    (g : FVec Ideal S3x24 .f32) (mu sg : FVec Ideal S3x3 .f32) (root : FVec Ideal S3x8 .f32) (b : FVec Ideal S8 .f32)
    (n : Fin 100000) (o : Fin 8) :
    refPre1 h ei ea g mu sg root b (ix2 n o)
      = Ideal.div (refAgg1 h ei ea g mu sg (ix2 n o)) (max (refCnt ei (ix1 n)) 1)
        + (∑ c : Fin 3, h (ix2 n c) * root (ix2 c o)) + b (ix1 o) :=
  (addf_apply _ _ (ix2 n o)).trans (congrArg₂ (· + ·)
    ((addf_apply _ _ (ix2 n o)).trans (congrArg₂ (· + ·)
      ((hostDivf_apply _ _ (ix2 n o)).trans (congrArg (Ideal.div (refAgg1 h ei ea g mu sg (ix2 n o)))
        (((bcast_a1_ab_apply _ _ rfl _ n o).trans (bcast_a_a1_apply (refFloor ei) _ rfl _ n 0)).trans (refFloor_apply' ei n))))
      (Cert.PointConv.plainDotGeneral_apply dot_S100000x3_S3x8_S100000x8_1_0_0_1_n_n_wf none .single h root n o)))
    ((bcast_1b_ab_apply _ _ rfl _ n o).trans (bcast_b_1b_apply b _ rfl _ 0 o)))

/-! ## The unit -/

/-- The unit at an entry, as its operations give it. -/
theorem refElu8_apply_raw (x : FVec Ideal S100000x8 .f32) (i : S100000x8.Idx) :
    refElu8 x i = Scalar.select (Ideal.cmp .ogt (x i) (Ideal.ofBits .f32 0x00000000#32)) (x i)
      (Ideal.ofBits .f32 0x3F800000#32 * Ideal.expm1
        (Scalar.select (Ideal.cmp .ogt (x i) (Ideal.ofBits .f32 0x00000000#32)) (Ideal.ofBits .f32 0x00000000#32) (x i))) := by
  have hz : broadcastInDim S100000x8 ![] bcast_S_S100000x8 (constant (F := Ideal) S_ .f32 0x00000000#32) i
      = Ideal.ofBits .f32 0x00000000#32 := bcast_scalar_apply (φ := .f32) 0x00000000#32 _ bcast_S_S100000x8 i
  have hz' : broadcastInDim S100000x8 ![] bcast_S_S100000x8 (id (constant (F := Ideal) S_ .f32 0x00000000#32)) i
      = Ideal.ofBits .f32 0x00000000#32 := bcast_scalar_apply (φ := .f32) 0x00000000#32 _ bcast_S_S100000x8 i
  have ho : broadcastInDim S100000x8 ![] bcast_S_S100000x8 (constant (F := Ideal) S_ .f32 0x3F800000#32) i
      = Ideal.ofBits .f32 0x3F800000#32 := bcast_scalar_apply (φ := .f32) 0x3F800000#32 _ bcast_S_S100000x8 i
  unfold refElu8
  rw [select_apply, cmpfI_apply, mulf_apply, hostExpm1_apply, select_apply, cmpfI_apply, hz, hz', ho]

/-- The unit at an entry: v if v > 0, else exp v − 1. -/
theorem refElu8_apply (x : FVec Ideal S100000x8 .f32) (i : S100000x8.Idx) :
    refElu8 x i = if 0 < x i then x i else Ideal.exp (x i) - 1 := by
  rw [refElu8_apply_raw, Ideal.ofBits_zero_f32, Ideal.ofBits_one_f32]
  by_cases hv : 0 < x i
  · have hc : Ideal.cmp .ogt (x i) 0 = 1#1 := by simp [Ideal.cmp, hv]
    rw [hc, select_one, if_pos hv]
  · have hc : Ideal.cmp .ogt (x i) 0 = 0#1 := by simp [Ideal.cmp, hv]
    rw [hc, select_zero, select_zero, if_neg hv, one_mul]
    rfl

/-- Layer 1 at (n, o). -/
theorem refLayer1_apply (h : FVec Ideal S100000x3 .f32) (ei : IVec S2x3200000 32) (ea : FVec Ideal S3200000x3 .f32)
    (g : FVec Ideal S3x24 .f32) (mu sg : FVec Ideal S3x3 .f32) (root : FVec Ideal S3x8 .f32) (b : FVec Ideal S8 .f32)
    (n : Fin 100000) (o : Fin 8) :
    refLayer1 h ei ea g mu sg root b (ix2 n o)
      = if 0 < refPre1 h ei ea g mu sg root b (ix2 n o) then refPre1 h ei ea g mu sg root b (ix2 n o)
        else Ideal.exp (refPre1 h ei ea g mu sg root b (ix2 n o)) - 1 :=
  refElu8_apply (refPre1 h ei ea g mu sg root b) (ix2 n o)

end Cert.ReferenceIdeal.Hand

end
-- ==== Proof.BridgeElu.lean ====
/-
  The reference's exponential linear unit, on a whole table, is the one-choice unit applied to every entry.
-/
import proofs.«144358_j6828998001340_2_alg».proof.Proof.RefLayer1Defs
import proofs.«144358_j6828998001340_2_alg».proof.Proof.LibBridgeLaws

noncomputable section

namespace Cert.BridgeLaws

open Idealize.ShloMosaic Idealize.ShloMosaic.ValueIdx
open Cert.ReferenceIdeal Cert.ReferenceIdeal.Hand

variable [Cert.ReferenceIdeal.Facts₀]

/-- The reference's exponential linear unit on a table of eight columns is the unit applied to every entry. -/
theorem refElu8_eq_unitOf (x : FVec Ideal S100000x8 .f32) : refElu8 x = fun i => Cert.NodeSpec.unitOf (x i) := by
  funext i
  exact (unitOf_eq (x i)).symm

end Cert.BridgeLaws

end
-- ==== Proof.BridgeLayer1.lean ====
import proofs.«144358_j6828998001340_2_alg».proof.Proof.Gen.ReferenceIdeal
import proofs.«144358_j6828998001340_2_alg».proof.Proof.KerLayerForms
import proofs.«144358_j6828998001340_2_alg».proof.Proof.RefLayer1
import proofs.«144358_j6828998001340_2_alg».proof.Proof.BridgeElu
import proofs.«144358_j6828998001340_2_alg».proof.Proof.LibBridgeLaws

set_option maxRecDepth 16384

noncomputable section

namespace Cert.Proof.Bridge

open Idealize.ShloMosaic Idealize.ShloMosaic.ValueIdx
open Cert.KernelIdeal.Hand Cert.ReferenceIdeal.Hand

/-! # Layer 1: the channel-major program's layer is the reference's

Entry by entry both are the unit of (mean of the messages into the node) + (features x root) + bias. The messages agree
term by term (the same gathered row, the same projection entries, the same Gaussian weights), the two programs' source and
target columns are the same functions of the edge list, and the mean is taken as a product with the reciprocal of the floored
count on one side and as a quotient by it on the other, which is one value on the extended reals. -/

/-- The unit, in the two forms the sides give it. -/
theorem unit_forms (v : EReal) : Cert.NodeSpec.unitOf v = if 0 < v then v else Ideal.exp v - 1 := by
  have h := congrFun (Cert.BridgeLaws.refElu8_eq_unitOf (fun _ => v)) (ix2 (0 : Fin 100000) (0 : Fin 8))
  rw [refElu8_apply] at h
  exact h.symm

theorem src_same (e : IVec ⟨2, ![2, 3200000]⟩ 32) : refSrc e = kerSrc e := rfl
theorem dst_same (e : IVec ⟨2, ![2, 3200000]⟩ 32) : refDst e = kerDst e := rfl

theorem layer1_eq (x : FVec Ideal ⟨2, ![100000, 3]⟩ .f32) (e : IVec ⟨2, ![2, 3200000]⟩ 32) (ea : FVec Ideal ⟨2, ![3200000, 3]⟩ .f32)
    (g : FVec Ideal ⟨2, ![3, 24]⟩ .f32) (mu sg : FVec Ideal ⟨2, ![3, 3]⟩ .f32) (root : FVec Ideal ⟨2, ![3, 8]⟩ .f32) (b : FVec Ideal ⟨1, ![8]⟩ .f32) :
    kerLayer1 x e ea g mu sg root b = refLayer1 x e ea g mu sg root b := by
  funext i
  obtain ⟨n, o, rfl⟩ : ∃ (n : Fin 100000) (o : Fin 8), i = ix2 n o := ⟨i 0, i 1, eq_ix2 i⟩
  rw [kerLayer1_apply, refLayer1_apply, ← unit_forms]
  refine congrArg Cert.NodeSpec.unitOf ?_
  rw [refPre1_apply, refAgg1_apply, refCnt_apply]
  simp only [refMsg1_apply, src_same, dst_same, Ideal.ofBits_one_f32]

end Cert.Proof.Bridge

end
-- ==== Proof.RefLayer2.lean ====
/-
  Layer 2 of the reference read at an index.

  At an edge e and an output column o the message is the zero the sum starts from plus, over the three mixture
  components k, the source row of e contracted with column k·16 + o of the stacked matrices, times the weight of
  component k at the edge's coordinates. At a node n the aggregate is the sum of the messages of the edges whose target is
  n; the layer before its unit is the aggregate divided by the count floored at one, plus the node's own row contracted
  with the root matrix, plus the bias; the unit sends v to v if v > 0 and to exp v − 1 otherwise.
-/
import Idealize.ShloMosaic.Lib.ValueIdx
import Idealize.ShloMosaic.Lib.IdealHost
import Idealize.ShloMosaic.PureOps.Ideal.Laws
import proofs.«144358_j6828998001340_2_alg».proof.ReferenceIdeal
import proofs.«144358_j6828998001340_2_alg».proof.Proof.RefLayer1Defs
import proofs.«144358_j6828998001340_2_alg».proof.Proof.RefLayer2Defs
import proofs.«144358_j6828998001340_2_alg».proof.Proof.RefLayer1
import proofs.«144358_j6828998001340_2_alg».proof.Proof.LibRank3Forms
import proofs.«144358_j6828998001340_2_alg».proof.Proof.LibHostRowForms
import proofs.«144358_j6828998001340_2_alg».proof.Proof.LibSegmentRows
import proofs.«144358_j6828998001340_2_alg».proof.Proof.LibPlainHostProduct
import proofs.«144358_j6828998001340_2_alg».proof.Proof.LibGaussForms

noncomputable section

open scoped BigOperators

namespace Cert.ReferenceIdeal.Hand

open Cert.ReferenceIdeal Cert.ReferenceIdeal.Facts₀ Idealize.ShloMosaic Idealize.ShloMosaic.ValueIdx
open Cert.Rank3Forms Cert.HostRowForms

variable [Facts₀]

/-! ## The edge side -/

/-- The gathered row of edge e is the node table's row at the edge's source. -/
theorem refGath2_apply (h : FVec Ideal S100000x8 .f32) (ei : IVec S2x3200000 32) (e : Fin 3200000) (c : Fin 8) :
    refGath2 h ei (ix2 e c) = h (ix2 (SegmentRows.rowOf (by decide) (refSrc ei) e) c) :=
  SegmentRows.gather_rows_apply gather_S100000x8_S3200000x1_S3200000x8_1_0_n_n_0_1_18_wf (refSrc ei) e c (by decide) h

/-- The projected row of edge e at column q: the source row contracted with column q. -/
theorem refProj2_apply (h : FVec Ideal S100000x8 .f32) (ei : IVec S2x3200000 32) (g : FVec Ideal S8x48 .f32)
    (e : Fin 3200000) (q : Fin 48) :
    refProj2 h ei g (ix2 e q) = ∑ c : Fin 8, h (ix2 (SegmentRows.rowOf (by decide) (refSrc ei) e) c) * g (ix2 c q) :=
  (Cert.PointConv.plainDotGeneral_apply dot_S3200000x8_S8x48_S3200000x48_1_0_0_1_n_n_wf none .single (refGath2 h ei) g e q).trans
    (Finset.sum_congr rfl fun c _ => congrArg (· * g (ix2 c q)) (refGath2_apply h ei e c))

/-- The message at (e, o) over the projected row and the weights, from the zero word. -/
theorem refMsg2_apply_proj (h : FVec Ideal S100000x8 .f32) (ei : IVec S2x3200000 32) (ea : FVec Ideal S3200000x3 .f32)
    (g : FVec Ideal S8x48 .f32) (mu sg : FVec Ideal S3x3 .f32) (e : Fin 3200000) (o : Fin 16) :
    refMsg2 h ei ea g mu sg (ix2 e o) = Ideal.ofBits .f32 0x00000000#32 + ∑ k : Fin 3,
      refProj2 h ei g (ix2 e (⟨k.val * 16 + o.val, split_lt rfl k o⟩ : Fin 48)) * refW ea mu sg (ix2 e k) :=
  (reduceAdd_axis1 _ (constant (F := Ideal) S_ .f32 0x00000000#32) reducesTo_S3200000x3x16_S3200000x16_d1 h_S_ e o).trans
    (congrArg (Ideal.ofBits .f32 0x00000000#32 + ·) (Finset.sum_congr rfl fun k _ =>
      (mulf_apply _ _ (ix3 e k o)).trans (congrArg₂ (· * ·)
        (reshape_am_abc_apply (refProj2 h ei g) shapeCasts_S3200000x48_S3200000x3x16 rfl e k o)
        ((bcast_ab1_abc_apply _ _ rfl rfl _ e k o).trans (bcast_ab_ab1_apply (refW ea mu sg) _ rfl rfl _ e k 0)))))

/-- The message at (e, o): from the zero word, the sum over the components of the contracted source row times the
    component's weight. -/
theorem refMsg2_apply (h : FVec Ideal S100000x8 .f32) (ei : IVec S2x3200000 32) (ea : FVec Ideal S3200000x3 .f32)
    (g : FVec Ideal S8x48 .f32) (mu sg : FVec Ideal S3x3 .f32) (e : Fin 3200000) (o : Fin 16) :
    refMsg2 h ei ea g mu sg (ix2 e o) = Ideal.ofBits .f32 0x00000000#32 + ∑ k : Fin 3,
      (∑ c : Fin 8, h (ix2 (SegmentRows.rowOf (by decide) (refSrc ei) e) c)
          * g (ix2 c (⟨k.val * 16 + o.val, split_lt rfl k o⟩ : Fin 48)))
        * Cert.GaussForms.weightOf (fun d => (ea (ix2 e d) - mu (ix2 k d)) * (ea (ix2 e d) - mu (ix2 k d)))
            (fun d => sg (ix2 k d)) :=
  (refMsg2_apply_proj h ei ea g mu sg e o).trans
    (congrArg (Ideal.ofBits .f32 0x00000000#32 + ·) (Finset.sum_congr rfl fun k _ =>
      congrArg₂ (· * ·) (refProj2_apply h ei g e _) (refW_eq_weightOf ea mu sg e k)))

/-- The same without the zero. -/
theorem refMsg2_apply' (h : FVec Ideal S100000x8 .f32) (ei : IVec S2x3200000 32) (ea : FVec Ideal S3200000x3 .f32)
    (g : FVec Ideal S8x48 .f32) (mu sg : FVec Ideal S3x3 .f32) (e : Fin 3200000) (o : Fin 16) :
    refMsg2 h ei ea g mu sg (ix2 e o) = ∑ k : Fin 3,
      (∑ c : Fin 8, h (ix2 (SegmentRows.rowOf (by decide) (refSrc ei) e) c)
          * g (ix2 c (⟨k.val * 16 + o.val, split_lt rfl k o⟩ : Fin 48)))
        * Cert.GaussForms.weightOf (fun d => (ea (ix2 e d) - mu (ix2 k d)) * (ea (ix2 e d) - mu (ix2 k d)))
            (fun d => sg (ix2 k d)) := by
  rw [refMsg2_apply, Ideal.ofBits_zero_f32, zero_add]

/-! ## The node side -/

/-- The aggregate, as the scatter-add of the messages into a zero table, over the dimension numbers of a row scatter. -/
theorem refAgg2_eq (h : FVec Ideal S100000x8 .f32) (ei : IVec S2x3200000 32) (ea : FVec Ideal S3200000x3 .f32)
    (g : FVec Ideal S8x48 .f32) (mu sg : FVec Ideal S3x3 .f32) :
    refAgg2 h ei ea g mu sg = Ideal.hostScatterAdd
      (SegmentRows.rowScatterDims 100000 3200000 16 scatter_S100000x16_S3200000x1_S3200000x16_1_0_0_1_wf)
      (broadcastInDim S100000x16 ![] bcast_S_S100000x16 (constant (F := Ideal) S_ .f32 0x00000000#32)) (refDst ei)
      (refMsg2 h ei ea g mu sg) := rfl

/-- The aggregate at (n, o): from the zero word, the messages of the edges whose target is n. -/
theorem refAgg2_apply (h : FVec Ideal S100000x8 .f32) (ei : IVec S2x3200000 32) (ea : FVec Ideal S3200000x3 .f32)
    (g : FVec Ideal S8x48 .f32) (mu sg : FVec Ideal S3x3 .f32) (n : Fin 100000) (o : Fin 16) :
    refAgg2 h ei ea g mu sg (ix2 n o) = Ideal.ofBits .f32 0x00000000#32 + ∑ e : Fin 3200000,
      if ((refDst ei) (ix2 e 0)).toInt = (n.val : Int) then refMsg2 h ei ea g mu sg (ix2 e o) else 0 :=
  (congrFun (refAgg2_eq h ei ea g mu sg) (ix2 n o)).trans
    ((SegmentRows.hostScatterAdd_rows_apply scatter_S100000x16_S3200000x1_S3200000x16_1_0_0_1_wf (refDst ei) o
      (broadcastInDim S100000x16 ![] bcast_S_S100000x16 (constant (F := Ideal) S_ .f32 0x00000000#32)) (refMsg2 h ei ea g mu sg) n).trans
      (congrArg (fun z => z + ∑ e : Fin 3200000,
          if ((refDst ei) (ix2 e 0)).toInt = (n.val : Int) then refMsg2 h ei ea g mu sg (ix2 e o) else 0)
        (bcast_scalar_apply (φ := .f32) 0x00000000#32 _ bcast_S_S100000x16 (ix2 n o))))

/-- The layer before its unit at (n, o). -/
theorem refPre2_apply (h : FVec Ideal S100000x8 .f32) (ei : IVec S2x3200000 32) (ea : FVec Ideal S3200000x3 .f32)
    (g : FVec Ideal S8x48 .f32) (mu sg : FVec Ideal S3x3 .f32) (root : FVec Ideal S8x16 .f32) (b : FVec Ideal S16 .f32)
    (n : Fin 100000) (o : Fin 16) :
    refPre2 h ei ea g mu sg root b (ix2 n o)
      = Ideal.div (refAgg2 h ei ea g mu sg (ix2 n o)) (max (refCnt ei (ix1 n)) 1)
        + (∑ c : Fin 8, h (ix2 n c) * root (ix2 c o)) + b (ix1 o) :=
  (addf_apply _ _ (ix2 n o)).trans (congrArg₂ (· + ·)
    ((addf_apply _ _ (ix2 n o)).trans (congrArg₂ (· + ·)
      ((hostDivf_apply _ _ (ix2 n o)).trans (congrArg (Ideal.div (refAgg2 h ei ea g mu sg (ix2 n o)))
        (((bcast_a1_ab_apply _ _ rfl _ n o).trans (bcast_a_a1_apply (refFloor ei) _ rfl _ n 0)).trans (refFloor_apply' ei n))))
      (Cert.PointConv.plainDotGeneral_apply dot_S100000x8_S8x16_S100000x16_1_0_0_1_n_n_wf none .single h root n o)))
    ((bcast_1b_ab_apply _ _ rfl _ n o).trans (bcast_b_1b_apply b _ rfl _ 0 o)))

/-! ## The unit -/

/-- The unit at an entry, as its operations give it. -/
theorem refElu16_apply_raw (x : FVec Ideal S100000x16 .f32) (i : S100000x16.Idx) :
    refElu16 x i = Scalar.select (Ideal.cmp .ogt (x i) (Ideal.ofBits .f32 0x00000000#32)) (x i)
      (Ideal.ofBits .f32 0x3F800000#32 * Ideal.expm1
        (Scalar.select (Ideal.cmp .ogt (x i) (Ideal.ofBits .f32 0x00000000#32)) (Ideal.ofBits .f32 0x00000000#32) (x i))) := by
  have hz : broadcastInDim S100000x16 ![] bcast_S_S100000x16 (constant (F := Ideal) S_ .f32 0x00000000#32) i
      = Ideal.ofBits .f32 0x00000000#32 := bcast_scalar_apply (φ := .f32) 0x00000000#32 _ bcast_S_S100000x16 i
  have hz' : broadcastInDim S100000x16 ![] bcast_S_S100000x16 (id (constant (F := Ideal) S_ .f32 0x00000000#32)) i
      = Ideal.ofBits .f32 0x00000000#32 := bcast_scalar_apply (φ := .f32) 0x00000000#32 _ bcast_S_S100000x16 i
  have ho : broadcastInDim S100000x16 ![] bcast_S_S100000x16 (constant (F := Ideal) S_ .f32 0x3F800000#32) i
      = Ideal.ofBits .f32 0x3F800000#32 := bcast_scalar_apply (φ := .f32) 0x3F800000#32 _ bcast_S_S100000x16 i
  unfold refElu16
  rw [select_apply, cmpfI_apply, mulf_apply, hostExpm1_apply, select_apply, cmpfI_apply, hz, hz', ho]

/-- The unit at an entry: v if v > 0, else exp v − 1. -/
theorem refElu16_apply (x : FVec Ideal S100000x16 .f32) (i : S100000x16.Idx) :
    refElu16 x i = if 0 < x i then x i else Ideal.exp (x i) - 1 := by
  rw [refElu16_apply_raw, Ideal.ofBits_zero_f32, Ideal.ofBits_one_f32]
  by_cases hv : 0 < x i
  · have hc : Ideal.cmp .ogt (x i) 0 = 1#1 := by simp [Ideal.cmp, hv]
    rw [hc, select_one, if_pos hv]
  · have hc : Ideal.cmp .ogt (x i) 0 = 0#1 := by simp [Ideal.cmp, hv]
    rw [hc, select_zero, select_zero, if_neg hv, one_mul]
    rfl

/-- Layer 2 at (n, o). -/
theorem refLayer2_apply (h : FVec Ideal S100000x8 .f32) (ei : IVec S2x3200000 32) (ea : FVec Ideal S3200000x3 .f32)
    (g : FVec Ideal S8x48 .f32) (mu sg : FVec Ideal S3x3 .f32) (root : FVec Ideal S8x16 .f32) (b : FVec Ideal S16 .f32)
    (n : Fin 100000) (o : Fin 16) :
    refLayer2 h ei ea g mu sg root b (ix2 n o)
      = if 0 < refPre2 h ei ea g mu sg root b (ix2 n o) then refPre2 h ei ea g mu sg root b (ix2 n o)
        else Ideal.exp (refPre2 h ei ea g mu sg root b (ix2 n o)) - 1 :=
  refElu16_apply (refPre2 h ei ea g mu sg root b) (ix2 n o)

end Cert.ReferenceIdeal.Hand

end
-- ==== Proof.BridgeLayer2.lean ====
import proofs.«144358_j6828998001340_2_alg».proof.Proof.BridgeLayer1
import proofs.«144358_j6828998001340_2_alg».proof.Proof.RefLayer2

set_option maxRecDepth 16384

noncomputable section

namespace Cert.Proof.Bridge

open Idealize.ShloMosaic Idealize.ShloMosaic.ValueIdx
open Cert.KernelIdeal.Hand Cert.ReferenceIdeal.Hand

/-! # Layer 2: the channel-major program's layer is the reference's

The same argument as for layer 1 at widths 8 → 16. -/

theorem layer2_eq (h : FVec Ideal ⟨2, ![100000, 8]⟩ .f32) (e : IVec ⟨2, ![2, 3200000]⟩ 32) (ea : FVec Ideal ⟨2, ![3200000, 3]⟩ .f32)
    (g : FVec Ideal ⟨2, ![8, 48]⟩ .f32) (mu sg : FVec Ideal ⟨2, ![3, 3]⟩ .f32) (root : FVec Ideal ⟨2, ![8, 16]⟩ .f32) (b : FVec Ideal ⟨1, ![16]⟩ .f32) :
    kerLayer2 h e ea g mu sg root b = refLayer2 h e ea g mu sg root b := by
  funext i
  obtain ⟨n, o, rfl⟩ : ∃ (n : Fin 100000) (o : Fin 16), i = ix2 n o := ⟨i 0, i 1, eq_ix2 i⟩
  rw [kerLayer2_apply, refLayer2_apply, ← unit_forms]
  refine congrArg Cert.NodeSpec.unitOf ?_
  rw [refPre2_apply, refAgg2_apply, refCnt_apply]
  simp only [refMsg2_apply, src_same, dst_same, Ideal.ofBits_one_f32]

end Cert.Proof.Bridge

end
-- ==== Proof.RefLayer3.lean ====
/-
  Layer 3 of the reference read at an index.

  At an edge e and an output column o the message is the zero the sum starts from plus, over the three mixture
  components k, the source row of e contracted with column k·8 + o of the stacked matrices, times the weight of
  component k at the edge's coordinates. At a node n the aggregate is the sum of the messages of the edges whose target is
  n; the layer before its unit is the aggregate divided by the count floored at one, plus the node's own row contracted
  with the root matrix, plus the bias; the unit sends v to v if v > 0 and to exp v − 1 otherwise.
-/
import Idealize.ShloMosaic.Lib.ValueIdx
import Idealize.ShloMosaic.Lib.IdealHost
import Idealize.ShloMosaic.PureOps.Ideal.Laws
import proofs.«144358_j6828998001340_2_alg».proof.ReferenceIdeal
import proofs.«144358_j6828998001340_2_alg».proof.Proof.RefLayer1Defs
import proofs.«144358_j6828998001340_2_alg».proof.Proof.RefLayer3Defs
import proofs.«144358_j6828998001340_2_alg».proof.Proof.RefLayer1
import proofs.«144358_j6828998001340_2_alg».proof.Proof.LibRank3Forms
import proofs.«144358_j6828998001340_2_alg».proof.Proof.LibHostRowForms
import proofs.«144358_j6828998001340_2_alg».proof.Proof.LibSegmentRows
import proofs.«144358_j6828998001340_2_alg».proof.Proof.LibPlainHostProduct
import proofs.«144358_j6828998001340_2_alg».proof.Proof.LibGaussForms

noncomputable section

open scoped BigOperators

namespace Cert.ReferenceIdeal.Hand

open Cert.ReferenceIdeal Cert.ReferenceIdeal.Facts₀ Idealize.ShloMosaic Idealize.ShloMosaic.ValueIdx
open Cert.Rank3Forms Cert.HostRowForms

variable [Facts₀]

/-! ## The edge side -/

/-- The gathered row of edge e is the node table's row at the edge's source. -/
theorem refGath3_apply (h : FVec Ideal S100000x16 .f32) (ei : IVec S2x3200000 32) (e : Fin 3200000) (c : Fin 16) :
    refGath3 h ei (ix2 e c) = h (ix2 (SegmentRows.rowOf (by decide) (refSrc ei) e) c) :=
  SegmentRows.gather_rows_apply gather_S100000x16_S3200000x1_S3200000x16_1_0_n_n_0_1_116_wf (refSrc ei) e c (by decide) h

/-- The projected row of edge e at column q: the source row contracted with column q. -/
theorem refProj3_apply (h : FVec Ideal S100000x16 .f32) (ei : IVec S2x3200000 32) (g : FVec Ideal S16x24 .f32)
    (e : Fin 3200000) (q : Fin 24) :
    refProj3 h ei g (ix2 e q) = ∑ c : Fin 16, h (ix2 (SegmentRows.rowOf (by decide) (refSrc ei) e) c) * g (ix2 c q) :=
  (Cert.PointConv.plainDotGeneral_apply dot_S3200000x16_S16x24_S3200000x24_1_0_0_1_n_n_wf none .single (refGath3 h ei) g e q).trans
    (Finset.sum_congr rfl fun c _ => congrArg (· * g (ix2 c q)) (refGath3_apply h ei e c))

/-- The message at (e, o) over the projected row and the weights, from the zero word. -/
theorem refMsg3_apply_proj (h : FVec Ideal S100000x16 .f32) (ei : IVec S2x3200000 32) (ea : FVec Ideal S3200000x3 .f32)
    (g : FVec Ideal S16x24 .f32) (mu sg : FVec Ideal S3x3 .f32) (e : Fin 3200000) (o : Fin 8) :
    refMsg3 h ei ea g mu sg (ix2 e o) = Ideal.ofBits .f32 0x00000000#32 + ∑ k : Fin 3,
      refProj3 h ei g (ix2 e (⟨k.val * 8 + o.val, split_lt rfl k o⟩ : Fin 24)) * refW ea mu sg (ix2 e k) :=
  (reduceAdd_axis1 _ (constant (F := Ideal) S_ .f32 0x00000000#32) reducesTo_S3200000x3x8_S3200000x8_d1 h_S_ e o).trans
    (congrArg (Ideal.ofBits .f32 0x00000000#32 + ·) (Finset.sum_congr rfl fun k _ =>
      (mulf_apply _ _ (ix3 e k o)).trans (congrArg₂ (· * ·)
        (reshape_am_abc_apply (refProj3 h ei g) shapeCasts_S3200000x24_S3200000x3x8 rfl e k o)
        ((bcast_ab1_abc_apply _ _ rfl rfl _ e k o).trans (bcast_ab_ab1_apply (refW ea mu sg) _ rfl rfl _ e k 0)))))

/-- The message at (e, o): from the zero word, the sum over the components of the contracted source row times the
    component's weight. -/
theorem refMsg3_apply (h : FVec Ideal S100000x16 .f32) (ei : IVec S2x3200000 32) (ea : FVec Ideal S3200000x3 .f32)
    (g : FVec Ideal S16x24 .f32) (mu sg : FVec Ideal S3x3 .f32) (e : Fin 3200000) (o : Fin 8) :
    refMsg3 h ei ea g mu sg (ix2 e o) = Ideal.ofBits .f32 0x00000000#32 + ∑ k : Fin 3,
      (∑ c : Fin 16, h (ix2 (SegmentRows.rowOf (by decide) (refSrc ei) e) c)
          * g (ix2 c (⟨k.val * 8 + o.val, split_lt rfl k o⟩ : Fin 24)))
        * Cert.GaussForms.weightOf (fun d => (ea (ix2 e d) - mu (ix2 k d)) * (ea (ix2 e d) - mu (ix2 k d)))
            (fun d => sg (ix2 k d)) :=
  (refMsg3_apply_proj h ei ea g mu sg e o).trans
    (congrArg (Ideal.ofBits .f32 0x00000000#32 + ·) (Finset.sum_congr rfl fun k _ =>
      congrArg₂ (· * ·) (refProj3_apply h ei g e _) (refW_eq_weightOf ea mu sg e k)))

/-- The same without the zero. -/
theorem refMsg3_apply' (h : FVec Ideal S100000x16 .f32) (ei : IVec S2x3200000 32) (ea : FVec Ideal S3200000x3 .f32)
    (g : FVec Ideal S16x24 .f32) (mu sg : FVec Ideal S3x3 .f32) (e : Fin 3200000) (o : Fin 8) :
    refMsg3 h ei ea g mu sg (ix2 e o) = ∑ k : Fin 3,
      (∑ c : Fin 16, h (ix2 (SegmentRows.rowOf (by decide) (refSrc ei) e) c)
          * g (ix2 c (⟨k.val * 8 + o.val, split_lt rfl k o⟩ : Fin 24)))
        * Cert.GaussForms.weightOf (fun d => (ea (ix2 e d) - mu (ix2 k d)) * (ea (ix2 e d) - mu (ix2 k d)))
            (fun d => sg (ix2 k d)) := by
  rw [refMsg3_apply, Ideal.ofBits_zero_f32, zero_add]

/-! ## The node side -/

/-- The aggregate, as the scatter-add of the messages into a zero table, over the dimension numbers of a row scatter. -/
theorem refAgg3_eq (h : FVec Ideal S100000x16 .f32) (ei : IVec S2x3200000 32) (ea : FVec Ideal S3200000x3 .f32)
    (g : FVec Ideal S16x24 .f32) (mu sg : FVec Ideal S3x3 .f32) :
    refAgg3 h ei ea g mu sg = Ideal.hostScatterAdd
      (SegmentRows.rowScatterDims 100000 3200000 8 scatter_S100000x8_S3200000x1_S3200000x8_1_0_0_1_wf)
      (broadcastInDim S100000x8 ![] bcast_S_S100000x8 (constant (F := Ideal) S_ .f32 0x00000000#32)) (refDst ei)
      (refMsg3 h ei ea g mu sg) := rfl

/-- The aggregate at (n, o): from the zero word, the messages of the edges whose target is n. -/
theorem refAgg3_apply (h : FVec Ideal S100000x16 .f32) (ei : IVec S2x3200000 32) (ea : FVec Ideal S3200000x3 .f32)
    (g : FVec Ideal S16x24 .f32) (mu sg : FVec Ideal S3x3 .f32) (n : Fin 100000) (o : Fin 8) :
    refAgg3 h ei ea g mu sg (ix2 n o) = Ideal.ofBits .f32 0x00000000#32 + ∑ e : Fin 3200000,
      if ((refDst ei) (ix2 e 0)).toInt = (n.val : Int) then refMsg3 h ei ea g mu sg (ix2 e o) else 0 :=
  (congrFun (refAgg3_eq h ei ea g mu sg) (ix2 n o)).trans
    ((SegmentRows.hostScatterAdd_rows_apply scatter_S100000x8_S3200000x1_S3200000x8_1_0_0_1_wf (refDst ei) o
      (broadcastInDim S100000x8 ![] bcast_S_S100000x8 (constant (F := Ideal) S_ .f32 0x00000000#32)) (refMsg3 h ei ea g mu sg) n).trans
      (congrArg (fun z => z + ∑ e : Fin 3200000,
          if ((refDst ei) (ix2 e 0)).toInt = (n.val : Int) then refMsg3 h ei ea g mu sg (ix2 e o) else 0)
        (bcast_scalar_apply (φ := .f32) 0x00000000#32 _ bcast_S_S100000x8 (ix2 n o))))

/-- The layer before its unit at (n, o). -/
theorem refPre3_apply (h : FVec Ideal S100000x16 .f32) (ei : IVec S2x3200000 32) (ea : FVec Ideal S3200000x3 .f32)
    (g : FVec Ideal S16x24 .f32) (mu sg : FVec Ideal S3x3 .f32) (root : FVec Ideal S16x8 .f32) (b : FVec Ideal S8 .f32)
    (n : Fin 100000) (o : Fin 8) :
    refPre3 h ei ea g mu sg root b (ix2 n o)
      = Ideal.div (refAgg3 h ei ea g mu sg (ix2 n o)) (max (refCnt ei (ix1 n)) 1)
        + (∑ c : Fin 16, h (ix2 n c) * root (ix2 c o)) + b (ix1 o) :=
  (addf_apply _ _ (ix2 n o)).trans (congrArg₂ (· + ·)
    ((addf_apply _ _ (ix2 n o)).trans (congrArg₂ (· + ·)
      ((hostDivf_apply _ _ (ix2 n o)).trans (congrArg (Ideal.div (refAgg3 h ei ea g mu sg (ix2 n o)))
        (((bcast_a1_ab_apply _ _ rfl _ n o).trans (bcast_a_a1_apply (refFloor ei) _ rfl _ n 0)).trans (refFloor_apply' ei n))))
      (Cert.PointConv.plainDotGeneral_apply dot_S100000x16_S16x8_S100000x8_1_0_0_1_n_n_wf none .single h root n o)))
    ((bcast_1b_ab_apply _ _ rfl _ n o).trans (bcast_b_1b_apply b _ rfl _ 0 o)))

/-- Layer 3 at (n, o). -/
theorem refLayer3_apply (h : FVec Ideal S100000x16 .f32) (ei : IVec S2x3200000 32) (ea : FVec Ideal S3200000x3 .f32)
    (g : FVec Ideal S16x24 .f32) (mu sg : FVec Ideal S3x3 .f32) (root : FVec Ideal S16x8 .f32) (b : FVec Ideal S8 .f32)
    (n : Fin 100000) (o : Fin 8) :
    refLayer3 h ei ea g mu sg root b (ix2 n o)
      = if 0 < refPre3 h ei ea g mu sg root b (ix2 n o) then refPre3 h ei ea g mu sg root b (ix2 n o)
        else Ideal.exp (refPre3 h ei ea g mu sg root b (ix2 n o)) - 1 :=
  refElu8_apply (refPre3 h ei ea g mu sg root b) (ix2 n o)

end Cert.ReferenceIdeal.Hand

end
-- ==== Proof.BridgeLayer3.lean ====
import proofs.«144358_j6828998001340_2_alg».proof.Proof.BridgeLayer1
import proofs.«144358_j6828998001340_2_alg».proof.Proof.RefLayer3

set_option maxRecDepth 16384

noncomputable section

namespace Cert.Proof.Bridge

open Idealize.ShloMosaic Idealize.ShloMosaic.ValueIdx
open Cert.KernelIdeal.Hand Cert.ReferenceIdeal.Hand

/-! # Layer 3: the channel-major program's layer is the reference's

The same argument as for layer 1 at widths 16 → 8. -/

theorem layer3_eq (h : FVec Ideal ⟨2, ![100000, 16]⟩ .f32) (e : IVec ⟨2, ![2, 3200000]⟩ 32) (ea : FVec Ideal ⟨2, ![3200000, 3]⟩ .f32)
    (g : FVec Ideal ⟨2, ![16, 24]⟩ .f32) (mu sg : FVec Ideal ⟨2, ![3, 3]⟩ .f32) (root : FVec Ideal ⟨2, ![16, 8]⟩ .f32) (b : FVec Ideal ⟨1, ![8]⟩ .f32) :
    kerLayer3 h e ea g mu sg root b = refLayer3 h e ea g mu sg root b := by
  funext i
  obtain ⟨n, o, rfl⟩ : ∃ (n : Fin 100000) (o : Fin 8), i = ix2 n o := ⟨i 0, i 1, eq_ix2 i⟩
  rw [kerLayer3_apply, refLayer3_apply, ← unit_forms]
  refine congrArg Cert.NodeSpec.unitOf ?_
  rw [refPre3_apply, refAgg3_apply, refCnt_apply]
  simp only [refMsg3_apply, src_same, dst_same, Ideal.ofBits_one_f32]

end Cert.Proof.Bridge

end
-- ==== Proof.RefLayer4.lean ====
/-
  Layer 4 of the reference read at an index.

  At an edge e and an output column o the message is the zero the sum starts from plus, over the three mixture
  components k, the source row of e contracted with column k·4 + o of the stacked matrices, times the weight of
  component k at the edge's coordinates. At a node n the aggregate is the sum of the messages of the edges whose target is
  n; the layer before its unit is the aggregate divided by the count floored at one, plus the node's own row contracted
  with the root matrix, plus the bias; this layer has no unit.
-/
import Idealize.ShloMosaic.Lib.ValueIdx
import Idealize.ShloMosaic.Lib.IdealHost
import Idealize.ShloMosaic.PureOps.Ideal.Laws
import proofs.«144358_j6828998001340_2_alg».proof.ReferenceIdeal
import proofs.«144358_j6828998001340_2_alg».proof.Proof.RefLayer1Defs
import proofs.«144358_j6828998001340_2_alg».proof.Proof.RefLayer4Defs
import proofs.«144358_j6828998001340_2_alg».proof.Proof.RefLayer1
import proofs.«144358_j6828998001340_2_alg».proof.Proof.LibRank3Forms
import proofs.«144358_j6828998001340_2_alg».proof.Proof.LibHostRowForms
import proofs.«144358_j6828998001340_2_alg».proof.Proof.LibSegmentRows
import proofs.«144358_j6828998001340_2_alg».proof.Proof.LibPlainHostProduct
import proofs.«144358_j6828998001340_2_alg».proof.Proof.LibGaussForms

noncomputable section

open scoped BigOperators

namespace Cert.ReferenceIdeal.Hand

open Cert.ReferenceIdeal Cert.ReferenceIdeal.Facts₀ Idealize.ShloMosaic Idealize.ShloMosaic.ValueIdx
open Cert.Rank3Forms Cert.HostRowForms

variable [Facts₀]

/-! ## The edge side -/

/-- The gathered row of edge e is the node table's row at the edge's source. -/
theorem refGath4_apply (h : FVec Ideal S100000x8 .f32) (ei : IVec S2x3200000 32) (e : Fin 3200000) (c : Fin 8) :
    refGath4 h ei (ix2 e c) = h (ix2 (SegmentRows.rowOf (by decide) (refSrc ei) e) c) :=
  SegmentRows.gather_rows_apply gather_S100000x8_S3200000x1_S3200000x8_1_0_n_n_0_1_18_wf (refSrc ei) e c (by decide) h

/-- The projected row of edge e at column q: the source row contracted with column q. -/
theorem refProj4_apply (h : FVec Ideal S100000x8 .f32) (ei : IVec S2x3200000 32) (g : FVec Ideal S8x12 .f32)
    (e : Fin 3200000) (q : Fin 12) :
    refProj4 h ei g (ix2 e q) = ∑ c : Fin 8, h (ix2 (SegmentRows.rowOf (by decide) (refSrc ei) e) c) * g (ix2 c q) :=
  (Cert.PointConv.plainDotGeneral_apply dot_S3200000x8_S8x12_S3200000x12_1_0_0_1_n_n_wf none .single (refGath4 h ei) g e q).trans
    (Finset.sum_congr rfl fun c _ => congrArg (· * g (ix2 c q)) (refGath4_apply h ei e c))

/-- The message at (e, o) over the projected row and the weights, from the zero word. -/
theorem refMsg4_apply_proj (h : FVec Ideal S100000x8 .f32) (ei : IVec S2x3200000 32) (ea : FVec Ideal S3200000x3 .f32)
    (g : FVec Ideal S8x12 .f32) (mu sg : FVec Ideal S3x3 .f32) (e : Fin 3200000) (o : Fin 4) :
    refMsg4 h ei ea g mu sg (ix2 e o) = Ideal.ofBits .f32 0x00000000#32 + ∑ k : Fin 3,
      refProj4 h ei g (ix2 e (⟨k.val * 4 + o.val, split_lt rfl k o⟩ : Fin 12)) * refW ea mu sg (ix2 e k) :=
  (reduceAdd_axis1 _ (constant (F := Ideal) S_ .f32 0x00000000#32) reducesTo_S3200000x3x4_S3200000x4_d1 h_S_ e o).trans
    (congrArg (Ideal.ofBits .f32 0x00000000#32 + ·) (Finset.sum_congr rfl fun k _ =>
      (mulf_apply _ _ (ix3 e k o)).trans (congrArg₂ (· * ·)
        (reshape_am_abc_apply (refProj4 h ei g) shapeCasts_S3200000x12_S3200000x3x4 rfl e k o)
        ((bcast_ab1_abc_apply _ _ rfl rfl _ e k o).trans (bcast_ab_ab1_apply (refW ea mu sg) _ rfl rfl _ e k 0)))))

/-- The message at (e, o): from the zero word, the sum over the components of the contracted source row times the
    component's weight. -/
theorem refMsg4_apply (h : FVec Ideal S100000x8 .f32) (ei : IVec S2x3200000 32) (ea : FVec Ideal S3200000x3 .f32)
    (g : FVec Ideal S8x12 .f32) (mu sg : FVec Ideal S3x3 .f32) (e : Fin 3200000) (o : Fin 4) :
    refMsg4 h ei ea g mu sg (ix2 e o) = Ideal.ofBits .f32 0x00000000#32 + ∑ k : Fin 3,
      (∑ c : Fin 8, h (ix2 (SegmentRows.rowOf (by decide) (refSrc ei) e) c)
          * g (ix2 c (⟨k.val * 4 + o.val, split_lt rfl k o⟩ : Fin 12)))
        * Cert.GaussForms.weightOf (fun d => (ea (ix2 e d) - mu (ix2 k d)) * (ea (ix2 e d) - mu (ix2 k d)))
            (fun d => sg (ix2 k d)) :=
  (refMsg4_apply_proj h ei ea g mu sg e o).trans
    (congrArg (Ideal.ofBits .f32 0x00000000#32 + ·) (Finset.sum_congr rfl fun k _ =>
      congrArg₂ (· * ·) (refProj4_apply h ei g e _) (refW_eq_weightOf ea mu sg e k)))

/-- The same without the zero. -/
theorem refMsg4_apply' (h : FVec Ideal S100000x8 .f32) (ei : IVec S2x3200000 32) (ea : FVec Ideal S3200000x3 .f32)
    (g : FVec Ideal S8x12 .f32) (mu sg : FVec Ideal S3x3 .f32) (e : Fin 3200000) (o : Fin 4) :
    refMsg4 h ei ea g mu sg (ix2 e o) = ∑ k : Fin 3,
      (∑ c : Fin 8, h (ix2 (SegmentRows.rowOf (by decide) (refSrc ei) e) c)
          * g (ix2 c (⟨k.val * 4 + o.val, split_lt rfl k o⟩ : Fin 12)))
        * Cert.GaussForms.weightOf (fun d => (ea (ix2 e d) - mu (ix2 k d)) * (ea (ix2 e d) - mu (ix2 k d)))
            (fun d => sg (ix2 k d)) := by
  rw [refMsg4_apply, Ideal.ofBits_zero_f32, zero_add]

/-! ## The node side -/

/-- The aggregate, as the scatter-add of the messages into a zero table, over the dimension numbers of a row scatter. -/
theorem refAgg4_eq (h : FVec Ideal S100000x8 .f32) (ei : IVec S2x3200000 32) (ea : FVec Ideal S3200000x3 .f32)
    (g : FVec Ideal S8x12 .f32) (mu sg : FVec Ideal S3x3 .f32) :
    refAgg4 h ei ea g mu sg = Ideal.hostScatterAdd
      (SegmentRows.rowScatterDims 100000 3200000 4 scatter_S100000x4_S3200000x1_S3200000x4_1_0_0_1_wf)
      (broadcastInDim S100000x4 ![] bcast_S_S100000x4 (constant (F := Ideal) S_ .f32 0x00000000#32)) (refDst ei)
      (refMsg4 h ei ea g mu sg) := rfl

/-- The aggregate at (n, o): from the zero word, the messages of the edges whose target is n. -/
theorem refAgg4_apply (h : FVec Ideal S100000x8 .f32) (ei : IVec S2x3200000 32) (ea : FVec Ideal S3200000x3 .f32)
    (g : FVec Ideal S8x12 .f32) (mu sg : FVec Ideal S3x3 .f32) (n : Fin 100000) (o : Fin 4) :
    refAgg4 h ei ea g mu sg (ix2 n o) = Ideal.ofBits .f32 0x00000000#32 + ∑ e : Fin 3200000,
      if ((refDst ei) (ix2 e 0)).toInt = (n.val : Int) then refMsg4 h ei ea g mu sg (ix2 e o) else 0 :=
  (congrFun (refAgg4_eq h ei ea g mu sg) (ix2 n o)).trans
    ((SegmentRows.hostScatterAdd_rows_apply scatter_S100000x4_S3200000x1_S3200000x4_1_0_0_1_wf (refDst ei) o
      (broadcastInDim S100000x4 ![] bcast_S_S100000x4 (constant (F := Ideal) S_ .f32 0x00000000#32)) (refMsg4 h ei ea g mu sg) n).trans
      (congrArg (fun z => z + ∑ e : Fin 3200000,
          if ((refDst ei) (ix2 e 0)).toInt = (n.val : Int) then refMsg4 h ei ea g mu sg (ix2 e o) else 0)
        (bcast_scalar_apply (φ := .f32) 0x00000000#32 _ bcast_S_S100000x4 (ix2 n o))))

/-- The layer before its unit at (n, o). -/
theorem refPre4_apply (h : FVec Ideal S100000x8 .f32) (ei : IVec S2x3200000 32) (ea : FVec Ideal S3200000x3 .f32)
    (g : FVec Ideal S8x12 .f32) (mu sg : FVec Ideal S3x3 .f32) (root : FVec Ideal S8x4 .f32) (b : FVec Ideal S4 .f32)
    (n : Fin 100000) (o : Fin 4) :
    refPre4 h ei ea g mu sg root b (ix2 n o)
      = Ideal.div (refAgg4 h ei ea g mu sg (ix2 n o)) (max (refCnt ei (ix1 n)) 1)
        + (∑ c : Fin 8, h (ix2 n c) * root (ix2 c o)) + b (ix1 o) :=
  (addf_apply _ _ (ix2 n o)).trans (congrArg₂ (· + ·)
    ((addf_apply _ _ (ix2 n o)).trans (congrArg₂ (· + ·)
      ((hostDivf_apply _ _ (ix2 n o)).trans (congrArg (Ideal.div (refAgg4 h ei ea g mu sg (ix2 n o)))
        (((bcast_a1_ab_apply _ _ rfl _ n o).trans (bcast_a_a1_apply (refFloor ei) _ rfl _ n 0)).trans (refFloor_apply' ei n))))
      (Cert.PointConv.plainDotGeneral_apply dot_S100000x8_S8x4_S100000x4_1_0_0_1_n_n_wf none .single h root n o)))
    ((bcast_1b_ab_apply _ _ rfl _ n o).trans (bcast_b_1b_apply b _ rfl _ 0 o)))

/-- Layer 4 at (n, o): it has no unit. -/
theorem refLayer4_apply (h : FVec Ideal S100000x8 .f32) (ei : IVec S2x3200000 32) (ea : FVec Ideal S3200000x3 .f32)
    (g : FVec Ideal S8x12 .f32) (mu sg : FVec Ideal S3x3 .f32) (root : FVec Ideal S8x4 .f32) (b : FVec Ideal S4 .f32)
    (n : Fin 100000) (o : Fin 4) :
    refLayer4 h ei ea g mu sg root b (ix2 n o)
      = Ideal.div (refAgg4 h ei ea g mu sg (ix2 n o)) (max (refCnt ei (ix1 n)) 1)
        + (∑ c : Fin 8, h (ix2 n c) * root (ix2 c o)) + b (ix1 o) :=
  refPre4_apply h ei ea g mu sg root b n o

end Cert.ReferenceIdeal.Hand

end
-- ==== Proof.BridgeLayer4.lean ====
import proofs.«144358_j6828998001340_2_alg».proof.Proof.BridgeLayer1
import proofs.«144358_j6828998001340_2_alg».proof.Proof.RefLayer4

set_option maxRecDepth 16384

noncomputable section

namespace Cert.Proof.Bridge

open Idealize.ShloMosaic Idealize.ShloMosaic.ValueIdx
open Cert.KernelIdeal.Hand Cert.ReferenceIdeal.Hand

/-! # Layer 4: the channel-major program's layer is the reference's

The same argument as for layer 1 at widths 8 → 4; the last layer has no unit. -/

theorem layer4_eq (h : FVec Ideal ⟨2, ![100000, 8]⟩ .f32) (e : IVec ⟨2, ![2, 3200000]⟩ 32) (ea : FVec Ideal ⟨2, ![3200000, 3]⟩ .f32)
    (g : FVec Ideal ⟨2, ![8, 12]⟩ .f32) (mu sg : FVec Ideal ⟨2, ![3, 3]⟩ .f32) (root : FVec Ideal ⟨2, ![8, 4]⟩ .f32) (b : FVec Ideal ⟨1, ![4]⟩ .f32) :
    kerLayer4 h e ea g mu sg root b = refLayer4 h e ea g mu sg root b := by
  funext i
  obtain ⟨n, o, rfl⟩ : ∃ (n : Fin 100000) (o : Fin 4), i = ix2 n o := ⟨i 0, i 1, eq_ix2 i⟩
  rw [kerLayer4_apply, refLayer4_apply, refAgg4_apply, refCnt_apply]
  simp only [refMsg4_apply, src_same, dst_same, Ideal.ofBits_one_f32]

end Cert.Proof.Bridge

end
-- ==== Proof.lean ====
/- The proof of `Cert.Claim`: the three frames, the (empty) idealization ledger, and the equality of the idealized kernel's and
   the idealized reference's results as extended reals.

   The kernel program is a four-layer Gaussian-mixture graph convolution computed channel-major: per layer a gather of the
   source features [c, E], one region over blocks of 25600 edges forming each edge's message (projection by the matrix unit,
   three Gaussian weights from the edge coordinates, their weighted sum), one segment sum per output channel stacked to
   [N, c], and one region over blocks of 4000 nodes forming (summed messages x reciprocal in-degree) + features x root + bias,
   passed through the exponential linear unit (not in the last layer). The reference computes the same row-major: a row
   gather, one product [E, c] x [c, 3c'], the weights from a rank-3 difference array, the weighted sum over the three
   components, one row segment sum, a quotient by the floored in-degree, the root product, the bias and the unit.

   Frames: each program's @main is run as sixteen segments (eight stretches of host operations, eight regions); a region's
   body is run on its staging buffers, its output buffer ends at the body's one store, and the argument arrays are written by
   no host operation and are no region's output. The reference is one line of host operations.
   Values: every region's output array is one function of the arrays the region finds (the blocks tile the arrays), so the
   result array is the composition of four layer functions of the arguments; entry by entry a layer function of the kernel
   program equals the reference's: the messages agree term by term (commutativity of the product under the channel sum, the
   sum over the three components taken in order from the zero word), the segment sums run over the same edges, and
   a · (1 / max(n, 1)) = a / max(n, 1) for every extended real a and count n; exp v − 1 is the reference's expm1. No law used
   needs the inputs to be finite, so the precondition is not opened. -/
import proofs.«144358_j6828998001340_2_alg».proof.Defs
import proofs.«144358_j6828998001340_2_alg».proof.Proof.Gen.Kernel
import proofs.«144358_j6828998001340_2_alg».proof.Proof.Gen.KernelIdeal
import proofs.«144358_j6828998001340_2_alg».proof.Proof.Gen.ReferenceIdeal
import proofs.«144358_j6828998001340_2_alg».proof.Proof.Gen.Pre_finite_inputs
import proofs.«144358_j6828998001340_2_alg».proof.Proof.RunB
import proofs.«144358_j6828998001340_2_alg».proof.Proof.KerRunI
import proofs.«144358_j6828998001340_2_alg».proof.Proof.RefValue
import proofs.«144358_j6828998001340_2_alg».proof.Proof.BridgeLayer2
import proofs.«144358_j6828998001340_2_alg».proof.Proof.BridgeLayer3
import proofs.«144358_j6828998001340_2_alg».proof.Proof.BridgeLayer4

set_option maxRecDepth 16384

noncomputable section

namespace Cert.Proof

open Idealize.ShloMosaic Idealize.SL.Sem
open Cert.KernelIdeal.Hand Cert.ReferenceIdeal.Hand Cert.Proof.Bridge

theorem frame_K : Cert.frame_Kernel := fun m ρ _ => Cert.Kernel.Hand.frame m ρ
theorem frame_KI : Cert.frame_KernelIdeal := fun m ρ _ => Cert.KernelIdeal.Hand.frame m ρ
theorem frame_R : Cert.frame_ReferenceIdeal := fun m ρ _ => Cert.ReferenceIdeal.Hand.frame m ρ

/-- The ideal pass rewrote nothing. -/
theorem preserves : Cert.preserves_Kernel_KernelIdeal := trivial

/-- The kernel program's result, the composition of its four layers, is the reference's. -/
theorem algebraic : Cert.algebraic_KernelIdeal_ReferenceIdeal := by
  intro m ρ m' ρ' _ hagree
  refine ⟨fun c => kOut4 m c, ker_run m ρ, ?_⟩
  refine (θ_run _ _ _).mono (fun r h c => ?_) (ref_run m' ρ')
  obtain ⟨hv, h0, h1, h2, h3, h4, h5, h6, h7, h8, h9, h10, h11, h12, h13, h14, h15, h16, h17, h18, h19, h20, h21, h22⟩ := h c
  obtain ⟨e0, e1, e2, e3, e4, e5, e6, e7, e8, e9, e10, e11, e12, e13, e14, e15, e16, e17, e18, e19, e20, e21, e22⟩ := hagree c
  refine ⟨?_, h0, h1, h2, h3, h4, h5, h6, h7, h8, h9, h10, h11, h12, h13, h14, h15, h16, h17, h18, h19, h20, h21, h22⟩
  rw [hv, e0, e1, e2, e3, e4, e5, e6, e7, e8, e9, e10, e11, e12, e13, e14, e15, e16, e17, e18, e19, e20, e21, e22]
  show _ = kOut4 m c
  unfold kOut4 kOut3 kOut2 kOut1
  rw [layer1_eq, layer2_eq, layer3_eq, layer4_eq]

theorem claim : Cert.Claim := ⟨Cert.Kernel.Gen.facts, Cert.KernelIdeal.Gen.facts, Cert.ReferenceIdeal.Gen.facts, Cert.Pre_finite_inputs.Gen.facts,
  frame_K, frame_KI, frame_R, preserves, algebraic⟩

end Cert.Proof

end
